-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v150) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S64x128 .f32) (main_arg14 : FVec F S64 .f32) (main_arg15 : FVec F S2x64 .f32) (main_arg16 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg16 main_v63 main_v67

def fn_part2 {F : FTy → Type} [FloatOps F] (main_arg9 : FVec F S64x128 .f32) (main_arg10 : FVec F S64 .f32) (main_arg11 : FVec F S2x64 .f32) (main_arg12 : FVec F S2 .f32) (main_arg13 : FVec F S64x128 .f32) (main_arg14 : FVec F S64 .f32) (main_arg15 : FVec F S2x64 .f32) (main_arg16 : FVec F S2 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_arg13 main_arg14 main_arg15 main_arg16 main_v48 main_v49 main_v50

def fn_part1 {F : FTy → Type} [FloatOps F] (main_arg6 : FVec F S3x128 .f32) (main_arg7 : FVec F S3x128 .f32) (main_arg8 : FVec F S3x128 .f32) (main_arg9 : FVec F S64x128 .f32) (main_arg10 : FVec F S64 .f32) (main_arg11 : FVec F S2x64 .f32) (main_arg12 : FVec F S2 .f32) (main_arg13 : FVec F S64x128 .f32) (main_arg14 : FVec F S64 .f32) (main_arg15 : FVec F S2x64 .f32) (main_arg16 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S64x128 .f32) (main_arg10 : FVec F S64 .f32) (main_arg11 : FVec F S2x64 .f32) (main_arg12 : FVec F S2 .f32) (main_arg13 : FVec F S64x128 .f32) (main_arg14 : FVec F S64 .f32) (main_arg15 : FVec F S2x64 .f32) (main_arg16 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S128x64 : Shape := ⟨2, ![128, 64]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000x64 : Shape := ⟨2, ![5000, 64]⟩
abbrev S100000x1 : Shape := ⟨2, ![100000, 1]⟩
abbrev S64x1 : Shape := ⟨2, ![64, 1]⟩
abbrev S64x64 : Shape := ⟨2, ![64, 64]⟩

abbrev nBuf : Space → Nat
  | .hbm => 191
  | .vmem => 56
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S64x128, .f32⟩
  | 10 => ⟨S64, .f32⟩
  | 11 => ⟨S2x64, .f32⟩
  | 12 => ⟨S2, .f32⟩
  | 13 => ⟨S64x128, .f32⟩
  | 14 => ⟨S64, .f32⟩
  | 15 => ⟨S2x64, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1x128x128, .f32⟩
  | 58 => ⟨S128x128, .f32⟩
  | 59 => ⟨S128x128, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S100000x128, .f32⟩
  | 93 => ⟨S1x128x128, .f32⟩
  | 94 => ⟨S128x128, .f32⟩
  | 95 => ⟨S128x128, .f32⟩
  | 96 => ⟨S100000x128, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S1x128x128, .f32⟩
  | 2 => ⟨S128x128, .f32⟩
  | 3 => ⟨S128x128, .f32⟩
  | 4 => ⟨S100000x128, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x128, .f32⟩
  | 14 => ⟨S1700000x1, .f32⟩
  | 15 => ⟨S1700000x128, .f32⟩
  | 16 => ⟨S1700000x128, .f32⟩
  | 17 => ⟨S_, .f32⟩
  | 18 => ⟨S100000x128, .f32⟩
  | 19 => ⟨S1700000x1, .i32⟩
  | 20 => ⟨S100000x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S128, .f32⟩
  | 35 => ⟨S1x128, .f32⟩
  | 36 => ⟨S100000x128, .f32⟩
  | 37 => ⟨S128x64, .f32⟩
  | 38 => ⟨S64x2, .f32⟩
  | 39 => ⟨S1x64, .f32⟩
  | 40 => ⟨S1x2, .f32⟩
  | 41 => ⟨S100000x2, .f32⟩
  | 42 => ⟨S_, .f32⟩
  | 43 => ⟨S100000, .f32⟩
  | 44 => ⟨S_, .f32⟩
  | 45 => ⟨S64, .f32⟩
  | 46 => ⟨S100000x1, .i32⟩
  | 47 => ⟨S64, .f32⟩
  | 48 => ⟨S_, .f32⟩
  | 49 => ⟨S64x128, .f32⟩
  | 50 => ⟨S100000x1, .i32⟩
  | 51 => ⟨S64x128, .f32⟩
  | 52 => ⟨S_, .f32⟩
  | 53 => ⟨S64, .f32⟩
  | 54 => ⟨S64, .f32⟩
  | 55 => ⟨S64x1, .f32⟩
  | 56 => ⟨S64x128, .f32⟩
  | 57 => ⟨S64x128, .f32⟩
  | 58 => ⟨S128x64, .f32⟩
  | 59 => ⟨S64x2, .f32⟩
  | 60 => ⟨S1x64, .f32⟩
  | 61 => ⟨S1x2, .f32⟩
  | 62 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S1x64, .f32⟩
  | .local _ .vmem, ⟨46, _⟩ => ⟨S64x2, .f32⟩
  | .local _ .vmem, ⟨47, _⟩ => ⟨S1x2, .f32⟩
  | .local _ .vmem, ⟨48, _⟩ => ⟨S5000x2, .f32⟩
  | .local _ .vmem, ⟨49, _⟩ => ⟨S5000x2, .f32⟩
  | .local _ .vmem, ⟨50, _⟩ => ⟨S64x128, .f32⟩
  | .local _ .vmem, ⟨51, _⟩ => ⟨S128x64, .f32⟩
  | .local _ .vmem, ⟨52, _⟩ => ⟨S1x64, .f32⟩
  | .local _ .vmem, ⟨53, _⟩ => ⟨S64x2, .f32⟩
  | .local _ .vmem, ⟨54, _⟩ => ⟨S1x2, .f32⟩
  | .local _ .vmem, ⟨55, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_12 : Ref sig .tc := ⟨.hbm, 133, rfl⟩
abbrev main_v100 : Ref sig .tc := ⟨.hbm, 134, rfl⟩
abbrev main_v101 : Ref sig .tc := ⟨.hbm, 135, rfl⟩
abbrev main_c_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_14 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_15 : Ref sig .tc := ⟨.hbm, 170, rfl⟩
abbrev main_v134 : Ref sig .tc := ⟨.hbm, 171, rfl⟩
abbrev main_cst_16 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_17 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_18 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc7_stg0_0 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc7_sem0_0 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem5_0 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x2 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  transposes_S2x64_S64x2_1_0 : S2x64.Transposes [1, 0] S64x2
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x64_S64x64 : S1x64.Broadcasts S64x64
  broadcasts_S1x2_S64x2 : S1x2.Broadcasts S64x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x2.size a ≤ S100000x2.size a
  hwx6_5 : ∀ i : grid6.Coords, EltTy.bits .f32 = 32 ∨ (Rect.block (s := S100000x2) S5000x2.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x2.size a ≤ S64x2.size a
  hwx7_3 : ∀ i : grid7.Coords, EltTy.bits .f32 = 32 ∨ (Rect.block (s := S64x2) S64x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x2.size a ≤ S1x2.size a
  hwx7_4 : ∀ i : grid7.Coords, EltTy.bits .f32 = 32 ∨ (Rect.block (s := S1x2) S1x2.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S64x2.size a ≤ S64x2.size a
  hwx7_5 : ∀ i : grid7.Coords, EltTy.bits .f32 = 32 ∨ (Rect.block (s := S64x2) S64x2.size (cc7_transform_5 i) (hinb7_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v112) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v118) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v128) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v128) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v131) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v132) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v133) S5000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v145) S64x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v146) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v148) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v147) S64x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v149) S1x2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v150) S64x2.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩
abbrev S100000x1 : Shape := ⟨2, ![100000, 1]⟩
abbrev S64x1 : Shape := ⟨2, ![64, 1]⟩
abbrev S64x64 : Shape := ⟨2, ![64, 64]⟩

abbrev nBuf : Space → Nat
  | .hbm => 293
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S64x128, .f32⟩
  | 10 => ⟨S64, .f32⟩
  | 11 => ⟨S2x64, .f32⟩
  | 12 => ⟨S2, .f32⟩
  | 13 => ⟨S64x128, .f32⟩
  | 14 => ⟨S64, .f32⟩
  | 15 => ⟨S2x64, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S1x128x128, .f32⟩
  | 39 => ⟨S128x128, .f32⟩
  | 40 => ⟨S1x128, .f32⟩
  | 41 => ⟨S128, .f32⟩
  | 42 => ⟨S128x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x128x128, .f32⟩
  | 110 => ⟨S128x128, .f32⟩
  | 111 => ⟨S1x128, .f32⟩
  | 112 => ⟨S128, .f32⟩
  | 113 => ⟨S128x128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x128, .f32⟩
  | 15 => ⟨S1700000x1, .f32⟩
  | 16 => ⟨S1700000x128, .f32⟩
  | 17 => ⟨S1700000x128, .f32⟩
  | 18 => ⟨S_, .f32⟩
  | 19 => ⟨S100000x128, .f32⟩
  | 20 => ⟨S1700000x1, .i32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S1x128x128, .f32⟩
  | 53 => ⟨S128x128, .f32⟩
  | 54 => ⟨S1x128, .f32⟩
  | 55 => ⟨S128, .f32⟩
  | 56 => ⟨S128x128, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000, .f32⟩
  | 76 => ⟨S1700000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S128x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_2 (i : Nat) : BufTy := match i % 128 with
  | 0 => ⟨S_, .f32⟩
  | 1 => ⟨S100000x64, .f32⟩
  | 2 => ⟨S100000x64, .f32⟩
  | 3 => ⟨S64x2, .f32⟩
  | 4 => ⟨S100000x2, .f32⟩
  | 5 => ⟨S1x2, .f32⟩
  | 6 => ⟨S100000x2, .f32⟩
  | 7 => ⟨S100000x2, .f32⟩
  | 8 => ⟨S_, .f32⟩
  | 9 => ⟨S100000, .f32⟩
  | 10 => ⟨S_, .f32⟩
  | 11 => ⟨S64, .f32⟩
  | 12 => ⟨S100000x1, .i32⟩
  | 13 => ⟨S64, .f32⟩
  | 14 => ⟨S_, .f32⟩
  | 15 => ⟨S64x128, .f32⟩
  | 16 => ⟨S100000x1, .i32⟩
  | 17 => ⟨S64x128, .f32⟩
  | 18 => ⟨S_, .f32⟩
  | 19 => ⟨S64, .f32⟩
  | 20 => ⟨S64, .f32⟩
  | 21 => ⟨S64x1, .f32⟩
  | 22 => ⟨S64x128, .f32⟩
  | 23 => ⟨S64x128, .f32⟩
  | 24 => ⟨S128x64, .f32⟩
  | 25 => ⟨S64x64, .f32⟩
  | 26 => ⟨S1x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x2, .f32⟩
  | 33 => ⟨S64x2, .f32⟩
  | 34 => ⟨S1x2, .f32⟩
  | 35 => ⟨S64x2, .f32⟩
  | 36 => ⟨S64x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call1_cst : Ref sig .tc := ⟨.hbm, 106, rfl⟩
abbrev main_call1_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_10 : Ref sig .tc := ⟨.hbm, 115, rfl⟩
abbrev main_v82 : Ref sig .tc := ⟨.hbm, 116, rfl⟩
abbrev main_v83 : Ref sig .tc := ⟨.hbm, 117, rfl⟩
abbrev main_c_11 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_12 : Ref sig .tc := ⟨.hbm, 124, rfl⟩
abbrev main_v89 : Ref sig .tc := ⟨.hbm, 125, rfl⟩
abbrev main_v90 : Ref sig .tc := ⟨.hbm, 126, rfl⟩
abbrev main_c_13 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_14 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_16 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_17 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_call2_cst : Ref sig .tc := ⟨.hbm, 177, rfl⟩
abbrev main_call2_v0 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_18 : Ref sig .tc := ⟨.hbm, 186, rfl⟩
abbrev main_v143 : Ref sig .tc := ⟨.hbm, 187, rfl⟩
abbrev main_v144 : Ref sig .tc := ⟨.hbm, 188, rfl⟩
abbrev main_c_19 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_c_20 : Ref sig .tc := ⟨.hbm, 195, rfl⟩
abbrev main_v150 : Ref sig .tc := ⟨.hbm, 196, rfl⟩
abbrev main_v151 : Ref sig .tc := ⟨.hbm, 197, rfl⟩
abbrev main_c_21 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_22 : Ref sig .tc := ⟨.hbm, 205, rfl⟩
abbrev main_v158 : Ref sig .tc := ⟨.hbm, 206, rfl⟩
abbrev main_v159 : Ref sig .tc := ⟨.hbm, 207, rfl⟩
abbrev main_c_23 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_24 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_25 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_call3_cst : Ref sig .tc := ⟨.hbm, 248, rfl⟩
abbrev main_call3_v0 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_call4_cst : Ref sig .tc := ⟨.hbm, 256, rfl⟩
abbrev main_call4_v0 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_cst_26 : Ref sig .tc := ⟨.hbm, 264, rfl⟩
abbrev main_v209 : Ref sig .tc := ⟨.hbm, 265, rfl⟩
abbrev main_cst_27 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_28 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_cst_29 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_call5_cst : Ref sig .tc := ⟨.hbm, 285, rfl⟩
abbrev main_call5_v0 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KRun.lean ====
/-
  The kernel program's run with its two results named.

  The program is eighteen segments: stretches of host operations and eight tiled regions.  The buffer contents at
  each segment boundary are a fold from the launch memory: a host stretch applies its operations, a region replaces
  its arrays by what its write-backs leave.  Every weakly fair execution terminates without a fault, and every
  unscoped buffer then holds the last boundary's contents.  Read at the two result buffers this names the results;
  read at the arguments it says they are unchanged.
-/
import proofs.«104500_j56891136803554_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; each result buffer ends at the
    last boundary's contents and each argument as launched. -/
theorem run_named : θ_run defs (onTc (τ := τ) (main (F := F))) ⟨m, fun _ => 0, ρ⟩ (fun r => ∀ c : Dev nD,
      r.2.mem ((c.tc : Thread nD τ).loc main_v133) = W18 m ρ c (Proc.devRef .tc main_v133)
      ∧ r.2.mem ((c.tc : Thread nD τ).loc main_v150) = W18 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v133 (by decide)),
       h c _ (mem_uc main_v150 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)

end Cert.KernelIdeal.Named

end
-- ==== Proof.Spec.lean ====
/-
  The mathematics both programs compute, stage by stage, as functions on arrays of extended reals.

  A graph-convolution layer is three maps.  (1) A dense map: row `n` of the node features against column `j` of the
  transposed weight, `∑ₖ h[n,k] · wT[k,j]`.  (2) The message passing (gather, scale by the edge norm, scatter-add), which
  both programs perform by the same host operations and which therefore never has to be opened.  (3) The bias, the
  evaluation-mode batch normalisation and the rectifier, entry by entry:
  `max(((a + b − μ) · rsqrt(σ² + ε)) · γ + β, 0)` with the five parameters depending on the column only.
  The two heads are two-layer perceptrons: `(∑ⱼ max(∑ₖ x[n,k]·w₁T[k,j] + b₁[j], 0) · w₂T[j,o]) + b₂[o]`.

  Sums over a contracted axis are finite sums in the commutative monoid of extended reals, so neither a tiling of the
  rows nor the order of accumulation changes them; a change of float format is the identity at this instance.
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals with `n0` rows and `n1` columns. -/
abbrev Mat (n0 n1 : Nat) : Type := (⟨2, ![n0, n1]⟩ : Shape).Idx → EReal

/-- A vector of extended reals of length `n`. -/
abbrev Row (n : Nat) : Type := (⟨1, ![n]⟩ : Shape).Idx → EReal

/-- A vector as a one-row matrix. -/
def row {n : Nat} (u : Row n) : Mat 1 n := fun i => u (ix1 (i 1))

/-- The variance guard `ε`: the single-precision word both programs add to the running variance. -/
def eps : EReal := Ideal.ofBits .f32 0x3727C5AC#32

/-- The rectifier's threshold: the zero word. -/
def zero : EReal := Ideal.ofBits .f32 0x00000000#32

/-- The dense map of a layer: entry `(n, j)` is `∑ₖ h[n,k] · wT[k,j]`. -/
def lin (h : Mat 100000 128) (wT : Mat 128 128) : Mat 100000 128 :=
  fun i => ∑ k : Fin 128, h (ix2 (i 0) k) * wT (ix2 k (i 1))

/-- Bias, batch normalisation with running statistics, rectifier; the parameters are one-row matrices read at the
    entry's column. -/
def bnrelu (a : Mat 100000 128) (b gamma beta mean var : Mat 1 128) : Mat 100000 128 :=
  fun i => max ((a i + b (ix2 0 (i 1)) - mean (ix2 0 (i 1))) * Ideal.rsqrt (var (ix2 0 (i 1)) + eps)
    * gamma (ix2 0 (i 1)) + beta (ix2 0 (i 1))) zero

/-- A two-layer perceptron head on `n` rows: hidden width 64, two outputs. -/
def mlp {n : Nat} (x : Mat n 128) (w1T : Mat 128 64) (b1 : Mat 1 64) (w2T : Mat 64 2) (b2 : Mat 1 2) : Mat n 2 :=
  fun i => (∑ j : Fin 64, max ((∑ k : Fin 128, x (ix2 (i 0) k) * w1T (ix2 k j)) + b1 (ix2 0 j)) zero * w2T (ix2 j (i 1)))
    + b2 (ix2 0 (i 1))

end Cert.GcnSpec

end
-- ==== Proof.Stages.lean ====
/-
  The stages of the network as functions of the arguments, spelt with the reference program's own host operations.

  Both programs build the same edge data from the edge list (endpoints with one self loop per node, in-degrees, the
  symmetric norm), run three layers (dense map, message passing, bias / normalisation / rectifier) and two heads (per
  node, and per graph after mean pooling).  Each definition below is one of these stages as a function of the previous
  stage and of the arguments it reads; the two results are their compositions.  The three layers use the same
  operations on different rows of the stacked parameters, so one definition serves each stage of all three.
-/
import proofs.«104500_j56891136803554_2_alg».proof.Proof.Gen.ReferenceIdeal
import Idealize.ShloMosaic.PureOps.Ideal

set_option maxRecDepth 16384

noncomputable section

namespace Cert.Gcn

open Idealize.ShloMosaic Cert.ReferenceIdeal Cert.ReferenceIdeal.Gen

/-- The source endpoint of every edge, followed by one self loop per node. -/
def src (a1 : IVec S2x1600000 32) : IVec S1700000 32 :=
  (((fun a b => concatenate S1700000 0 [⟨S1600000, a⟩, ⟨S100000, b⟩] concatenates_S1600000_S100000_S1700000_d0) : (IVec S1600000 32) → (IVec S100000 32) → (IVec S1700000 32)) (shapeCast S1600000 (extractStridedSlice S1x1600000 ![0, 0] a1 slices_S2x1600000_S1x1600000_0_0) shapeCasts_S1x1600000_S1600000) (iotaInDim S100000 32 0))

/-- The target endpoint of every edge, followed by one self loop per node. -/
def dst (a1 : IVec S2x1600000 32) : IVec S1700000 32 :=
  (((fun a b => concatenate S1700000 0 [⟨S1600000, a⟩, ⟨S100000, b⟩] concatenates_S1600000_S100000_S1700000_d0) : (IVec S1600000 32) → (IVec S100000 32) → (IVec S1700000 32)) (shapeCast S1600000 (extractStridedSlice S1x1600000 ![1, 0] a1 slices_S2x1600000_S1x1600000_1_0) shapeCasts_S1x1600000_S1600000) (iotaInDim S100000 32 0))

/-- Each node's in-degree, self loop included: one for every edge into the node. -/
def deg (a1 : IVec S2x1600000 32) : FVec Ideal S100000 .f32 :=
  (((fun x i u => Host.scatterAdd scatter_S100000_S1700000x1_S1700000_n_0_0_1 x i u) : (FVec Ideal S100000 .f32) → (IVec S1700000x1 32) → (FVec Ideal S1700000 .f32) → (FVec Ideal S100000 .f32)) (broadcastInDim S100000 ![] bcast_S_S100000 (constant (F := Ideal) S_ .f32 0x00000000#32)) (broadcastInDim S1700000x1 ![0] bcast_S1700000_S1700000x1_0 (dst a1)) (broadcastInDim S1700000 ![] bcast_S_S1700000 (constant (F := Ideal) S_ .f32 0x3F800000#32)))

/-- The nodes of positive in-degree, as a mask. -/
def degPos (a1 : IVec S2x1600000 32) : IVec S100000 1 :=
  (cmpf .ogt (deg a1) (broadcastInDim S100000 ![] bcast_S_S100000 (constant (F := Ideal) S_ .f32 0x00000000#32)))

/-- The reciprocal square root of every in-degree. -/
def degRs (a1 : IVec S2x1600000 32) : FVec Ideal S100000 .f32 :=
  (Host.rsqrt (deg a1))

/-- The scalar zero that replaces the reciprocal root where the degree is zero. -/
def zeroS : FVec Ideal S_ .f32 :=
  (constant (F := Ideal) S_ .f32 0x00000000#32)

/-- The inverse square root of each node's in-degree, zero where the degree is zero. -/
def dis (a1 : IVec S2x1600000 32) : FVec Ideal S100000 .f32 :=
  (select (degPos a1) (degRs a1) ((broadcastInDim S100000 ![] bcast_S_S100000) (id zeroS)))

/-- The symmetric edge norm: the product of the two endpoints' inverse square-root degrees. -/
def norm (a1 : IVec S2x1600000 32) : FVec Ideal S1700000 .f32 :=
  (mulf (((fun x i => Host.gather gather_S100000_S1700000x1_S1700000_n_0_n_n_0_1_1 x i) : (FVec Ideal S100000 .f32) → (IVec S1700000x1 32) → (FVec Ideal S1700000 .f32)) (dis a1) (broadcastInDim S1700000x1 ![0] bcast_S1700000_S1700000x1_0 (select (cmpi .slt (src a1) (broadcastInDim S1700000 ![] bcast_S_S1700000 (constantI S_ 32 0#32))) (addi (src a1) (broadcastInDim S1700000 ![] bcast_S_S1700000 (constantI S_ 32 100000#32))) (src a1)))) (((fun x i => Host.gather gather_S100000_S1700000x1_S1700000_n_0_n_n_0_1_1 x i) : (FVec Ideal S100000 .f32) → (IVec S1700000x1 32) → (FVec Ideal S1700000 .f32)) (dis a1) (broadcastInDim S1700000x1 ![0] bcast_S1700000_S1700000x1_0 (select (cmpi .slt (dst a1) (broadcastInDim S1700000 ![] bcast_S_S1700000 (constantI S_ 32 0#32))) (addi (dst a1) (broadcastInDim S1700000 ![] bcast_S_S1700000 (constantI S_ 32 100000#32))) (dst a1)))))

/-- Message passing: gather the source rows, scale by the edge norm, add into the target rows. -/
def mp (h : FVec Ideal S100000x128 .f32) (a1 : IVec S2x1600000 32) : FVec Ideal S100000x128 .f32 :=
  (((fun x i u => Host.scatterAdd scatter_S100000x128_S1700000x1_S1700000x128_1_0_0_1 x i u) : (FVec Ideal S100000x128 .f32) → (IVec S1700000x1 32) → (FVec Ideal S1700000x128 .f32) → (FVec Ideal S100000x128 .f32)) (broadcastInDim S100000x128 ![] bcast_S_S100000x128 (constant (F := Ideal) S_ .f32 0x00000000#32)) (broadcastInDim S1700000x1 ![0] bcast_S1700000_S1700000x1_0 (dst a1)) (mulf (((fun x i => Host.gather gather_S100000x128_S1700000x1_S1700000x128_1_0_n_n_0_1_1128 x i) : (FVec Ideal S100000x128 .f32) → (IVec S1700000x1 32) → (FVec Ideal S1700000x128 .f32)) h (broadcastInDim S1700000x1 ![0] bcast_S1700000_S1700000x1_0 (select (cmpi .slt (src a1) (broadcastInDim S1700000 ![] bcast_S_S1700000 (constantI S_ 32 0#32))) (addi (src a1) (broadcastInDim S1700000 ![] bcast_S_S1700000 (constantI S_ 32 100000#32))) (src a1)))) (broadcastInDim S1700000x128 ![0, 1] bcast_S1700000x1_S1700000x128_0_1 (broadcastInDim S1700000x1 ![0] bcast_S1700000_S1700000x1_0 (norm a1)))))

/-- The transposed weight of layer 1. -/
def wT0 (a3 : FVec Ideal S3x128x128 .f32) : FVec Ideal S128x128 .f32 :=
  (transpose S128x128 [1, 0] (shapeCast S128x128 (extractStridedSlice S1x128x128 ![0, 0, 0] a3 slices_S3x128x128_S1x128x128_0_0_0) shapeCasts_S1x128x128_S128x128) transposes_S128x128_S128x128_1_0)

/-- The transposed weight of layer 2. -/
def wT1 (a3 : FVec Ideal S3x128x128 .f32) : FVec Ideal S128x128 .f32 :=
  (transpose S128x128 [1, 0] (shapeCast S128x128 (extractStridedSlice S1x128x128 ![1, 0, 0] a3 slices_S3x128x128_S1x128x128_1_0_0) shapeCasts_S1x128x128_S128x128) transposes_S128x128_S128x128_1_0)

/-- The transposed weight of layer 3. -/
def wT2 (a3 : FVec Ideal S3x128x128 .f32) : FVec Ideal S128x128 .f32 :=
  (transpose S128x128 [1, 0] (shapeCast S128x128 (extractStridedSlice S1x128x128 ![2, 0, 0] a3 slices_S3x128x128_S1x128x128_2_0_0) shapeCasts_S1x128x128_S128x128) transposes_S128x128_S128x128_1_0)

/-- Row 1 of a stacked per-layer parameter, as a vector of length 128. -/
def rb1 (x : FVec Ideal S3x128 .f32) : FVec Ideal S128 .f32 :=
  (shapeCast S128 (extractStridedSlice S1x128 ![0, 0] x slices_S3x128_S1x128_0_0) shapeCasts_S1x128_S128)

/-- Row 1 of a stacked per-layer parameter, as a vector of length 128. -/
def rmean1 (x : FVec Ideal S3x128 .f32) : FVec Ideal S128 .f32 :=
  (shapeCast S128 (extractStridedSlice S1x128 ![0, 0] x slices_S3x128_S1x128_0_0) shapeCasts_S1x128_S128)

/-- Row 1 of a stacked per-layer parameter, as a vector of length 128. -/
def rvar1 (x : FVec Ideal S3x128 .f32) : FVec Ideal S128 .f32 :=
  (shapeCast S128 (extractStridedSlice S1x128 ![0, 0] x slices_S3x128_S1x128_0_0) shapeCasts_S1x128_S128)

/-- Row 1 of a stacked per-layer parameter, as a vector of length 128. -/
def rgamma1 (x : FVec Ideal S3x128 .f32) : FVec Ideal S128 .f32 :=
  (shapeCast S128 (extractStridedSlice S1x128 ![0, 0] x slices_S3x128_S1x128_0_0) shapeCasts_S1x128_S128)

/-- Row 1 of a stacked per-layer parameter, as a vector of length 128. -/
def rbeta1 (x : FVec Ideal S3x128 .f32) : FVec Ideal S128 .f32 :=
  (shapeCast S128 (extractStridedSlice S1x128 ![0, 0] x slices_S3x128_S1x128_0_0) shapeCasts_S1x128_S128)

/-- Row 2 of a stacked per-layer parameter, as a vector of length 128. -/
def rb2 (x : FVec Ideal S3x128 .f32) : FVec Ideal S128 .f32 :=
  (shapeCast S128 (extractStridedSlice S1x128 ![1, 0] x slices_S3x128_S1x128_1_0) shapeCasts_S1x128_S128)

/-- Row 2 of a stacked per-layer parameter, as a vector of length 128. -/
def rmean2 (x : FVec Ideal S3x128 .f32) : FVec Ideal S128 .f32 :=
  (shapeCast S128 (extractStridedSlice S1x128 ![1, 0] x slices_S3x128_S1x128_1_0) shapeCasts_S1x128_S128)

/-- Row 2 of a stacked per-layer parameter, as a vector of length 128. -/
def rvar2 (x : FVec Ideal S3x128 .f32) : FVec Ideal S128 .f32 :=
  (shapeCast S128 (extractStridedSlice S1x128 ![1, 0] x slices_S3x128_S1x128_1_0) shapeCasts_S1x128_S128)

/-- Row 2 of a stacked per-layer parameter, as a vector of length 128. -/
def rgamma2 (x : FVec Ideal S3x128 .f32) : FVec Ideal S128 .f32 :=
  (shapeCast S128 (extractStridedSlice S1x128 ![1, 0] x slices_S3x128_S1x128_1_0) shapeCasts_S1x128_S128)

/-- Row 2 of a stacked per-layer parameter, as a vector of length 128. -/
def rbeta2 (x : FVec Ideal S3x128 .f32) : FVec Ideal S128 .f32 :=
  (shapeCast S128 (extractStridedSlice S1x128 ![1, 0] x slices_S3x128_S1x128_1_0) shapeCasts_S1x128_S128)

/-- Row 3 of a stacked per-layer parameter, as a vector of length 128. -/
def rb3 (x : FVec Ideal S3x128 .f32) : FVec Ideal S128 .f32 :=
  (shapeCast S128 (extractStridedSlice S1x128 ![2, 0] x slices_S3x128_S1x128_2_0) shapeCasts_S1x128_S128)

/-- Row 3 of a stacked per-layer parameter, as a vector of length 128. -/
def rmean3 (x : FVec Ideal S3x128 .f32) : FVec Ideal S128 .f32 :=
  (shapeCast S128 (extractStridedSlice S1x128 ![2, 0] x slices_S3x128_S1x128_2_0) shapeCasts_S1x128_S128)

/-- Row 3 of a stacked per-layer parameter, as a vector of length 128. -/
def rvar3 (x : FVec Ideal S3x128 .f32) : FVec Ideal S128 .f32 :=
  (shapeCast S128 (extractStridedSlice S1x128 ![2, 0] x slices_S3x128_S1x128_2_0) shapeCasts_S1x128_S128)

/-- Row 3 of a stacked per-layer parameter, as a vector of length 128. -/
def rgamma3 (x : FVec Ideal S3x128 .f32) : FVec Ideal S128 .f32 :=
  (shapeCast S128 (extractStridedSlice S1x128 ![2, 0] x slices_S3x128_S1x128_2_0) shapeCasts_S1x128_S128)

/-- Row 3 of a stacked per-layer parameter, as a vector of length 128. -/
def rbeta3 (x : FVec Ideal S3x128 .f32) : FVec Ideal S128 .f32 :=
  (shapeCast S128 (extractStridedSlice S1x128 ![2, 0] x slices_S3x128_S1x128_2_0) shapeCasts_S1x128_S128)

/-- Bias, evaluation-mode batch normalisation and rectifier as the reference's host operations spell them. -/
def bnh (a : FVec Ideal S100000x128 .f32) (b : FVec Ideal S128 .f32) (mean : FVec Ideal S128 .f32) (var : FVec Ideal S128 .f32) (gamma : FVec Ideal S128 .f32) (beta : FVec Ideal S128 .f32) : FVec Ideal S100000x128 .f32 :=
  (maximumf (addf (mulf (mulf (subf (addf a (broadcastInDim S100000x128 ![0, 1] bcast_S1x128_S100000x128_0_1 (broadcastInDim S1x128 ![1] bcast_S128_S1x128_1 b))) (broadcastInDim S100000x128 ![0, 1] bcast_S1x128_S100000x128_0_1 (broadcastInDim S1x128 ![1] bcast_S128_S1x128_1 mean))) (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 gamma))) (broadcastInDim S100000x128 ![0, 1] bcast_S1x128_S100000x128_0_1 (broadcastInDim S1x128 ![1] bcast_S128_S1x128_1 beta))) ((broadcastInDim S100000x128 ![] bcast_S_S100000x128) (constant (F := Ideal) S_ .f32 0x00000000#32)))

/-- A dense layer as the reference's contraction. -/
def dotl (h : FVec Ideal S100000x128 .f32) (wT : FVec Ideal S128x128 .f32) : FVec Ideal S100000x128 .f32 :=
  (((fun l r => Host.dotGeneral dot_S100000x128_S128x128_S100000x128_1_0_0_1_n_n none l r) : (FVec Ideal S100000x128 .f32) → (FVec Ideal S128x128 .f32) → (FVec Ideal S100000x128 .f32)) h wT)

/-- The node head as the reference's host operations spell it. -/
def nodeh (x : FVec Ideal S100000x128 .f32) (w1T : FVec Ideal S128x64 .f32) (b1 : FVec Ideal S64 .f32) (w2T : FVec Ideal S64x2 .f32) (b2 : FVec Ideal S2 .f32) : FVec Ideal S100000x2 .f32 :=
  (addf (((fun l r => Host.dotGeneral dot_S100000x64_S64x2_S100000x2_1_0_0_1_n_n none l r) : (FVec Ideal S100000x64 .f32) → (FVec Ideal S64x2 .f32) → (FVec Ideal S100000x2 .f32)) (maximumf (addf (((fun l r => Host.dotGeneral dot_S100000x128_S128x64_S100000x64_1_0_0_1_n_n none l r) : (FVec Ideal S100000x128 .f32) → (FVec Ideal S128x64 .f32) → (FVec Ideal S100000x64 .f32)) x w1T) (broadcastInDim S100000x64 ![0, 1] bcast_S1x64_S100000x64_0_1 (broadcastInDim S1x64 ![1] bcast_S64_S1x64_1 b1))) ((broadcastInDim S100000x64 ![] bcast_S_S100000x64) (constant (F := Ideal) S_ .f32 0x00000000#32))) w2T) (broadcastInDim S100000x2 ![0, 1] bcast_S1x2_S100000x2_0_1 (broadcastInDim S1x2 ![1] bcast_S2_S1x2_1 b2)))

/-- The graph head as the reference's host operations spell it. -/
def graphh (x : FVec Ideal S64x128 .f32) (w1T : FVec Ideal S128x64 .f32) (b1 : FVec Ideal S64 .f32) (w2T : FVec Ideal S64x2 .f32) (b2 : FVec Ideal S2 .f32) : FVec Ideal S64x2 .f32 :=
  (addf (((fun l r => Host.dotGeneral dot_S64x64_S64x2_S64x2_1_0_0_1_n_n none l r) : (FVec Ideal S64x64 .f32) → (FVec Ideal S64x2 .f32) → (FVec Ideal S64x2 .f32)) (maximumf (addf (((fun l r => Host.dotGeneral dot_S64x128_S128x64_S64x64_1_0_0_1_n_n none l r) : (FVec Ideal S64x128 .f32) → (FVec Ideal S128x64 .f32) → (FVec Ideal S64x64 .f32)) x w1T) (broadcastInDim S64x64 ![0, 1] bcast_S1x64_S64x64_0_1 (broadcastInDim S1x64 ![1] bcast_S64_S1x64_1 b1))) ((broadcastInDim S64x64 ![] bcast_S_S64x64) (constant (F := Ideal) S_ .f32 0x00000000#32))) w2T) (broadcastInDim S64x2 ![0, 1] bcast_S1x2_S64x2_0_1 (broadcastInDim S1x2 ![1] bcast_S2_S1x2_1 b2)))

/-- The node head's first weight, transposed. -/
def tr9 (x : FVec Ideal S64x128 .f32) : FVec Ideal S128x64 .f32 :=
  (transpose S128x64 [1, 0] x transposes_S64x128_S128x64_1_0)

/-- The node head's second weight, transposed. -/
def tr11 (x : FVec Ideal S2x64 .f32) : FVec Ideal S64x2 .f32 :=
  (transpose S64x2 [1, 0] x transposes_S2x64_S64x2_1_0)

/-- The graph head's first weight, transposed. -/
def tr13 (x : FVec Ideal S64x128 .f32) : FVec Ideal S128x64 .f32 :=
  (transpose S128x64 [1, 0] x transposes_S64x128_S128x64_1_0)

/-- The graph head's second weight, transposed. -/
def tr15 (x : FVec Ideal S2x64 .f32) : FVec Ideal S64x2 .f32 :=
  (transpose S64x2 [1, 0] x transposes_S2x64_S64x2_1_0)

/-- Mean pooling per graph: per-graph sums of the rows over per-graph node counts (at least one). -/
def pool (h : FVec Ideal S100000x128 .f32) (a2 : IVec S100000 32) : FVec Ideal S64x128 .f32 :=
  (Host.divf (((fun x i u => Host.scatterAdd scatter_S64x128_S100000x1_S100000x128_1_0_0_1 x i u) : (FVec Ideal S64x128 .f32) → (IVec S100000x1 32) → (FVec Ideal S100000x128 .f32) → (FVec Ideal S64x128 .f32)) (broadcastInDim S64x128 ![] bcast_S_S64x128 (constant (F := Ideal) S_ .f32 0x00000000#32)) (broadcastInDim S100000x1 ![0] bcast_S100000_S100000x1_0 a2) h) (broadcastInDim S64x128 ![0, 1] bcast_S64x1_S64x128_0_1 (broadcastInDim S64x1 ![0] bcast_S64_S64x1_0 (maximumf (((fun x i u => Host.scatterAdd scatter_S64_S100000x1_S100000_n_0_0_1 x i u) : (FVec Ideal S64 .f32) → (IVec S100000x1 32) → (FVec Ideal S100000 .f32) → (FVec Ideal S64 .f32)) (broadcastInDim S64 ![] bcast_S_S64 (constant (F := Ideal) S_ .f32 0x00000000#32)) (broadcastInDim S100000x1 ![0] bcast_S100000_S100000x1_0 a2) (broadcastInDim S100000 ![] bcast_S_S100000 (constant (F := Ideal) S_ .f32 0x3F800000#32))) (broadcastInDim S64 ![] bcast_S_S64 (constant (F := Ideal) S_ .f32 0x3F800000#32))))))

/-- The features after layer 1. -/
def h1 (a0 : FVec Ideal S100000x128 .f32) (a1 : IVec S2x1600000 32) (a3 : FVec Ideal S3x128x128 .f32) (a4 : FVec Ideal S3x128 .f32) (a5 : FVec Ideal S3x128 .f32) (a6 : FVec Ideal S3x128 .f32) (a7 : FVec Ideal S3x128 .f32) (a8 : FVec Ideal S3x128 .f32) : FVec Ideal S100000x128 .f32 :=
  bnh (mp (dotl a0 (wT0 a3)) a1) (rb1 a4) (rmean1 a7) (rvar1 a8) (rgamma1 a5) (rbeta1 a6)
/-- The features after layer 2. -/
def h2 (a0 : FVec Ideal S100000x128 .f32) (a1 : IVec S2x1600000 32) (a3 : FVec Ideal S3x128x128 .f32) (a4 : FVec Ideal S3x128 .f32) (a5 : FVec Ideal S3x128 .f32) (a6 : FVec Ideal S3x128 .f32) (a7 : FVec Ideal S3x128 .f32) (a8 : FVec Ideal S3x128 .f32) : FVec Ideal S100000x128 .f32 :=
  bnh (mp (dotl (h1 a0 a1 a3 a4 a5 a6 a7 a8) (wT1 a3)) a1) (rb2 a4) (rmean2 a7) (rvar2 a8) (rgamma2 a5) (rbeta2 a6)
/-- The features after layer 3. -/
def h3 (a0 : FVec Ideal S100000x128 .f32) (a1 : IVec S2x1600000 32) (a3 : FVec Ideal S3x128x128 .f32) (a4 : FVec Ideal S3x128 .f32) (a5 : FVec Ideal S3x128 .f32) (a6 : FVec Ideal S3x128 .f32) (a7 : FVec Ideal S3x128 .f32) (a8 : FVec Ideal S3x128 .f32) : FVec Ideal S100000x128 .f32 :=
  bnh (mp (dotl (h2 a0 a1 a3 a4 a5 a6 a7 a8) (wT2 a3)) a1) (rb3 a4) (rmean3 a7) (rvar3 a8) (rgamma3 a5) (rbeta3 a6)
/-- The first result: the node predictions. -/
def out0 (a0 : FVec Ideal S100000x128 .f32) (a1 : IVec S2x1600000 32) (a3 : FVec Ideal S3x128x128 .f32) (a4 : FVec Ideal S3x128 .f32) (a5 : FVec Ideal S3x128 .f32) (a6 : FVec Ideal S3x128 .f32) (a7 : FVec Ideal S3x128 .f32) (a8 : FVec Ideal S3x128 .f32) (a9 : FVec Ideal S64x128 .f32) (a10 : FVec Ideal S64 .f32) (a11 : FVec Ideal S2x64 .f32) (a12 : FVec Ideal S2 .f32) : FVec Ideal S100000x2 .f32 :=
  nodeh (h3 a0 a1 a3 a4 a5 a6 a7 a8) (tr9 a9) a10 (tr11 a11) a12
/-- The second result: the graph predictions. -/
def out1 (a0 : FVec Ideal S100000x128 .f32) (a1 : IVec S2x1600000 32) (a2 : IVec S100000 32) (a3 : FVec Ideal S3x128x128 .f32) (a4 : FVec Ideal S3x128 .f32) (a5 : FVec Ideal S3x128 .f32) (a6 : FVec Ideal S3x128 .f32) (a7 : FVec Ideal S3x128 .f32) (a8 : FVec Ideal S3x128 .f32) (a13 : FVec Ideal S64x128 .f32) (a14 : FVec Ideal S64 .f32) (a15 : FVec Ideal S2x64 .f32) (a16 : FVec Ideal S2 .f32) : FVec Ideal S64x2 .f32 :=
  graphh (pool (h3 a0 a1 a3 a4 a5 a6 a7 a8) a2) (tr13 a13) a14 (tr15 a15) a16

end Cert.Gcn

end
-- ==== Proof.RefPure.lean ====
/-
  The reference program's host operations, read entry by entry, are the specification's stage maps: a contraction with one
  contracted axis is the finite sum over that axis, and a row parameter broadcast first to one row and then down the rows
  is read at the entry's column.
-/
import proofs.«104500_j56891136803554_2_alg».proof.Proof.Stages
import proofs.«104500_j56891136803554_2_alg».proof.Proof.Spec
import Idealize.ShloMosaic.Lib.Pipeline.Value
import Idealize.ShloMosaic.Lib.ValueIdx
import Idealize.ShloMosaic.PureOps.Ideal.Laws

noncomputable section

open scoped BigOperators

namespace Cert.Gcn.Pure

open Cert.ReferenceIdeal Idealize.ShloMosaic Idealize.ShloMosaic.ValueIdx Idealize.ShloMosaic.TcCoe Idealize.SL.Sem Idealize.ShloMosaic.StableHlo Cert

/-! ## The host operations over arbitrary arrays

Stated for any proof of the program's shape facts, so that they apply to the program's own records. -/

section Operations

variable [Facts₀]
open Facts₀

/-! ### Broadcasts read at an entry -/

/-- A vector broadcast to one row and then down the rows of a matrix is read, at entry (n, j), at j. -/
theorem bcast_row_apply {M N : Nat} (hN : N ≠ 1)
    (h1 : (⟨1, ![N]⟩ : Shape).BroadcastsInDim (⟨2, ![1, N]⟩ : Shape) (![1] : Fin 1 → Fin (⟨2, ![1, N]⟩ : Shape).rank))
    (h2 : (⟨2, ![1, N]⟩ : Shape).BroadcastsInDim (⟨2, ![M, N]⟩ : Shape) (![0, 1] : Fin 2 → Fin (⟨2, ![M, N]⟩ : Shape).rank))
    (u : (⟨1, ![N]⟩ : Shape).Idx → EReal) (i : (⟨2, ![M, N]⟩ : Shape).Idx) :
    broadcastInDim (⟨2, ![M, N]⟩ : Shape) ![0, 1] h2 (broadcastInDim (⟨2, ![1, N]⟩ : Shape) ![1] h1 u) i = u (ix1 (i 1)) := by
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if N = 1 then 0 else (i 1).val; rw [if_neg hN]),
    broadcastInDim_apply _ h1 u (ix2 (0 : Fin 1) (i 1)) (ix1 (i 1)) (fun a => match a with
      | ⟨0, _⟩ => by show (i 1).val = if N = 1 then 0 else (i 1).val; rw [if_neg hN])]

/-- A constant word broadcast to every entry of an array is that word's value everywhere. -/
theorem bcast_const_apply {s : Shape} (h : S_.BroadcastsInDim s (![] : Fin 0 → Fin s.rank)) (w : BitVec 32) (i : s.Idx) :
    broadcastInDim s ![] h (constant (F := Ideal) S_ .f32 w) i = Ideal.ofBits .f32 w := by
  rw [broadcastInDim_apply _ h _ i (fun a => a.elim0) (fun a => a.elim0)]
  rfl

/-! ### The layers' dense map: [100000,128] by [128,128] -/

/-- The left operand's index at output entry i and contraction index q: its row is the entry's row. -/
theorem dotL_l0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by
        show ¬((0 : Fin 2) ∈ ([] : List (Fin 2))); decide),
    dif_pos (show (0 : Fin S100000x128.rank) ∈ dot_S100000x128_S128x128_S100000x128_1_0_0_1_n_n.lhsNonContracting by
        show (0 : Fin 2) ∈ ([0] : List (Fin 2)); decide)]
  rfl
/-- Its column is the contraction index. -/
theorem dotL_l1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
/-- The right operand's row is the contraction index. -/
theorem dotL_r0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
/-- Its column is the entry's column. -/
theorem dotL_r1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by
        show ¬((1 : Fin 2) ∈ ([] : List (Fin 2))); decide),
    dif_pos (show (1 : Fin S128x128.rank) ∈ dot_S100000x128_S128x128_S100000x128_1_0_0_1_n_n.rhsNonContracting by
        show (1 : Fin 2) ∈ ([1] : List (Fin 2)); decide)]
  rfl
/-- The contraction at an entry: the finite sum over the contracted axis of left[n,k] * right[k,j]. The sum over the
    contraction's one-axis index set is re-indexed along its bijection with the axis. -/
theorem dotL_apply (l : FVec Ideal S100000x128 .f32) (r : FVec Ideal S128x128 .f32) (i : S100000x128.Idx) :
    Host.dotGeneral dot_S100000x128_S128x128_S100000x128_1_0_0_1_n_n none l r i = ∑ k : Fin 128, l (ix2 (i 0) k) * r (ix2 k (i 1)) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (i 0) k := funext fun a => Fin.ext (by
    match a with
    | ⟨0, _⟩ => exact dotL_l0 _ _
    | ⟨1, _⟩ => exact (dotL_l1 _ _).trans hk)
  have er : dot_S100000x128_S128x128_S100000x128_1_0_0_1_n_n.rhsIdx i ((contrEquiv1 dot_S100000x128_S128x128_S100000x128_1_0_0_1_n_n 128 rfl rfl).symm k) = ix2 k (i 1) := funext fun a => Fin.ext (by
    match a with
    | ⟨0, _⟩ => exact (dotL_r0 _ _).trans hk
    | ⟨1, _⟩ => exact dotL_r1 _ _)
  rw [el, er] <;> rfl

/-! ### The node head's first dense map: [100000,128] by [128,64] -/

/-- The left operand's index at output entry i and contraction index q: its row is the entry's row. -/
theorem dotN1_l0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by
        show ¬((0 : Fin 2) ∈ ([] : List (Fin 2))); decide),
    dif_pos (show (0 : Fin S100000x128.rank) ∈ dot_S100000x128_S128x64_S100000x64_1_0_0_1_n_n.lhsNonContracting by
        show (0 : Fin 2) ∈ ([0] : List (Fin 2)); decide)]
  rfl
/-- Its column is the contraction index. -/
theorem dotN1_l1 (i : S100000x64.Idx) (q : dot_S100000x128_S128x64_S100000x64_1_0_0_1_n_n.contr.Idx) :
    (dot_S100000x128_S128x64_S100000x64_1_0_0_1_n_n.lhsIdx i q 1).val = (q ⟨0, Nat.one_pos⟩).val :=
  dot_S100000x128_S128x64_S100000x64_1_0_0_1_n_n.lhsIdx_val_of_single rfl i q
/-- The right operand's row is the contraction index. -/
theorem dotN1_r0 (i : S100000x64.Idx) (q : dot_S100000x128_S128x64_S100000x64_1_0_0_1_n_n.contr.Idx) :
    (dot_S100000x128_S128x64_S100000x64_1_0_0_1_n_n.rhsIdx i q 0).val = (q ⟨0, Nat.one_pos⟩).val :=
  dot_S100000x128_S128x64_S100000x64_1_0_0_1_n_n.rhsIdx_val_of_single rfl i q
/-- Its column is the entry's column. -/
theorem dotN1_r1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by
        show ¬((1 : Fin 2) ∈ ([] : List (Fin 2))); decide),
    dif_pos (show (1 : Fin S128x64.rank) ∈ dot_S100000x128_S128x64_S100000x64_1_0_0_1_n_n.rhsNonContracting by
        show (1 : Fin 2) ∈ ([1] : List (Fin 2)); decide)]
  rfl
/-- The contraction at an entry: the finite sum over the contracted axis of left[n,k] * right[k,j]. The sum over the
    contraction's one-axis index set is re-indexed along its bijection with the axis. -/
theorem dotN1_apply (l : FVec Ideal S100000x128 .f32) (r : FVec Ideal S128x64 .f32) (i : S100000x64.Idx) :
    Host.dotGeneral dot_S100000x128_S128x64_S100000x64_1_0_0_1_n_n none l r i = ∑ k : Fin 128, l (ix2 (i 0) k) * r (ix2 k (i 1)) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = ix2 (i 0) k := funext fun a => Fin.ext (by
    match a with
    | ⟨0, _⟩ => exact dotN1_l0 _ _
    | ⟨1, _⟩ => exact (dotN1_l1 _ _).trans hk)
  have er : dot_S100000x128_S128x64_S100000x64_1_0_0_1_n_n.rhsIdx i ((contrEquiv1 dot_S100000x128_S128x64_S100000x64_1_0_0_1_n_n 128 rfl rfl).symm k) = ix2 k (i 1) := funext fun a => Fin.ext (by
    match a with
    | ⟨0, _⟩ => exact (dotN1_r0 _ _).trans hk
    | ⟨1, _⟩ => exact dotN1_r1 _ _)
  rw [el, er] <;> rfl

/-! ### The node head's second dense map: [100000,64] by [64,2] -/

/-- The left operand's index at output entry i and contraction index q: its row is the entry's row. -/
theorem dotN2_l0 (i : S100000x2.Idx) (q : dot_S100000x64_S64x2_S100000x2_1_0_0_1_n_n.contr.Idx) :
    (dot_S100000x64_S64x2_S100000x2_1_0_0_1_n_n.lhsIdx i q 0).val = (i 0).val := by
  unfold DotDims.lhsIdx
  rw [dif_neg (show ¬(0 : Fin S100000x64.rank) ∈ dot_S100000x64_S64x2_S100000x2_1_0_0_1_n_n.lhsBatch by
        show ¬((0 : Fin 2) ∈ ([] : List (Fin 2))); decide),
    dif_pos (show (0 : Fin S100000x64.rank) ∈ dot_S100000x64_S64x2_S100000x2_1_0_0_1_n_n.lhsNonContracting by
        show (0 : Fin 2) ∈ ([0] : List (Fin 2)); decide)]
  rfl
/-- Its column is the contraction index. -/
theorem dotN2_l1 (i : S100000x2.Idx) (q : dot_S100000x64_S64x2_S100000x2_1_0_0_1_n_n.contr.Idx) :
    (dot_S100000x64_S64x2_S100000x2_1_0_0_1_n_n.lhsIdx i q 1).val = (q ⟨0, Nat.one_pos⟩).val :=
  dot_S100000x64_S64x2_S100000x2_1_0_0_1_n_n.lhsIdx_val_of_single rfl i q
/-- The right operand's row is the contraction index. -/
theorem dotN2_r0 (i : S100000x2.Idx) (q : dot_S100000x64_S64x2_S100000x2_1_0_0_1_n_n.contr.Idx) :
    (dot_S100000x64_S64x2_S100000x2_1_0_0_1_n_n.rhsIdx i q 0).val = (q ⟨0, Nat.one_pos⟩).val :=
  dot_S100000x64_S64x2_S100000x2_1_0_0_1_n_n.rhsIdx_val_of_single rfl i q
/-- Its column is the entry's column. -/
theorem dotN2_r1 (i : S100000x2.Idx) (q : dot_S100000x64_S64x2_S100000x2_1_0_0_1_n_n.contr.Idx) :
    (dot_S100000x64_S64x2_S100000x2_1_0_0_1_n_n.rhsIdx i q 1).val = (i 1).val := by
  unfold DotDims.rhsIdx
  rw [dif_neg (show ¬(1 : Fin S64x2.rank) ∈ dot_S100000x64_S64x2_S100000x2_1_0_0_1_n_n.rhsBatch by
        show ¬((1 : Fin 2) ∈ ([] : List (Fin 2))); decide),
    dif_pos (show (1 : Fin S64x2.rank) ∈ dot_S100000x64_S64x2_S100000x2_1_0_0_1_n_n.rhsNonContracting by
        show (1 : Fin 2) ∈ ([1] : List (Fin 2)); decide)]
  rfl
/-- The contraction at an entry: the finite sum over the contracted axis of left[n,k] * right[k,j]. The sum over the
    contraction's one-axis index set is re-indexed along its bijection with the axis. -/
theorem dotN2_apply (l : FVec Ideal S100000x64 .f32) (r : FVec Ideal S64x2 .f32) (i : S100000x2.Idx) :
    Host.dotGeneral dot_S100000x64_S64x2_S100000x2_1_0_0_1_n_n none l r i = ∑ k : Fin 64, l (ix2 (i 0) k) * r (ix2 k (i 1)) := by
  simp only [Host.dotGeneral]
  rw [Ideal.dotGeneral_apply, ← Equiv.sum_comp (contrEquiv1 dot_S100000x64_S64x2_S100000x2_1_0_0_1_n_n 64 rfl rfl).symm]
  refine Finset.sum_congr rfl fun k _ => ?_
  have hk := contrEquiv1_symm_val dot_S100000x64_S64x2_S100000x2_1_0_0_1_n_n 64 rfl rfl k
  have el : dot_S100000x64_S64x2_S100000x2_1_0_0_1_n_n.lhsIdx i ((contrEquiv1 dot_S100000x64_S64x2_S100000x2_1_0_0_1_n_n 64 rfl rfl).symm k) = ix2 (i 0) k := funext fun a => Fin.ext (by
    match a with
    | ⟨0, _⟩ => exact dotN2_l0 _ _
    | ⟨1, _⟩ => exact (dotN2_l1 _ _).trans hk)
  have er : dot_S100000x64_S64x2_S100000x2_1_0_0_1_n_n.rhsIdx i ((contrEquiv1 dot_S100000x64_S64x2_S100000x2_1_0_0_1_n_n 64 rfl rfl).symm k) = ix2 k (i 1) := funext fun a => Fin.ext (by
    match a with
    | ⟨0, _⟩ => exact (dotN2_r0 _ _).trans hk
    | ⟨1, _⟩ => exact dotN2_r1 _ _)
  rw [el, er] <;> rfl

/-! ### The graph head's first dense map: [64,128] by [128,64] -/

/-- The left operand's index at output entry i and contraction index q: its row is the entry's row. -/
theorem dotG1_l0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by
        show ¬((0 : Fin 2) ∈ ([] : List (Fin 2))); decide),
    dif_pos (show (0 : Fin S64x128.rank) ∈ dot_S64x128_S128x64_S64x64_1_0_0_1_n_n.lhsNonContracting by
        show (0 : Fin 2) ∈ ([0] : List (Fin 2)); decide)]
  rfl
/-- Its column is the contraction index. -/
theorem dotG1_l1 (i : S64x64.Idx) (q : dot_S64x128_S128x64_S64x64_1_0_0_1_n_n.contr.Idx) :
    (dot_S64x128_S128x64_S64x64_1_0_0_1_n_n.lhsIdx i q 1).val = (q ⟨0, Nat.one_pos⟩).val :=
  dot_S64x128_S128x64_S64x64_1_0_0_1_n_n.lhsIdx_val_of_single rfl i q
/-- The right operand's row is the contraction index. -/
theorem dotG1_r0 (i : S64x64.Idx) (q : dot_S64x128_S128x64_S64x64_1_0_0_1_n_n.contr.Idx) :
    (dot_S64x128_S128x64_S64x64_1_0_0_1_n_n.rhsIdx i q 0).val = (q ⟨0, Nat.one_pos⟩).val :=
  dot_S64x128_S128x64_S64x64_1_0_0_1_n_n.rhsIdx_val_of_single rfl i q
/-- Its column is the entry's column. -/
theorem dotG1_r1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by
        show ¬((1 : Fin 2) ∈ ([] : List (Fin 2))); decide),
    dif_pos (show (1 : Fin S128x64.rank) ∈ dot_S64x128_S128x64_S64x64_1_0_0_1_n_n.rhsNonContracting by
        show (1 : Fin 2) ∈ ([1] : List (Fin 2)); decide)]
  rfl
/-- The contraction at an entry: the finite sum over the contracted axis of left[n,k] * right[k,j]. The sum over the
    contraction's one-axis index set is re-indexed along its bijection with the axis. -/
theorem dotG1_apply (l : FVec Ideal S64x128 .f32) (r : FVec Ideal S128x64 .f32) (i : S64x64.Idx) :
    Host.dotGeneral dot_S64x128_S128x64_S64x64_1_0_0_1_n_n none l r i = ∑ k : Fin 128, l (ix2 (i 0) k) * r (ix2 k (i 1)) := by
  simp only [Host.dotGeneral]
  rw [Ideal.dotGeneral_apply, ← Equiv.sum_comp (contrEquiv1 dot_S64x128_S128x64_S64x64_1_0_0_1_n_n 128 rfl rfl).symm]
  refine Finset.sum_congr rfl fun k _ => ?_
  have hk := contrEquiv1_symm_val dot_S64x128_S128x64_S64x64_1_0_0_1_n_n 128 rfl rfl k
  have el : dot_S64x128_S128x64_S64x64_1_0_0_1_n_n.lhsIdx i ((contrEquiv1 dot_S64x128_S128x64_S64x64_1_0_0_1_n_n 128 rfl rfl).symm k) = ix2 (i 0) k := funext fun a => Fin.ext (by
    match a with
    | ⟨0, _⟩ => exact dotG1_l0 _ _
    | ⟨1, _⟩ => exact (dotG1_l1 _ _).trans hk)
  have er : dot_S64x128_S128x64_S64x64_1_0_0_1_n_n.rhsIdx i ((contrEquiv1 dot_S64x128_S128x64_S64x64_1_0_0_1_n_n 128 rfl rfl).symm k) = ix2 k (i 1) := funext fun a => Fin.ext (by
    match a with
    | ⟨0, _⟩ => exact (dotG1_r0 _ _).trans hk
    | ⟨1, _⟩ => exact dotG1_r1 _ _)
  rw [el, er] <;> rfl

/-! ### The graph head's second dense map: [64,64] by [64,2] -/

/-- The left operand's index at output entry i and contraction index q: its row is the entry's row. -/
theorem dotG2_l0 (i : S64x2.Idx) (q : dot_S64x64_S64x2_S64x2_1_0_0_1_n_n.contr.Idx) :
    (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by
        show ¬((0 : Fin 2) ∈ ([] : List (Fin 2))); decide),
    dif_pos (show (0 : Fin S64x64.rank) ∈ dot_S64x64_S64x2_S64x2_1_0_0_1_n_n.lhsNonContracting by
        show (0 : Fin 2) ∈ ([0] : List (Fin 2)); decide)]
  rfl
/-- Its column is the contraction index. -/
theorem dotG2_l1 (i : S64x2.Idx) (q : dot_S64x64_S64x2_S64x2_1_0_0_1_n_n.contr.Idx) :
    (dot_S64x64_S64x2_S64x2_1_0_0_1_n_n.lhsIdx i q 1).val = (q ⟨0, Nat.one_pos⟩).val :=
  dot_S64x64_S64x2_S64x2_1_0_0_1_n_n.lhsIdx_val_of_single rfl i q
/-- The right operand's row is the contraction index. -/
theorem dotG2_r0 (i : S64x2.Idx) (q : dot_S64x64_S64x2_S64x2_1_0_0_1_n_n.contr.Idx) :
    (dot_S64x64_S64x2_S64x2_1_0_0_1_n_n.rhsIdx i q 0).val = (q ⟨0, Nat.one_pos⟩).val :=
  dot_S64x64_S64x2_S64x2_1_0_0_1_n_n.rhsIdx_val_of_single rfl i q
/-- Its column is the entry's column. -/
theorem dotG2_r1 (i : S64x2.Idx) (q : dot_S64x64_S64x2_S64x2_1_0_0_1_n_n.contr.Idx) :
    (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by
        show ¬((1 : Fin 2) ∈ ([] : List (Fin 2))); decide),
    dif_pos (show (1 : Fin S64x2.rank) ∈ dot_S64x64_S64x2_S64x2_1_0_0_1_n_n.rhsNonContracting by
        show (1 : Fin 2) ∈ ([1] : List (Fin 2)); decide)]
  rfl
/-- The contraction at an entry: the finite sum over the contracted axis of left[n,k] * right[k,j]. The sum over the
    contraction's one-axis index set is re-indexed along its bijection with the axis. -/
theorem dotG2_apply (l : FVec Ideal S64x64 .f32) (r : FVec Ideal S64x2 .f32) (i : S64x2.Idx) :
    Host.dotGeneral dot_S64x64_S64x2_S64x2_1_0_0_1_n_n none l r i = ∑ k : Fin 64, l (ix2 (i 0) k) * r (ix2 k (i 1)) := by
  simp only [Host.dotGeneral]
  rw [Ideal.dotGeneral_apply, ← Equiv.sum_comp (contrEquiv1 dot_S64x64_S64x2_S64x2_1_0_0_1_n_n 64 rfl rfl).symm]
  refine Finset.sum_congr rfl fun k _ => ?_
  have hk := contrEquiv1_symm_val dot_S64x64_S64x2_S64x2_1_0_0_1_n_n 64 rfl rfl k
  have el : dot_S64x64_S64x2_S64x2_1_0_0_1_n_n.lhsIdx i ((contrEquiv1 dot_S64x64_S64x2_S64x2_1_0_0_1_n_n 64 rfl rfl).symm k) = ix2 (i 0) k := funext fun a => Fin.ext (by
    match a with
    | ⟨0, _⟩ => exact dotG2_l0 _ _
    | ⟨1, _⟩ => exact (dotG2_l1 _ _).trans hk)
  have er : dot_S64x64_S64x2_S64x2_1_0_0_1_n_n.rhsIdx i ((contrEquiv1 dot_S64x64_S64x2_S64x2_1_0_0_1_n_n 64 rfl rfl).symm k) = ix2 k (i 1) := funext fun a => Fin.ext (by
    match a with
    | ⟨0, _⟩ => exact (dotG2_r0 _ _).trans hk
    | ⟨1, _⟩ => exact dotG2_r1 _ _)
  rw [el, er] <;> rfl

/-! ### The stages -/

/-- A layer's dense map is the specification's: entry (n, j) is the sum over k of h[n,k] * wT[k,j]. -/
theorem dot_lin (h : FVec Ideal S100000x128 .f32) (wT : FVec Ideal S128x128 .f32) :
    Host.dotGeneral dot_S100000x128_S128x128_S100000x128_1_0_0_1_n_n none h wT = GcnSpec.lin h wT := by
  funext i
  rw [dotL_apply]
  rfl

/-! ### Bias, normalisation and rectifier -/

/-- The normalisation stage of a layer, as the reference composes it from host operations, is the specification's entrywise
    map: each of the five row parameters is read at the entry's column; the variance guard and the rectifier's threshold
    are constant words. -/
theorem bn_host (a : FVec Ideal S100000x128 .f32) (b mean var gamma beta : FVec Ideal S128 .f32) :
    maximumf
        (addf
          (mulf
            (mulf
              (subf
                (addf a (broadcastInDim S100000x128 ![0, 1] bcast_S1x128_S100000x128_0_1 (broadcastInDim S1x128 ![1] bcast_S128_S1x128_1 b)))
                (broadcastInDim S100000x128 ![0, 1] bcast_S1x128_S100000x128_0_1 (broadcastInDim S1x128 ![1] bcast_S128_S1x128_1 mean)))
              (broadcastInDim S100000x128 ![0, 1] bcast_S1x128_S100000x128_0_1 (broadcastInDim S1x128 ![1] bcast_S128_S1x128_1
                (Host.rsqrt (addf var (broadcastInDim S128 ![] bcast_S_S128 (constant S_ .f32 0x3727C5AC#32)))))))
            (broadcastInDim S100000x128 ![0, 1] bcast_S1x128_S100000x128_0_1 (broadcastInDim S1x128 ![1] bcast_S128_S1x128_1 gamma)))
          (broadcastInDim S100000x128 ![0, 1] bcast_S1x128_S100000x128_0_1 (broadcastInDim S1x128 ![1] bcast_S128_S1x128_1 beta)))
        (broadcastInDim S100000x128 ![] bcast_S_S100000x128 (constant S_ .f32 0x00000000#32))
      = GcnSpec.bnrelu a (GcnSpec.row b) (GcnSpec.row gamma) (GcnSpec.row beta) (GcnSpec.row mean) (GcnSpec.row var) := by
  funext i
  have hrow := fun (u : FVec Ideal S128 .f32) => bcast_row_apply (M := 100000) (N := 128) (by decide) bcast_S128_S1x128_1 bcast_S1x128_S100000x128_0_1 u i
  rw [maximumf_apply, addf_apply, mulf_apply, mulf_apply, subf_apply, addf_apply, hrow, hrow, hrow, hrow, hrow,
    bcast_const_apply]
  show max ((a i + b (ix1 (i 1)) - mean (ix1 (i 1)))
      * Ideal.rsqrt (var (ix1 (i 1)) + broadcastInDim S128 ![] bcast_S_S128 (constant (F := Ideal) S_ .f32 0x3727C5AC#32) (ix1 (i 1)))
      * gamma (ix1 (i 1)) + beta (ix1 (i 1))) (Ideal.ofBits .f32 0x00000000#32) = _
  rw [bcast_const_apply]
  rfl

/-! ### The heads -/

/-- The node head, as the reference composes it: two dense maps with a rectifier between them; the hidden bias is read at the
    hidden unit and the output bias at the output column. -/
theorem mlp_node (x : FVec Ideal S100000x128 .f32) (w1T : FVec Ideal S128x64 .f32) (b1 : FVec Ideal S64 .f32)
    (w2T : FVec Ideal S64x2 .f32) (b2 : FVec Ideal S2 .f32) :
    addf
        (Host.dotGeneral dot_S100000x64_S64x2_S100000x2_1_0_0_1_n_n none
          (maximumf
            (addf (Host.dotGeneral dot_S100000x128_S128x64_S100000x64_1_0_0_1_n_n none x w1T)
              (broadcastInDim S100000x64 ![0, 1] bcast_S1x64_S100000x64_0_1 (broadcastInDim S1x64 ![1] bcast_S64_S1x64_1 b1)))
            (broadcastInDim S100000x64 ![] bcast_S_S100000x64 (constant S_ .f32 0x00000000#32)))
          w2T)
        (broadcastInDim S100000x2 ![0, 1] bcast_S1x2_S100000x2_0_1 (broadcastInDim S1x2 ![1] bcast_S2_S1x2_1 b2))
      = GcnSpec.mlp (n := 100000) x w1T (GcnSpec.row b1) w2T (GcnSpec.row b2) := by
  funext i
  have hrow2 := fun (u : FVec Ideal S2 .f32) => bcast_row_apply (M := 100000) (N := 2) (by decide) bcast_S2_S1x2_1 bcast_S1x2_S100000x2_0_1 u i
  rw [addf_apply, dotN2_apply, hrow2]
  simp only [GcnSpec.mlp]
  refine congrArg₂ (· + ·) (Finset.sum_congr rfl fun j _ => ?_) rfl
  have hrow64 := fun (u : FVec Ideal S64 .f32) =>
    bcast_row_apply (M := 100000) (N := 64) (by decide) bcast_S64_S1x64_1 bcast_S1x64_S100000x64_0_1 u (ix2 (i 0) j)
  rw [maximumf_apply, addf_apply, dotN1_apply, hrow64, bcast_const_apply]
  rfl

/-- The graph head: the same composition on the 64 pooled rows. -/
theorem mlp_graph (x : FVec Ideal S64x128 .f32) (w1T : FVec Ideal S128x64 .f32) (b1 : FVec Ideal S64 .f32)
    (w2T : FVec Ideal S64x2 .f32) (b2 : FVec Ideal S2 .f32) :
    addf
        (Host.dotGeneral dot_S64x64_S64x2_S64x2_1_0_0_1_n_n none
          (maximumf
            (addf (Host.dotGeneral dot_S64x128_S128x64_S64x64_1_0_0_1_n_n none x w1T)
              (broadcastInDim S64x64 ![0, 1] bcast_S1x64_S64x64_0_1 (broadcastInDim S1x64 ![1] bcast_S64_S1x64_1 b1)))
            (broadcastInDim S64x64 ![] bcast_S_S64x64 (constant S_ .f32 0x00000000#32)))
          w2T)
        (broadcastInDim S64x2 ![0, 1] bcast_S1x2_S64x2_0_1 (broadcastInDim S1x2 ![1] bcast_S2_S1x2_1 b2))
      = GcnSpec.mlp (n := 64) x w1T (GcnSpec.row b1) w2T (GcnSpec.row b2) := by
  funext i
  have hrow2 := fun (u : FVec Ideal S2 .f32) => bcast_row_apply (M := 64) (N := 2) (by decide) bcast_S2_S1x2_1 bcast_S1x2_S64x2_0_1 u i
  rw [addf_apply, dotG2_apply, hrow2]
  simp only [GcnSpec.mlp]
  refine congrArg₂ (· + ·) (Finset.sum_congr rfl fun j _ => ?_) rfl
  have hrow64 := fun (u : FVec Ideal S64 .f32) =>
    bcast_row_apply (M := 64) (N := 64) (by decide) bcast_S64_S1x64_1 bcast_S1x64_S64x64_0_1 u (ix2 (i 0) j)
  rw [maximumf_apply, addf_apply, dotG1_apply, hrow64, bcast_const_apply]
  rfl

end Operations

/-! ## The stage definitions are the specification -/

section Stages

open Cert.ReferenceIdeal.Gen

/-- A layer's dense map. -/
theorem dotl_eq (h : FVec Ideal S100000x128 .f32) (wT : FVec Ideal S128x128 .f32) :
    Gcn.dotl h wT = GcnSpec.lin h wT := by
  unfold Gcn.dotl
  exact dot_lin h wT

/-- A layer's bias, normalisation and rectifier. -/
theorem bnh_eq (a : FVec Ideal S100000x128 .f32) (b : FVec Ideal S128 .f32) (mean : FVec Ideal S128 .f32)
    (var : FVec Ideal S128 .f32) (gamma : FVec Ideal S128 .f32) (beta : FVec Ideal S128 .f32) :
    Gcn.bnh a b mean var gamma beta
      = GcnSpec.bnrelu a (GcnSpec.row b) (GcnSpec.row gamma) (GcnSpec.row beta) (GcnSpec.row mean) (GcnSpec.row var) := by
  unfold Gcn.bnh
  exact bn_host a b mean var gamma beta

/-- The node head. -/
theorem nodeh_eq (x : FVec Ideal S100000x128 .f32) (w1T : FVec Ideal S128x64 .f32) (b1 : FVec Ideal S64 .f32)
    (w2T : FVec Ideal S64x2 .f32) (b2 : FVec Ideal S2 .f32) :
    Gcn.nodeh x w1T b1 w2T b2 = GcnSpec.mlp (n := 100000) x w1T (GcnSpec.row b1) w2T (GcnSpec.row b2) := by
  unfold Gcn.nodeh
  exact mlp_node x w1T b1 w2T b2

/-- The graph head. -/
theorem graphh_eq (x : FVec Ideal S64x128 .f32) (w1T : FVec Ideal S128x64 .f32) (b1 : FVec Ideal S64 .f32)
    (w2T : FVec Ideal S64x2 .f32) (b2 : FVec Ideal S2 .f32) :
    Gcn.graphh x w1T b1 w2T b2 = GcnSpec.mlp (n := 64) x w1T (GcnSpec.row b1) w2T (GcnSpec.row b2) := by
  unfold Gcn.graphh
  exact mlp_graph x w1T b1 w2T b2

end Stages

end Cert.Gcn.Pure

end
-- ==== Proof.KKeep.lean ====
/-
  Buffers that a stretch of the kernel program leaves alone.

  The contents at a segment boundary are a fold from the launch memory.  A host stretch changes only the buffers its
  operations write; a tiled region changes only its own arrays.  So a buffer written once (the edge endpoints, the edge
  norm) or never (an argument) is read at every later boundary with the contents it had when it was written, or at
  launch.  Each statement below walks one buffer across the boundaries between where it is written and where it is read.
-/
import proofs.«104500_j56891136803554_2_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

/-- A host stretch leaves a buffer that none of its operations writes. -/
macro "host_keep" : tactic => `(tactic| (
  refine StableHlo.after_of_forall_not_mem _ _ (List.forall_iff_forall_mem.mp ?_)
  simp only [hostOps0, hostOps0_1, hostOps0_2, hostOps1, hostOps2, hostOps3, hostOps4, hostOps5, hostOps6, hostOps7,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

theorem dn_v3_4 : W4 m ρ c (Proc.devRef .tc main_v3) = W3 m ρ c (Proc.devRef .tc main_v3) := (W4_of_ne m ρ c main_v3 (by decide))
theorem dn_v3_5 : W5 m ρ c (Proc.devRef .tc main_v3) = W3 m ρ c (Proc.devRef .tc main_v3) := (show W5 m ρ c (Proc.devRef .tc main_v3) = W4 m ρ c (Proc.devRef .tc main_v3) by host_keep).trans (dn_v3_4 m ρ c)
theorem dn_v3_6 : W6 m ρ c (Proc.devRef .tc main_v3) = W3 m ρ c (Proc.devRef .tc main_v3) := (W6_of_ne m ρ c main_v3 (by decide)).trans (dn_v3_5 m ρ c)
theorem dn_v3_7 : W7 m ρ c (Proc.devRef .tc main_v3) = W3 m ρ c (Proc.devRef .tc main_v3) := (show W7 m ρ c (Proc.devRef .tc main_v3) = W6 m ρ c (Proc.devRef .tc main_v3) by host_keep).trans (dn_v3_6 m ρ c)
theorem dn_v3_8 : W8 m ρ c (Proc.devRef .tc main_v3) = W3 m ρ c (Proc.devRef .tc main_v3) := (W8_of_ne m ρ c main_v3 (by decide)).trans (dn_v3_7 m ρ c)
theorem dn_v3_9 : W9 m ρ c (Proc.devRef .tc main_v3) = W3 m ρ c (Proc.devRef .tc main_v3) := (show W9 m ρ c (Proc.devRef .tc main_v3) = W8 m ρ c (Proc.devRef .tc main_v3) by host_keep).trans (dn_v3_8 m ρ c)
theorem dn_v3_10 : W10 m ρ c (Proc.devRef .tc main_v3) = W3 m ρ c (Proc.devRef .tc main_v3) := (W10_of_ne m ρ c main_v3 (by decide)).trans (dn_v3_9 m ρ c)
theorem dn_v3_11 : W11 m ρ c (Proc.devRef .tc main_v3) = W3 m ρ c (Proc.devRef .tc main_v3) := (show W11 m ρ c (Proc.devRef .tc main_v3) = W10 m ρ c (Proc.devRef .tc main_v3) by host_keep).trans (dn_v3_10 m ρ c)
theorem dn_v3_12 : W12 m ρ c (Proc.devRef .tc main_v3) = W3 m ρ c (Proc.devRef .tc main_v3) := (W12_of_ne m ρ c main_v3 (by decide)).trans (dn_v3_11 m ρ c)
theorem dn_v6_4 : W4 m ρ c (Proc.devRef .tc main_v6) = W3 m ρ c (Proc.devRef .tc main_v6) := (W4_of_ne m ρ c main_v6 (by decide))
theorem dn_v6_5 : W5 m ρ c (Proc.devRef .tc main_v6) = W3 m ρ c (Proc.devRef .tc main_v6) := (show W5 m ρ c (Proc.devRef .tc main_v6) = W4 m ρ c (Proc.devRef .tc main_v6) by host_keep).trans (dn_v6_4 m ρ c)
theorem dn_v6_6 : W6 m ρ c (Proc.devRef .tc main_v6) = W3 m ρ c (Proc.devRef .tc main_v6) := (W6_of_ne m ρ c main_v6 (by decide)).trans (dn_v6_5 m ρ c)
theorem dn_v6_7 : W7 m ρ c (Proc.devRef .tc main_v6) = W3 m ρ c (Proc.devRef .tc main_v6) := (show W7 m ρ c (Proc.devRef .tc main_v6) = W6 m ρ c (Proc.devRef .tc main_v6) by host_keep).trans (dn_v6_6 m ρ c)
theorem dn_v6_8 : W8 m ρ c (Proc.devRef .tc main_v6) = W3 m ρ c (Proc.devRef .tc main_v6) := (W8_of_ne m ρ c main_v6 (by decide)).trans (dn_v6_7 m ρ c)
theorem dn_v6_9 : W9 m ρ c (Proc.devRef .tc main_v6) = W3 m ρ c (Proc.devRef .tc main_v6) := (show W9 m ρ c (Proc.devRef .tc main_v6) = W8 m ρ c (Proc.devRef .tc main_v6) by host_keep).trans (dn_v6_8 m ρ c)
theorem dn_v6_10 : W10 m ρ c (Proc.devRef .tc main_v6) = W3 m ρ c (Proc.devRef .tc main_v6) := (W10_of_ne m ρ c main_v6 (by decide)).trans (dn_v6_9 m ρ c)
theorem dn_v6_11 : W11 m ρ c (Proc.devRef .tc main_v6) = W3 m ρ c (Proc.devRef .tc main_v6) := (show W11 m ρ c (Proc.devRef .tc main_v6) = W10 m ρ c (Proc.devRef .tc main_v6) by host_keep).trans (dn_v6_10 m ρ c)
theorem dn_v6_12 : W12 m ρ c (Proc.devRef .tc main_v6) = W3 m ρ c (Proc.devRef .tc main_v6) := (W12_of_ne m ρ c main_v6 (by decide)).trans (dn_v6_11 m ρ c)
theorem dn_v29_4 : W4 m ρ c (Proc.devRef .tc main_v29) = W3 m ρ c (Proc.devRef .tc main_v29) := (W4_of_ne m ρ c main_v29 (by decide))
theorem dn_v29_5 : W5 m ρ c (Proc.devRef .tc main_v29) = W3 m ρ c (Proc.devRef .tc main_v29) := (show W5 m ρ c (Proc.devRef .tc main_v29) = W4 m ρ c (Proc.devRef .tc main_v29) by host_keep).trans (dn_v29_4 m ρ c)
theorem dn_v29_6 : W6 m ρ c (Proc.devRef .tc main_v29) = W3 m ρ c (Proc.devRef .tc main_v29) := (W6_of_ne m ρ c main_v29 (by decide)).trans (dn_v29_5 m ρ c)
theorem dn_v29_7 : W7 m ρ c (Proc.devRef .tc main_v29) = W3 m ρ c (Proc.devRef .tc main_v29) := (show W7 m ρ c (Proc.devRef .tc main_v29) = W6 m ρ c (Proc.devRef .tc main_v29) by host_keep).trans (dn_v29_6 m ρ c)
theorem dn_v29_8 : W8 m ρ c (Proc.devRef .tc main_v29) = W3 m ρ c (Proc.devRef .tc main_v29) := (W8_of_ne m ρ c main_v29 (by decide)).trans (dn_v29_7 m ρ c)
theorem dn_v29_9 : W9 m ρ c (Proc.devRef .tc main_v29) = W3 m ρ c (Proc.devRef .tc main_v29) := (show W9 m ρ c (Proc.devRef .tc main_v29) = W8 m ρ c (Proc.devRef .tc main_v29) by host_keep).trans (dn_v29_8 m ρ c)
theorem dn_v29_10 : W10 m ρ c (Proc.devRef .tc main_v29) = W3 m ρ c (Proc.devRef .tc main_v29) := (W10_of_ne m ρ c main_v29 (by decide)).trans (dn_v29_9 m ρ c)
theorem dn_v29_11 : W11 m ρ c (Proc.devRef .tc main_v29) = W3 m ρ c (Proc.devRef .tc main_v29) := (show W11 m ρ c (Proc.devRef .tc main_v29) = W10 m ρ c (Proc.devRef .tc main_v29) by host_keep).trans (dn_v29_10 m ρ c)
theorem dn_v29_12 : W12 m ρ c (Proc.devRef .tc main_v29) = W3 m ρ c (Proc.devRef .tc main_v29) := (W12_of_ne m ρ c main_v29 (by decide)).trans (dn_v29_11 m ρ c)
theorem dn_arg4_1 : W1 m ρ c (Proc.devRef .tc main_arg4) = W0 m ρ c (Proc.devRef .tc main_arg4) := (show W1 m ρ c (Proc.devRef .tc main_arg4) = W0 m ρ c (Proc.devRef .tc main_arg4) by host_keep)
theorem dn_arg4_2 : W2 m ρ c (Proc.devRef .tc main_arg4) = W0 m ρ c (Proc.devRef .tc main_arg4) := (show W2 m ρ c (Proc.devRef .tc main_arg4) = W1 m ρ c (Proc.devRef .tc main_arg4) by host_keep).trans (dn_arg4_1 m ρ c)
theorem dn_arg4_3 : W3 m ρ c (Proc.devRef .tc main_arg4) = W0 m ρ c (Proc.devRef .tc main_arg4) := (show W3 m ρ c (Proc.devRef .tc main_arg4) = W2 m ρ c (Proc.devRef .tc main_arg4) by host_keep).trans (dn_arg4_2 m ρ c)
theorem dn_arg4_4 : W4 m ρ c (Proc.devRef .tc main_arg4) = W0 m ρ c (Proc.devRef .tc main_arg4) := (W4_of_ne m ρ c main_arg4 (by decide)).trans (dn_arg4_3 m ρ c)
theorem dn_arg4_5 : W5 m ρ c (Proc.devRef .tc main_arg4) = W0 m ρ c (Proc.devRef .tc main_arg4) := (show W5 m ρ c (Proc.devRef .tc main_arg4) = W4 m ρ c (Proc.devRef .tc main_arg4) by host_keep).trans (dn_arg4_4 m ρ c)
theorem dn_arg4_6 : W6 m ρ c (Proc.devRef .tc main_arg4) = W0 m ρ c (Proc.devRef .tc main_arg4) := (W6_of_ne m ρ c main_arg4 (by decide)).trans (dn_arg4_5 m ρ c)
theorem dn_arg4_7 : W7 m ρ c (Proc.devRef .tc main_arg4) = W0 m ρ c (Proc.devRef .tc main_arg4) := (show W7 m ρ c (Proc.devRef .tc main_arg4) = W6 m ρ c (Proc.devRef .tc main_arg4) by host_keep).trans (dn_arg4_6 m ρ c)
theorem dn_arg4_8 : W8 m ρ c (Proc.devRef .tc main_arg4) = W0 m ρ c (Proc.devRef .tc main_arg4) := (W8_of_ne m ρ c main_arg4 (by decide)).trans (dn_arg4_7 m ρ c)
theorem dn_arg4_9 : W9 m ρ c (Proc.devRef .tc main_arg4) = W0 m ρ c (Proc.devRef .tc main_arg4) := (show W9 m ρ c (Proc.devRef .tc main_arg4) = W8 m ρ c (Proc.devRef .tc main_arg4) by host_keep).trans (dn_arg4_8 m ρ c)
theorem dn_arg4_10 : W10 m ρ c (Proc.devRef .tc main_arg4) = W0 m ρ c (Proc.devRef .tc main_arg4) := (W10_of_ne m ρ c main_arg4 (by decide)).trans (dn_arg4_9 m ρ c)
theorem dn_arg4_11 : W11 m ρ c (Proc.devRef .tc main_arg4) = W0 m ρ c (Proc.devRef .tc main_arg4) := (show W11 m ρ c (Proc.devRef .tc main_arg4) = W10 m ρ c (Proc.devRef .tc main_arg4) by host_keep).trans (dn_arg4_10 m ρ c)
theorem dn_arg4_12 : W12 m ρ c (Proc.devRef .tc main_arg4) = W0 m ρ c (Proc.devRef .tc main_arg4) := (W12_of_ne m ρ c main_arg4 (by decide)).trans (dn_arg4_11 m ρ c)
theorem dn_arg5_1 : W1 m ρ c (Proc.devRef .tc main_arg5) = W0 m ρ c (Proc.devRef .tc main_arg5) := (show W1 m ρ c (Proc.devRef .tc main_arg5) = W0 m ρ c (Proc.devRef .tc main_arg5) by host_keep)
theorem dn_arg5_2 : W2 m ρ c (Proc.devRef .tc main_arg5) = W0 m ρ c (Proc.devRef .tc main_arg5) := (show W2 m ρ c (Proc.devRef .tc main_arg5) = W1 m ρ c (Proc.devRef .tc main_arg5) by host_keep).trans (dn_arg5_1 m ρ c)
theorem dn_arg5_3 : W3 m ρ c (Proc.devRef .tc main_arg5) = W0 m ρ c (Proc.devRef .tc main_arg5) := (show W3 m ρ c (Proc.devRef .tc main_arg5) = W2 m ρ c (Proc.devRef .tc main_arg5) by host_keep).trans (dn_arg5_2 m ρ c)
theorem dn_arg5_4 : W4 m ρ c (Proc.devRef .tc main_arg5) = W0 m ρ c (Proc.devRef .tc main_arg5) := (W4_of_ne m ρ c main_arg5 (by decide)).trans (dn_arg5_3 m ρ c)
theorem dn_arg5_5 : W5 m ρ c (Proc.devRef .tc main_arg5) = W0 m ρ c (Proc.devRef .tc main_arg5) := (show W5 m ρ c (Proc.devRef .tc main_arg5) = W4 m ρ c (Proc.devRef .tc main_arg5) by host_keep).trans (dn_arg5_4 m ρ c)
theorem dn_arg5_6 : W6 m ρ c (Proc.devRef .tc main_arg5) = W0 m ρ c (Proc.devRef .tc main_arg5) := (W6_of_ne m ρ c main_arg5 (by decide)).trans (dn_arg5_5 m ρ c)
theorem dn_arg5_7 : W7 m ρ c (Proc.devRef .tc main_arg5) = W0 m ρ c (Proc.devRef .tc main_arg5) := (show W7 m ρ c (Proc.devRef .tc main_arg5) = W6 m ρ c (Proc.devRef .tc main_arg5) by host_keep).trans (dn_arg5_6 m ρ c)
theorem dn_arg5_8 : W8 m ρ c (Proc.devRef .tc main_arg5) = W0 m ρ c (Proc.devRef .tc main_arg5) := (W8_of_ne m ρ c main_arg5 (by decide)).trans (dn_arg5_7 m ρ c)
theorem dn_arg5_9 : W9 m ρ c (Proc.devRef .tc main_arg5) = W0 m ρ c (Proc.devRef .tc main_arg5) := (show W9 m ρ c (Proc.devRef .tc main_arg5) = W8 m ρ c (Proc.devRef .tc main_arg5) by host_keep).trans (dn_arg5_8 m ρ c)
theorem dn_arg5_10 : W10 m ρ c (Proc.devRef .tc main_arg5) = W0 m ρ c (Proc.devRef .tc main_arg5) := (W10_of_ne m ρ c main_arg5 (by decide)).trans (dn_arg5_9 m ρ c)
theorem dn_arg5_11 : W11 m ρ c (Proc.devRef .tc main_arg5) = W0 m ρ c (Proc.devRef .tc main_arg5) := (show W11 m ρ c (Proc.devRef .tc main_arg5) = W10 m ρ c (Proc.devRef .tc main_arg5) by host_keep).trans (dn_arg5_10 m ρ c)
theorem dn_arg5_12 : W12 m ρ c (Proc.devRef .tc main_arg5) = W0 m ρ c (Proc.devRef .tc main_arg5) := (W12_of_ne m ρ c main_arg5 (by decide)).trans (dn_arg5_11 m ρ c)
theorem dn_arg6_1 : W1 m ρ c (Proc.devRef .tc main_arg6) = W0 m ρ c (Proc.devRef .tc main_arg6) := (show W1 m ρ c (Proc.devRef .tc main_arg6) = W0 m ρ c (Proc.devRef .tc main_arg6) by host_keep)
theorem dn_arg6_2 : W2 m ρ c (Proc.devRef .tc main_arg6) = W0 m ρ c (Proc.devRef .tc main_arg6) := (show W2 m ρ c (Proc.devRef .tc main_arg6) = W1 m ρ c (Proc.devRef .tc main_arg6) by host_keep).trans (dn_arg6_1 m ρ c)
theorem dn_arg6_3 : W3 m ρ c (Proc.devRef .tc main_arg6) = W0 m ρ c (Proc.devRef .tc main_arg6) := (show W3 m ρ c (Proc.devRef .tc main_arg6) = W2 m ρ c (Proc.devRef .tc main_arg6) by host_keep).trans (dn_arg6_2 m ρ c)
theorem dn_arg6_4 : W4 m ρ c (Proc.devRef .tc main_arg6) = W0 m ρ c (Proc.devRef .tc main_arg6) := (W4_of_ne m ρ c main_arg6 (by decide)).trans (dn_arg6_3 m ρ c)
theorem dn_arg6_5 : W5 m ρ c (Proc.devRef .tc main_arg6) = W0 m ρ c (Proc.devRef .tc main_arg6) := (show W5 m ρ c (Proc.devRef .tc main_arg6) = W4 m ρ c (Proc.devRef .tc main_arg6) by host_keep).trans (dn_arg6_4 m ρ c)
theorem dn_arg6_6 : W6 m ρ c (Proc.devRef .tc main_arg6) = W0 m ρ c (Proc.devRef .tc main_arg6) := (W6_of_ne m ρ c main_arg6 (by decide)).trans (dn_arg6_5 m ρ c)
theorem dn_arg6_7 : W7 m ρ c (Proc.devRef .tc main_arg6) = W0 m ρ c (Proc.devRef .tc main_arg6) := (show W7 m ρ c (Proc.devRef .tc main_arg6) = W6 m ρ c (Proc.devRef .tc main_arg6) by host_keep).trans (dn_arg6_6 m ρ c)
theorem dn_arg6_8 : W8 m ρ c (Proc.devRef .tc main_arg6) = W0 m ρ c (Proc.devRef .tc main_arg6) := (W8_of_ne m ρ c main_arg6 (by decide)).trans (dn_arg6_7 m ρ c)
theorem dn_arg6_9 : W9 m ρ c (Proc.devRef .tc main_arg6) = W0 m ρ c (Proc.devRef .tc main_arg6) := (show W9 m ρ c (Proc.devRef .tc main_arg6) = W8 m ρ c (Proc.devRef .tc main_arg6) by host_keep).trans (dn_arg6_8 m ρ c)
theorem dn_arg6_10 : W10 m ρ c (Proc.devRef .tc main_arg6) = W0 m ρ c (Proc.devRef .tc main_arg6) := (W10_of_ne m ρ c main_arg6 (by decide)).trans (dn_arg6_9 m ρ c)
theorem dn_arg6_11 : W11 m ρ c (Proc.devRef .tc main_arg6) = W0 m ρ c (Proc.devRef .tc main_arg6) := (show W11 m ρ c (Proc.devRef .tc main_arg6) = W10 m ρ c (Proc.devRef .tc main_arg6) by host_keep).trans (dn_arg6_10 m ρ c)
theorem dn_arg6_12 : W12 m ρ c (Proc.devRef .tc main_arg6) = W0 m ρ c (Proc.devRef .tc main_arg6) := (W12_of_ne m ρ c main_arg6 (by decide)).trans (dn_arg6_11 m ρ c)
theorem dn_arg7_1 : W1 m ρ c (Proc.devRef .tc main_arg7) = W0 m ρ c (Proc.devRef .tc main_arg7) := (show W1 m ρ c (Proc.devRef .tc main_arg7) = W0 m ρ c (Proc.devRef .tc main_arg7) by host_keep)
theorem dn_arg7_2 : W2 m ρ c (Proc.devRef .tc main_arg7) = W0 m ρ c (Proc.devRef .tc main_arg7) := (show W2 m ρ c (Proc.devRef .tc main_arg7) = W1 m ρ c (Proc.devRef .tc main_arg7) by host_keep).trans (dn_arg7_1 m ρ c)
theorem dn_arg7_3 : W3 m ρ c (Proc.devRef .tc main_arg7) = W0 m ρ c (Proc.devRef .tc main_arg7) := (show W3 m ρ c (Proc.devRef .tc main_arg7) = W2 m ρ c (Proc.devRef .tc main_arg7) by host_keep).trans (dn_arg7_2 m ρ c)
theorem dn_arg7_4 : W4 m ρ c (Proc.devRef .tc main_arg7) = W0 m ρ c (Proc.devRef .tc main_arg7) := (W4_of_ne m ρ c main_arg7 (by decide)).trans (dn_arg7_3 m ρ c)
theorem dn_arg7_5 : W5 m ρ c (Proc.devRef .tc main_arg7) = W0 m ρ c (Proc.devRef .tc main_arg7) := (show W5 m ρ c (Proc.devRef .tc main_arg7) = W4 m ρ c (Proc.devRef .tc main_arg7) by host_keep).trans (dn_arg7_4 m ρ c)
theorem dn_arg7_6 : W6 m ρ c (Proc.devRef .tc main_arg7) = W0 m ρ c (Proc.devRef .tc main_arg7) := (W6_of_ne m ρ c main_arg7 (by decide)).trans (dn_arg7_5 m ρ c)
theorem dn_arg7_7 : W7 m ρ c (Proc.devRef .tc main_arg7) = W0 m ρ c (Proc.devRef .tc main_arg7) := (show W7 m ρ c (Proc.devRef .tc main_arg7) = W6 m ρ c (Proc.devRef .tc main_arg7) by host_keep).trans (dn_arg7_6 m ρ c)
theorem dn_arg7_8 : W8 m ρ c (Proc.devRef .tc main_arg7) = W0 m ρ c (Proc.devRef .tc main_arg7) := (W8_of_ne m ρ c main_arg7 (by decide)).trans (dn_arg7_7 m ρ c)
theorem dn_arg7_9 : W9 m ρ c (Proc.devRef .tc main_arg7) = W0 m ρ c (Proc.devRef .tc main_arg7) := (show W9 m ρ c (Proc.devRef .tc main_arg7) = W8 m ρ c (Proc.devRef .tc main_arg7) by host_keep).trans (dn_arg7_8 m ρ c)
theorem dn_arg7_10 : W10 m ρ c (Proc.devRef .tc main_arg7) = W0 m ρ c (Proc.devRef .tc main_arg7) := (W10_of_ne m ρ c main_arg7 (by decide)).trans (dn_arg7_9 m ρ c)
theorem dn_arg7_11 : W11 m ρ c (Proc.devRef .tc main_arg7) = W0 m ρ c (Proc.devRef .tc main_arg7) := (show W11 m ρ c (Proc.devRef .tc main_arg7) = W10 m ρ c (Proc.devRef .tc main_arg7) by host_keep).trans (dn_arg7_10 m ρ c)
theorem dn_arg7_12 : W12 m ρ c (Proc.devRef .tc main_arg7) = W0 m ρ c (Proc.devRef .tc main_arg7) := (W12_of_ne m ρ c main_arg7 (by decide)).trans (dn_arg7_11 m ρ c)
theorem dn_arg8_1 : W1 m ρ c (Proc.devRef .tc main_arg8) = W0 m ρ c (Proc.devRef .tc main_arg8) := (show W1 m ρ c (Proc.devRef .tc main_arg8) = W0 m ρ c (Proc.devRef .tc main_arg8) by host_keep)
theorem dn_arg8_2 : W2 m ρ c (Proc.devRef .tc main_arg8) = W0 m ρ c (Proc.devRef .tc main_arg8) := (show W2 m ρ c (Proc.devRef .tc main_arg8) = W1 m ρ c (Proc.devRef .tc main_arg8) by host_keep).trans (dn_arg8_1 m ρ c)
theorem dn_arg8_3 : W3 m ρ c (Proc.devRef .tc main_arg8) = W0 m ρ c (Proc.devRef .tc main_arg8) := (show W3 m ρ c (Proc.devRef .tc main_arg8) = W2 m ρ c (Proc.devRef .tc main_arg8) by host_keep).trans (dn_arg8_2 m ρ c)
theorem dn_arg8_4 : W4 m ρ c (Proc.devRef .tc main_arg8) = W0 m ρ c (Proc.devRef .tc main_arg8) := (W4_of_ne m ρ c main_arg8 (by decide)).trans (dn_arg8_3 m ρ c)
theorem dn_arg8_5 : W5 m ρ c (Proc.devRef .tc main_arg8) = W0 m ρ c (Proc.devRef .tc main_arg8) := (show W5 m ρ c (Proc.devRef .tc main_arg8) = W4 m ρ c (Proc.devRef .tc main_arg8) by host_keep).trans (dn_arg8_4 m ρ c)
theorem dn_arg8_6 : W6 m ρ c (Proc.devRef .tc main_arg8) = W0 m ρ c (Proc.devRef .tc main_arg8) := (W6_of_ne m ρ c main_arg8 (by decide)).trans (dn_arg8_5 m ρ c)
theorem dn_arg8_7 : W7 m ρ c (Proc.devRef .tc main_arg8) = W0 m ρ c (Proc.devRef .tc main_arg8) := (show W7 m ρ c (Proc.devRef .tc main_arg8) = W6 m ρ c (Proc.devRef .tc main_arg8) by host_keep).trans (dn_arg8_6 m ρ c)
theorem dn_arg8_8 : W8 m ρ c (Proc.devRef .tc main_arg8) = W0 m ρ c (Proc.devRef .tc main_arg8) := (W8_of_ne m ρ c main_arg8 (by decide)).trans (dn_arg8_7 m ρ c)
theorem dn_arg8_9 : W9 m ρ c (Proc.devRef .tc main_arg8) = W0 m ρ c (Proc.devRef .tc main_arg8) := (show W9 m ρ c (Proc.devRef .tc main_arg8) = W8 m ρ c (Proc.devRef .tc main_arg8) by host_keep).trans (dn_arg8_8 m ρ c)
theorem dn_arg8_10 : W10 m ρ c (Proc.devRef .tc main_arg8) = W0 m ρ c (Proc.devRef .tc main_arg8) := (W10_of_ne m ρ c main_arg8 (by decide)).trans (dn_arg8_9 m ρ c)
theorem dn_arg8_11 : W11 m ρ c (Proc.devRef .tc main_arg8) = W0 m ρ c (Proc.devRef .tc main_arg8) := (show W11 m ρ c (Proc.devRef .tc main_arg8) = W10 m ρ c (Proc.devRef .tc main_arg8) by host_keep).trans (dn_arg8_10 m ρ c)
theorem dn_arg8_12 : W12 m ρ c (Proc.devRef .tc main_arg8) = W0 m ρ c (Proc.devRef .tc main_arg8) := (W12_of_ne m ρ c main_arg8 (by decide)).trans (dn_arg8_11 m ρ c)
theorem dn_arg3_1 : W1 m ρ c (Proc.devRef .tc main_arg3) = W0 m ρ c (Proc.devRef .tc main_arg3) := (show W1 m ρ c (Proc.devRef .tc main_arg3) = W0 m ρ c (Proc.devRef .tc main_arg3) by host_keep)
theorem dn_arg3_2 : W2 m ρ c (Proc.devRef .tc main_arg3) = W0 m ρ c (Proc.devRef .tc main_arg3) := (show W2 m ρ c (Proc.devRef .tc main_arg3) = W1 m ρ c (Proc.devRef .tc main_arg3) by host_keep).trans (dn_arg3_1 m ρ c)
theorem dn_arg3_3 : W3 m ρ c (Proc.devRef .tc main_arg3) = W0 m ρ c (Proc.devRef .tc main_arg3) := (show W3 m ρ c (Proc.devRef .tc main_arg3) = W2 m ρ c (Proc.devRef .tc main_arg3) by host_keep).trans (dn_arg3_2 m ρ c)
theorem dn_arg3_4 : W4 m ρ c (Proc.devRef .tc main_arg3) = W0 m ρ c (Proc.devRef .tc main_arg3) := (W4_of_ne m ρ c main_arg3 (by decide)).trans (dn_arg3_3 m ρ c)
theorem dn_arg3_5 : W5 m ρ c (Proc.devRef .tc main_arg3) = W0 m ρ c (Proc.devRef .tc main_arg3) := (show W5 m ρ c (Proc.devRef .tc main_arg3) = W4 m ρ c (Proc.devRef .tc main_arg3) by host_keep).trans (dn_arg3_4 m ρ c)
theorem dn_arg3_6 : W6 m ρ c (Proc.devRef .tc main_arg3) = W0 m ρ c (Proc.devRef .tc main_arg3) := (W6_of_ne m ρ c main_arg3 (by decide)).trans (dn_arg3_5 m ρ c)
theorem dn_arg3_7 : W7 m ρ c (Proc.devRef .tc main_arg3) = W0 m ρ c (Proc.devRef .tc main_arg3) := (show W7 m ρ c (Proc.devRef .tc main_arg3) = W6 m ρ c (Proc.devRef .tc main_arg3) by host_keep).trans (dn_arg3_6 m ρ c)
theorem dn_arg3_8 : W8 m ρ c (Proc.devRef .tc main_arg3) = W0 m ρ c (Proc.devRef .tc main_arg3) := (W8_of_ne m ρ c main_arg3 (by decide)).trans (dn_arg3_7 m ρ c)
theorem dn_arg3_9 : W9 m ρ c (Proc.devRef .tc main_arg3) = W0 m ρ c (Proc.devRef .tc main_arg3) := (show W9 m ρ c (Proc.devRef .tc main_arg3) = W8 m ρ c (Proc.devRef .tc main_arg3) by host_keep).trans (dn_arg3_8 m ρ c)
theorem dn_arg3_10 : W10 m ρ c (Proc.devRef .tc main_arg3) = W0 m ρ c (Proc.devRef .tc main_arg3) := (W10_of_ne m ρ c main_arg3 (by decide)).trans (dn_arg3_9 m ρ c)
theorem up_arg9_17 : W17 m ρ c (Proc.devRef .tc main_arg9) = W18 m ρ c (Proc.devRef .tc main_arg9) := (W18_of_ne m ρ c main_arg9 (by decide)).symm
theorem up_arg9_16 : W16 m ρ c (Proc.devRef .tc main_arg9) = W18 m ρ c (Proc.devRef .tc main_arg9) := (show W17 m ρ c (Proc.devRef .tc main_arg9) = W16 m ρ c (Proc.devRef .tc main_arg9) by host_keep).symm.trans (up_arg9_17 m ρ c)
theorem up_arg9_15 : W15 m ρ c (Proc.devRef .tc main_arg9) = W18 m ρ c (Proc.devRef .tc main_arg9) := (W16_of_ne m ρ c main_arg9 (by decide)).symm.trans (up_arg9_16 m ρ c)
theorem up_arg9_14 : W14 m ρ c (Proc.devRef .tc main_arg9) = W18 m ρ c (Proc.devRef .tc main_arg9) := (show W15 m ρ c (Proc.devRef .tc main_arg9) = W14 m ρ c (Proc.devRef .tc main_arg9) by host_keep).symm.trans (up_arg9_15 m ρ c)
theorem up_arg10_17 : W17 m ρ c (Proc.devRef .tc main_arg10) = W18 m ρ c (Proc.devRef .tc main_arg10) := (W18_of_ne m ρ c main_arg10 (by decide)).symm
theorem up_arg10_16 : W16 m ρ c (Proc.devRef .tc main_arg10) = W18 m ρ c (Proc.devRef .tc main_arg10) := (show W17 m ρ c (Proc.devRef .tc main_arg10) = W16 m ρ c (Proc.devRef .tc main_arg10) by host_keep).symm.trans (up_arg10_17 m ρ c)
theorem up_arg10_15 : W15 m ρ c (Proc.devRef .tc main_arg10) = W18 m ρ c (Proc.devRef .tc main_arg10) := (W16_of_ne m ρ c main_arg10 (by decide)).symm.trans (up_arg10_16 m ρ c)
theorem up_arg10_14 : W14 m ρ c (Proc.devRef .tc main_arg10) = W18 m ρ c (Proc.devRef .tc main_arg10) := (show W15 m ρ c (Proc.devRef .tc main_arg10) = W14 m ρ c (Proc.devRef .tc main_arg10) by host_keep).symm.trans (up_arg10_15 m ρ c)
theorem up_arg11_17 : W17 m ρ c (Proc.devRef .tc main_arg11) = W18 m ρ c (Proc.devRef .tc main_arg11) := (W18_of_ne m ρ c main_arg11 (by decide)).symm
theorem up_arg11_16 : W16 m ρ c (Proc.devRef .tc main_arg11) = W18 m ρ c (Proc.devRef .tc main_arg11) := (show W17 m ρ c (Proc.devRef .tc main_arg11) = W16 m ρ c (Proc.devRef .tc main_arg11) by host_keep).symm.trans (up_arg11_17 m ρ c)
theorem up_arg11_15 : W15 m ρ c (Proc.devRef .tc main_arg11) = W18 m ρ c (Proc.devRef .tc main_arg11) := (W16_of_ne m ρ c main_arg11 (by decide)).symm.trans (up_arg11_16 m ρ c)
theorem up_arg11_14 : W14 m ρ c (Proc.devRef .tc main_arg11) = W18 m ρ c (Proc.devRef .tc main_arg11) := (show W15 m ρ c (Proc.devRef .tc main_arg11) = W14 m ρ c (Proc.devRef .tc main_arg11) by host_keep).symm.trans (up_arg11_15 m ρ c)
theorem up_arg12_17 : W17 m ρ c (Proc.devRef .tc main_arg12) = W18 m ρ c (Proc.devRef .tc main_arg12) := (W18_of_ne m ρ c main_arg12 (by decide)).symm
theorem up_arg12_16 : W16 m ρ c (Proc.devRef .tc main_arg12) = W18 m ρ c (Proc.devRef .tc main_arg12) := (show W17 m ρ c (Proc.devRef .tc main_arg12) = W16 m ρ c (Proc.devRef .tc main_arg12) by host_keep).symm.trans (up_arg12_17 m ρ c)
theorem up_arg12_15 : W15 m ρ c (Proc.devRef .tc main_arg12) = W18 m ρ c (Proc.devRef .tc main_arg12) := (W16_of_ne m ρ c main_arg12 (by decide)).symm.trans (up_arg12_16 m ρ c)
theorem up_arg12_14 : W14 m ρ c (Proc.devRef .tc main_arg12) = W18 m ρ c (Proc.devRef .tc main_arg12) := (show W15 m ρ c (Proc.devRef .tc main_arg12) = W14 m ρ c (Proc.devRef .tc main_arg12) by host_keep).symm.trans (up_arg12_15 m ρ c)
theorem up_arg2_17 : W17 m ρ c (Proc.devRef .tc main_arg2) = W18 m ρ c (Proc.devRef .tc main_arg2) := (W18_of_ne m ρ c main_arg2 (by decide)).symm
theorem up_arg2_16 : W16 m ρ c (Proc.devRef .tc main_arg2) = W18 m ρ c (Proc.devRef .tc main_arg2) := (show W17 m ρ c (Proc.devRef .tc main_arg2) = W16 m ρ c (Proc.devRef .tc main_arg2) by host_keep).symm.trans (up_arg2_17 m ρ c)
theorem up_arg13_17 : W17 m ρ c (Proc.devRef .tc main_arg13) = W18 m ρ c (Proc.devRef .tc main_arg13) := (W18_of_ne m ρ c main_arg13 (by decide)).symm
theorem up_arg13_16 : W16 m ρ c (Proc.devRef .tc main_arg13) = W18 m ρ c (Proc.devRef .tc main_arg13) := (show W17 m ρ c (Proc.devRef .tc main_arg13) = W16 m ρ c (Proc.devRef .tc main_arg13) by host_keep).symm.trans (up_arg13_17 m ρ c)
theorem up_arg14_17 : W17 m ρ c (Proc.devRef .tc main_arg14) = W18 m ρ c (Proc.devRef .tc main_arg14) := (W18_of_ne m ρ c main_arg14 (by decide)).symm
theorem up_arg14_16 : W16 m ρ c (Proc.devRef .tc main_arg14) = W18 m ρ c (Proc.devRef .tc main_arg14) := (show W17 m ρ c (Proc.devRef .tc main_arg14) = W16 m ρ c (Proc.devRef .tc main_arg14) by host_keep).symm.trans (up_arg14_17 m ρ c)
theorem up_arg15_17 : W17 m ρ c (Proc.devRef .tc main_arg15) = W18 m ρ c (Proc.devRef .tc main_arg15) := (W18_of_ne m ρ c main_arg15 (by decide)).symm
theorem up_arg15_16 : W16 m ρ c (Proc.devRef .tc main_arg15) = W18 m ρ c (Proc.devRef .tc main_arg15) := (show W17 m ρ c (Proc.devRef .tc main_arg15) = W16 m ρ c (Proc.devRef .tc main_arg15) by host_keep).symm.trans (up_arg15_17 m ρ c)
theorem up_arg16_17 : W17 m ρ c (Proc.devRef .tc main_arg16) = W18 m ρ c (Proc.devRef .tc main_arg16) := (W18_of_ne m ρ c main_arg16 (by decide)).symm
theorem up_arg16_16 : W16 m ρ c (Proc.devRef .tc main_arg16) = W18 m ρ c (Proc.devRef .tc main_arg16) := (show W17 m ρ c (Proc.devRef .tc main_arg16) = W16 m ρ c (Proc.devRef .tc main_arg16) by host_keep).symm.trans (up_arg16_17 m ρ c)

/-! ## The arguments, as launched, where the later stretches read them -/

theorem dn_arg0_1 : W1 m ρ c (Proc.devRef .tc main_arg0) = W0 m ρ c (Proc.devRef .tc main_arg0) := (show W1 m ρ c (Proc.devRef .tc main_arg0) = W0 m ρ c (Proc.devRef .tc main_arg0) by host_keep)
theorem dn_arg0_2 : W2 m ρ c (Proc.devRef .tc main_arg0) = W0 m ρ c (Proc.devRef .tc main_arg0) := (show W2 m ρ c (Proc.devRef .tc main_arg0) = W1 m ρ c (Proc.devRef .tc main_arg0) by host_keep).trans (dn_arg0_1 m ρ c)
theorem dn_arg0_3 : W3 m ρ c (Proc.devRef .tc main_arg0) = W0 m ρ c (Proc.devRef .tc main_arg0) := (show W3 m ρ c (Proc.devRef .tc main_arg0) = W2 m ρ c (Proc.devRef .tc main_arg0) by host_keep).trans (dn_arg0_2 m ρ c)
theorem arg0_at3 : W3 m ρ c (Proc.devRef .tc main_arg0) = m ((c : Thread nD τ).loc main_arg0) := dn_arg0_3 m ρ c

theorem arg3_at2 : W2 m ρ c (Proc.devRef .tc main_arg3) = m ((c : Thread nD τ).loc main_arg3) := dn_arg3_2 m ρ c
theorem arg3_at6 : W6 m ρ c (Proc.devRef .tc main_arg3) = m ((c : Thread nD τ).loc main_arg3) := dn_arg3_6 m ρ c
theorem arg3_at10 : W10 m ρ c (Proc.devRef .tc main_arg3) = m ((c : Thread nD τ).loc main_arg3) := dn_arg3_10 m ρ c
theorem arg4_at4 : W4 m ρ c (Proc.devRef .tc main_arg4) = m ((c : Thread nD τ).loc main_arg4) := dn_arg4_4 m ρ c
theorem arg4_at8 : W8 m ρ c (Proc.devRef .tc main_arg4) = m ((c : Thread nD τ).loc main_arg4) := dn_arg4_8 m ρ c
theorem arg4_at12 : W12 m ρ c (Proc.devRef .tc main_arg4) = m ((c : Thread nD τ).loc main_arg4) := dn_arg4_12 m ρ c
theorem arg5_at4 : W4 m ρ c (Proc.devRef .tc main_arg5) = m ((c : Thread nD τ).loc main_arg5) := dn_arg5_4 m ρ c
theorem arg5_at8 : W8 m ρ c (Proc.devRef .tc main_arg5) = m ((c : Thread nD τ).loc main_arg5) := dn_arg5_8 m ρ c
theorem arg5_at12 : W12 m ρ c (Proc.devRef .tc main_arg5) = m ((c : Thread nD τ).loc main_arg5) := dn_arg5_12 m ρ c
theorem arg6_at4 : W4 m ρ c (Proc.devRef .tc main_arg6) = m ((c : Thread nD τ).loc main_arg6) := dn_arg6_4 m ρ c
theorem arg6_at8 : W8 m ρ c (Proc.devRef .tc main_arg6) = m ((c : Thread nD τ).loc main_arg6) := dn_arg6_8 m ρ c
theorem arg6_at12 : W12 m ρ c (Proc.devRef .tc main_arg6) = m ((c : Thread nD τ).loc main_arg6) := dn_arg6_12 m ρ c
theorem arg7_at4 : W4 m ρ c (Proc.devRef .tc main_arg7) = m ((c : Thread nD τ).loc main_arg7) := dn_arg7_4 m ρ c
theorem arg7_at8 : W8 m ρ c (Proc.devRef .tc main_arg7) = m ((c : Thread nD τ).loc main_arg7) := dn_arg7_8 m ρ c
theorem arg7_at12 : W12 m ρ c (Proc.devRef .tc main_arg7) = m ((c : Thread nD τ).loc main_arg7) := dn_arg7_12 m ρ c
theorem arg8_at4 : W4 m ρ c (Proc.devRef .tc main_arg8) = m ((c : Thread nD τ).loc main_arg8) := dn_arg8_4 m ρ c
theorem arg8_at8 : W8 m ρ c (Proc.devRef .tc main_arg8) = m ((c : Thread nD τ).loc main_arg8) := dn_arg8_8 m ρ c
theorem arg8_at12 : W12 m ρ c (Proc.devRef .tc main_arg8) = m ((c : Thread nD τ).loc main_arg8) := dn_arg8_12 m ρ c
theorem arg9_at14 : W14 m ρ c (Proc.devRef .tc main_arg9) = m ((c : Thread nD τ).loc main_arg9) := (up_arg9_14 m ρ c).trans (W18_main_arg9 m ρ c)
theorem arg10_at14 : W14 m ρ c (Proc.devRef .tc main_arg10) = m ((c : Thread nD τ).loc main_arg10) := (up_arg10_14 m ρ c).trans (W18_main_arg10 m ρ c)
theorem arg11_at14 : W14 m ρ c (Proc.devRef .tc main_arg11) = m ((c : Thread nD τ).loc main_arg11) := (up_arg11_14 m ρ c).trans (W18_main_arg11 m ρ c)
theorem arg12_at14 : W14 m ρ c (Proc.devRef .tc main_arg12) = m ((c : Thread nD τ).loc main_arg12) := (up_arg12_14 m ρ c).trans (W18_main_arg12 m ρ c)
theorem arg2_at16 : W16 m ρ c (Proc.devRef .tc main_arg2) = m ((c : Thread nD τ).loc main_arg2) := (up_arg2_16 m ρ c).trans (W18_main_arg2 m ρ c)
theorem arg13_at16 : W16 m ρ c (Proc.devRef .tc main_arg13) = m ((c : Thread nD τ).loc main_arg13) := (up_arg13_16 m ρ c).trans (W18_main_arg13 m ρ c)
theorem arg14_at16 : W16 m ρ c (Proc.devRef .tc main_arg14) = m ((c : Thread nD τ).loc main_arg14) := (up_arg14_16 m ρ c).trans (W18_main_arg14 m ρ c)
theorem arg15_at16 : W16 m ρ c (Proc.devRef .tc main_arg15) = m ((c : Thread nD τ).loc main_arg15) := (up_arg15_16 m ρ c).trans (W18_main_arg15 m ρ c)
theorem arg16_at16 : W16 m ρ c (Proc.devRef .tc main_arg16) = m ((c : Thread nD τ).loc main_arg16) := (up_arg16_16 m ρ c).trans (W18_main_arg16 m ρ c)

end Cert.KernelIdeal.Keep

end
-- ==== Proof.RegionLin.lean ====
/-
  The dense map of a graph-convolution layer, read off the three tiled regions that compute it.

  Each of the three regions multiplies the 100000×128 feature array by the 128×128 transposed weight.  The rows are
  cut into twenty blocks of 5000 rows; at grid point `t` the body loads block row `t` of the features and the whole
  weight, forms their product from a zero accumulator, and stores it as block row `t` of the output.  Entry `(r, j)`
  of the product is `∑ₖ h[r,k] · wT[k,j]`: it depends on row `r` of the features only, and row `r` lies in exactly the
  block `r / 5000`, as row `r mod 5000` of it.  So each block written back is the corresponding block of the whole
  product, the twenty blocks tile the output, and the tiling is invisible in the result.  Rounding an operand to a
  shorter float format is the identity on extended reals, so it does not appear either.
-/
import proofs.«104500_j56891136803554_2_alg».proof.Proof.Gen.KernelIdeal.Frame
import proofs.«104500_j56891136803554_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionLin

open Idealize.ShloMosaic Idealize.ShloMosaic.TcCoe Idealize.ShloMosaic.ValueIdx Cert.KernelIdeal Cert.KernelIdeal.Gen
open Idealize.ShloMosaic.Pipeline (Dat)

/-! ## The product of two blocks at an entry -/

/-- Entry `(p, q)` of the product of a 5000×128 block and a 128×128 block, accumulated from zero, is the finite sum
    `∑ₖ a[p,k] · b[k,q]` over the one contracted axis. -/
theorem matmul_entry (a : FVec Ideal S5000x128 .bf16) (b : FVec Ideal S128x128 .bf16) (p : Fin 5000) (q : Fin 128) :
    FloatOps.matmul dot_S5000x128_S128x128_S5000x128_1_0_0_1_n_n none a b (constant S5000x128 .f32 0x00000000#32) (ix2 p q)
      = ∑ k : Fin 128, a (ix2 p k) * b (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- Region 0's stored value at entry `(p, q)`: a change of float format is the identity on extended reals, so the
    body's product of the two rounded blocks is the plain sum over the contracted axis. -/
theorem pay0_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (matmul_entry _ _ p q).trans ?_
  refine Finset.sum_congr rfl fun k _ => ?_
  rw [shapeCast_self]
  rfl

/-- Region 2's stored value at entry `(p, q)`. -/
theorem pay2_entry (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  refine (matmul_entry _ _ p q).trans ?_
  refine Finset.sum_congr rfl fun k _ => ?_
  rw [shapeCast_self, shapeCast_self]
  rfl

/-- Region 4's stored value at entry `(p, q)`. -/
theorem pay4_entry (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  refine (matmul_entry _ _ p q).trans ?_
  refine Finset.sum_congr rfl fun k _ => ?_
  rw [shapeCast_self, shapeCast_self]
  rfl

/-! ## From blocks to the array -/

/-- The zero offsets of a whole-block access. -/
theorem zero_offsets : (![0, 0] : Fin 2 → Nat) = fun _ => 0 := funext fun a => by fin_cases a <;> rfl

/-! ### Region 0 -/

/-- The printed index maps of region 0, decided over the grid: at point `t` the feature block and the output block
    are block row `t`, and the weight's block is the whole weight. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the feature block at point `t` is entry `(5000·t + p, k)` of the feature array: a block's
    coordinate in the array is its block index times the block's extent plus the coordinate inside the block. -/
theorem feat_block0 (V : (c : Dev nD) → (b : Ref sig .tc) → Buf (Elt Ideal) ((c : Thread nD τ).loc b)) (c : Dev nD) (t : Fin cfg0.N)
    (p : Fin 5000) (k : Fin 128) (r : Fin 100000) (hr : r.val = t.val * 5000 + p.val) :
    iblk0 V c 0 t (ix2 p k) = (V c (Pipeline.arrRef spec0 0) : S100000x128.Idx → EReal) (ix2 r k) := by
  obtain ⟨e0, e1, -, -, -, -⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's block at every point is the whole weight. -/
theorem weight_block0 (V : (c : Dev nD) → (b : Ref sig .tc) → Buf (Elt Ideal) ((c : Thread nD τ).loc b)) (c : Dev nD) (t : Fin cfg0.N)
    (k q s : Fin 128) (hs : s.val = q.val) :
    iblk0 V c 1 t (ix2 k q) = (V c (Pipeline.arrRef spec0 1) : S128x128.Idx → EReal) (ix2 k s) := by
  obtain ⟨-, -, e2, e3, -, -⟩ := idx_facts0 t
  show V c (Pipeline.arrRef spec0 1) (((cfg0.win 1).blk t).view.emb (ix2 k q)) = V c (Pipeline.arrRef spec0 1) (ix2 k s)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = s.val; omega

/-- What point `t` writes back is block row `t` of the dense map of the two arrays as the region finds them: an
    output entry in row `5000·t + p` depends only on that row of the features, which is row `p` of the block the
    point loaded, and on the whole weight. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (GcnSpec.lin (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = GcnSpec.lin (V c (Pipeline.arrRef spec0 0)) (V c (Pipeline.arrRef spec0 1)) (((cfg0.win 2).blk t).view.emb (ix2 p q))
  refine (pay0_entry (iblk0 V c 0 t) (iblk0 V c 1 t) p q).trans ?_
  unfold GcnSpec.lin
  refine Finset.sum_congr rfl fun k _ => ?_
  rw [feat_block0 V c t p k ((((cfg0.win 2).blk t).view.emb (ix2 p q)) 0)
        (show win0_2.index t (0 : Fin 2) * 5000 + 1 * p.val = t.val * 5000 + p.val by omega),
      weight_block0 V c t k q ((((cfg0.win 2).blk t).view.emb (ix2 p q)) 1)
        (show win0_2.index t (1 : Fin 2) * 128 + 1 * q.val = q.val by omega)]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- The twenty row blocks tile the output: row `r` lies in the block of point `r / 5000`, and every point writes
    its block back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by have hN : cfg0.N = 20 := N_0; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Region 0's output array after the region is the dense map of the feature array and the transposed weight as the
    region finds them: every block row is that map's block row, the block rows tile the array, and a sum over the
    contracted axis does not see the tiling of the rows. -/
theorem array0 (V : (c : Dev nD) → (b : Ref sig .tc) → Buf (Elt Ideal) ((c : Thread nD τ).loc b)) (c : Dev nD) :
    (Gen.dat0 (F := Ideal) V c).arrAt 2 cfg0.N
      = GcnSpec.lin (V c (Pipeline.arrRef spec0 0)) (V c (Pipeline.arrRef spec0 1)) :=
  (dat0 (F := Ideal) V c).arrAt_eq_of_cover 2
    (GcnSpec.lin (V c (Pipeline.arrRef spec0 0)) (V c (Pipeline.arrRef spec0 1)))
    (fun t _ => flushed0_eq V c t) cover0

/-! ### Region 2 -/

/-- The printed index maps of region 2, decided over the grid: at point `t` the feature block and the output block
    are block row `t`, and the weight's block is the whole weight. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the feature block at point `t` is entry `(5000·t + p, k)` of the feature array: a block's
    coordinate in the array is its block index times the block's extent plus the coordinate inside the block. -/
theorem feat_block2 (V : (c : Dev nD) → (b : Ref sig .tc) → Buf (Elt Ideal) ((c : Thread nD τ).loc b)) (c : Dev nD) (t : Fin cfg2.N)
    (p : Fin 5000) (k : Fin 128) (r : Fin 100000) (hr : r.val = t.val * 5000 + p.val) :
    iblk2 V c 0 t (ix2 p k) = (V c (Pipeline.arrRef spec2 0) : S100000x128.Idx → EReal) (ix2 r k) := by
  obtain ⟨e0, e1, -, -, -, -⟩ := idx_facts2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight's block at every point is the whole weight. -/
theorem weight_block2 (V : (c : Dev nD) → (b : Ref sig .tc) → Buf (Elt Ideal) ((c : Thread nD τ).loc b)) (c : Dev nD) (t : Fin cfg2.N)
    (k q s : Fin 128) (hs : s.val = q.val) :
    iblk2 V c 1 t (ix2 k q) = (V c (Pipeline.arrRef spec2 1) : S128x128.Idx → EReal) (ix2 k s) := by
  obtain ⟨-, -, e2, e3, -, -⟩ := idx_facts2 t
  show V c (Pipeline.arrRef spec2 1) (((cfg2.win 1).blk t).view.emb (ix2 k q)) = V c (Pipeline.arrRef spec2 1) (ix2 k s)
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = s.val; omega

/-- What point `t` writes back is block row `t` of the dense map of the two arrays as the region finds them: an
    output entry in row `5000·t + p` depends only on that row of the features, which is row `p` of the block the
    point loaded, and on the whole weight. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (GcnSpec.lin (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨-, -, -, -, e4, e5⟩ := idx_facts2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = GcnSpec.lin (V c (Pipeline.arrRef spec2 0)) (V c (Pipeline.arrRef spec2 1)) (((cfg2.win 2).blk t).view.emb (ix2 p q))
  refine (pay2_entry (iblk2 V c 0 t) (iblk2 V c 1 t) p q).trans ?_
  unfold GcnSpec.lin
  refine Finset.sum_congr rfl fun k _ => ?_
  rw [feat_block2 V c t p k ((((cfg2.win 2).blk t).view.emb (ix2 p q)) 0)
        (show win2_2.index t (0 : Fin 2) * 5000 + 1 * p.val = t.val * 5000 + p.val by omega),
      weight_block2 V c t k q ((((cfg2.win 2).blk t).view.emb (ix2 p q)) 1)
        (show win2_2.index t (1 : Fin 2) * 128 + 1 * q.val = q.val by omega)]

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v66).slice (win2_2.rect t)).set ↔ _
  rw [View.set_slice_whole, Rect.mem_set_unit]
  exact Iff.rfl

/-- The twenty row blocks tile the output: row `r` lies in the block of point `r / 5000`, and every point writes
    its block back. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by have hN : cfg2.N = 20 := N_2; omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- Region 2's output array after the region is the dense map of the feature array and the transposed weight as the
    region finds them: every block row is that map's block row, the block rows tile the array, and a sum over the
    contracted axis does not see the tiling of the rows. -/
theorem array2 (V : (c : Dev nD) → (b : Ref sig .tc) → Buf (Elt Ideal) ((c : Thread nD τ).loc b)) (c : Dev nD) :
    (Gen.dat2 (F := Ideal) V c).arrAt 2 cfg2.N
      = GcnSpec.lin (V c (Pipeline.arrRef spec2 0)) (V c (Pipeline.arrRef spec2 1)) :=
  (dat2 (F := Ideal) V c).arrAt_eq_of_cover 2
    (GcnSpec.lin (V c (Pipeline.arrRef spec2 0)) (V c (Pipeline.arrRef spec2 1)))
    (fun t _ => flushed2_eq V c t) cover2

/-! ### Region 4 -/

/-- The printed index maps of region 4, decided over the grid: at point `t` the feature block and the output block
    are block row `t`, and the weight's block is the whole weight. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `(p, k)` of the feature block at point `t` is entry `(5000·t + p, k)` of the feature array: a block's
    coordinate in the array is its block index times the block's extent plus the coordinate inside the block. -/
theorem feat_block4 (V : (c : Dev nD) → (b : Ref sig .tc) → Buf (Elt Ideal) ((c : Thread nD τ).loc b)) (c : Dev nD) (t : Fin cfg4.N)
    (p : Fin 5000) (k : Fin 128) (r : Fin 100000) (hr : r.val = t.val * 5000 + p.val) :
    iblk4 V c 0 t (ix2 p k) = (V c (Pipeline.arrRef spec4 0) : S100000x128.Idx → EReal) (ix2 r k) := by
  obtain ⟨e0, e1, -, -, -, -⟩ := idx_facts4 t
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The weight's block at every point is the whole weight. -/
theorem weight_block4 (V : (c : Dev nD) → (b : Ref sig .tc) → Buf (Elt Ideal) ((c : Thread nD τ).loc b)) (c : Dev nD) (t : Fin cfg4.N)
    (k q s : Fin 128) (hs : s.val = q.val) :
    iblk4 V c 1 t (ix2 k q) = (V c (Pipeline.arrRef spec4 1) : S128x128.Idx → EReal) (ix2 k s) := by
  obtain ⟨-, -, e2, e3, -, -⟩ := idx_facts4 t
  show V c (Pipeline.arrRef spec4 1) (((cfg4.win 1).blk t).view.emb (ix2 k q)) = V c (Pipeline.arrRef spec4 1) (ix2 k s)
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = s.val; omega

/-- What point `t` writes back is block row `t` of the dense map of the two arrays as the region finds them: an
    output entry in row `5000·t + p` depends only on that row of the features, which is row `p` of the block the
    point loaded, and on the whole weight. -/
theorem flushed4_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (GcnSpec.lin (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  obtain ⟨-, -, -, -, e4, e5⟩ := idx_facts4 t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q)
    = GcnSpec.lin (V c (Pipeline.arrRef spec4 0)) (V c (Pipeline.arrRef spec4 1)) (((cfg4.win 2).blk t).view.emb (ix2 p q))
  refine (pay4_entry (iblk4 V c 0 t) (iblk4 V c 1 t) p q).trans ?_
  unfold GcnSpec.lin
  refine Finset.sum_congr rfl fun k _ => ?_
  rw [feat_block4 V c t p k ((((cfg4.win 2).blk t).view.emb (ix2 p q)) 0)
        (show win4_2.index t (0 : Fin 2) * 5000 + 1 * p.val = t.val * 5000 + p.val by omega),
      weight_block4 V c t k q ((((cfg4.win 2).blk t).view.emb (ix2 p q)) 1)
        (show win4_2.index t (1 : Fin 2) * 128 + 1 * q.val = q.val by omega)]

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v99).slice (win4_2.rect t)).set ↔ _
  rw [View.set_slice_whole, Rect.mem_set_unit]
  exact Iff.rfl

/-- The twenty row blocks tile the output: row `r` lies in the block of point `r / 5000`, and every point writes
    its block back. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by have hN : cfg4.N = 20 := N_4; omega⟩, rfl⟩
  obtain ⟨-, -, -, -, e4, e5⟩ := idx_facts4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- Region 4's output array after the region is the dense map of the feature array and the transposed weight as the
    region finds them: every block row is that map's block row, the block rows tile the array, and a sum over the
    contracted axis does not see the tiling of the rows. -/
theorem array4 (V : (c : Dev nD) → (b : Ref sig .tc) → Buf (Elt Ideal) ((c : Thread nD τ).loc b)) (c : Dev nD) :
    (Gen.dat4 (F := Ideal) V c).arrAt 2 cfg4.N
      = GcnSpec.lin (V c (Pipeline.arrRef spec4 0)) (V c (Pipeline.arrRef spec4 1)) :=
  (dat4 (F := Ideal) V c).arrAt_eq_of_cover 2
    (GcnSpec.lin (V c (Pipeline.arrRef spec4 0)) (V c (Pipeline.arrRef spec4 1)))
    (fun t _ => flushed4_eq V c t) cover4

end Cert.KernelIdeal.RegionLin

end
-- ==== Proof.RegionBn.lean ====
/-
  The bias, batch-normalisation and rectifier regions of the kernel program, read as whole arrays.

  Each of the three regions runs over twenty grid points.  At point `t` the body sees rows `5000 t … 5000 t + 4999` of
  the aggregate (a block of 5000 × 128 entries) and the whole of five one-row operands (bias, γ, β, running mean,
  running variance), and writes the same rows of the output.  Entry `(p, q)` of the block it writes is
  `max(((a[p,q] + b[q] − μ[q]) · rsqrt(σ²[q] + ε)) · γ[q] + β[q], 0)`: it depends on the aggregate at the same row and
  column and on the parameters at that column only.  So the block a point writes is the block of ONE function of the
  whole arrays — the specification's `bnrelu` —, and because the twenty blocks of rows cover the array (row `r` lies
  in block `r / 5000`), the array after the region is that function.  How the rows are tiled does not matter.
-/
import proofs.«104500_j56891136803554_2_alg».proof.Proof.Gen.KernelIdeal.Frame
import proofs.«104500_j56891136803554_2_alg».proof.Proof.Spec
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegionBn

open Idealize.ShloMosaic Idealize.ShloMosaic.TcCoe Idealize.ShloMosaic.ValueIdx Cert.KernelIdeal Cert.KernelIdeal.Gen
open Idealize.ShloMosaic.Pipeline (Dat)

/-- A zero offset on both axes, as the constant function. -/
theorem hz : (![0, 0] : Fin 2 → Nat) = fun _ => 0 := funext fun a => by fin_cases a <;> rfl

variable (V : (c : Dev nD) → (b : Ref sig .tc) → Buf (Elt Ideal) ((c : Thread nD τ).loc b))

/-! ## Region 1 -/

/-- The body's value at row `p`, column `q` of a block: the block's entry, shifted by the bias and the mean of
    column `q`, scaled by the reciprocal root of the guarded variance and by `γ`, shifted by `β`, and cut at
    zero.  Each one-row operand is read at column `q` only, whatever the row. -/
theorem pay1_apply (x0 : Vec Ideal S5000x128 .f32) (b mean var gamma beta : Vec Ideal S1x128 .f32)
    (p : Fin 5000) (q : Fin 128) :
    k1_pay1 (F := Ideal) x0 b mean var gamma beta (ix2 p q)
      = max ((x0 (ix2 p q) + b (ix2 0 q) - mean (ix2 0 q)) * Ideal.rsqrt (var (ix2 0 q) + GcnSpec.eps)
          * gamma (ix2 0 q) + beta (ix2 0 q)) GcnSpec.zero := by
  unfold k1_pay1
  simp only [shapeCast_self]
  show max (((x0 (ix2 p q) + broadcastTo S5000x128 b broadcasts_S1x128_S5000x128 (ix2 p q)
      - broadcastTo S5000x128 mean broadcasts_S1x128_S5000x128 (ix2 p q))
      * broadcastTo S5000x128 (rsqrt (addf var (broadcast S1x128 (Scalar.ofBits (F := Ideal) .f32 0x3727C5AC#32)))) broadcasts_S1x128_S5000x128 (ix2 p q))
      * broadcastTo S5000x128 gamma broadcasts_S1x128_S5000x128 (ix2 p q)
      + broadcastTo S5000x128 beta broadcasts_S1x128_S5000x128 (ix2 p q)) (Scalar.ofBits (F := Ideal) .f32 0x00000000#32) = _
  rw [broadcastTo_1b_ab_apply, broadcastTo_1b_ab_apply, broadcastTo_1b_ab_apply, broadcastTo_1b_ab_apply, broadcastTo_1b_ab_apply]
  rfl

/-- One entry of one block against the whole arrays: if the block of the aggregate holds at `y` the array's entry
    at `i`, `i` and `y` have the same column, and the five one-row blocks are the five one-row arrays, then the
    body's value at `y` is the specification's entry at `i`. -/
theorem entry1 (x0 : Vec Ideal S5000x128 .f32) (x1 x2 x3 x4 x5 : Vec Ideal S1x128 .f32)
    (A : GcnSpec.Mat 100000 128) (B Gm Bt Mn Vr : GcnSpec.Mat 1 128)
    (y : S5000x128.Idx) (i : S100000x128.Idx) (hcol : (i 1).val = (y 1).val)
    (h0 : x0 y = A i) (h1 : ∀ k, x1 k = B k) (h2 : ∀ k, x2 k = Gm k) (h3 : ∀ k, x3 k = Bt k)
    (h4 : ∀ k, x4 k = Mn k) (h5 : ∀ k, x5 k = Vr k) :
    k1_pay1 (F := Ideal) x0 x1 x4 x5 x2 x3 y = GcnSpec.bnrelu A B Gm Bt Mn Vr i := by
  obtain ⟨p, q, rfl⟩ : ∃ (p : Fin 5000) (q : Fin 128), y = ix2 p q := ⟨y 0, y 1, eq_ix2 y⟩
  have hq : i 1 = q := Fin.ext hcol
  rw [pay1_apply, h0, h1, h2, h3, h4, h5]
  unfold GcnSpec.bnrelu
  rw [hq]

/-- The printed index maps, decided over the twenty grid points: the aggregate's block and the output's block are
    the same block of rows, block `t` at point `t`, over all columns; every one-row operand is its one block. -/
theorem idx_facts1 : ∀ t : Fin cfg1.N, win1_0.index t (0 : Fin 2) = win1_6.index t (0 : Fin 2)
    ∧ win1_0.index t (1 : Fin 2) = 0 ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The aggregate's block at point `t` holds, at `j`, the array's entry at the place `j` has in the OUTPUT's block
    at `t`: the two windows cut the same rows. -/
theorem blk1_0 (c : Dev nD) (t : Fin cfg1.N) (j : S5000x128.Idx) :
    (iblk1 V c 0 t : Vec Ideal S5000x128 .f32) j
      = (V c (Pipeline.arrRef spec1 0) : GcnSpec.Mat 100000 128) (((cfg1.win 6).blk t).view.emb j) := by
  obtain ⟨e0, e1, e2, e3, e4, e5, e6, e7, e8, e9, e10, e11, e12, e13⟩ := idx_facts1 t
  show V c (Pipeline.arrRef spec1 0) (((cfg1.win 0).blk t).view.emb j) = V c (Pipeline.arrRef spec1 0) (((cfg1.win 6).blk t).view.emb j)
  refine congrArg (V c (Pipeline.arrRef spec1 0)) (funext fun a => Fin.ext ?_)
  match a with
  | ⟨0, _⟩ => show win1_0.index t (0 : Fin 2) * 5000 + 1 * (j 0).val = win1_6.index t (0 : Fin 2) * 5000 + 1 * (j 0).val; omega
  | ⟨1, _⟩ => show win1_0.index t (1 : Fin 2) * 128 + 1 * (j 1).val = win1_6.index t (1 : Fin 2) * 128 + 1 * (j 1).val; omega

/-- An entry of the output's block keeps its column in the array. -/
theorem col1 (t : Fin cfg1.N) (j : S5000x128.Idx) :
    ((((cfg1.win 6).blk t).view.emb j : S100000x128.Idx) 1).val = (j 1).val := by
  obtain ⟨e0, e1, e2, e3, e4, e5, e6, e7, e8, e9, e10, e11, e12, e13⟩ := idx_facts1 t
  show win1_6.index t (1 : Fin 2) * 128 + 1 * (j 1).val = (j 1).val
  omega

/-! Each one-row operand's block at any point is the operand's whole array. -/

theorem blk1_1 (c : Dev nD) (t : Fin cfg1.N) (k : S1x128.Idx) :
    (iblk1 V c 1 t : Vec Ideal S1x128 .f32) k = (V c (Pipeline.arrRef spec1 1) : GcnSpec.Mat 1 128) k := by
  obtain ⟨e0, e1, e2, e3, e4, e5, e6, e7, e8, e9, e10, e11, e12, e13⟩ := idx_facts1 t
  show V c (Pipeline.arrRef spec1 1) (((cfg1.win 1).blk t).view.emb k) = V c (Pipeline.arrRef spec1 1) k
  refine congrArg (V c (Pipeline.arrRef spec1 1)) (funext fun a => Fin.ext ?_)
  match a with
  | ⟨0, _⟩ => show win1_1.index t (0 : Fin 2) * 1 + 1 * (k 0).val = (k 0).val; omega
  | ⟨1, _⟩ => show win1_1.index t (1 : Fin 2) * 128 + 1 * (k 1).val = (k 1).val; omega

theorem blk1_2 (c : Dev nD) (t : Fin cfg1.N) (k : S1x128.Idx) :
    (iblk1 V c 2 t : Vec Ideal S1x128 .f32) k = (V c (Pipeline.arrRef spec1 2) : GcnSpec.Mat 1 128) k := by
  obtain ⟨e0, e1, e2, e3, e4, e5, e6, e7, e8, e9, e10, e11, e12, e13⟩ := idx_facts1 t
  show V c (Pipeline.arrRef spec1 2) (((cfg1.win 2).blk t).view.emb k) = V c (Pipeline.arrRef spec1 2) k
  refine congrArg (V c (Pipeline.arrRef spec1 2)) (funext fun a => Fin.ext ?_)
  match a with
  | ⟨0, _⟩ => show win1_2.index t (0 : Fin 2) * 1 + 1 * (k 0).val = (k 0).val; omega
  | ⟨1, _⟩ => show win1_2.index t (1 : Fin 2) * 128 + 1 * (k 1).val = (k 1).val; omega

theorem blk1_3 (c : Dev nD) (t : Fin cfg1.N) (k : S1x128.Idx) :
    (iblk1 V c 3 t : Vec Ideal S1x128 .f32) k = (V c (Pipeline.arrRef spec1 3) : GcnSpec.Mat 1 128) k := by
  obtain ⟨e0, e1, e2, e3, e4, e5, e6, e7, e8, e9, e10, e11, e12, e13⟩ := idx_facts1 t
  show V c (Pipeline.arrRef spec1 3) (((cfg1.win 3).blk t).view.emb k) = V c (Pipeline.arrRef spec1 3) k
  refine congrArg (V c (Pipeline.arrRef spec1 3)) (funext fun a => Fin.ext ?_)
  match a with
  | ⟨0, _⟩ => show win1_3.index t (0 : Fin 2) * 1 + 1 * (k 0).val = (k 0).val; omega
  | ⟨1, _⟩ => show win1_3.index t (1 : Fin 2) * 128 + 1 * (k 1).val = (k 1).val; omega

theorem blk1_4 (c : Dev nD) (t : Fin cfg1.N) (k : S1x128.Idx) :
    (iblk1 V c 4 t : Vec Ideal S1x128 .f32) k = (V c (Pipeline.arrRef spec1 4) : GcnSpec.Mat 1 128) k := by
  obtain ⟨e0, e1, e2, e3, e4, e5, e6, e7, e8, e9, e10, e11, e12, e13⟩ := idx_facts1 t
  show V c (Pipeline.arrRef spec1 4) (((cfg1.win 4).blk t).view.emb k) = V c (Pipeline.arrRef spec1 4) k
  refine congrArg (V c (Pipeline.arrRef spec1 4)) (funext fun a => Fin.ext ?_)
  match a with
  | ⟨0, _⟩ => show win1_4.index t (0 : Fin 2) * 1 + 1 * (k 0).val = (k 0).val; omega
  | ⟨1, _⟩ => show win1_4.index t (1 : Fin 2) * 128 + 1 * (k 1).val = (k 1).val; omega

theorem blk1_5 (c : Dev nD) (t : Fin cfg1.N) (k : S1x128.Idx) :
    (iblk1 V c 5 t : Vec Ideal S1x128 .f32) k = (V c (Pipeline.arrRef spec1 5) : GcnSpec.Mat 1 128) k := by
  obtain ⟨e0, e1, e2, e3, e4, e5, e6, e7, e8, e9, e10, e11, e12, e13⟩ := idx_facts1 t
  show V c (Pipeline.arrRef spec1 5) (((cfg1.win 5).blk t).view.emb k) = V c (Pipeline.arrRef spec1 5) k
  refine congrArg (V c (Pipeline.arrRef spec1 5)) (funext fun a => Fin.ext ?_)
  match a with
  | ⟨0, _⟩ => show win1_5.index t (0 : Fin 2) * 1 + 1 * (k 0).val = (k 0).val; omega
  | ⟨1, _⟩ => show win1_5.index t (1 : Fin 2) * 128 + 1 * (k 1).val = (k 1).val; omega

/-- A write-back, entry by entry: if a block's contents `P` hold at every `j` the array `G`'s entry at the place `j`
    has in point `t`'s block of the output, then what is written back is block `t` of `G`. -/
theorem cut_eq_read1 (t : Fin cfg1.N) (P : Vec Ideal S5000x128 .f32) (G : GcnSpec.Mat 100000 128)
    (h : ∀ j : S5000x128.Idx, P j = G (((cfg1.win 6).blk t).view.emb j)) :
    (cfg1.win 6).cut (grid1.coords t) P = ((cfg1.win 6).blk t).view.read (Elt Ideal) G :=
  funext fun j => h j

set_option maxHeartbeats 1000000 in
/-- What point `t` writes back is block `t` of the specification's array: rows `5000 t … 5000 t + 4999`. An entry of
    the block depends on the aggregate at the same row and column and on the five parameters at that column, so the
    block of the result is the result of the block. -/
theorem flushed1 (c : Dev nD) (t : Fin cfg1.N) :
    (dat1 (F := Ideal) V c).flushed 6 t = ((cfg1.win 6).blk t).view.read (Elt Ideal)
      (GcnSpec.bnrelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  exact cut_eq_read1 t
    (k1_pay1 (F := Ideal) (iblk1 V c 0 t) (iblk1 V c 1 t) (iblk1 V c 4 t) (iblk1 V c 5 t) (iblk1 V c 2 t) (iblk1 V c 3 t))
    (GcnSpec.bnrelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))
    fun j => entry1 (iblk1 V c 0 t) (iblk1 V c 1 t) (iblk1 V c 2 t) (iblk1 V c 3 t) (iblk1 V c 4 t) (iblk1 V c 5 t)
      (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
      j (((cfg1.win 6).blk t).view.emb j) (col1 t j) (blk1_0 V c t j) (blk1_1 V c t) (blk1_2 V c t) (blk1_3 V c t) (blk1_4 V c t) (blk1_5 V c t)

/-- An index of the output array lies in point `t`'s block iff, on each axis, its coordinate lies in the block's
    range: `5000` rows from row `5000 ·` (the block's row index), all `128` columns. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v62).slice (win1_6.rect t)).set ↔ _
  rw [View.set_slice_whole, Rect.mem_set_unit]
  exact Iff.rfl

/-- The twenty blocks cover the array: row `r` lies in block `r / 5000`. -/
theorem cover1 (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  have hlt : (i 0).val / 5000 < cfg1.N := by rw [hN]; omega
  refine ⟨⟨(i 0).val / 5000, hlt⟩, flush1_6 _, ?_⟩
  rw [mem_blk1]
  obtain ⟨e0, e1, e2, e3, e4, e5, e6, e7, e8, e9, e10, e11, e12, e13⟩ := idx_facts1 ⟨(i 0).val / 5000, hlt⟩
  have e2' : win1_6.index ⟨(i 0).val / 5000, hlt⟩ (0 : Fin 2) = (i 0).val / 5000 := e2
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

/-- The output array after the region is the specification's array of the six operand arrays as the region finds
    them: every entry is written by the point whose block holds its row, with the entry's own value, so the tiling
    of the rows does not show in the result. -/
theorem array1 (c : Dev nD) : (Gen.dat1 (F := Ideal) V c).arrAt 6 cfg1.N
    = GcnSpec.bnrelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 _ (fun t _ => flushed1 V c t) cover1

/-! ## Region 3 -/

/-- The body's value at row `p`, column `q` of a block: the block's entry, shifted by the bias and the mean of
    column `q`, scaled by the reciprocal root of the guarded variance and by `γ`, shifted by `β`, and cut at
    zero.  Each one-row operand is read at column `q` only, whatever the row. -/
theorem pay3_apply (x0 : Vec Ideal S5000x128 .f32) (b mean var gamma beta : Vec Ideal S1x128 .f32)
    (p : Fin 5000) (q : Fin 128) :
    k3_pay1 (F := Ideal) x0 b mean var gamma beta (ix2 p q)
      = max ((x0 (ix2 p q) + b (ix2 0 q) - mean (ix2 0 q)) * Ideal.rsqrt (var (ix2 0 q) + GcnSpec.eps)
          * gamma (ix2 0 q) + beta (ix2 0 q)) GcnSpec.zero := by
  unfold k3_pay1
  simp only [shapeCast_self]
  show max (((x0 (ix2 p q) + broadcastTo S5000x128 b broadcasts_S1x128_S5000x128 (ix2 p q)
      - broadcastTo S5000x128 mean broadcasts_S1x128_S5000x128 (ix2 p q))
      * broadcastTo S5000x128 (rsqrt (addf var (broadcast S1x128 (Scalar.ofBits (F := Ideal) .f32 0x3727C5AC#32)))) broadcasts_S1x128_S5000x128 (ix2 p q))
      * broadcastTo S5000x128 gamma broadcasts_S1x128_S5000x128 (ix2 p q)
      + broadcastTo S5000x128 beta broadcasts_S1x128_S5000x128 (ix2 p q)) (Scalar.ofBits (F := Ideal) .f32 0x00000000#32) = _
  rw [broadcastTo_1b_ab_apply, broadcastTo_1b_ab_apply, broadcastTo_1b_ab_apply, broadcastTo_1b_ab_apply, broadcastTo_1b_ab_apply]
  rfl

/-- One entry of one block against the whole arrays: if the block of the aggregate holds at `y` the array's entry
    at `i`, `i` and `y` have the same column, and the five one-row blocks are the five one-row arrays, then the
    body's value at `y` is the specification's entry at `i`. -/
theorem entry3 (x0 : Vec Ideal S5000x128 .f32) (x1 x2 x3 x4 x5 : Vec Ideal S1x128 .f32)
    (A : GcnSpec.Mat 100000 128) (B Gm Bt Mn Vr : GcnSpec.Mat 1 128)
    (y : S5000x128.Idx) (i : S100000x128.Idx) (hcol : (i 1).val = (y 1).val)
    (h0 : x0 y = A i) (h1 : ∀ k, x1 k = B k) (h2 : ∀ k, x2 k = Gm k) (h3 : ∀ k, x3 k = Bt k)
    (h4 : ∀ k, x4 k = Mn k) (h5 : ∀ k, x5 k = Vr k) :
    k3_pay1 (F := Ideal) x0 x1 x4 x5 x2 x3 y = GcnSpec.bnrelu A B Gm Bt Mn Vr i := by
  obtain ⟨p, q, rfl⟩ : ∃ (p : Fin 5000) (q : Fin 128), y = ix2 p q := ⟨y 0, y 1, eq_ix2 y⟩
  have hq : i 1 = q := Fin.ext hcol
  rw [pay3_apply, h0, h1, h2, h3, h4, h5]
  unfold GcnSpec.bnrelu
  rw [hq]

/-- The printed index maps, decided over the twenty grid points: the aggregate's block and the output's block are
    the same block of rows, block `t` at point `t`, over all columns; every one-row operand is its one block. -/
theorem idx_facts3 : ∀ t : Fin cfg3.N, win3_0.index t (0 : Fin 2) = win3_6.index t (0 : Fin 2)
    ∧ win3_0.index t (1 : Fin 2) = 0 ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The aggregate's block at point `t` holds, at `j`, the array's entry at the place `j` has in the OUTPUT's block
    at `t`: the two windows cut the same rows. -/
theorem blk3_0 (c : Dev nD) (t : Fin cfg3.N) (j : S5000x128.Idx) :
    (iblk3 V c 0 t : Vec Ideal S5000x128 .f32) j
      = (V c (Pipeline.arrRef spec3 0) : GcnSpec.Mat 100000 128) (((cfg3.win 6).blk t).view.emb j) := by
  obtain ⟨e0, e1, e2, e3, e4, e5, e6, e7, e8, e9, e10, e11, e12, e13⟩ := idx_facts3 t
  show V c (Pipeline.arrRef spec3 0) (((cfg3.win 0).blk t).view.emb j) = V c (Pipeline.arrRef spec3 0) (((cfg3.win 6).blk t).view.emb j)
  refine congrArg (V c (Pipeline.arrRef spec3 0)) (funext fun a => Fin.ext ?_)
  match a with
  | ⟨0, _⟩ => show win3_0.index t (0 : Fin 2) * 5000 + 1 * (j 0).val = win3_6.index t (0 : Fin 2) * 5000 + 1 * (j 0).val; omega
  | ⟨1, _⟩ => show win3_0.index t (1 : Fin 2) * 128 + 1 * (j 1).val = win3_6.index t (1 : Fin 2) * 128 + 1 * (j 1).val; omega

/-- An entry of the output's block keeps its column in the array. -/
theorem col3 (t : Fin cfg3.N) (j : S5000x128.Idx) :
    ((((cfg3.win 6).blk t).view.emb j : S100000x128.Idx) 1).val = (j 1).val := by
  obtain ⟨e0, e1, e2, e3, e4, e5, e6, e7, e8, e9, e10, e11, e12, e13⟩ := idx_facts3 t
  show win3_6.index t (1 : Fin 2) * 128 + 1 * (j 1).val = (j 1).val
  omega

/-! Each one-row operand's block at any point is the operand's whole array. -/

theorem blk3_1 (c : Dev nD) (t : Fin cfg3.N) (k : S1x128.Idx) :
    (iblk3 V c 1 t : Vec Ideal S1x128 .f32) k = (V c (Pipeline.arrRef spec3 1) : GcnSpec.Mat 1 128) k := by
  obtain ⟨e0, e1, e2, e3, e4, e5, e6, e7, e8, e9, e10, e11, e12, e13⟩ := idx_facts3 t
  show V c (Pipeline.arrRef spec3 1) (((cfg3.win 1).blk t).view.emb k) = V c (Pipeline.arrRef spec3 1) k
  refine congrArg (V c (Pipeline.arrRef spec3 1)) (funext fun a => Fin.ext ?_)
  match a with
  | ⟨0, _⟩ => show win3_1.index t (0 : Fin 2) * 1 + 1 * (k 0).val = (k 0).val; omega
  | ⟨1, _⟩ => show win3_1.index t (1 : Fin 2) * 128 + 1 * (k 1).val = (k 1).val; omega

theorem blk3_2 (c : Dev nD) (t : Fin cfg3.N) (k : S1x128.Idx) :
    (iblk3 V c 2 t : Vec Ideal S1x128 .f32) k = (V c (Pipeline.arrRef spec3 2) : GcnSpec.Mat 1 128) k := by
  obtain ⟨e0, e1, e2, e3, e4, e5, e6, e7, e8, e9, e10, e11, e12, e13⟩ := idx_facts3 t
  show V c (Pipeline.arrRef spec3 2) (((cfg3.win 2).blk t).view.emb k) = V c (Pipeline.arrRef spec3 2) k
  refine congrArg (V c (Pipeline.arrRef spec3 2)) (funext fun a => Fin.ext ?_)
  match a with
  | ⟨0, _⟩ => show win3_2.index t (0 : Fin 2) * 1 + 1 * (k 0).val = (k 0).val; omega
  | ⟨1, _⟩ => show win3_2.index t (1 : Fin 2) * 128 + 1 * (k 1).val = (k 1).val; omega

theorem blk3_3 (c : Dev nD) (t : Fin cfg3.N) (k : S1x128.Idx) :
    (iblk3 V c 3 t : Vec Ideal S1x128 .f32) k = (V c (Pipeline.arrRef spec3 3) : GcnSpec.Mat 1 128) k := by
  obtain ⟨e0, e1, e2, e3, e4, e5, e6, e7, e8, e9, e10, e11, e12, e13⟩ := idx_facts3 t
  show V c (Pipeline.arrRef spec3 3) (((cfg3.win 3).blk t).view.emb k) = V c (Pipeline.arrRef spec3 3) k
  refine congrArg (V c (Pipeline.arrRef spec3 3)) (funext fun a => Fin.ext ?_)
  match a with
  | ⟨0, _⟩ => show win3_3.index t (0 : Fin 2) * 1 + 1 * (k 0).val = (k 0).val; omega
  | ⟨1, _⟩ => show win3_3.index t (1 : Fin 2) * 128 + 1 * (k 1).val = (k 1).val; omega

theorem blk3_4 (c : Dev nD) (t : Fin cfg3.N) (k : S1x128.Idx) :
    (iblk3 V c 4 t : Vec Ideal S1x128 .f32) k = (V c (Pipeline.arrRef spec3 4) : GcnSpec.Mat 1 128) k := by
  obtain ⟨e0, e1, e2, e3, e4, e5, e6, e7, e8, e9, e10, e11, e12, e13⟩ := idx_facts3 t
  show V c (Pipeline.arrRef spec3 4) (((cfg3.win 4).blk t).view.emb k) = V c (Pipeline.arrRef spec3 4) k
  refine congrArg (V c (Pipeline.arrRef spec3 4)) (funext fun a => Fin.ext ?_)
  match a with
  | ⟨0, _⟩ => show win3_4.index t (0 : Fin 2) * 1 + 1 * (k 0).val = (k 0).val; omega
  | ⟨1, _⟩ => show win3_4.index t (1 : Fin 2) * 128 + 1 * (k 1).val = (k 1).val; omega

theorem blk3_5 (c : Dev nD) (t : Fin cfg3.N) (k : S1x128.Idx) :
    (iblk3 V c 5 t : Vec Ideal S1x128 .f32) k = (V c (Pipeline.arrRef spec3 5) : GcnSpec.Mat 1 128) k := by
  obtain ⟨e0, e1, e2, e3, e4, e5, e6, e7, e8, e9, e10, e11, e12, e13⟩ := idx_facts3 t
  show V c (Pipeline.arrRef spec3 5) (((cfg3.win 5).blk t).view.emb k) = V c (Pipeline.arrRef spec3 5) k
  refine congrArg (V c (Pipeline.arrRef spec3 5)) (funext fun a => Fin.ext ?_)
  match a with
  | ⟨0, _⟩ => show win3_5.index t (0 : Fin 2) * 1 + 1 * (k 0).val = (k 0).val; omega
  | ⟨1, _⟩ => show win3_5.index t (1 : Fin 2) * 128 + 1 * (k 1).val = (k 1).val; omega

/-- A write-back, entry by entry: if a block's contents `P` hold at every `j` the array `G`'s entry at the place `j`
    has in point `t`'s block of the output, then what is written back is block `t` of `G`. -/
theorem cut_eq_read3 (t : Fin cfg3.N) (P : Vec Ideal S5000x128 .f32) (G : GcnSpec.Mat 100000 128)
    (h : ∀ j : S5000x128.Idx, P j = G (((cfg3.win 6).blk t).view.emb j)) :
    (cfg3.win 6).cut (grid3.coords t) P = ((cfg3.win 6).blk t).view.read (Elt Ideal) G :=
  funext fun j => h j

set_option maxHeartbeats 1000000 in
/-- What point `t` writes back is block `t` of the specification's array: rows `5000 t … 5000 t + 4999`. An entry of
    the block depends on the aggregate at the same row and column and on the five parameters at that column, so the
    block of the result is the result of the block. -/
theorem flushed3 (c : Dev nD) (t : Fin cfg3.N) :
    (dat3 (F := Ideal) V c).flushed 6 t = ((cfg3.win 6).blk t).view.read (Elt Ideal)
      (GcnSpec.bnrelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  exact cut_eq_read3 t
    (k3_pay1 (F := Ideal) (iblk3 V c 0 t) (iblk3 V c 1 t) (iblk3 V c 4 t) (iblk3 V c 5 t) (iblk3 V c 2 t) (iblk3 V c 3 t))
    (GcnSpec.bnrelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))
    fun j => entry3 (iblk3 V c 0 t) (iblk3 V c 1 t) (iblk3 V c 2 t) (iblk3 V c 3 t) (iblk3 V c 4 t) (iblk3 V c 5 t)
      (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
      j (((cfg3.win 6).blk t).view.emb j) (col3 t j) (blk3_0 V c t j) (blk3_1 V c t) (blk3_2 V c t) (blk3_3 V c t) (blk3_4 V c t) (blk3_5 V c t)

/-- An index of the output array lies in point `t`'s block iff, on each axis, its coordinate lies in the block's
    range: `5000` rows from row `5000 ·` (the block's row index), all `128` columns. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v95).slice (win3_6.rect t)).set ↔ _
  rw [View.set_slice_whole, Rect.mem_set_unit]
  exact Iff.rfl

/-- The twenty blocks cover the array: row `r` lies in block `r / 5000`. -/
theorem cover3 (i : S100000x128.Idx) :
    ∃ t : Fin cfg3.N, (cfg3.win 6).flush t = true ∧ i ∈ ((cfg3.win 6).blk t).view.set := by
  have hN : cfg3.N = 20 := N_3
  have hi0 : (i 0).val < 100000 := (i 0).isLt
  have hi1 : (i 1).val < 128 := (i 1).isLt
  have hlt : (i 0).val / 5000 < cfg3.N := by rw [hN]; omega
  refine ⟨⟨(i 0).val / 5000, hlt⟩, flush3_6 _, ?_⟩
  rw [mem_blk3]
  obtain ⟨e0, e1, e2, e3, e4, e5, e6, e7, e8, e9, e10, e11, e12, e13⟩ := idx_facts3 ⟨(i 0).val / 5000, hlt⟩
  have e2' : win3_6.index ⟨(i 0).val / 5000, hlt⟩ (0 : Fin 2) = (i 0).val / 5000 := e2
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; omega
  | ⟨1, _⟩ => show win3_6.index ⟨(i 0).val / 5000, hlt⟩ (1 : Fin 2) * 128 ≤ (i 1).val ∧ (i 1).val < win3_6.index ⟨(i 0).val / 5000, hlt⟩ (1 : Fin 2) * 128 + 128; omega

/-- The output array after the region is the specification's array of the six operand arrays as the region finds
    them: every entry is written by the point whose block holds its row, with the entry's own value, so the tiling
    of the rows does not show in the result. -/
theorem array3 (c : Dev nD) : (Gen.dat3 (F := Ideal) V c).arrAt 6 cfg3.N
    = GcnSpec.bnrelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3 V c t) cover3

/-! ## Region 5 -/

/-- The body's value at row `p`, column `q` of a block: the block's entry, shifted by the bias and the mean of
    column `q`, scaled by the reciprocal root of the guarded variance and by `γ`, shifted by `β`, and cut at
    zero.  Each one-row operand is read at column `q` only, whatever the row. -/
theorem pay5_apply (x0 : Vec Ideal S5000x128 .f32) (b mean var gamma beta : Vec Ideal S1x128 .f32)
    (p : Fin 5000) (q : Fin 128) :
    k5_pay1 (F := Ideal) x0 b mean var gamma beta (ix2 p q)
      = max ((x0 (ix2 p q) + b (ix2 0 q) - mean (ix2 0 q)) * Ideal.rsqrt (var (ix2 0 q) + GcnSpec.eps)
          * gamma (ix2 0 q) + beta (ix2 0 q)) GcnSpec.zero := by
  unfold k5_pay1
  simp only [shapeCast_self]
  show max (((x0 (ix2 p q) + broadcastTo S5000x128 b broadcasts_S1x128_S5000x128 (ix2 p q)
      - broadcastTo S5000x128 mean broadcasts_S1x128_S5000x128 (ix2 p q))
      * broadcastTo S5000x128 (rsqrt (addf var (broadcast S1x128 (Scalar.ofBits (F := Ideal) .f32 0x3727C5AC#32)))) broadcasts_S1x128_S5000x128 (ix2 p q))
      * broadcastTo S5000x128 gamma broadcasts_S1x128_S5000x128 (ix2 p q)
      + broadcastTo S5000x128 beta broadcasts_S1x128_S5000x128 (ix2 p q)) (Scalar.ofBits (F := Ideal) .f32 0x00000000#32) = _
  rw [broadcastTo_1b_ab_apply, broadcastTo_1b_ab_apply, broadcastTo_1b_ab_apply, broadcastTo_1b_ab_apply, broadcastTo_1b_ab_apply]
  rfl

/-- One entry of one block against the whole arrays: if the block of the aggregate holds at `y` the array's entry
    at `i`, `i` and `y` have the same column, and the five one-row blocks are the five one-row arrays, then the
    body's value at `y` is the specification's entry at `i`. -/
theorem entry5 (x0 : Vec Ideal S5000x128 .f32) (x1 x2 x3 x4 x5 : Vec Ideal S1x128 .f32)
    (A : GcnSpec.Mat 100000 128) (B Gm Bt Mn Vr : GcnSpec.Mat 1 128)
    (y : S5000x128.Idx) (i : S100000x128.Idx) (hcol : (i 1).val = (y 1).val)
    (h0 : x0 y = A i) (h1 : ∀ k, x1 k = B k) (h2 : ∀ k, x2 k = Gm k) (h3 : ∀ k, x3 k = Bt k)
    (h4 : ∀ k, x4 k = Mn k) (h5 : ∀ k, x5 k = Vr k) :
    k5_pay1 (F := Ideal) x0 x1 x4 x5 x2 x3 y = GcnSpec.bnrelu A B Gm Bt Mn Vr i := by
  obtain ⟨p, q, rfl⟩ : ∃ (p : Fin 5000) (q : Fin 128), y = ix2 p q := ⟨y 0, y 1, eq_ix2 y⟩
  have hq : i 1 = q := Fin.ext hcol
  rw [pay5_apply, h0, h1, h2, h3, h4, h5]
  unfold GcnSpec.bnrelu
  rw [hq]

/-- The printed index maps, decided over the twenty grid points: the aggregate's block and the output's block are
    the same block of rows, block `t` at point `t`, over all columns; every one-row operand is its one block. -/
theorem idx_facts5 : ∀ t : Fin cfg5.N, win5_0.index t (0 : Fin 2) = win5_6.index t (0 : Fin 2)
    ∧ win5_0.index t (1 : Fin 2) = 0 ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The aggregate's block at point `t` holds, at `j`, the array's entry at the place `j` has in the OUTPUT's block
    at `t`: the two windows cut the same rows. -/
theorem blk5_0 (c : Dev nD) (t : Fin cfg5.N) (j : S5000x128.Idx) :
    (iblk5 V c 0 t : Vec Ideal S5000x128 .f32) j
      = (V c (Pipeline.arrRef spec5 0) : GcnSpec.Mat 100000 128) (((cfg5.win 6).blk t).view.emb j) := by
  obtain ⟨e0, e1, e2, e3, e4, e5, e6, e7, e8, e9, e10, e11, e12, e13⟩ := idx_facts5 t
  show V c (Pipeline.arrRef spec5 0) (((cfg5.win 0).blk t).view.emb j) = V c (Pipeline.arrRef spec5 0) (((cfg5.win 6).blk t).view.emb j)
  refine congrArg (V c (Pipeline.arrRef spec5 0)) (funext fun a => Fin.ext ?_)
  match a with
  | ⟨0, _⟩ => show win5_0.index t (0 : Fin 2) * 5000 + 1 * (j 0).val = win5_6.index t (0 : Fin 2) * 5000 + 1 * (j 0).val; omega
  | ⟨1, _⟩ => show win5_0.index t (1 : Fin 2) * 128 + 1 * (j 1).val = win5_6.index t (1 : Fin 2) * 128 + 1 * (j 1).val; omega

/-- An entry of the output's block keeps its column in the array. -/
theorem col5 (t : Fin cfg5.N) (j : S5000x128.Idx) :
    ((((cfg5.win 6).blk t).view.emb j : S100000x128.Idx) 1).val = (j 1).val := by
  obtain ⟨e0, e1, e2, e3, e4, e5, e6, e7, e8, e9, e10, e11, e12, e13⟩ := idx_facts5 t
  show win5_6.index t (1 : Fin 2) * 128 + 1 * (j 1).val = (j 1).val
  omega

/-! Each one-row operand's block at any point is the operand's whole array. -/

theorem blk5_1 (c : Dev nD) (t : Fin cfg5.N) (k : S1x128.Idx) :
    (iblk5 V c 1 t : Vec Ideal S1x128 .f32) k = (V c (Pipeline.arrRef spec5 1) : GcnSpec.Mat 1 128) k := by
  obtain ⟨e0, e1, e2, e3, e4, e5, e6, e7, e8, e9, e10, e11, e12, e13⟩ := idx_facts5 t
  show V c (Pipeline.arrRef spec5 1) (((cfg5.win 1).blk t).view.emb k) = V c (Pipeline.arrRef spec5 1) k
  refine congrArg (V c (Pipeline.arrRef spec5 1)) (funext fun a => Fin.ext ?_)
  match a with
  | ⟨0, _⟩ => show win5_1.index t (0 : Fin 2) * 1 + 1 * (k 0).val = (k 0).val; omega
  | ⟨1, _⟩ => show win5_1.index t (1 : Fin 2) * 128 + 1 * (k 1).val = (k 1).val; omega

theorem blk5_2 (c : Dev nD) (t : Fin cfg5.N) (k : S1x128.Idx) :
    (iblk5 V c 2 t : Vec Ideal S1x128 .f32) k = (V c (Pipeline.arrRef spec5 2) : GcnSpec.Mat 1 128) k := by
  obtain ⟨e0, e1, e2, e3, e4, e5, e6, e7, e8, e9, e10, e11, e12, e13⟩ := idx_facts5 t
  show V c (Pipeline.arrRef spec5 2) (((cfg5.win 2).blk t).view.emb k) = V c (Pipeline.arrRef spec5 2) k
  refine congrArg (V c (Pipeline.arrRef spec5 2)) (funext fun a => Fin.ext ?_)
  match a with
  | ⟨0, _⟩ => show win5_2.index t (0 : Fin 2) * 1 + 1 * (k 0).val = (k 0).val; omega
  | ⟨1, _⟩ => show win5_2.index t (1 : Fin 2) * 128 + 1 * (k 1).val = (k 1).val; omega

theorem blk5_3 (c : Dev nD) (t : Fin cfg5.N) (k : S1x128.Idx) :
    (iblk5 V c 3 t : Vec Ideal S1x128 .f32) k = (V c (Pipeline.arrRef spec5 3) : GcnSpec.Mat 1 128) k := by
  obtain ⟨e0, e1, e2, e3, e4, e5, e6, e7, e8, e9, e10, e11, e12, e13⟩ := idx_facts5 t
  show V c (Pipeline.arrRef spec5 3) (((cfg5.win 3).blk t).view.emb k) = V c (Pipeline.arrRef spec5 3) k
  refine congrArg (V c (Pipeline.arrRef spec5 3)) (funext fun a => Fin.ext ?_)
  match a with
  | ⟨0, _⟩ => show win5_3.index t (0 : Fin 2) * 1 + 1 * (k 0).val = (k 0).val; omega
  | ⟨1, _⟩ => show win5_3.index t (1 : Fin 2) * 128 + 1 * (k 1).val = (k 1).val; omega

theorem blk5_4 (c : Dev nD) (t : Fin cfg5.N) (k : S1x128.Idx) :
    (iblk5 V c 4 t : Vec Ideal S1x128 .f32) k = (V c (Pipeline.arrRef spec5 4) : GcnSpec.Mat 1 128) k := by
  obtain ⟨e0, e1, e2, e3, e4, e5, e6, e7, e8, e9, e10, e11, e12, e13⟩ := idx_facts5 t
  show V c (Pipeline.arrRef spec5 4) (((cfg5.win 4).blk t).view.emb k) = V c (Pipeline.arrRef spec5 4) k
  refine congrArg (V c (Pipeline.arrRef spec5 4)) (funext fun a => Fin.ext ?_)
  match a with
  | ⟨0, _⟩ => show win5_4.index t (0 : Fin 2) * 1 + 1 * (k 0).val = (k 0).val; omega
  | ⟨1, _⟩ => show win5_4.index t (1 : Fin 2) * 128 + 1 * (k 1).val = (k 1).val; omega

theorem blk5_5 (c : Dev nD) (t : Fin cfg5.N) (k : S1x128.Idx) :
    (iblk5 V c 5 t : Vec Ideal S1x128 .f32) k = (V c (Pipeline.arrRef spec5 5) : GcnSpec.Mat 1 128) k := by
  obtain ⟨e0, e1, e2, e3, e4, e5, e6, e7, e8, e9, e10, e11, e12, e13⟩ := idx_facts5 t
  show V c (Pipeline.arrRef spec5 5) (((cfg5.win 5).blk t).view.emb k) = V c (Pipeline.arrRef spec5 5) k
  refine congrArg (V c (Pipeline.arrRef spec5 5)) (funext fun a => Fin.ext ?_)
  match a with
  | ⟨0, _⟩ => show win5_5.index t (0 : Fin 2) * 1 + 1 * (k 0).val = (k 0).val; omega
  | ⟨1, _⟩ => show win5_5.index t (1 : Fin 2) * 128 + 1 * (k 1).val = (k 1).val; omega

/-- A write-back, entry by entry: if a block's contents `P` hold at every `j` the array `G`'s entry at the place `j`
    has in point `t`'s block of the output, then what is written back is block `t` of `G`. -/
theorem cut_eq_read5 (t : Fin cfg5.N) (P : Vec Ideal S5000x128 .f32) (G : GcnSpec.Mat 100000 128)
    (h : ∀ j : S5000x128.Idx, P j = G (((cfg5.win 6).blk t).view.emb j)) :
    (cfg5.win 6).cut (grid5.coords t) P = ((cfg5.win 6).blk t).view.read (Elt Ideal) G :=
  funext fun j => h j

set_option maxHeartbeats 1000000 in
/-- What point `t` writes back is block `t` of the specification's array: rows `5000 t … 5000 t + 4999`. An entry of
    the block depends on the aggregate at the same row and column and on the five parameters at that column, so the
    block of the result is the result of the block. -/
theorem flushed5 (c : Dev nD) (t : Fin cfg5.N) :
    (dat5 (F := Ideal) V c).flushed 6 t = ((cfg5.win 6).blk t).view.read (Elt Ideal)
      (GcnSpec.bnrelu (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  exact cut_eq_read5 t
    (k5_pay1 (F := Ideal) (iblk5 V c 0 t) (iblk5 V c 1 t) (iblk5 V c 4 t) (iblk5 V c 5 t) (iblk5 V c 2 t) (iblk5 V c 3 t))
    (GcnSpec.bnrelu (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)))
    fun j => entry5 (iblk5 V c 0 t) (iblk5 V c 1 t) (iblk5 V c 2 t) (iblk5 V c 3 t) (iblk5 V c 4 t) (iblk5 V c 5 t)
      (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
      j (((cfg5.win 6).blk t).view.emb j) (col5 t j) (blk5_0 V c t j) (blk5_1 V c t) (blk5_2 V c t) (blk5_3 V c t) (blk5_4 V c t) (blk5_5 V c t)

/-- An index of the output array lies in point `t`'s block iff, on each axis, its coordinate lies in the block's
    range: `5000` rows from row `5000 ·` (the block's row index), all `128` columns. -/
theorem mem_blk5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v128).slice (win5_6.rect t)).set ↔ _
  rw [View.set_slice_whole, Rect.mem_set_unit]
  exact Iff.rfl

/-- The twenty blocks cover the array: row `r` lies in block `r / 5000`. -/
theorem cover5 (i : S100000x128.Idx) :
    ∃ t : Fin cfg5.N, (cfg5.win 6).flush t = true ∧ i ∈ ((cfg5.win 6).blk t).view.set := by
  have hN : cfg5.N = 20 := N_5
  have hi0 : (i 0).val < 100000 := (i 0).isLt
  have hi1 : (i 1).val < 128 := (i 1).isLt
  have hlt : (i 0).val / 5000 < cfg5.N := by rw [hN]; omega
  refine ⟨⟨(i 0).val / 5000, hlt⟩, flush5_6 _, ?_⟩
  rw [mem_blk5]
  obtain ⟨e0, e1, e2, e3, e4, e5, e6, e7, e8, e9, e10, e11, e12, e13⟩ := idx_facts5 ⟨(i 0).val / 5000, hlt⟩
  have e2' : win5_6.index ⟨(i 0).val / 5000, hlt⟩ (0 : Fin 2) = (i 0).val / 5000 := e2
  intro a
  match a with
  | ⟨0, _⟩ => show win5_6.index ⟨(i 0).val / 5000, hlt⟩ (0 : Fin 2) * 5000 ≤ (i 0).val ∧ (i 0).val < win5_6.index ⟨(i 0).val / 5000, hlt⟩ (0 : Fin 2) * 5000 + 5000; omega
  | ⟨1, _⟩ => show win5_6.index ⟨(i 0).val / 5000, hlt⟩ (1 : Fin 2) * 128 ≤ (i 1).val ∧ (i 1).val < win5_6.index ⟨(i 0).val / 5000, hlt⟩ (1 : Fin 2) * 128 + 128; omega

/-- The output array after the region is the specification's array of the six operand arrays as the region finds
    them: every entry is written by the point whose block holds its row, with the entry's own value, so the tiling
    of the rows does not show in the result. -/
theorem array5 (c : Dev nD) : (Gen.dat5 (F := Ideal) V c).arrAt 6 cfg5.N
    = GcnSpec.bnrelu (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 _ (fun t _ => flushed5 V c t) cover5

end Cert.KernelIdeal.RegionBn

end
-- ==== Proof.RegionMlp.lean ====
/-
  The two perceptron heads, read off their row tiles.

  Each head computes, for a row `r` of the features and an output column `o`,
  `(∑ⱼ max(∑ₖ x[r,k]·w₁T[k,j] + b₁[j], 0) · w₂T[j,o]) + b₂[o]`.
  A block of the computation holds some consecutive rows of the features and all of the four parameter arrays, and
  produces the same rows of the result.  An entry of the result depends on one row of the features only (and on the
  parameters), so the rows can be cut into blocks in any way: block `t` of the result is block `t` of the one function
  of the whole arrays, and the blocks cover every row.  The sums are finite sums of extended reals; a change of float
  format is the identity there, so the narrowing of the factors before each product changes nothing.
-/
import proofs.«104500_j56891136803554_2_alg».proof.Proof.Gen.KernelIdeal.Frame
import proofs.«104500_j56891136803554_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionMlp

open Idealize.ShloMosaic Idealize.ShloMosaic.TcCoe Idealize.ShloMosaic.ValueIdx Cert.KernelIdeal Cert.KernelIdeal.Gen
open Idealize.ShloMosaic.Pipeline (Dat Cfg Window)

/-- A matrix product into a zero accumulator, read at one entry: with one contracted axis (the columns of the left
    factor against the rows of the right one) entry `(p, q)` is the finite sum `∑ₖ lhs[p,k] · rhs[k,q]` of extended
    reals.  The four hypotheses say where the dimension numbers send an output index and a contraction position. -/
theorem matmul_at {M K N : Nat} (D : DotDims (⟨2, ![M, K]⟩ : Shape) ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    {φ₁ φ₂ : FTy} (lhs : FVec Ideal ⟨2, ![M, K]⟩ φ₁) (rhs : FVec Ideal ⟨2, ![K, N]⟩ φ₂) (p : Fin M) (q : Fin N) :
    FloatOps.matmul D none lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- Where the dimension numbers of this product send an output entry and a contraction position: the left factor is
    read at (row, position), the right one at (position, column). -/
theorem dot_S64x128_S128x64_S64x64_1_0_0_1_n_n_l0 (i) (q : dot_S64x128_S128x64_S64x64_1_0_0_1_n_n.contr.Idx) : (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem dot_S64x128_S128x64_S64x64_1_0_0_1_n_n_l1 (i) (q : dot_S64x128_S128x64_S64x64_1_0_0_1_n_n.contr.Idx) : (dot_S64x128_S128x64_S64x64_1_0_0_1_n_n.lhsIdx i q 1).val = (q ⟨0, by decide⟩).val :=
  dot_S64x128_S128x64_S64x64_1_0_0_1_n_n.lhsIdx_val_of_single rfl i q
theorem dot_S64x128_S128x64_S64x64_1_0_0_1_n_n_r0 (i) (q : dot_S64x128_S128x64_S64x64_1_0_0_1_n_n.contr.Idx) : (dot_S64x128_S128x64_S64x64_1_0_0_1_n_n.rhsIdx i q 0).val = (q ⟨0, by decide⟩).val :=
  dot_S64x128_S128x64_S64x64_1_0_0_1_n_n.rhsIdx_val_of_single rfl i q
theorem dot_S64x128_S128x64_S64x64_1_0_0_1_n_n_r1 (i) (q : dot_S64x128_S128x64_S64x64_1_0_0_1_n_n.contr.Idx) : (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- This product's entry `(p, q)` is `∑ₖ lhs[p,k] · rhs[k,q]`. -/
theorem mm7a {φ₁ φ₂ : FTy} (lhs : FVec Ideal S64x128 φ₁) (rhs : FVec Ideal S128x64 φ₂) (p : Fin 64) (q : Fin 64) :
    FloatOps.matmul dot_S64x128_S128x64_S64x64_1_0_0_1_n_n none lhs rhs (constant (F := Ideal) S64x64 .f32 0x00000000#32) (ix2 p q)
      = ∑ k : Fin 128, lhs (ix2 p k) * rhs (ix2 k q) :=
  matmul_at dot_S64x128_S128x64_S64x64_1_0_0_1_n_n rfl rfl dot_S64x128_S128x64_S64x64_1_0_0_1_n_n_l0 dot_S64x128_S128x64_S64x64_1_0_0_1_n_n_l1 dot_S64x128_S128x64_S64x64_1_0_0_1_n_n_r0 dot_S64x128_S128x64_S64x64_1_0_0_1_n_n_r1 lhs rhs p q

/-- Where the dimension numbers of this product send an output entry and a contraction position: the left factor is
    read at (row, position), the right one at (position, column). -/
theorem dot_S64x64_S64x2_S64x2_1_0_0_1_n_n_l0 (i) (q : dot_S64x64_S64x2_S64x2_1_0_0_1_n_n.contr.Idx) : (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by decide), dif_pos (show (0 : Fin S64x64.rank) ∈ dot_S64x64_S64x2_S64x2_1_0_0_1_n_n.lhsNonContracting by decide)]
  rfl
theorem dot_S64x64_S64x2_S64x2_1_0_0_1_n_n_l1 (i) (q : dot_S64x64_S64x2_S64x2_1_0_0_1_n_n.contr.Idx) : (dot_S64x64_S64x2_S64x2_1_0_0_1_n_n.lhsIdx i q 1).val = (q ⟨0, by decide⟩).val :=
  dot_S64x64_S64x2_S64x2_1_0_0_1_n_n.lhsIdx_val_of_single rfl i q
theorem dot_S64x64_S64x2_S64x2_1_0_0_1_n_n_r0 (i) (q : dot_S64x64_S64x2_S64x2_1_0_0_1_n_n.contr.Idx) : (dot_S64x64_S64x2_S64x2_1_0_0_1_n_n.rhsIdx i q 0).val = (q ⟨0, by decide⟩).val :=
  dot_S64x64_S64x2_S64x2_1_0_0_1_n_n.rhsIdx_val_of_single rfl i q
theorem dot_S64x64_S64x2_S64x2_1_0_0_1_n_n_r1 (i) (q : dot_S64x64_S64x2_S64x2_1_0_0_1_n_n.contr.Idx) : (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by decide), dif_pos (show (1 : Fin S64x2.rank) ∈ dot_S64x64_S64x2_S64x2_1_0_0_1_n_n.rhsNonContracting by decide)]
  rfl

/-- This product's entry `(p, q)` is `∑ₖ lhs[p,k] · rhs[k,q]`. -/
theorem mm7b {φ₁ φ₂ : FTy} (lhs : FVec Ideal S64x64 φ₁) (rhs : FVec Ideal S64x2 φ₂) (p : Fin 64) (q : Fin 2) :
    FloatOps.matmul dot_S64x64_S64x2_S64x2_1_0_0_1_n_n none lhs rhs (constant (F := Ideal) S64x2 .f32 0x00000000#32) (ix2 p q)
      = ∑ k : Fin 64, lhs (ix2 p k) * rhs (ix2 k q) :=
  matmul_at dot_S64x64_S64x2_S64x2_1_0_0_1_n_n rfl rfl dot_S64x64_S64x2_S64x2_1_0_0_1_n_n_l0 dot_S64x64_S64x2_S64x2_1_0_0_1_n_n_l1 dot_S64x64_S64x2_S64x2_1_0_0_1_n_n_r0 dot_S64x64_S64x2_S64x2_1_0_0_1_n_n_r1 lhs rhs p q

/-- Where the dimension numbers of this product send an output entry and a contraction position: the left factor is
    read at (row, position), the right one at (position, column). -/
theorem dot_S5000x128_S128x64_S5000x64_1_0_0_1_n_n_l0 (i) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot_S5000x128_S128x64_S5000x64_1_0_0_1_n_n_l1 (i) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dot_S5000x128_S128x64_S5000x64_1_0_0_1_n_n_r0 (i) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dot_S5000x128_S128x64_S5000x64_1_0_0_1_n_n_r1 (i) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- This product's entry `(p, q)` is `∑ₖ lhs[p,k] · rhs[k,q]`. -/
theorem mm6a {φ₁ φ₂ : FTy} (lhs : FVec Ideal S5000x128 φ₁) (rhs : FVec Ideal S128x64 φ₂) (p : Fin 5000) (q : Fin 64) :
    FloatOps.matmul dot_S5000x128_S128x64_S5000x64_1_0_0_1_n_n none lhs rhs (constant (F := Ideal) S5000x64 .f32 0x00000000#32) (ix2 p q)
      = ∑ k : Fin 128, lhs (ix2 p k) * rhs (ix2 k q) :=
  matmul_at dot_S5000x128_S128x64_S5000x64_1_0_0_1_n_n rfl rfl dot_S5000x128_S128x64_S5000x64_1_0_0_1_n_n_l0 dot_S5000x128_S128x64_S5000x64_1_0_0_1_n_n_l1 dot_S5000x128_S128x64_S5000x64_1_0_0_1_n_n_r0 dot_S5000x128_S128x64_S5000x64_1_0_0_1_n_n_r1 lhs rhs p q

/-- Where the dimension numbers of this product send an output entry and a contraction position: the left factor is
    read at (row, position), the right one at (position, column). -/
theorem dot_S5000x64_S64x2_S5000x2_1_0_0_1_n_n_l0 (i) (q : dot_S5000x64_S64x2_S5000x2_1_0_0_1_n_n.contr.Idx) : (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem dot_S5000x64_S64x2_S5000x2_1_0_0_1_n_n_l1 (i) (q : dot_S5000x64_S64x2_S5000x2_1_0_0_1_n_n.contr.Idx) : (dot_S5000x64_S64x2_S5000x2_1_0_0_1_n_n.lhsIdx i q 1).val = (q ⟨0, by decide⟩).val :=
  dot_S5000x64_S64x2_S5000x2_1_0_0_1_n_n.lhsIdx_val_of_single rfl i q
theorem dot_S5000x64_S64x2_S5000x2_1_0_0_1_n_n_r0 (i) (q : dot_S5000x64_S64x2_S5000x2_1_0_0_1_n_n.contr.Idx) : (dot_S5000x64_S64x2_S5000x2_1_0_0_1_n_n.rhsIdx i q 0).val = (q ⟨0, by decide⟩).val :=
  dot_S5000x64_S64x2_S5000x2_1_0_0_1_n_n.rhsIdx_val_of_single rfl i q
theorem dot_S5000x64_S64x2_S5000x2_1_0_0_1_n_n_r1 (i) (q : dot_S5000x64_S64x2_S5000x2_1_0_0_1_n_n.contr.Idx) : (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- This product's entry `(p, q)` is `∑ₖ lhs[p,k] · rhs[k,q]`. -/
theorem mm6b {φ₁ φ₂ : FTy} (lhs : FVec Ideal S5000x64 φ₁) (rhs : FVec Ideal S64x2 φ₂) (p : Fin 5000) (q : Fin 2) :
    FloatOps.matmul dot_S5000x64_S64x2_S5000x2_1_0_0_1_n_n none lhs rhs (constant (F := Ideal) S5000x2 .f32 0x00000000#32) (ix2 p q)
      = ∑ k : Fin 64, lhs (ix2 p k) * rhs (ix2 k q) :=
  matmul_at dot_S5000x64_S64x2_S5000x2_1_0_0_1_n_n rfl rfl dot_S5000x64_S64x2_S5000x2_1_0_0_1_n_n_l0 dot_S5000x64_S64x2_S5000x2_1_0_0_1_n_n_l1 dot_S5000x64_S64x2_S5000x2_1_0_0_1_n_n_r0 dot_S5000x64_S64x2_S5000x2_1_0_0_1_n_n_r1 lhs rhs p q

/-- One entry of a block of head on the pooled rows: row `p` of the 64 rows of the block against the two weight
    matrices — the hidden layer `max(∑ₖ x[p,k]·w₁T[k,j] + b₁[j], 0)`, then `∑ⱼ hidden[j]·w₂T[j,q] + b₂[q]`. -/
theorem pay7_at (x0 : Vec Ideal S64x128 .f32) (x1 : Vec Ideal S128x64 .f32) (x2 : Vec Ideal S1x64 .f32)
    (x3 : Vec Ideal S64x2 .f32) (x4 : Vec Ideal S1x2 .f32) (p : Fin 64) (q : Fin 2) :
    Gen.k7_pay1 (F := Ideal) x0 x1 x2 x3 x4 (ix2 p q)
      = (∑ j : Fin 64, max ((∑ k : Fin 128, x0 (ix2 p k) * x1 (ix2 k j)) + x2 (ix2 0 j)) GcnSpec.zero * x3 (ix2 j q))
        + x4 (ix2 0 q) := by
  unfold Gen.k7_pay1
  simp only [shapeCast_self]
  refine congrArg₂ (· + ·) ?_ (broadcastTo_1b_ab_apply x4 _ p q)
  refine (mm7b _ _ p q).trans ?_
  refine Finset.sum_congr rfl fun j _ => ?_
  refine congrArg₂ (· * ·) ?_ rfl
  refine congrArg₂ max (congrArg₂ (· + ·) ?_ (broadcastTo_1b_ab_apply x2 _ p j)) rfl
  exact (mm7a _ _ p j).trans (Finset.sum_congr rfl fun k _ => rfl)

/-- One entry of a block of head on the node rows: row `p` of the 5000 rows of the block against the two weight
    matrices — the hidden layer `max(∑ₖ x[p,k]·w₁T[k,j] + b₁[j], 0)`, then `∑ⱼ hidden[j]·w₂T[j,q] + b₂[q]`. -/
theorem pay6_at (x0 : Vec Ideal S5000x128 .f32) (x1 : Vec Ideal S128x64 .f32) (x2 : Vec Ideal S1x64 .f32)
    (x3 : Vec Ideal S64x2 .f32) (x4 : Vec Ideal S1x2 .f32) (p : Fin 5000) (q : Fin 2) :
    Gen.k6_pay1 (F := Ideal) x0 x1 x2 x3 x4 (ix2 p q)
      = (∑ j : Fin 64, max ((∑ k : Fin 128, x0 (ix2 p k) * x1 (ix2 k j)) + x2 (ix2 0 j)) GcnSpec.zero * x3 (ix2 j q))
        + x4 (ix2 0 q) := by
  unfold Gen.k6_pay1
  simp only [shapeCast_self]
  refine congrArg₂ (· + ·) ?_ (broadcastTo_1b_ab_apply x4 _ p q)
  refine (mm6b _ _ p q).trans ?_
  refine Finset.sum_congr rfl fun j _ => ?_
  refine congrArg₂ (· * ·) ?_ rfl
  refine congrArg₂ max (congrArg₂ (· + ·) ?_ (broadcastTo_1b_ab_apply x2 _ p j)) rfl
  exact (mm6a _ _ p j).trans (Finset.sum_congr rfl fun k _ => rfl)

/-- The zero offsets of a whole-block access, however the zeros are spelt. -/
theorem hz : (![0, 0] : Fin 2 → Nat) = fun _ => 0 := funext fun a => by fin_cases a <;> rfl

/-- The two-layer sum over a block's rows is the head's function at the array's row: the block's row `p` is row
    `i 0` of the features (`h0`), the four parameter arrays are read whole, and the column is the same. -/
theorem mlp_block {n R : Nat} (X : GcnSpec.Mat n 128) (W1 : GcnSpec.Mat 128 64) (B1 : GcnSpec.Mat 1 64)
    (W2 : GcnSpec.Mat 64 2) (B2 : GcnSpec.Mat 1 2)
    (x0 : GcnSpec.Mat R 128) (x1 : GcnSpec.Mat 128 64) (x2 : GcnSpec.Mat 1 64) (x3 : GcnSpec.Mat 64 2) (x4 : GcnSpec.Mat 1 2)
    (i : (⟨2, ![n, 2]⟩ : Shape).Idx) (p : Fin R) (q : Fin 2)
    (h0 : ∀ k : Fin 128, x0 (ix2 p k) = X (ix2 (i 0) k)) (h1 : x1 = W1) (h2 : x2 = B1) (h3 : x3 = W2) (h4 : x4 = B2)
    (hq : i 1 = q) :
    (∑ j : Fin 64, max ((∑ k : Fin 128, x0 (ix2 p k) * x1 (ix2 k j)) + x2 (ix2 0 j)) GcnSpec.zero * x3 (ix2 j q)) + x4 (ix2 0 q)
      = GcnSpec.mlp X W1 B1 W2 B2 i := by
  subst h1 h2 h3 h4 hq
  simp only [h0]
  rfl

section
variable (V : (c : Dev nD) → (b : Ref sig .tc) → Buf (Elt Ideal) ((c : Thread nD τ).loc b))

/-! ## The head on the pooled rows: one point, every block whole -/

/-- The block index maps over the grid: the features and the result move down the rows with the grid point, every
    parameter array stays at block (0, 0). -/
theorem idx7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- The features' block at point `t` holds consecutive rows of the array: its row `p` is the array's row `r`. -/
theorem read7_0 (c : Dev nD) (t : Fin cfg7.N) (p : Fin 64) (k : Fin 128) (r : Fin 64) (hr : r.val = p.val) :
    (Gen.iblk7 V c 0 t : Vec Ideal S64x128 .f32) (ix2 p k) = (V c (Pipeline.arrRef spec7 0) : S64x128.Idx → EReal) (ix2 r k) := by
  obtain ⟨e0, e1, -⟩ := idx7 t
  show V c (Pipeline.arrRef spec7 0) (((cfg7.win 0).blk t).view.emb (ix2 p k)) = _
  refine congrArg (V c (Pipeline.arrRef spec7 0)) (funext fun a => Fin.ext ?_)
  match a with
  | ⟨0, _⟩ => show win7_0.index t (0 : Fin 2) * 64 + 1 * p.val = r.val; omega
  | ⟨1, _⟩ => show win7_0.index t (1 : Fin 2) * 128 + 1 * k.val = k.val; omega

/-- A parameter array's block is the whole array, at every point. -/
theorem read7_1 (c : Dev nD) (t : Fin cfg7.N) :
    (Gen.iblk7 V c 1 t : Vec Ideal S128x64 .f32) = (V c (Pipeline.arrRef spec7 1) : S128x64.Idx → EReal) := by
  obtain ⟨-, -, e0, e1, -⟩ := idx7 t
  funext y
  show V c (Pipeline.arrRef spec7 1) (((cfg7.win 1).blk t).view.emb y) = _
  refine congrArg (V c (Pipeline.arrRef spec7 1)) (funext fun a => Fin.ext ?_)
  match a with
  | ⟨0, _⟩ => show win7_1.index t (0 : Fin 2) * 128 + 1 * (y 0).val = (y 0).val; omega
  | ⟨1, _⟩ => show win7_1.index t (1 : Fin 2) * 64 + 1 * (y 1).val = (y 1).val; omega

theorem read7_2 (c : Dev nD) (t : Fin cfg7.N) :
    (Gen.iblk7 V c 2 t : Vec Ideal S1x64 .f32) = (V c (Pipeline.arrRef spec7 2) : S1x64.Idx → EReal) := by
  obtain ⟨-, -, -, -, e0, e1, -⟩ := idx7 t
  funext y
  show V c (Pipeline.arrRef spec7 2) (((cfg7.win 2).blk t).view.emb y) = _
  refine congrArg (V c (Pipeline.arrRef spec7 2)) (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

theorem read7_3 (c : Dev nD) (t : Fin cfg7.N) :
    (Gen.iblk7 V c 3 t : Vec Ideal S64x2 .f32) = (V c (Pipeline.arrRef spec7 3) : S64x2.Idx → EReal) := by
  obtain ⟨-, -, -, -, -, -, e0, e1, -⟩ := idx7 t
  funext y
  show V c (Pipeline.arrRef spec7 3) (((cfg7.win 3).blk t).view.emb y) = _
  refine congrArg (V c (Pipeline.arrRef spec7 3)) (funext fun a => Fin.ext ?_)
  match a with
  | ⟨0, _⟩ => show win7_3.index t (0 : Fin 2) * 64 + 1 * (y 0).val = (y 0).val; omega
  | ⟨1, _⟩ => show win7_3.index t (1 : Fin 2) * 2 + 1 * (y 1).val = (y 1).val; omega

theorem read7_4 (c : Dev nD) (t : Fin cfg7.N) :
    (Gen.iblk7 V c 4 t : Vec Ideal S1x2 .f32) = (V c (Pipeline.arrRef spec7 4) : S1x2.Idx → EReal) := by
  obtain ⟨-, -, -, -, -, -, -, -, e0, e1, -⟩ := idx7 t
  funext y
  show V c (Pipeline.arrRef spec7 4) (((cfg7.win 4).blk t).view.emb y) = _
  refine congrArg (V c (Pipeline.arrRef spec7 4)) (funext fun a => Fin.ext ?_)
  match a with
  | ⟨0, _⟩ => show win7_4.index t (0 : Fin 2) * 1 + 1 * (y 0).val = (y 0).val; omega
  | ⟨1, _⟩ => show win7_4.index t (1 : Fin 2) * 2 + 1 * (y 1).val = (y 1).val; omega

/-- What point `t` writes back is block `t` of the head's function of the whole arrays: an entry depends on its own
    row of the features only, and that row is in the block. -/
theorem flushed7 (c : Dev nD) (t : Fin cfg7.N) :
    (Gen.dat7 (F := Ideal) V c).flushed 5 t = ((cfg7.win 5).blk t).view.read (Elt Ideal)
      (GcnSpec.mlp (n := 64) (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((Gen.dat7 V c).after 5 t) = _
  rw [Gen.after7_5]
  unfold Gen.out7_5
  rw [View.canon_unit_zero hz]
  simp only [View.ld_unit_zero (S := S64x128) hz, View.ld_unit_zero (S := S128x64) hz, View.ld_unit_zero (S := S1x64) hz, View.ld_unit_zero (S := S64x2) hz, View.ld_unit_zero (S := S1x2) hz]
  funext j
  obtain ⟨p, q, rfl⟩ : ∃ (p : Fin 64) (q : Fin 2), j = ix2 p q := ⟨j 0, j 1, eq_ix2 j⟩
  obtain ⟨-, -, -, -, -, -, -, -, -, -, e0, e1⟩ := idx7 t
  show Gen.k7_pay1 (Gen.iblk7 V c 0 t) (Gen.iblk7 V c 1 t) (Gen.iblk7 V c 2 t) (Gen.iblk7 V c 3 t) (Gen.iblk7 V c 4 t) (ix2 p q)
    = GcnSpec.mlp (n := 64) (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 p q))
  refine (pay7_at (Gen.iblk7 V c 0 t) (Gen.iblk7 V c 1 t) (Gen.iblk7 V c 2 t) (Gen.iblk7 V c 3 t) (Gen.iblk7 V c 4 t) p q).trans ?_
  refine mlp_block (V c (Pipeline.arrRef spec7 0)) (V c (Pipeline.arrRef spec7 1)) (V c (Pipeline.arrRef spec7 2)) (V c (Pipeline.arrRef spec7 3)) (V c (Pipeline.arrRef spec7 4))
    (Gen.iblk7 V c 0 t) (Gen.iblk7 V c 1 t) (Gen.iblk7 V c 2 t) (Gen.iblk7 V c 3 t) (Gen.iblk7 V c 4 t)
    (((cfg7.win 5).blk t).view.emb (ix2 p q)) p q ?_ (read7_1 V c t) (read7_2 V c t) (read7_3 V c t) (read7_4 V c t) ?_
  · intro k
    refine read7_0 V c t p k _ ?_
    show win7_5.index t (0 : Fin 2) * 64 + 1 * p.val = p.val
    omega
  · refine Fin.ext ?_
    show win7_5.index t (1 : Fin 2) * 2 + 1 * q.val = q.val
    omega

/-- An index of the result is in point `t`'s block iff each coordinate is in the block's range on its axis. -/
theorem mem_blk7 (t : Fin cfg7.N) (i : S64x2.Idx) :
    i ∈ ((cfg7.win 5).blk t).view.set ↔ ∀ a : Fin 2, win7_5.index t a * S64x2.size a ≤ (i a).val ∧ (i a).val < win7_5.index t a * S64x2.size a + S64x2.size a := by
  show i ∈ ((View.whole main_v150).slice (win7_5.rect t)).set ↔ _
  rw [View.set_slice_whole, Rect.mem_set_unit]
  exact Iff.rfl

/-- The pooled head's result array: one block covers all 64 rows. -/
theorem array7 (c : Dev nD) : (Gen.dat7 (F := Ideal) V c).arrAt 5 cfg7.N
    = GcnSpec.mlp (n := 64) (V c (Pipeline.arrRef spec7 0)) (V c (Pipeline.arrRef spec7 1)) (V c (Pipeline.arrRef spec7 2)) (V c (Pipeline.arrRef spec7 3)) (V c (Pipeline.arrRef spec7 4)) :=
  (Gen.dat7 (F := Ideal) V c).arrAt_eq_of_cover 5 _ (fun t _ => flushed7 V c t) fun i => by
    refine ⟨Gen.t7_0, Gen.flush7_5 _, ?_⟩
    obtain ⟨-, -, -, -, -, -, -, -, -, -, e0, e1⟩ := idx7 Gen.t7_0
    rw [mem_blk7]
    intro a
    have h0 : (i 0).val < 64 := (i 0).isLt
    have h1 : (i 1).val < 2 := (i 1).isLt
    match a with
    | ⟨0, _⟩ => show win7_5.index Gen.t7_0 (0 : Fin 2) * 64 ≤ (i 0).val ∧ (i 0).val < win7_5.index Gen.t7_0 (0 : Fin 2) * 64 + 64; omega
    | ⟨1, _⟩ => show win7_5.index Gen.t7_0 (1 : Fin 2) * 2 ≤ (i 1).val ∧ (i 1).val < win7_5.index Gen.t7_0 (1 : Fin 2) * 2 + 2; omega

/-! ## The head on the node rows: twenty points, 5000 rows each -/

/-- The block index maps over the grid: the features and the result move down the rows with the grid point, every
    parameter array stays at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The features' block at point `t` holds consecutive rows of the array: its row `p` is the array's row `r`. -/
theorem read6_0 (c : Dev nD) (t : Fin cfg6.N) (p : Fin 5000) (k : Fin 128) (r : Fin 100000) (hr : r.val = t.val * 5000 + p.val) :
    (Gen.iblk6 V c 0 t : Vec Ideal S5000x128 .f32) (ix2 p k) = (V c (Pipeline.arrRef spec6 0) : S100000x128.Idx → EReal) (ix2 r k) := by
  obtain ⟨e0, e1, -⟩ := idx6 t
  show V c (Pipeline.arrRef spec6 0) (((cfg6.win 0).blk t).view.emb (ix2 p k)) = _
  refine congrArg (V c (Pipeline.arrRef spec6 0)) (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

/-- A parameter array's block is the whole array, at every point. -/
theorem read6_1 (c : Dev nD) (t : Fin cfg6.N) :
    (Gen.iblk6 V c 1 t : Vec Ideal S128x64 .f32) = (V c (Pipeline.arrRef spec6 1) : S128x64.Idx → EReal) := by
  obtain ⟨-, -, e0, e1, -⟩ := idx6 t
  funext y
  show V c (Pipeline.arrRef spec6 1) (((cfg6.win 1).blk t).view.emb y) = _
  refine congrArg (V c (Pipeline.arrRef spec6 1)) (funext fun a => Fin.ext ?_)
  match a with
  | ⟨0, _⟩ => show win6_1.index t (0 : Fin 2) * 128 + 1 * (y 0).val = (y 0).val; omega
  | ⟨1, _⟩ => show win6_1.index t (1 : Fin 2) * 64 + 1 * (y 1).val = (y 1).val; omega

theorem read6_2 (c : Dev nD) (t : Fin cfg6.N) :
    (Gen.iblk6 V c 2 t : Vec Ideal S1x64 .f32) = (V c (Pipeline.arrRef spec6 2) : S1x64.Idx → EReal) := by
  obtain ⟨-, -, -, -, e0, e1, -⟩ := idx6 t
  funext y
  show V c (Pipeline.arrRef spec6 2) (((cfg6.win 2).blk t).view.emb y) = _
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

theorem read6_3 (c : Dev nD) (t : Fin cfg6.N) :
    (Gen.iblk6 V c 3 t : Vec Ideal S64x2 .f32) = (V c (Pipeline.arrRef spec6 3) : S64x2.Idx → EReal) := by
  obtain ⟨-, -, -, -, -, -, e0, e1, -⟩ := idx6 t
  funext y
  show V c (Pipeline.arrRef spec6 3) (((cfg6.win 3).blk t).view.emb y) = _
  refine congrArg (V c (Pipeline.arrRef spec6 3)) (funext fun a => Fin.ext ?_)
  match a with
  | ⟨0, _⟩ => show win6_3.index t (0 : Fin 2) * 64 + 1 * (y 0).val = (y 0).val; omega
  | ⟨1, _⟩ => show win6_3.index t (1 : Fin 2) * 2 + 1 * (y 1).val = (y 1).val; omega

theorem read6_4 (c : Dev nD) (t : Fin cfg6.N) :
    (Gen.iblk6 V c 4 t : Vec Ideal S1x2 .f32) = (V c (Pipeline.arrRef spec6 4) : S1x2.Idx → EReal) := by
  obtain ⟨-, -, -, -, -, -, -, -, e0, e1, -⟩ := idx6 t
  funext y
  show V c (Pipeline.arrRef spec6 4) (((cfg6.win 4).blk t).view.emb y) = _
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 2 + 1 * (y 1).val = (y 1).val; omega

/-- What point `t` writes back is block `t` of the head's function of the whole arrays: an entry depends on its own
    row of the features only, and that row is in the block. -/
theorem flushed6 (c : Dev nD) (t : Fin cfg6.N) :
    (Gen.dat6 (F := Ideal) V c).flushed 5 t = ((cfg6.win 5).blk t).view.read (Elt Ideal)
      (GcnSpec.mlp (n := 100000) (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((Gen.dat6 V c).after 5 t) = _
  rw [Gen.after6_5]
  unfold Gen.out6_5
  rw [View.canon_unit_zero hz]
  simp only [View.ld_unit_zero (S := S5000x128) hz, View.ld_unit_zero (S := S128x64) hz, View.ld_unit_zero (S := S1x64) hz, View.ld_unit_zero (S := S64x2) hz, View.ld_unit_zero (S := S1x2) hz]
  funext j
  obtain ⟨p, q, rfl⟩ : ∃ (p : Fin 5000) (q : Fin 2), j = ix2 p q := ⟨j 0, j 1, eq_ix2 j⟩
  obtain ⟨-, -, -, -, -, -, -, -, -, -, e0, e1⟩ := idx6 t
  show Gen.k6_pay1 (Gen.iblk6 V c 0 t) (Gen.iblk6 V c 1 t) (Gen.iblk6 V c 2 t) (Gen.iblk6 V c 3 t) (Gen.iblk6 V c 4 t) (ix2 p q)
    = GcnSpec.mlp (n := 100000) (V c (Pipeline.arrRef spec6 0)) (V c (Pipeline.arrRef spec6 1)) (V c (Pipeline.arrRef spec6 2)) (V c (Pipeline.arrRef spec6 3)) (V c (Pipeline.arrRef spec6 4)) (((cfg6.win 5).blk t).view.emb (ix2 p q))
  refine (pay6_at (Gen.iblk6 V c 0 t) (Gen.iblk6 V c 1 t) (Gen.iblk6 V c 2 t) (Gen.iblk6 V c 3 t) (Gen.iblk6 V c 4 t) p q).trans ?_
  refine mlp_block (V c (Pipeline.arrRef spec6 0)) (V c (Pipeline.arrRef spec6 1)) (V c (Pipeline.arrRef spec6 2)) (V c (Pipeline.arrRef spec6 3)) (V c (Pipeline.arrRef spec6 4))
    (Gen.iblk6 V c 0 t) (Gen.iblk6 V c 1 t) (Gen.iblk6 V c 2 t) (Gen.iblk6 V c 3 t) (Gen.iblk6 V c 4 t)
    (((cfg6.win 5).blk t).view.emb (ix2 p q)) p q ?_ (read6_1 V c t) (read6_2 V c t) (read6_3 V c t) (read6_4 V c t) ?_
  · intro k
    refine read6_0 V c t p k _ ?_
    show win6_5.index t (0 : Fin 2) * 5000 + 1 * p.val = t.val * 5000 + p.val
    omega
  · refine Fin.ext ?_
    show win6_5.index t (1 : Fin 2) * 2 + 1 * q.val = q.val
    omega

/-- An index of the result is in point `t`'s block iff each coordinate is in the block's range on its axis. -/
theorem mem_blk6 (t : Fin cfg6.N) (i : S100000x2.Idx) :
    i ∈ ((cfg6.win 5).blk t).view.set ↔ ∀ a : Fin 2, win6_5.index t a * S5000x2.size a ≤ (i a).val ∧ (i a).val < win6_5.index t a * S5000x2.size a + S5000x2.size a := by
  show i ∈ ((View.whole main_v133).slice (win6_5.rect t)).set ↔ _
  rw [View.set_slice_whole, Rect.mem_set_unit]
  exact Iff.rfl

/-- The node head's result array: row `r` is in the block of point `r / 5000`, and the twenty blocks cover the 100000 rows. -/
theorem array6 (c : Dev nD) : (Gen.dat6 (F := Ideal) V c).arrAt 5 cfg6.N
    = GcnSpec.mlp (n := 100000) (V c (Pipeline.arrRef spec6 0)) (V c (Pipeline.arrRef spec6 1)) (V c (Pipeline.arrRef spec6 2)) (V c (Pipeline.arrRef spec6 3)) (V c (Pipeline.arrRef spec6 4)) :=
  (Gen.dat6 (F := Ideal) V c).arrAt_eq_of_cover 5 _ (fun t _ => flushed6 V c t) fun i => by
    have hN : cfg6.N = 20 := Gen.N_6
    have h0 : (i 0).val < 100000 := (i 0).isLt
    have h1 : (i 1).val < 2 := (i 1).isLt
    have hlt : (i 0).val / 5000 < cfg6.N := by rw [hN]; omega
    refine ⟨⟨(i 0).val / 5000, hlt⟩, Gen.flush6_5 _, ?_⟩
    obtain ⟨-, -, -, -, -, -, -, -, -, -, e0, e1⟩ := idx6 ⟨(i 0).val / 5000, hlt⟩
    have e0' : win6_5.index ⟨(i 0).val / 5000, hlt⟩ (0 : Fin 2) = (i 0).val / 5000 := e0
    rw [mem_blk6]
    intro a
    match a with
    | ⟨0, _⟩ => show win6_5.index ⟨(i 0).val / 5000, hlt⟩ (0 : Fin 2) * 5000 ≤ (i 0).val ∧ (i 0).val < win6_5.index ⟨(i 0).val / 5000, hlt⟩ (0 : Fin 2) * 5000 + 5000; omega
    | ⟨1, _⟩ => show win6_5.index ⟨(i 0).val / 5000, hlt⟩ (1 : Fin 2) * 2 ≤ (i 1).val ∧ (i 1).val < win6_5.index ⟨(i 0).val / 5000, hlt⟩ (1 : Fin 2) * 2 + 2; omega

end

end Cert.KernelIdeal.RegionMlp

end
-- ==== Proof.KChain.lean ====
/-
  The kernel program's two results as the network's stage functions of the launch arguments.

  The contents at each segment boundary are followed from the launch to the return.  A host stretch is read off its
  operations: the edge endpoints, the degrees and the edge norm, the transposed weights, the parameter rows, the gather /
  scale / scatter-add of each layer and the pooling are the SAME host operations in both programs, so each such buffer
  is the corresponding stage function by unfolding, with nothing about a gather or a scatter ever used.  A tiled
  region's output array is the specification's function of its input arrays (a row-tiled sum over the contracted axis is
  the whole sum; a pointwise map is pointwise), and that specification function is the reference's host spelling of the
  stage.
-/
import proofs.«104500_j56891136803554_2_alg».proof.Proof.Gen.KernelIdeal.Frame
import proofs.«104500_j56891136803554_2_alg».proof.Proof.Spec
import proofs.«104500_j56891136803554_2_alg».proof.Proof.Stages
import proofs.«104500_j56891136803554_2_alg».proof.Proof.RefPure
import proofs.«104500_j56891136803554_2_alg».proof.Proof.KKeep
import proofs.«104500_j56891136803554_2_alg».proof.Proof.RegionLin
import proofs.«104500_j56891136803554_2_alg».proof.Proof.RegionBn
import proofs.«104500_j56891136803554_2_alg».proof.Proof.RegionMlp
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep

/-- A vector reshaped to a one-row matrix is that row: entry `(0, j)` of the reshape is entry `j`. -/
theorem reshape_row {n : Nat} (u : GcnSpec.Row n) (h : (⟨1, ![n]⟩ : Shape).ShapeCasts ⟨2, ![1, n]⟩) :
    shapeCast ⟨2, ![1, n]⟩ u h = GcnSpec.row u := by
  funext i
  obtain ⟨p, q, rfl⟩ : ∃ (p : Fin 1) (q : Fin n), i = ix2 p q := ⟨i 0, i 1, eq_ix2 i⟩
  exact shapeCast_a_1a_apply u h p q

variable (m : (ℓ : Loc nD τ sig) → Buf (Elt Ideal) ℓ) (ρ : Dev nD → PrngReg) (c : Dev nD)

/-! ## The edge data: endpoints, degrees, the edge norm; the first transposed weight -/

theorem p1_v3 : W1 m ρ c (Proc.devRef .tc main_v3) = Gcn.src (m ((c : Thread nD τ).loc main_arg1)) := by
  show StableHlo.after hostOps0 (W0 m ρ c) (Proc.devRef .tc main_v3) = _
  after_results_simp; rfl

theorem p1_v6 : W1 m ρ c (Proc.devRef .tc main_v6) = Gcn.dst (m ((c : Thread nD τ).loc main_arg1)) := by
  show StableHlo.after hostOps0 (W0 m ρ c) (Proc.devRef .tc main_v6) = _
  after_results_simp; rfl

theorem p1_v10 : W1 m ρ c (Proc.devRef .tc main_v10) = Gcn.deg (m ((c : Thread nD τ).loc main_arg1)) := by
  show StableHlo.after hostOps0 (W0 m ρ c) (Proc.devRef .tc main_v10) = _
  after_results_simp; rfl

theorem p1_v12 : W1 m ρ c (Proc.devRef .tc main_v12) = Gcn.degPos (m ((c : Thread nD τ).loc main_arg1)) := by
  show StableHlo.after hostOps0 (W0 m ρ c) (Proc.devRef .tc main_v12) = _
  after_results_simp; rfl

theorem p1_v13 : W1 m ρ c (Proc.devRef .tc main_v13) = Gcn.degRs (m ((c : Thread nD τ).loc main_arg1)) := by
  show StableHlo.after hostOps0 (W0 m ρ c) (Proc.devRef .tc main_v13) = _
  after_results_simp; rfl

theorem p1_cst_2 : W1 m ρ c (Proc.devRef .tc main_cst_2) = Gcn.zeroS := by
  show StableHlo.after hostOps0 (W0 m ρ c) (Proc.devRef .tc main_cst_2) = _
  after_results_simp; rfl

/-- The selection by the degree mask, over any contents of the three buffers it reads. -/
theorem pA_v14 (V₀ : Valuation τ sig (Elt Ideal)) :
    StableHlo.after hostOps0_1 V₀ (Proc.devRef .tc main_v14)
      = select (V₀ (Proc.devRef .tc main_v12)) (V₀ (Proc.devRef .tc main_v13))
          (broadcastInDim S100000 ![] bcast_S_S100000 (id (V₀ (Proc.devRef .tc main_cst_2)))) := by
  after_results_simp
  rfl

/-- The inverse square-root degrees. -/
theorem p2_v14 : W2 m ρ c (Proc.devRef .tc main_v14) = Gcn.dis (m ((c : Thread nD τ).loc main_arg1)) := by
  have h12 := p1_v12 m ρ c
  have h13 := p1_v13 m ρ c
  have hz := p1_cst_2 m ρ c
  show StableHlo.after hostOps0_1 (W1 m ρ c) (Proc.devRef .tc main_v14) = _
  generalize W1 m ρ c = V₀ at h12 h13 hz ⊢
  refine (pA_v14 V₀).trans ?_
  rw [h12, h13, hz]
  rfl

theorem p2_v3 : W2 m ρ c (Proc.devRef .tc main_v3) = Gcn.src (m ((c : Thread nD τ).loc main_arg1)) := (show W2 m ρ c (Proc.devRef .tc main_v3) = W1 m ρ c (Proc.devRef .tc main_v3) by host_keep).trans (p1_v3 m ρ c)

theorem p3_v3 : W3 m ρ c (Proc.devRef .tc main_v3) = Gcn.src (m ((c : Thread nD τ).loc main_arg1)) := (show W3 m ρ c (Proc.devRef .tc main_v3) = W2 m ρ c (Proc.devRef .tc main_v3) by host_keep).trans (p2_v3 m ρ c)

theorem p2_v6 : W2 m ρ c (Proc.devRef .tc main_v6) = Gcn.dst (m ((c : Thread nD τ).loc main_arg1)) := (show W2 m ρ c (Proc.devRef .tc main_v6) = W1 m ρ c (Proc.devRef .tc main_v6) by host_keep).trans (p1_v6 m ρ c)

theorem p3_v6 : W3 m ρ c (Proc.devRef .tc main_v6) = Gcn.dst (m ((c : Thread nD τ).loc main_arg1)) := (show W3 m ρ c (Proc.devRef .tc main_v6) = W2 m ρ c (Proc.devRef .tc main_v6) by host_keep).trans (p2_v6 m ρ c)

/-- The edge norm: the product of the inverse square-root degrees of an edge's two endpoints. -/
theorem p3_v29 : W3 m ρ c (Proc.devRef .tc main_v29) = Gcn.norm (m ((c : Thread nD τ).loc main_arg1)) := by
  have h14 := p2_v14 m ρ c
  have h3 := p2_v3 m ρ c
  have h6 := p2_v6 m ρ c
  show StableHlo.after hostOps0_2 (W2 m ρ c) (Proc.devRef .tc main_v29) = _
  generalize W2 m ρ c = V₀ at h14 h3 h6 ⊢
  after_results_simp
  rw [h14, h3, h6]
  rfl

theorem p3_v32 : W3 m ρ c (Proc.devRef .tc main_v32) = Gcn.wT0 (m ((c : Thread nD τ).loc main_arg3)) := by
  have h := arg3_at2 m ρ c
  show StableHlo.after hostOps0_2 (W2 m ρ c) (Proc.devRef .tc main_v32) = _
  generalize W2 m ρ c = V₀ at h ⊢
  after_results_simp
  rw [h]
  rfl

theorem k4_v3 : W4 m ρ c (Proc.devRef .tc main_v3) = Gcn.src (m ((c : Thread nD τ).loc main_arg1)) := (dn_v3_4 m ρ c).trans (p3_v3 m ρ c)

theorem k4_v6 : W4 m ρ c (Proc.devRef .tc main_v6) = Gcn.dst (m ((c : Thread nD τ).loc main_arg1)) := (dn_v6_4 m ρ c).trans (p3_v6 m ρ c)

theorem k4_v29 : W4 m ρ c (Proc.devRef .tc main_v29) = Gcn.norm (m ((c : Thread nD τ).loc main_arg1)) := (dn_v29_4 m ρ c).trans (p3_v29 m ρ c)

theorem k8_v3 : W8 m ρ c (Proc.devRef .tc main_v3) = Gcn.src (m ((c : Thread nD τ).loc main_arg1)) := (dn_v3_8 m ρ c).trans (p3_v3 m ρ c)

theorem k8_v6 : W8 m ρ c (Proc.devRef .tc main_v6) = Gcn.dst (m ((c : Thread nD τ).loc main_arg1)) := (dn_v6_8 m ρ c).trans (p3_v6 m ρ c)

theorem k8_v29 : W8 m ρ c (Proc.devRef .tc main_v29) = Gcn.norm (m ((c : Thread nD τ).loc main_arg1)) := (dn_v29_8 m ρ c).trans (p3_v29 m ρ c)

theorem k12_v3 : W12 m ρ c (Proc.devRef .tc main_v3) = Gcn.src (m ((c : Thread nD τ).loc main_arg1)) := (dn_v3_12 m ρ c).trans (p3_v3 m ρ c)

theorem k12_v6 : W12 m ρ c (Proc.devRef .tc main_v6) = Gcn.dst (m ((c : Thread nD τ).loc main_arg1)) := (dn_v6_12 m ρ c).trans (p3_v6 m ρ c)

theorem k12_v29 : W12 m ρ c (Proc.devRef .tc main_v29) = Gcn.norm (m ((c : Thread nD τ).loc main_arg1)) := (dn_v29_12 m ρ c).trans (p3_v29 m ρ c)

/-! ## Layer 1 -/

set_option maxHeartbeats 2000000 in
/-- The dense map of layer 1: row tiles of the sum over the contracted axis are the whole sum, which is the reference's contraction. -/
theorem l1_lin : W4 m ρ c (Proc.devRef .tc main_v33) = Gcn.dotl (m ((c : Thread nD τ).loc main_arg0)) (Gcn.wT0 (m ((c : Thread nD τ).loc main_arg3))) := by
  refine (W4_arr m ρ c 2).trans ?_
  rw [Cert.KernelIdeal.RegionLin.array0 (V3 m ρ) c,
    show V3 m ρ c (Pipeline.arrRef spec0 0) = _ from arg0_at3 m ρ c,
    show V3 m ρ c (Pipeline.arrRef spec0 1) = _ from p3_v32 m ρ c]
  exact (Cert.Gcn.Pure.dotl_eq _ _).symm

/-- The message passing of layer 1: the same gather, scaling and scatter-add on both sides, never opened. -/
theorem l1_agg : W5 m ρ c (Proc.devRef .tc main_v46) = Gcn.mp (Gcn.dotl (m ((c : Thread nD τ).loc main_arg0)) (Gcn.wT0 (m ((c : Thread nD τ).loc main_arg3)))) (m ((c : Thread nD τ).loc main_arg1)) := by
  show StableHlo.after hostOps1 (W4 m ρ c) (Proc.devRef .tc main_v46) = _
  after_results_simp
  rw [l1_lin m ρ c, k4_v3 m ρ c, k4_v6 m ρ c, k4_v29 m ρ c]
  rfl

theorem l1_row1 : W5 m ρ c (Proc.devRef .tc main_v49) = GcnSpec.row (Gcn.rb1 (m ((c : Thread nD τ).loc main_arg4))) := by
  show StableHlo.after hostOps1 (W4 m ρ c) (Proc.devRef .tc main_v49) = _
  after_results_simp
  rw [arg4_at4 m ρ c]
  exact reshape_row (Gcn.rb1 (m ((c : Thread nD τ).loc main_arg4))) _

theorem l1_row2 : W5 m ρ c (Proc.devRef .tc main_v52) = GcnSpec.row (Gcn.rgamma1 (m ((c : Thread nD τ).loc main_arg5))) := by
  show StableHlo.after hostOps1 (W4 m ρ c) (Proc.devRef .tc main_v52) = _
  after_results_simp
  rw [arg5_at4 m ρ c]
  exact reshape_row (Gcn.rgamma1 (m ((c : Thread nD τ).loc main_arg5))) _

theorem l1_row3 : W5 m ρ c (Proc.devRef .tc main_v55) = GcnSpec.row (Gcn.rbeta1 (m ((c : Thread nD τ).loc main_arg6))) := by
  show StableHlo.after hostOps1 (W4 m ρ c) (Proc.devRef .tc main_v55) = _
  after_results_simp
  rw [arg6_at4 m ρ c]
  exact reshape_row (Gcn.rbeta1 (m ((c : Thread nD τ).loc main_arg6))) _

theorem l1_row4 : W5 m ρ c (Proc.devRef .tc main_v58) = GcnSpec.row (Gcn.rmean1 (m ((c : Thread nD τ).loc main_arg7))) := by
  show StableHlo.after hostOps1 (W4 m ρ c) (Proc.devRef .tc main_v58) = _
  after_results_simp
  rw [arg7_at4 m ρ c]
  exact reshape_row (Gcn.rmean1 (m ((c : Thread nD τ).loc main_arg7))) _

theorem l1_row5 : W5 m ρ c (Proc.devRef .tc main_v61) = GcnSpec.row (Gcn.rvar1 (m ((c : Thread nD τ).loc main_arg8))) := by
  show StableHlo.after hostOps1 (W4 m ρ c) (Proc.devRef .tc main_v61) = _
  after_results_simp
  rw [arg8_at4 m ρ c]
  exact reshape_row (Gcn.rvar1 (m ((c : Thread nD τ).loc main_arg8))) _

set_option maxHeartbeats 2000000 in
/-- Bias, normalisation and rectifier of layer 1: pointwise, the parameter rows read at the entry's column. -/
theorem l1_relu : W6 m ρ c (Proc.devRef .tc main_v62) = Gcn.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ?_
  rw [Cert.KernelIdeal.RegionBn.array1 (V5 m ρ) c,
    show V5 m ρ c (Pipeline.arrRef spec1 0) = _ from l1_agg m ρ c,
    show V5 m ρ c (Pipeline.arrRef spec1 1) = _ from l1_row1 m ρ c,
    show V5 m ρ c (Pipeline.arrRef spec1 2) = _ from l1_row2 m ρ c,
    show V5 m ρ c (Pipeline.arrRef spec1 3) = _ from l1_row3 m ρ c,
    show V5 m ρ c (Pipeline.arrRef spec1 4) = _ from l1_row4 m ρ c,
    show V5 m ρ c (Pipeline.arrRef spec1 5) = _ from l1_row5 m ρ c]
  exact (Cert.Gcn.Pure.bnh_eq _ _ _ _ _ _).symm

/-! ## Layer 2 -/

theorem l2_wT : W7 m ρ c (Proc.devRef .tc main_v65) = Gcn.wT1 (m ((c : Thread nD τ).loc main_arg3)) := by
  show StableHlo.after hostOps2 (W6 m ρ c) (Proc.devRef .tc main_v65) = _
  after_results_simp
  rw [arg3_at6 m ρ c]
  rfl

theorem l2_in : W7 m ρ c (Proc.devRef .tc main_v62) = Gcn.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (show W7 m ρ c (Proc.devRef .tc main_v62) = W6 m ρ c (Proc.devRef .tc main_v62) by host_keep).trans (l1_relu m ρ c)

set_option maxHeartbeats 2000000 in
/-- The dense map of layer 2: row tiles of the sum over the contracted axis are the whole sum, which is the reference's contraction. -/
theorem l2_lin : W8 m ρ c (Proc.devRef .tc main_v66) = Gcn.dotl (Gcn.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Gcn.wT1 (m ((c : Thread nD τ).loc main_arg3))) := by
  refine (W8_arr m ρ c 2).trans ?_
  rw [Cert.KernelIdeal.RegionLin.array2 (V7 m ρ) c,
    show V7 m ρ c (Pipeline.arrRef spec2 0) = _ from l2_in m ρ c,
    show V7 m ρ c (Pipeline.arrRef spec2 1) = _ from l2_wT m ρ c]
  exact (Cert.Gcn.Pure.dotl_eq _ _).symm

/-- The message passing of layer 2: the same gather, scaling and scatter-add on both sides, never opened. -/
theorem l2_agg : W9 m ρ c (Proc.devRef .tc main_v79) = Gcn.mp (Gcn.dotl (Gcn.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Gcn.wT1 (m ((c : Thread nD τ).loc main_arg3)))) (m ((c : Thread nD τ).loc main_arg1)) := by
  show StableHlo.after hostOps3 (W8 m ρ c) (Proc.devRef .tc main_v79) = _
  after_results_simp
  rw [l2_lin m ρ c, k8_v3 m ρ c, k8_v6 m ρ c, k8_v29 m ρ c]
  rfl

theorem l2_row1 : W9 m ρ c (Proc.devRef .tc main_v82) = GcnSpec.row (Gcn.rb2 (m ((c : Thread nD τ).loc main_arg4))) := by
  show StableHlo.after hostOps3 (W8 m ρ c) (Proc.devRef .tc main_v82) = _
  after_results_simp
  rw [arg4_at8 m ρ c]
  exact reshape_row (Gcn.rb2 (m ((c : Thread nD τ).loc main_arg4))) _

theorem l2_row2 : W9 m ρ c (Proc.devRef .tc main_v85) = GcnSpec.row (Gcn.rgamma2 (m ((c : Thread nD τ).loc main_arg5))) := by
  show StableHlo.after hostOps3 (W8 m ρ c) (Proc.devRef .tc main_v85) = _
  after_results_simp
  rw [arg5_at8 m ρ c]
  exact reshape_row (Gcn.rgamma2 (m ((c : Thread nD τ).loc main_arg5))) _

theorem l2_row3 : W9 m ρ c (Proc.devRef .tc main_v88) = GcnSpec.row (Gcn.rbeta2 (m ((c : Thread nD τ).loc main_arg6))) := by
  show StableHlo.after hostOps3 (W8 m ρ c) (Proc.devRef .tc main_v88) = _
  after_results_simp
  rw [arg6_at8 m ρ c]
  exact reshape_row (Gcn.rbeta2 (m ((c : Thread nD τ).loc main_arg6))) _

theorem l2_row4 : W9 m ρ c (Proc.devRef .tc main_v91) = GcnSpec.row (Gcn.rmean2 (m ((c : Thread nD τ).loc main_arg7))) := by
  show StableHlo.after hostOps3 (W8 m ρ c) (Proc.devRef .tc main_v91) = _
  after_results_simp
  rw [arg7_at8 m ρ c]
  exact reshape_row (Gcn.rmean2 (m ((c : Thread nD τ).loc main_arg7))) _

theorem l2_row5 : W9 m ρ c (Proc.devRef .tc main_v94) = GcnSpec.row (Gcn.rvar2 (m ((c : Thread nD τ).loc main_arg8))) := by
  show StableHlo.after hostOps3 (W8 m ρ c) (Proc.devRef .tc main_v94) = _
  after_results_simp
  rw [arg8_at8 m ρ c]
  exact reshape_row (Gcn.rvar2 (m ((c : Thread nD τ).loc main_arg8))) _

set_option maxHeartbeats 2000000 in
/-- Bias, normalisation and rectifier of layer 2: pointwise, the parameter rows read at the entry's column. -/
theorem l2_relu : W10 m ρ c (Proc.devRef .tc main_v95) = Gcn.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 6).trans ?_
  rw [Cert.KernelIdeal.RegionBn.array3 (V9 m ρ) c,
    show V9 m ρ c (Pipeline.arrRef spec3 0) = _ from l2_agg m ρ c,
    show V9 m ρ c (Pipeline.arrRef spec3 1) = _ from l2_row1 m ρ c,
    show V9 m ρ c (Pipeline.arrRef spec3 2) = _ from l2_row2 m ρ c,
    show V9 m ρ c (Pipeline.arrRef spec3 3) = _ from l2_row3 m ρ c,
    show V9 m ρ c (Pipeline.arrRef spec3 4) = _ from l2_row4 m ρ c,
    show V9 m ρ c (Pipeline.arrRef spec3 5) = _ from l2_row5 m ρ c]
  exact (Cert.Gcn.Pure.bnh_eq _ _ _ _ _ _).symm

/-! ## Layer 3 -/

theorem l3_wT : W11 m ρ c (Proc.devRef .tc main_v98) = Gcn.wT2 (m ((c : Thread nD τ).loc main_arg3)) := by
  show StableHlo.after hostOps4 (W10 m ρ c) (Proc.devRef .tc main_v98) = _
  after_results_simp
  rw [arg3_at10 m ρ c]
  rfl

theorem l3_in : W11 m ρ c (Proc.devRef .tc main_v95) = Gcn.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (show W11 m ρ c (Proc.devRef .tc main_v95) = W10 m ρ c (Proc.devRef .tc main_v95) by host_keep).trans (l2_relu m ρ c)

set_option maxHeartbeats 2000000 in
/-- The dense map of layer 3: row tiles of the sum over the contracted axis are the whole sum, which is the reference's contraction. -/
theorem l3_lin : W12 m ρ c (Proc.devRef .tc main_v99) = Gcn.dotl (Gcn.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Gcn.wT2 (m ((c : Thread nD τ).loc main_arg3))) := by
  refine (W12_arr m ρ c 2).trans ?_
  rw [Cert.KernelIdeal.RegionLin.array4 (V11 m ρ) c,
    show V11 m ρ c (Pipeline.arrRef spec4 0) = _ from l3_in m ρ c,
    show V11 m ρ c (Pipeline.arrRef spec4 1) = _ from l3_wT m ρ c]
  exact (Cert.Gcn.Pure.dotl_eq _ _).symm

/-- The message passing of layer 3: the same gather, scaling and scatter-add on both sides, never opened. -/
theorem l3_agg : W13 m ρ c (Proc.devRef .tc main_v112) = Gcn.mp (Gcn.dotl (Gcn.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Gcn.wT2 (m ((c : Thread nD τ).loc main_arg3)))) (m ((c : Thread nD τ).loc main_arg1)) := by
  show StableHlo.after hostOps5 (W12 m ρ c) (Proc.devRef .tc main_v112) = _
  after_results_simp
  rw [l3_lin m ρ c, k12_v3 m ρ c, k12_v6 m ρ c, k12_v29 m ρ c]
  rfl

theorem l3_row1 : W13 m ρ c (Proc.devRef .tc main_v115) = GcnSpec.row (Gcn.rb3 (m ((c : Thread nD τ).loc main_arg4))) := by
  show StableHlo.after hostOps5 (W12 m ρ c) (Proc.devRef .tc main_v115) = _
  after_results_simp
  rw [arg4_at12 m ρ c]
  exact reshape_row (Gcn.rb3 (m ((c : Thread nD τ).loc main_arg4))) _

theorem l3_row2 : W13 m ρ c (Proc.devRef .tc main_v118) = GcnSpec.row (Gcn.rgamma3 (m ((c : Thread nD τ).loc main_arg5))) := by
  show StableHlo.after hostOps5 (W12 m ρ c) (Proc.devRef .tc main_v118) = _
  after_results_simp
  rw [arg5_at12 m ρ c]
  exact reshape_row (Gcn.rgamma3 (m ((c : Thread nD τ).loc main_arg5))) _

theorem l3_row3 : W13 m ρ c (Proc.devRef .tc main_v121) = GcnSpec.row (Gcn.rbeta3 (m ((c : Thread nD τ).loc main_arg6))) := by
  show StableHlo.after hostOps5 (W12 m ρ c) (Proc.devRef .tc main_v121) = _
  after_results_simp
  rw [arg6_at12 m ρ c]
  exact reshape_row (Gcn.rbeta3 (m ((c : Thread nD τ).loc main_arg6))) _

theorem l3_row4 : W13 m ρ c (Proc.devRef .tc main_v124) = GcnSpec.row (Gcn.rmean3 (m ((c : Thread nD τ).loc main_arg7))) := by
  show StableHlo.after hostOps5 (W12 m ρ c) (Proc.devRef .tc main_v124) = _
  after_results_simp
  rw [arg7_at12 m ρ c]
  exact reshape_row (Gcn.rmean3 (m ((c : Thread nD τ).loc main_arg7))) _

theorem l3_row5 : W13 m ρ c (Proc.devRef .tc main_v127) = GcnSpec.row (Gcn.rvar3 (m ((c : Thread nD τ).loc main_arg8))) := by
  show StableHlo.after hostOps5 (W12 m ρ c) (Proc.devRef .tc main_v127) = _
  after_results_simp
  rw [arg8_at12 m ρ c]
  exact reshape_row (Gcn.rvar3 (m ((c : Thread nD τ).loc main_arg8))) _

set_option maxHeartbeats 2000000 in
/-- Bias, normalisation and rectifier of layer 3: pointwise, the parameter rows read at the entry's column. -/
theorem l3_relu : W14 m ρ c (Proc.devRef .tc main_v128) = Gcn.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 6).trans ?_
  rw [Cert.KernelIdeal.RegionBn.array5 (V13 m ρ) c,
    show V13 m ρ c (Pipeline.arrRef spec5 0) = _ from l3_agg m ρ c,
    show V13 m ρ c (Pipeline.arrRef spec5 1) = _ from l3_row1 m ρ c,
    show V13 m ρ c (Pipeline.arrRef spec5 2) = _ from l3_row2 m ρ c,
    show V13 m ρ c (Pipeline.arrRef spec5 3) = _ from l3_row3 m ρ c,
    show V13 m ρ c (Pipeline.arrRef spec5 4) = _ from l3_row4 m ρ c,
    show V13 m ρ c (Pipeline.arrRef spec5 5) = _ from l3_row5 m ρ c]
  exact (Cert.Gcn.Pure.bnh_eq _ _ _ _ _ _).symm

/-! ## The node head -/

theorem n_w1 : W15 m ρ c (Proc.devRef .tc main_v129) = Gcn.tr9 (m ((c : Thread nD τ).loc main_arg9)) := by
  show StableHlo.after hostOps6 (W14 m ρ c) (Proc.devRef .tc main_v129) = _
  after_results_simp
  rw [arg9_at14 m ρ c]
  rfl

theorem n_w2 : W15 m ρ c (Proc.devRef .tc main_v130) = Gcn.tr11 (m ((c : Thread nD τ).loc main_arg11)) := by
  show StableHlo.after hostOps6 (W14 m ρ c) (Proc.devRef .tc main_v130) = _
  after_results_simp
  rw [arg11_at14 m ρ c]
  rfl

theorem n_b1 : W15 m ρ c (Proc.devRef .tc main_v131) = GcnSpec.row (m ((c : Thread nD τ).loc main_arg10)) := by
  show StableHlo.after hostOps6 (W14 m ρ c) (Proc.devRef .tc main_v131) = _
  after_results_simp
  rw [arg10_at14 m ρ c]
  exact reshape_row (m ((c : Thread nD τ).loc main_arg10)) _

theorem n_b2 : W15 m ρ c (Proc.devRef .tc main_v132) = GcnSpec.row (m ((c : Thread nD τ).loc main_arg12)) := by
  show StableHlo.after hostOps6 (W14 m ρ c) (Proc.devRef .tc main_v132) = _
  after_results_simp
  rw [arg12_at14 m ρ c]
  exact reshape_row (m ((c : Thread nD τ).loc main_arg12)) _

theorem n_in : W15 m ρ c (Proc.devRef .tc main_v128) = Gcn.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (show W15 m ρ c (Proc.devRef .tc main_v128) = W14 m ρ c (Proc.devRef .tc main_v128) by host_keep).trans (l3_relu m ρ c)

set_option maxHeartbeats 2000000 in
theorem res0_at16 : W16 m ρ c (Proc.devRef .tc main_v133) = Gcn.out0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W16_arr m ρ c 5).trans ?_
  rw [Cert.KernelIdeal.RegionMlp.array6 (V15 m ρ) c,
    show V15 m ρ c (Pipeline.arrRef spec6 0) = _ from n_in m ρ c,
    show V15 m ρ c (Pipeline.arrRef spec6 1) = _ from n_w1 m ρ c,
    show V15 m ρ c (Pipeline.arrRef spec6 2) = _ from n_b1 m ρ c,
    show V15 m ρ c (Pipeline.arrRef spec6 3) = _ from n_w2 m ρ c,
    show V15 m ρ c (Pipeline.arrRef spec6 4) = _ from n_b2 m ρ c]
  exact (Cert.Gcn.Pure.nodeh_eq _ _ _ _ _).symm

/-- The first result: the node head's output, untouched by the pooling stretch and the graph head. -/
theorem res0 : W18 m ρ c (Proc.devRef .tc main_v133) = Gcn.out0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W18_of_ne m ρ c main_v133 (by decide)).trans ((show W17 m ρ c (Proc.devRef .tc main_v133) = W16 m ρ c (Proc.devRef .tc main_v133) by host_keep).trans (res0_at16 m ρ c))

/-! ## The graph head -/

/-- The last layer's features, read back through the node head's region, which only reads them. -/
theorem k16_v128 : W16 m ρ c (Proc.devRef .tc main_v128) = Gcn.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W16_arr m ρ c 0).trans (((dat6 (V15 m ρ) c).arrAt_in 0 rfl _).trans (A_eq6 (V15 m ρ) c 0))).trans (n_in m ρ c)

/-- The pooled embedding: per-graph sums over per-graph counts, the same host operations on both sides. -/
theorem g_in : W17 m ρ c (Proc.devRef .tc main_v145) = Gcn.pool (Gcn.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  show StableHlo.after hostOps7 (W16 m ρ c) (Proc.devRef .tc main_v145) = _
  after_results_simp
  rw [k16_v128 m ρ c, arg2_at16 m ρ c]
  rfl

theorem g_w1 : W17 m ρ c (Proc.devRef .tc main_v146) = Gcn.tr13 (m ((c : Thread nD τ).loc main_arg13)) := by
  show StableHlo.after hostOps7 (W16 m ρ c) (Proc.devRef .tc main_v146) = _
  after_results_simp
  rw [arg13_at16 m ρ c]
  rfl

theorem g_w2 : W17 m ρ c (Proc.devRef .tc main_v147) = Gcn.tr15 (m ((c : Thread nD τ).loc main_arg15)) := by
  show StableHlo.after hostOps7 (W16 m ρ c) (Proc.devRef .tc main_v147) = _
  after_results_simp
  rw [arg15_at16 m ρ c]
  rfl

theorem g_b1 : W17 m ρ c (Proc.devRef .tc main_v148) = GcnSpec.row (m ((c : Thread nD τ).loc main_arg14)) := by
  show StableHlo.after hostOps7 (W16 m ρ c) (Proc.devRef .tc main_v148) = _
  after_results_simp
  rw [arg14_at16 m ρ c]
  exact reshape_row (m ((c : Thread nD τ).loc main_arg14)) _

theorem g_b2 : W17 m ρ c (Proc.devRef .tc main_v149) = GcnSpec.row (m ((c : Thread nD τ).loc main_arg16)) := by
  show StableHlo.after hostOps7 (W16 m ρ c) (Proc.devRef .tc main_v149) = _
  after_results_simp
  rw [arg16_at16 m ρ c]
  exact reshape_row (m ((c : Thread nD τ).loc main_arg16)) _

set_option maxHeartbeats 2000000 in
/-- The second result: the graph head's output. -/
theorem res1 : W18 m ρ c (Proc.devRef .tc main_v150) = Gcn.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  refine (W18_arr m ρ c 5).trans ?_
  rw [Cert.KernelIdeal.RegionMlp.array7 (V17 m ρ) c,
    show V17 m ρ c (Pipeline.arrRef spec7 0) = _ from g_in m ρ c,
    show V17 m ρ c (Pipeline.arrRef spec7 1) = _ from g_w1 m ρ c,
    show V17 m ρ c (Pipeline.arrRef spec7 2) = _ from g_b1 m ρ c,
    show V17 m ρ c (Pipeline.arrRef spec7 3) = _ from g_w2 m ρ c,
    show V17 m ρ c (Pipeline.arrRef spec7 4) = _ from g_b2 m ρ c]
  exact (Cert.Gcn.Pure.graphh_eq _ _ _ _ _).symm

end Cert.KernelIdeal.Chain

end
-- ==== Proof.RRun.lean ====
/-
  The reference program's run, by hand.

  The program is one straight line of host operations.  Its buffer contents after the line are the fold of the
  operations' results over the launch contents.  The line is cut into seventeen consecutive stretches (the edge data; then
  per layer the dense map, the edge norm, the message passing, the normalisation; the node head; the pooling; the graph
  head), and the contents at the cuts are named, so that each stage is read from the one before it.  Every weakly fair
  execution terminates without a fault, the two result buffers end at the last cut's contents and the arguments as
  launched, since no operation writes an argument.
-/
import proofs.«104500_j56891136803554_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    unary main_arg4 main_v17 ((extractStridedSlice S1x128 ![0, 0] · slices_S3x128_S1x128_0_0) : (⟨S3x128, .f32⟩ : BufTy).Contents (Elt F) → (⟨S1x128, .f32⟩ : BufTy).Contents (Elt F)),
    reshape main_v17 main_v18 rfl shapeCasts_S1x128_S128,
    unary main_v16 main_v19 ((transpose S128x128 [1, 0] · transposes_S128x128_S128x128_1_0) : (⟨S128x128, .f32⟩ : BufTy).Contents (Elt F) → (⟨S128x128, .f32⟩ : BufTy).Contents (Elt F)),
    binary main_arg0 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v21 (broadcastInDim S1700000 ![] bcast_S_S1700000 : (⟨S_, .i32⟩ : BufTy).Contents (Elt F) → (⟨S1700000, .i32⟩ : BufTy).Contents (Elt F)),
    binary main_v3 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v23 (broadcastInDim S1700000 ![] bcast_S_S1700000 : (⟨S_, .i32⟩ : BufTy).Contents (Elt F) → (⟨S1700000, .i32⟩ : BufTy).Contents (Elt F)),
    binary main_v3 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v3 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v14 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v14 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v20 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v35 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v18 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    unary main_arg7 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v51 main_v55 main_v56 (subf : (⟨S100000x128, .f32⟩ : BufTy).Contents (Elt F) → (⟨S100000x128, .f32⟩ : BufTy).Contents (Elt F) → (⟨S100000x128, .f32⟩ : BufTy).Contents (Elt F)),
    unary main_arg8 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    nullary main_cst_9 (constant S_ .f32 0x3727C5AC#32),
    unary main_cst_9 main_v59 (broadcastInDim S128 ![] bcast_S_S128 : (⟨S_, .f32⟩ : BufTy).Contents (Elt F) → (⟨S128, .f32⟩ : BufTy).Contents (Elt F)),
    binary main_v58 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v56 main_v63 main_v64 (mulf : (⟨S100000x128, .f32⟩ : BufTy).Contents (Elt F) → (⟨S100000x128, .f32⟩ : BufTy).Contents (Elt F) → (⟨S100000x128, .f32⟩ : BufTy).Contents (Elt F)),
    unary main_arg5 main_v65 ((extractStridedSlice S1x128 ![0, 0] · slices_S3x128_S1x128_0_0) : (⟨S3x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v64 main_v68 main_v69 (mulf : (⟨S100000x128, .f32⟩ : BufTy).Contents (Elt F) → (⟨S100000x128, .f32⟩ : BufTy).Contents (Elt F) → (⟨S100000x128, .f32⟩ : BufTy).Contents (Elt F)),
    unary main_arg6 main_v70 ((extractStridedSlice S1x128 ![0, 0] · slices_S3x128_S1x128_0_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v69 main_v73 main_v74 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v74) (TRef.of (T := ⟨S100000x128, .f32⟩) main_call1_v0) (TRef.of (T := ⟨S100000x128, .f32⟩) main_v75) maximumf,
    unary main_arg3 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v76 main_v77 rfl shapeCasts_S1x128x128_S128x128,
    unary main_arg4 main_v78 ((extractStridedSlice S1x128 ![1, 0] · slices_S3x128_S1x128_1_0) : (⟨S3x128, .f32⟩ : BufTy).Contents (Elt F) → (⟨S1x128, .f32⟩ : BufTy).Contents (Elt F)),
    reshape main_v78 main_v79 rfl shapeCasts_S1x128_S128,
    unary main_v77 main_v80 ((transpose S128x128 [1, 0] · transposes_S128x128_S128x128_1_0) : (⟨S128x128, .f32⟩ : BufTy).Contents (Elt F) → (⟨S128x128, .f32⟩ : BufTy).Contents (Elt F)),
    binary main_v75 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_12 (constantI S_ 32 0#32),
    unary main_c_12 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x128 ![0, 1] bcast_S1700000x1_S1700000x128_0_1 : (⟨S1700000x1, .f32⟩ : BufTy).Contents (Elt F) → (⟨S1700000x128, .f32⟩ : BufTy).Contents (Elt F)),
    binary main_v103 main_v105 main_v106 (mulf : (⟨S1700000x128, .f32⟩ : BufTy).Contents (Elt F) → (⟨S1700000x128, .f32⟩ : BufTy).Contents (Elt F) → (⟨S1700000x128, .f32⟩ : BufTy).Contents (Elt F)),
    nullary main_cst_16 (constant S_ .f32 0x00000000#32),
    unary main_cst_16 main_v107 (broadcastInDim S100000x128 ![] bcast_S_S100000x128 : (⟨S_, .f32⟩ : BufTy).Contents (Elt F) → (⟨S100000x128, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v79 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (addf : (⟨S100000x128, .f32⟩ : BufTy).Contents (Elt F) → (⟨S100000x128, .f32⟩ : BufTy).Contents (Elt F) → (⟨S100000x128, .f32⟩ : BufTy).Contents (Elt F)),
    unary main_arg7 main_v113 ((extractStridedSlice S1x128 ![1, 0] · slices_S3x128_S1x128_1_0) : (⟨S3x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v112 main_v116 main_v117 (subf : (⟨S100000x128, .f32⟩ : BufTy).Contents (Elt F) → (⟨S100000x128, .f32⟩ : BufTy).Contents (Elt F) → (⟨S100000x128, .f32⟩ : BufTy).Contents (Elt F)),
    unary main_arg8 main_v118 ((extractStridedSlice S1x128 ![1, 0] · slices_S3x128_S1x128_1_0) : (⟨S3x128, .f32⟩ : BufTy).Contents (Elt F) → (⟨S1x128, .f32⟩ : BufTy).Contents (Elt F)),
    reshape main_v118 main_v119 rfl shapeCasts_S1x128_S128,
    nullary main_cst_17 (constant S_ .f32 0x3727C5AC#32),
    unary main_cst_17 main_v120 (broadcastInDim S128 ![] bcast_S_S128 : (⟨S_, .f32⟩ : BufTy).Contents (Elt F) → (⟨S128, .f32⟩ : BufTy).Contents (Elt F)),
    binary main_v119 main_v120 main_v121 (addf : (⟨S128, .f32⟩ : BufTy).Contents (Elt F) → (⟨S128, .f32⟩ : BufTy).Contents (Elt F) → (⟨S128, .f32⟩ : BufTy).Contents (Elt F)),
    unary main_v121 main_v122 (Host.rsqrt : (⟨S128, .f32⟩ : BufTy).Contents (Elt F) → (⟨S128, .f32⟩ : BufTy).Contents (Elt F)),
    unary main_v122 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v117 main_v124 main_v125 (mulf : (⟨S100000x128, .f32⟩ : BufTy).Contents (Elt F) → (⟨S100000x128, .f32⟩ : BufTy).Contents (Elt F) → (⟨S100000x128, .f32⟩ : BufTy).Contents (Elt F)),
    unary main_arg5 main_v126 ((extractStridedSlice S1x128 ![1, 0] · slices_S3x128_S1x128_1_0) : (⟨S3x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v125 main_v129 main_v130 (mulf : (⟨S100000x128, .f32⟩ : BufTy).Contents (Elt F) → (⟨S100000x128, .f32⟩ : BufTy).Contents (Elt F) → (⟨S100000x128, .f32⟩ : BufTy).Contents (Elt F)),
    unary main_arg6 main_v131 ((extractStridedSlice S1x128 ![1, 0] · slices_S3x128_S1x128_1_0) : (⟨S3x128, .f32⟩ : BufTy).Contents (Elt F) → (⟨S1x128, .f32⟩ : BufTy).Contents (Elt F)),
    reshape main_v131 main_v132 rfl shapeCasts_S1x128_S128,
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v130 main_v134 main_v135 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v135) (TRef.of (T := ⟨S100000x128, .f32⟩) main_call2_v0) (TRef.of (T := ⟨S100000x128, .f32⟩) main_v136) maximumf,
    unary main_arg3 main_v137 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v137 main_v138 rfl shapeCasts_S1x128x128_S128x128,
    unary main_arg4 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_v138 main_v141 ((transpose S128x128 [1, 0] · transposes_S128x128_S128x128_1_0) : (⟨S128x128, .f32⟩ : BufTy).Contents (Elt F) → (⟨S128x128, .f32⟩ : BufTy).Contents (Elt F)),
    binary main_v136 main_v141 main_v142 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_18 (constantI S_ 32 0#32),
    unary main_c_18 main_v143 (broadcastInDim S1700000 ![] bcast_S_S1700000 : (⟨S_, .i32⟩ : BufTy).Contents (Elt F) → (⟨S1700000, .i32⟩ : BufTy).Contents (Elt F)),
    binary main_v3 main_v143 main_v144 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v145 (broadcastInDim S1700000 ![] bcast_S_S1700000 : (⟨S_, .i32⟩ : BufTy).Contents (Elt F) → (⟨S1700000, .i32⟩ : BufTy).Contents (Elt F)),
    binary main_v3 main_v145 main_v146 (addi : (⟨S1700000, .i32⟩ : BufTy).Contents (Elt F) → (⟨S1700000, .i32⟩ : BufTy).Contents (Elt F) → (⟨S1700000, .i32⟩ : BufTy).Contents (Elt F)),
    ternary main_v144 main_v146 main_v3 main_v147 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v147 main_v148 (broadcastInDim S1700000x1 ![0] bcast_S1700000_S1700000x1_0 : (⟨S1700000, .i32⟩ : BufTy).Contents (Elt F) → (⟨S1700000x1, .i32⟩ : BufTy).Contents (Elt F)),
    binary main_v14 main_v148 main_v149 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_20 (constantI S_ 32 0#32),
    unary main_c_20 main_v150 (broadcastInDim S1700000 ![] bcast_S_S1700000 : (⟨S_, .i32⟩ : BufTy).Contents (Elt F) → (⟨S1700000, .i32⟩ : BufTy).Contents (Elt F)),
    binary main_v6 main_v150 main_v151 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v152 (broadcastInDim S1700000 ![] bcast_S_S1700000 : (⟨S_, .i32⟩ : BufTy).Contents (Elt F) → (⟨S1700000, .i32⟩ : BufTy).Contents (Elt F)),
    binary main_v6 main_v152 main_v153 (addi : (⟨S1700000, .i32⟩ : BufTy).Contents (Elt F) → (⟨S1700000, .i32⟩ : BufTy).Contents (Elt F) → (⟨S1700000, .i32⟩ : BufTy).Contents (Elt F)),
    ternary main_v151 main_v153 main_v6 main_v154 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v154 main_v155 (broadcastInDim S1700000x1 ![0] bcast_S1700000_S1700000x1_0 : (⟨S1700000, .i32⟩ : BufTy).Contents (Elt F) → (⟨S1700000x1, .i32⟩ : BufTy).Contents (Elt F)),
    binary main_v14 main_v155 main_v156 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v149 main_v156 main_v157 (mulf : (⟨S1700000, .f32⟩ : BufTy).Contents (Elt F) → (⟨S1700000, .f32⟩ : BufTy).Contents (Elt F) → (⟨S1700000, .f32⟩ : BufTy).Contents (Elt F)),
    nullary main_c_22 (constantI S_ 32 0#32),
    unary main_c_22 main_v158 (broadcastInDim S1700000 ![] bcast_S_S1700000 : (⟨S_, .i32⟩ : BufTy).Contents (Elt F) → (⟨S1700000, .i32⟩ : BufTy).Contents (Elt F)),
    binary main_v3 main_v158 main_v159 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v160 (broadcastInDim S1700000 ![] bcast_S_S1700000 : (⟨S_, .i32⟩ : BufTy).Contents (Elt F) → (⟨S1700000, .i32⟩ : BufTy).Contents (Elt F)),
    binary main_v3 main_v160 main_v161 (addi : (⟨S1700000, .i32⟩ : BufTy).Contents (Elt F) → (⟨S1700000, .i32⟩ : BufTy).Contents (Elt F) → (⟨S1700000, .i32⟩ : BufTy).Contents (Elt F)),
    ternary main_v159 main_v161 main_v3 main_v162 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v162 main_v163 (broadcastInDim S1700000x1 ![0] bcast_S1700000_S1700000x1_0 : (⟨S1700000, .i32⟩ : BufTy).Contents (Elt F) → (⟨S1700000x1, .i32⟩ : BufTy).Contents (Elt F)),
    binary main_v142 main_v163 main_v164 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v157 main_v165 (broadcastInDim S1700000x1 ![0] bcast_S1700000_S1700000x1_0 : (⟨S1700000, .f32⟩ : BufTy).Contents (Elt F) → (⟨S1700000x1, .f32⟩ : BufTy).Contents (Elt F)),
    unary main_v165 main_v166 (broadcastInDim S1700000x128 ![0, 1] bcast_S1700000x1_S1700000x128_0_1 : (⟨S1700000x1, .f32⟩ : BufTy).Contents (Elt F) → (⟨S1700000x128, .f32⟩ : BufTy).Contents (Elt F)),
    binary main_v164 main_v166 main_v167 (mulf : (⟨S1700000x128, .f32⟩ : BufTy).Contents (Elt F) → (⟨S1700000x128, .f32⟩ : BufTy).Contents (Elt F) → (⟨S1700000x128, .f32⟩ : BufTy).Contents (Elt F)),
    nullary main_cst_24 (constant S_ .f32 0x00000000#32),
    unary main_cst_24 main_v168 (broadcastInDim S100000x128 ![] bcast_S_S100000x128 : (⟨S_, .f32⟩ : BufTy).Contents (Elt F) → (⟨S100000x128, .f32⟩ : BufTy).Contents (Elt F)),
    unary main_v6 main_v169 (broadcastInDim S1700000x1 ![0] bcast_S1700000_S1700000x1_0 : (⟨S1700000, .i32⟩ : BufTy).Contents (Elt F) → (⟨S1700000x1, .i32⟩ : BufTy).Contents (Elt F)),
    ternary main_v168 main_v169 main_v167 main_v170 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v140 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v170 main_v172 main_v173 (addf : (⟨S100000x128, .f32⟩ : BufTy).Contents (Elt F) → (⟨S100000x128, .f32⟩ : BufTy).Contents (Elt F) → (⟨S100000x128, .f32⟩ : BufTy).Contents (Elt F)),
    unary main_arg7 main_v174 ((extractStridedSlice S1x128 ![2, 0] · slices_S3x128_S1x128_2_0) : (⟨S3x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v173 main_v177 main_v178 (subf : (⟨S100000x128, .f32⟩ : BufTy).Contents (Elt F) → (⟨S100000x128, .f32⟩ : BufTy).Contents (Elt F) → (⟨S100000x128, .f32⟩ : BufTy).Contents (Elt F)),
    unary main_arg8 main_v179 ((extractStridedSlice S1x128 ![2, 0] · slices_S3x128_S1x128_2_0) : (⟨S3x128, .f32⟩ : BufTy).Contents (Elt F) → (⟨S1x128, .f32⟩ : BufTy).Contents (Elt F)),
    reshape main_v179 main_v180 rfl shapeCasts_S1x128_S128,
    nullary main_cst_25 (constant S_ .f32 0x3727C5AC#32),
    unary main_cst_25 main_v181 (broadcastInDim S128 ![] bcast_S_S128 : (⟨S_, .f32⟩ : BufTy).Contents (Elt F) → (⟨S128, .f32⟩ : BufTy).Contents (Elt F)),
    binary main_v180 main_v181 main_v182 (addf : (⟨S128, .f32⟩ : BufTy).Contents (Elt F) → (⟨S128, .f32⟩ : BufTy).Contents (Elt F) → (⟨S128, .f32⟩ : BufTy).Contents (Elt F)),
    unary main_v182 main_v183 (Host.rsqrt : (⟨S128, .f32⟩ : BufTy).Contents (Elt F) → (⟨S128, .f32⟩ : BufTy).Contents (Elt F)),
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v178 main_v185 main_v186 (mulf : (⟨S100000x128, .f32⟩ : BufTy).Contents (Elt F) → (⟨S100000x128, .f32⟩ : BufTy).Contents (Elt F) → (⟨S100000x128, .f32⟩ : BufTy).Contents (Elt F)),
    unary main_arg5 main_v187 ((extractStridedSlice S1x128 ![2, 0] · slices_S3x128_S1x128_2_0) : (⟨S3x128, .f32⟩ : BufTy).Contents (Elt F) → (⟨S1x128, .f32⟩ : BufTy).Contents (Elt F)),
    reshape main_v187 main_v188 rfl shapeCasts_S1x128_S128,
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v186 main_v190 main_v191 (mulf : (⟨S100000x128, .f32⟩ : BufTy).Contents (Elt F) → (⟨S100000x128, .f32⟩ : BufTy).Contents (Elt F) → (⟨S100000x128, .f32⟩ : BufTy).Contents (Elt F)),
    unary main_arg6 main_v192 ((extractStridedSlice S1x128 ![2, 0] · slices_S3x128_S1x128_2_0) : (⟨S3x128, .f32⟩ : BufTy).Contents (Elt F) → (⟨S1x128, .f32⟩ : BufTy).Contents (Elt F)),
    reshape main_v192 main_v193 rfl shapeCasts_S1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v191 main_v195 main_v196 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v196) (TRef.of (T := ⟨S100000x128, .f32⟩) main_call3_v0) (TRef.of (T := ⟨S100000x128, .f32⟩) main_v197) maximumf,
    unary main_arg9 main_v198 ((transpose S128x64 [1, 0] · transposes_S64x128_S128x64_1_0) : (⟨S64x128, .f32⟩ : BufTy).Contents (Elt F) → (⟨S128x64, .f32⟩ : BufTy).Contents (Elt F)),
    binary main_v197 main_v198 main_v199 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v200 (broadcastInDim S1x64 ![1] bcast_S64_S1x64_1 : (⟨S64, .f32⟩ : BufTy).Contents (Elt F) → (⟨S1x64, .f32⟩ : BufTy).Contents (Elt F)),
    unary main_v200 main_v201 (broadcastInDim S100000x64 ![0, 1] bcast_S1x64_S100000x64_0_1 : (⟨S1x64, .f32⟩ : BufTy).Contents (Elt F) → (⟨S100000x64, .f32⟩ : BufTy).Contents (Elt F)),
    binary main_v199 main_v201 main_v202 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v202) (TRef.of (T := ⟨S100000x64, .f32⟩) main_call4_v0) (TRef.of (T := ⟨S100000x64, .f32⟩) main_v203) maximumf,
    unary main_arg11 main_v204 ((transpose S64x2 [1, 0] · transposes_S2x64_S64x2_1_0) : (⟨S2x64, .f32⟩ : BufTy).Contents (Elt F) → (⟨S64x2, .f32⟩ : BufTy).Contents (Elt F)),
    binary main_v203 main_v204 main_v205 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg12 main_v206 (broadcastInDim S1x2 ![1] bcast_S2_S1x2_1 : (⟨S2, .f32⟩ : BufTy).Contents (Elt F) → (⟨S1x2, .f32⟩ : BufTy).Contents (Elt F)),
    unary main_v206 main_v207 (broadcastInDim S100000x2 ![0, 1] bcast_S1x2_S100000x2_0_1 : (⟨S1x2, .f32⟩ : BufTy).Contents (Elt F) → (⟨S100000x2, .f32⟩ : BufTy).Contents (Elt F)),
    binary main_v205 main_v207 main_v208 (addf : (⟨S100000x2, .f32⟩ : BufTy).Contents (Elt F) → (⟨S100000x2, .f32⟩ : BufTy).Contents (Elt F) → (⟨S100000x2, .f32⟩ : BufTy).Contents (Elt F)),
    nullary main_cst_26 (constant S_ .f32 0x3F800000#32),
    unary main_cst_26 main_v209 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v210 (broadcastInDim S64 ![] bcast_S_S64 : (⟨S_, .f32⟩ : BufTy).Contents (Elt F) → (⟨S64, .f32⟩ : BufTy).Contents (Elt F)),
    unary main_arg2 main_v211 (broadcastInDim S100000x1 ![0] bcast_S100000_S100000x1_0 : (⟨S100000, .i32⟩ : BufTy).Contents (Elt F) → (⟨S100000x1, .i32⟩ : BufTy).Contents (Elt F)),
    ternary main_v210 main_v211 main_v209 main_v212 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_28 (constant S_ .f32 0x00000000#32),
    unary main_cst_28 main_v213 (broadcastInDim S64x128 ![] bcast_S_S64x128 : (⟨S_, .f32⟩ : BufTy).Contents (Elt F) → (⟨S64x128, .f32⟩ : BufTy).Contents (Elt F)),
    unary main_arg2 main_v214 (broadcastInDim S100000x1 ![0] bcast_S100000_S100000x1_0 : (⟨S100000, .i32⟩ : BufTy).Contents (Elt F) → (⟨S100000x1, .i32⟩ : BufTy).Contents (Elt F)),
    ternary main_v213 main_v214 main_v197 main_v215 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_29 (constant S_ .f32 0x3F800000#32),
    unary main_cst_29 main_v216 (broadcastInDim S64 ![] bcast_S_S64 : (⟨S_, .f32⟩ : BufTy).Contents (Elt F) → (⟨S64, .f32⟩ : BufTy).Contents (Elt F)),
    binary main_v212 main_v216 main_v217 (maximumf : (⟨S64, .f32⟩ : BufTy).Contents (Elt F) → (⟨S64, .f32⟩ : BufTy).Contents (Elt F) → (⟨S64, .f32⟩ : BufTy).Contents (Elt F)),
    unary main_v217 main_v218 (broadcastInDim S64x1 ![0] bcast_S64_S64x1_0 : (⟨S64, .f32⟩ : BufTy).Contents (Elt F) → (⟨S64x1, .f32⟩ : BufTy).Contents (Elt F)),
    unary main_v218 main_v219 (broadcastInDim S64x128 ![0, 1] bcast_S64x1_S64x128_0_1 : (⟨S64x1, .f32⟩ : BufTy).Contents (Elt F) → (⟨S64x128, .f32⟩ : BufTy).Contents (Elt F)),
    binary main_v215 main_v219 main_v220 (Host.divf : (⟨S64x128, .f32⟩ : BufTy).Contents (Elt F) → (⟨S64x128, .f32⟩ : BufTy).Contents (Elt F) → (⟨S64x128, .f32⟩ : BufTy).Contents (Elt F)),
    unary main_arg13 main_v221 ((transpose S128x64 [1, 0] · transposes_S64x128_S128x64_1_0) : (⟨S64x128, .f32⟩ : BufTy).Contents (Elt F) → (⟨S128x64, .f32⟩ : BufTy).Contents (Elt F)),
    binary main_v220 main_v221 main_v222 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg14 main_v223 (broadcastInDim S1x64 ![1] bcast_S64_S1x64_1 : (⟨S64, .f32⟩ : BufTy).Contents (Elt F) → (⟨S1x64, .f32⟩ : BufTy).Contents (Elt F)),
    unary main_v223 main_v224 (broadcastInDim S64x64 ![0, 1] bcast_S1x64_S64x64_0_1 : (⟨S1x64, .f32⟩ : BufTy).Contents (Elt F) → (⟨S64x64, .f32⟩ : BufTy).Contents (Elt F)),
    binary main_v222 main_v224 main_v225 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x64, .f32⟩) main_call5_v0) (broadcastInDim S64x64 ![] bcast_S_S64x64),
    TRef.binary (TRef.of (T := ⟨S64x64, .f32⟩) main_v225) (TRef.of (T := ⟨S64x64, .f32⟩) main_call5_v0) (TRef.of (T := ⟨S64x64, .f32⟩) main_v226) maximumf,
    unary main_arg15 main_v227 ((transpose S64x2 [1, 0] · transposes_S2x64_S64x2_1_0) : (⟨S2x64, .f32⟩ : BufTy).Contents (Elt F) → (⟨S64x2, .f32⟩ : BufTy).Contents (Elt F)),
    binary main_v226 main_v227 main_v228 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    unary main_arg16 main_v229 (broadcastInDim S1x2 ![1] bcast_S2_S1x2_1 : (⟨S2, .f32⟩ : BufTy).Contents (Elt F) → (⟨S1x2, .f32⟩ : BufTy).Contents (Elt F)),
    unary main_v229 main_v230 (broadcastInDim S64x2 ![0, 1] bcast_S1x2_S64x2_0_1 : (⟨S1x2, .f32⟩ : BufTy).Contents (Elt F) → (⟨S64x2, .f32⟩ : BufTy).Contents (Elt F)),
    binary main_v228 main_v230 main_v231 (addf : (⟨S64x2, .f32⟩ : BufTy).Contents (Elt F) → (⟨S64x2, .f32⟩ : BufTy).Contents (Elt F) → (⟨S64x2, .f32⟩ : BufTy).Contents (Elt F)) ]

/-- Stretch 0 of the line. -/
abbrev r0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch 1 of the line. -/
abbrev r1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Stretch 2 of the line. -/
abbrev r2 : List (HloOp τ sig (Elt F)) :=
  [ unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    unary main_arg4 main_v17 ((extractStridedSlice S1x128 ![0, 0] · slices_S3x128_S1x128_0_0) : (⟨S3x128, .f32⟩ : BufTy).Contents (Elt F) → (⟨S1x128, .f32⟩ : BufTy).Contents (Elt F)),
    reshape main_v17 main_v18 rfl shapeCasts_S1x128_S128,
    unary main_v16 main_v19 ((transpose S128x128 [1, 0] · transposes_S128x128_S128x128_1_0) : (⟨S128x128, .f32⟩ : BufTy).Contents (Elt F) → (⟨S128x128, .f32⟩ : BufTy).Contents (Elt F)),
    binary main_arg0 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch 3 of the line. -/
abbrev r3 : List (HloOp τ sig (Elt F)) :=
  [ nullary main_c (constantI S_ 32 0#32),
    unary main_c main_v21 (broadcastInDim S1700000 ![] bcast_S_S1700000 : (⟨S_, .i32⟩ : BufTy).Contents (Elt F) → (⟨S1700000, .i32⟩ : BufTy).Contents (Elt F)),
    binary main_v3 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v23 (broadcastInDim S1700000 ![] bcast_S_S1700000 : (⟨S_, .i32⟩ : BufTy).Contents (Elt F) → (⟨S1700000, .i32⟩ : BufTy).Contents (Elt F)),
    binary main_v3 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v3 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v14 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v14 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)) ]

/-- Stretch 4 of the line. -/
abbrev r4 : List (HloOp τ sig (Elt F)) :=
  [ nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v20 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v35 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Stretch 5 of the line. -/
abbrev r5 : List (HloOp τ sig (Elt F)) :=
  [ unary main_v18 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    unary main_arg7 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v51 main_v55 main_v56 (subf : (⟨S100000x128, .f32⟩ : BufTy).Contents (Elt F) → (⟨S100000x128, .f32⟩ : BufTy).Contents (Elt F) → (⟨S100000x128, .f32⟩ : BufTy).Contents (Elt F)),
    unary main_arg8 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    nullary main_cst_9 (constant S_ .f32 0x3727C5AC#32),
    unary main_cst_9 main_v59 (broadcastInDim S128 ![] bcast_S_S128 : (⟨S_, .f32⟩ : BufTy).Contents (Elt F) → (⟨S128, .f32⟩ : BufTy).Contents (Elt F)),
    binary main_v58 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v56 main_v63 main_v64 (mulf : (⟨S100000x128, .f32⟩ : BufTy).Contents (Elt F) → (⟨S100000x128, .f32⟩ : BufTy).Contents (Elt F) → (⟨S100000x128, .f32⟩ : BufTy).Contents (Elt F)),
    unary main_arg5 main_v65 ((extractStridedSlice S1x128 ![0, 0] · slices_S3x128_S1x128_0_0) : (⟨S3x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v64 main_v68 main_v69 (mulf : (⟨S100000x128, .f32⟩ : BufTy).Contents (Elt F) → (⟨S100000x128, .f32⟩ : BufTy).Contents (Elt F) → (⟨S100000x128, .f32⟩ : BufTy).Contents (Elt F)),
    unary main_arg6 main_v70 ((extractStridedSlice S1x128 ![0, 0] · slices_S3x128_S1x128_0_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v69 main_v73 main_v74 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v74) (TRef.of (T := ⟨S100000x128, .f32⟩) main_call1_v0) (TRef.of (T := ⟨S100000x128, .f32⟩) main_v75) maximumf ]

/-- Stretch 6 of the line. -/
abbrev r6 : List (HloOp τ sig (Elt F)) :=
  [ unary main_arg3 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v76 main_v77 rfl shapeCasts_S1x128x128_S128x128,
    unary main_arg4 main_v78 ((extractStridedSlice S1x128 ![1, 0] · slices_S3x128_S1x128_1_0) : (⟨S3x128, .f32⟩ : BufTy).Contents (Elt F) → (⟨S1x128, .f32⟩ : BufTy).Contents (Elt F)),
    reshape main_v78 main_v79 rfl shapeCasts_S1x128_S128,
    unary main_v77 main_v80 ((transpose S128x128 [1, 0] · transposes_S128x128_S128x128_1_0) : (⟨S128x128, .f32⟩ : BufTy).Contents (Elt F) → (⟨S128x128, .f32⟩ : BufTy).Contents (Elt F)),
    binary main_v75 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch 7 of the line. -/
abbrev r7 : List (HloOp τ sig (Elt F)) :=
  [ nullary main_c_10 (constantI S_ 32 0#32),
    unary main_c_10 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_12 (constantI S_ 32 0#32),
    unary main_c_12 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)) ]

/-- Stretch 8 of the line. -/
abbrev r8 : List (HloOp τ sig (Elt F)) :=
  [ nullary main_c_14 (constantI S_ 32 0#32),
    unary main_c_14 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x128 ![0, 1] bcast_S1700000x1_S1700000x128_0_1 : (⟨S1700000x1, .f32⟩ : BufTy).Contents (Elt F) → (⟨S1700000x128, .f32⟩ : BufTy).Contents (Elt F)),
    binary main_v103 main_v105 main_v106 (mulf : (⟨S1700000x128, .f32⟩ : BufTy).Contents (Elt F) → (⟨S1700000x128, .f32⟩ : BufTy).Contents (Elt F) → (⟨S1700000x128, .f32⟩ : BufTy).Contents (Elt F)),
    nullary main_cst_16 (constant S_ .f32 0x00000000#32),
    unary main_cst_16 main_v107 (broadcastInDim S100000x128 ![] bcast_S_S100000x128 : (⟨S_, .f32⟩ : BufTy).Contents (Elt F) → (⟨S100000x128, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Stretch 9 of the line. -/
abbrev r9 : List (HloOp τ sig (Elt F)) :=
  [ unary main_v79 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (addf : (⟨S100000x128, .f32⟩ : BufTy).Contents (Elt F) → (⟨S100000x128, .f32⟩ : BufTy).Contents (Elt F) → (⟨S100000x128, .f32⟩ : BufTy).Contents (Elt F)),
    unary main_arg7 main_v113 ((extractStridedSlice S1x128 ![1, 0] · slices_S3x128_S1x128_1_0) : (⟨S3x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v112 main_v116 main_v117 (subf : (⟨S100000x128, .f32⟩ : BufTy).Contents (Elt F) → (⟨S100000x128, .f32⟩ : BufTy).Contents (Elt F) → (⟨S100000x128, .f32⟩ : BufTy).Contents (Elt F)),
    unary main_arg8 main_v118 ((extractStridedSlice S1x128 ![1, 0] · slices_S3x128_S1x128_1_0) : (⟨S3x128, .f32⟩ : BufTy).Contents (Elt F) → (⟨S1x128, .f32⟩ : BufTy).Contents (Elt F)),
    reshape main_v118 main_v119 rfl shapeCasts_S1x128_S128,
    nullary main_cst_17 (constant S_ .f32 0x3727C5AC#32),
    unary main_cst_17 main_v120 (broadcastInDim S128 ![] bcast_S_S128 : (⟨S_, .f32⟩ : BufTy).Contents (Elt F) → (⟨S128, .f32⟩ : BufTy).Contents (Elt F)),
    binary main_v119 main_v120 main_v121 (addf : (⟨S128, .f32⟩ : BufTy).Contents (Elt F) → (⟨S128, .f32⟩ : BufTy).Contents (Elt F) → (⟨S128, .f32⟩ : BufTy).Contents (Elt F)),
    unary main_v121 main_v122 (Host.rsqrt : (⟨S128, .f32⟩ : BufTy).Contents (Elt F) → (⟨S128, .f32⟩ : BufTy).Contents (Elt F)),
    unary main_v122 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v117 main_v124 main_v125 (mulf : (⟨S100000x128, .f32⟩ : BufTy).Contents (Elt F) → (⟨S100000x128, .f32⟩ : BufTy).Contents (Elt F) → (⟨S100000x128, .f32⟩ : BufTy).Contents (Elt F)),
    unary main_arg5 main_v126 ((extractStridedSlice S1x128 ![1, 0] · slices_S3x128_S1x128_1_0) : (⟨S3x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v125 main_v129 main_v130 (mulf : (⟨S100000x128, .f32⟩ : BufTy).Contents (Elt F) → (⟨S100000x128, .f32⟩ : BufTy).Contents (Elt F) → (⟨S100000x128, .f32⟩ : BufTy).Contents (Elt F)),
    unary main_arg6 main_v131 ((extractStridedSlice S1x128 ![1, 0] · slices_S3x128_S1x128_1_0) : (⟨S3x128, .f32⟩ : BufTy).Contents (Elt F) → (⟨S1x128, .f32⟩ : BufTy).Contents (Elt F)),
    reshape main_v131 main_v132 rfl shapeCasts_S1x128_S128,
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v130 main_v134 main_v135 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v135) (TRef.of (T := ⟨S100000x128, .f32⟩) main_call2_v0) (TRef.of (T := ⟨S100000x128, .f32⟩) main_v136) maximumf ]

/-- Stretch 10 of the line. -/
abbrev r10 : List (HloOp τ sig (Elt F)) :=
  [ unary main_arg3 main_v137 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v137 main_v138 rfl shapeCasts_S1x128x128_S128x128,
    unary main_arg4 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_v138 main_v141 ((transpose S128x128 [1, 0] · transposes_S128x128_S128x128_1_0) : (⟨S128x128, .f32⟩ : BufTy).Contents (Elt F) → (⟨S128x128, .f32⟩ : BufTy).Contents (Elt F)),
    binary main_v136 main_v141 main_v142 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch 11 of the line. -/
abbrev r11 : List (HloOp τ sig (Elt F)) :=
  [ nullary main_c_18 (constantI S_ 32 0#32),
    unary main_c_18 main_v143 (broadcastInDim S1700000 ![] bcast_S_S1700000 : (⟨S_, .i32⟩ : BufTy).Contents (Elt F) → (⟨S1700000, .i32⟩ : BufTy).Contents (Elt F)),
    binary main_v3 main_v143 main_v144 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v145 (broadcastInDim S1700000 ![] bcast_S_S1700000 : (⟨S_, .i32⟩ : BufTy).Contents (Elt F) → (⟨S1700000, .i32⟩ : BufTy).Contents (Elt F)),
    binary main_v3 main_v145 main_v146 (addi : (⟨S1700000, .i32⟩ : BufTy).Contents (Elt F) → (⟨S1700000, .i32⟩ : BufTy).Contents (Elt F) → (⟨S1700000, .i32⟩ : BufTy).Contents (Elt F)),
    ternary main_v144 main_v146 main_v3 main_v147 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v147 main_v148 (broadcastInDim S1700000x1 ![0] bcast_S1700000_S1700000x1_0 : (⟨S1700000, .i32⟩ : BufTy).Contents (Elt F) → (⟨S1700000x1, .i32⟩ : BufTy).Contents (Elt F)),
    binary main_v14 main_v148 main_v149 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_20 (constantI S_ 32 0#32),
    unary main_c_20 main_v150 (broadcastInDim S1700000 ![] bcast_S_S1700000 : (⟨S_, .i32⟩ : BufTy).Contents (Elt F) → (⟨S1700000, .i32⟩ : BufTy).Contents (Elt F)),
    binary main_v6 main_v150 main_v151 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v152 (broadcastInDim S1700000 ![] bcast_S_S1700000 : (⟨S_, .i32⟩ : BufTy).Contents (Elt F) → (⟨S1700000, .i32⟩ : BufTy).Contents (Elt F)),
    binary main_v6 main_v152 main_v153 (addi : (⟨S1700000, .i32⟩ : BufTy).Contents (Elt F) → (⟨S1700000, .i32⟩ : BufTy).Contents (Elt F) → (⟨S1700000, .i32⟩ : BufTy).Contents (Elt F)),
    ternary main_v151 main_v153 main_v6 main_v154 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v154 main_v155 (broadcastInDim S1700000x1 ![0] bcast_S1700000_S1700000x1_0 : (⟨S1700000, .i32⟩ : BufTy).Contents (Elt F) → (⟨S1700000x1, .i32⟩ : BufTy).Contents (Elt F)),
    binary main_v14 main_v155 main_v156 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v149 main_v156 main_v157 (mulf : (⟨S1700000, .f32⟩ : BufTy).Contents (Elt F) → (⟨S1700000, .f32⟩ : BufTy).Contents (Elt F) → (⟨S1700000, .f32⟩ : BufTy).Contents (Elt F)) ]

/-- Stretch 12 of the line. -/
abbrev r12 : List (HloOp τ sig (Elt F)) :=
  [ nullary main_c_22 (constantI S_ 32 0#32),
    unary main_c_22 main_v158 (broadcastInDim S1700000 ![] bcast_S_S1700000 : (⟨S_, .i32⟩ : BufTy).Contents (Elt F) → (⟨S1700000, .i32⟩ : BufTy).Contents (Elt F)),
    binary main_v3 main_v158 main_v159 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v160 (broadcastInDim S1700000 ![] bcast_S_S1700000 : (⟨S_, .i32⟩ : BufTy).Contents (Elt F) → (⟨S1700000, .i32⟩ : BufTy).Contents (Elt F)),
    binary main_v3 main_v160 main_v161 (addi : (⟨S1700000, .i32⟩ : BufTy).Contents (Elt F) → (⟨S1700000, .i32⟩ : BufTy).Contents (Elt F) → (⟨S1700000, .i32⟩ : BufTy).Contents (Elt F)),
    ternary main_v159 main_v161 main_v3 main_v162 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v162 main_v163 (broadcastInDim S1700000x1 ![0] bcast_S1700000_S1700000x1_0 : (⟨S1700000, .i32⟩ : BufTy).Contents (Elt F) → (⟨S1700000x1, .i32⟩ : BufTy).Contents (Elt F)),
    binary main_v142 main_v163 main_v164 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v157 main_v165 (broadcastInDim S1700000x1 ![0] bcast_S1700000_S1700000x1_0 : (⟨S1700000, .f32⟩ : BufTy).Contents (Elt F) → (⟨S1700000x1, .f32⟩ : BufTy).Contents (Elt F)),
    unary main_v165 main_v166 (broadcastInDim S1700000x128 ![0, 1] bcast_S1700000x1_S1700000x128_0_1 : (⟨S1700000x1, .f32⟩ : BufTy).Contents (Elt F) → (⟨S1700000x128, .f32⟩ : BufTy).Contents (Elt F)),
    binary main_v164 main_v166 main_v167 (mulf : (⟨S1700000x128, .f32⟩ : BufTy).Contents (Elt F) → (⟨S1700000x128, .f32⟩ : BufTy).Contents (Elt F) → (⟨S1700000x128, .f32⟩ : BufTy).Contents (Elt F)),
    nullary main_cst_24 (constant S_ .f32 0x00000000#32),
    unary main_cst_24 main_v168 (broadcastInDim S100000x128 ![] bcast_S_S100000x128 : (⟨S_, .f32⟩ : BufTy).Contents (Elt F) → (⟨S100000x128, .f32⟩ : BufTy).Contents (Elt F)),
    unary main_v6 main_v169 (broadcastInDim S1700000x1 ![0] bcast_S1700000_S1700000x1_0 : (⟨S1700000, .i32⟩ : BufTy).Contents (Elt F) → (⟨S1700000x1, .i32⟩ : BufTy).Contents (Elt F)),
    ternary main_v168 main_v169 main_v167 main_v170 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Stretch 13 of the line. -/
abbrev r13 : List (HloOp τ sig (Elt F)) :=
  [ unary main_v140 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v170 main_v172 main_v173 (addf : (⟨S100000x128, .f32⟩ : BufTy).Contents (Elt F) → (⟨S100000x128, .f32⟩ : BufTy).Contents (Elt F) → (⟨S100000x128, .f32⟩ : BufTy).Contents (Elt F)),
    unary main_arg7 main_v174 ((extractStridedSlice S1x128 ![2, 0] · slices_S3x128_S1x128_2_0) : (⟨S3x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v173 main_v177 main_v178 (subf : (⟨S100000x128, .f32⟩ : BufTy).Contents (Elt F) → (⟨S100000x128, .f32⟩ : BufTy).Contents (Elt F) → (⟨S100000x128, .f32⟩ : BufTy).Contents (Elt F)),
    unary main_arg8 main_v179 ((extractStridedSlice S1x128 ![2, 0] · slices_S3x128_S1x128_2_0) : (⟨S3x128, .f32⟩ : BufTy).Contents (Elt F) → (⟨S1x128, .f32⟩ : BufTy).Contents (Elt F)),
    reshape main_v179 main_v180 rfl shapeCasts_S1x128_S128,
    nullary main_cst_25 (constant S_ .f32 0x3727C5AC#32),
    unary main_cst_25 main_v181 (broadcastInDim S128 ![] bcast_S_S128 : (⟨S_, .f32⟩ : BufTy).Contents (Elt F) → (⟨S128, .f32⟩ : BufTy).Contents (Elt F)),
    binary main_v180 main_v181 main_v182 (addf : (⟨S128, .f32⟩ : BufTy).Contents (Elt F) → (⟨S128, .f32⟩ : BufTy).Contents (Elt F) → (⟨S128, .f32⟩ : BufTy).Contents (Elt F)),
    unary main_v182 main_v183 (Host.rsqrt : (⟨S128, .f32⟩ : BufTy).Contents (Elt F) → (⟨S128, .f32⟩ : BufTy).Contents (Elt F)),
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v178 main_v185 main_v186 (mulf : (⟨S100000x128, .f32⟩ : BufTy).Contents (Elt F) → (⟨S100000x128, .f32⟩ : BufTy).Contents (Elt F) → (⟨S100000x128, .f32⟩ : BufTy).Contents (Elt F)),
    unary main_arg5 main_v187 ((extractStridedSlice S1x128 ![2, 0] · slices_S3x128_S1x128_2_0) : (⟨S3x128, .f32⟩ : BufTy).Contents (Elt F) → (⟨S1x128, .f32⟩ : BufTy).Contents (Elt F)),
    reshape main_v187 main_v188 rfl shapeCasts_S1x128_S128,
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v186 main_v190 main_v191 (mulf : (⟨S100000x128, .f32⟩ : BufTy).Contents (Elt F) → (⟨S100000x128, .f32⟩ : BufTy).Contents (Elt F) → (⟨S100000x128, .f32⟩ : BufTy).Contents (Elt F)),
    unary main_arg6 main_v192 ((extractStridedSlice S1x128 ![2, 0] · slices_S3x128_S1x128_2_0) : (⟨S3x128, .f32⟩ : BufTy).Contents (Elt F) → (⟨S1x128, .f32⟩ : BufTy).Contents (Elt F)),
    reshape main_v192 main_v193 rfl shapeCasts_S1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v191 main_v195 main_v196 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v196) (TRef.of (T := ⟨S100000x128, .f32⟩) main_call3_v0) (TRef.of (T := ⟨S100000x128, .f32⟩) main_v197) maximumf ]

/-- Stretch 14 of the line. -/
abbrev r14 : List (HloOp τ sig (Elt F)) :=
  [ unary main_arg9 main_v198 ((transpose S128x64 [1, 0] · transposes_S64x128_S128x64_1_0) : (⟨S64x128, .f32⟩ : BufTy).Contents (Elt F) → (⟨S128x64, .f32⟩ : BufTy).Contents (Elt F)),
    binary main_v197 main_v198 main_v199 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v200 (broadcastInDim S1x64 ![1] bcast_S64_S1x64_1 : (⟨S64, .f32⟩ : BufTy).Contents (Elt F) → (⟨S1x64, .f32⟩ : BufTy).Contents (Elt F)),
    unary main_v200 main_v201 (broadcastInDim S100000x64 ![0, 1] bcast_S1x64_S100000x64_0_1 : (⟨S1x64, .f32⟩ : BufTy).Contents (Elt F) → (⟨S100000x64, .f32⟩ : BufTy).Contents (Elt F)),
    binary main_v199 main_v201 main_v202 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v202) (TRef.of (T := ⟨S100000x64, .f32⟩) main_call4_v0) (TRef.of (T := ⟨S100000x64, .f32⟩) main_v203) maximumf,
    unary main_arg11 main_v204 ((transpose S64x2 [1, 0] · transposes_S2x64_S64x2_1_0) : (⟨S2x64, .f32⟩ : BufTy).Contents (Elt F) → (⟨S64x2, .f32⟩ : BufTy).Contents (Elt F)),
    binary main_v203 main_v204 main_v205 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg12 main_v206 (broadcastInDim S1x2 ![1] bcast_S2_S1x2_1 : (⟨S2, .f32⟩ : BufTy).Contents (Elt F) → (⟨S1x2, .f32⟩ : BufTy).Contents (Elt F)),
    unary main_v206 main_v207 (broadcastInDim S100000x2 ![0, 1] bcast_S1x2_S100000x2_0_1 : (⟨S1x2, .f32⟩ : BufTy).Contents (Elt F) → (⟨S100000x2, .f32⟩ : BufTy).Contents (Elt F)),
    binary main_v205 main_v207 main_v208 (addf : (⟨S100000x2, .f32⟩ : BufTy).Contents (Elt F) → (⟨S100000x2, .f32⟩ : BufTy).Contents (Elt F) → (⟨S100000x2, .f32⟩ : BufTy).Contents (Elt F)) ]

/-- Stretch 15 of the line. -/
abbrev r15 : List (HloOp τ sig (Elt F)) :=
  [ nullary main_cst_26 (constant S_ .f32 0x3F800000#32),
    unary main_cst_26 main_v209 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v210 (broadcastInDim S64 ![] bcast_S_S64 : (⟨S_, .f32⟩ : BufTy).Contents (Elt F) → (⟨S64, .f32⟩ : BufTy).Contents (Elt F)),
    unary main_arg2 main_v211 (broadcastInDim S100000x1 ![0] bcast_S100000_S100000x1_0 : (⟨S100000, .i32⟩ : BufTy).Contents (Elt F) → (⟨S100000x1, .i32⟩ : BufTy).Contents (Elt F)),
    ternary main_v210 main_v211 main_v209 main_v212 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_28 (constant S_ .f32 0x00000000#32),
    unary main_cst_28 main_v213 (broadcastInDim S64x128 ![] bcast_S_S64x128 : (⟨S_, .f32⟩ : BufTy).Contents (Elt F) → (⟨S64x128, .f32⟩ : BufTy).Contents (Elt F)),
    unary main_arg2 main_v214 (broadcastInDim S100000x1 ![0] bcast_S100000_S100000x1_0 : (⟨S100000, .i32⟩ : BufTy).Contents (Elt F) → (⟨S100000x1, .i32⟩ : BufTy).Contents (Elt F)),
    ternary main_v213 main_v214 main_v197 main_v215 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_29 (constant S_ .f32 0x3F800000#32),
    unary main_cst_29 main_v216 (broadcastInDim S64 ![] bcast_S_S64 : (⟨S_, .f32⟩ : BufTy).Contents (Elt F) → (⟨S64, .f32⟩ : BufTy).Contents (Elt F)),
    binary main_v212 main_v216 main_v217 (maximumf : (⟨S64, .f32⟩ : BufTy).Contents (Elt F) → (⟨S64, .f32⟩ : BufTy).Contents (Elt F) → (⟨S64, .f32⟩ : BufTy).Contents (Elt F)),
    unary main_v217 main_v218 (broadcastInDim S64x1 ![0] bcast_S64_S64x1_0 : (⟨S64, .f32⟩ : BufTy).Contents (Elt F) → (⟨S64x1, .f32⟩ : BufTy).Contents (Elt F)),
    unary main_v218 main_v219 (broadcastInDim S64x128 ![0, 1] bcast_S64x1_S64x128_0_1 : (⟨S64x1, .f32⟩ : BufTy).Contents (Elt F) → (⟨S64x128, .f32⟩ : BufTy).Contents (Elt F)),
    binary main_v215 main_v219 main_v220 (Host.divf : (⟨S64x128, .f32⟩ : BufTy).Contents (Elt F) → (⟨S64x128, .f32⟩ : BufTy).Contents (Elt F) → (⟨S64x128, .f32⟩ : BufTy).Contents (Elt F)) ]

/-- Stretch 16 of the line. -/
abbrev r16 : List (HloOp τ sig (Elt F)) :=
  [ unary main_arg13 main_v221 ((transpose S128x64 [1, 0] · transposes_S64x128_S128x64_1_0) : (⟨S64x128, .f32⟩ : BufTy).Contents (Elt F) → (⟨S128x64, .f32⟩ : BufTy).Contents (Elt F)),
    binary main_v220 main_v221 main_v222 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg14 main_v223 (broadcastInDim S1x64 ![1] bcast_S64_S1x64_1 : (⟨S64, .f32⟩ : BufTy).Contents (Elt F) → (⟨S1x64, .f32⟩ : BufTy).Contents (Elt F)),
    unary main_v223 main_v224 (broadcastInDim S64x64 ![0, 1] bcast_S1x64_S64x64_0_1 : (⟨S1x64, .f32⟩ : BufTy).Contents (Elt F) → (⟨S64x64, .f32⟩ : BufTy).Contents (Elt F)),
    binary main_v222 main_v224 main_v225 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x64, .f32⟩) main_call5_v0) (broadcastInDim S64x64 ![] bcast_S_S64x64),
    TRef.binary (TRef.of (T := ⟨S64x64, .f32⟩) main_v225) (TRef.of (T := ⟨S64x64, .f32⟩) main_call5_v0) (TRef.of (T := ⟨S64x64, .f32⟩) main_v226) maximumf,
    unary main_arg15 main_v227 ((transpose S64x2 [1, 0] · transposes_S2x64_S64x2_1_0) : (⟨S2x64, .f32⟩ : BufTy).Contents (Elt F) → (⟨S64x2, .f32⟩ : BufTy).Contents (Elt F)),
    binary main_v226 main_v227 main_v228 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    unary main_arg16 main_v229 (broadcastInDim S1x2 ![1] bcast_S2_S1x2_1 : (⟨S2, .f32⟩ : BufTy).Contents (Elt F) → (⟨S1x2, .f32⟩ : BufTy).Contents (Elt F)),
    unary main_v229 main_v230 (broadcastInDim S64x2 ![0, 1] bcast_S1x2_S64x2_0_1 : (⟨S1x2, .f32⟩ : BufTy).Contents (Elt F) → (⟨S64x2, .f32⟩ : BufTy).Contents (Elt F)),
    binary main_v228 main_v230 main_v231 (addf : (⟨S64x2, .f32⟩ : BufTy).Contents (Elt F) → (⟨S64x2, .f32⟩ : BufTy).Contents (Elt F) → (⟨S64x2, .f32⟩ : BufTy).Contents (Elt F)) ]

set_option maxRecDepth 16384 in
/-- The line is its stretches, in order. -/
theorem ops_eq : (ops : List (HloOp τ sig (Elt F))) = r0 ++ (r1 ++ (r2 ++ (r3 ++ (r4 ++ (r5 ++ (r6 ++ (r7 ++ (r8 ++ (r9 ++ (r10 ++ (r11 ++ (r12 ++ (r13 ++ (r14 ++ (r15 ++ (r16)))))))))))))))) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- The fold over a concatenation is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-- The contents at launch. -/
abbrev U0 : Valuation τ sig (Elt F) := launchContents m c
/-- The contents after stretch 0. -/
abbrev U1 : Valuation τ sig (Elt F) := after r0 (U0 m c)
/-- The contents after stretch 1. -/
abbrev U2 : Valuation τ sig (Elt F) := after r1 (U1 m c)
/-- The contents after stretch 2. -/
abbrev U3 : Valuation τ sig (Elt F) := after r2 (U2 m c)
/-- The contents after stretch 3. -/
abbrev U4 : Valuation τ sig (Elt F) := after r3 (U3 m c)
/-- The contents after stretch 4. -/
abbrev U5 : Valuation τ sig (Elt F) := after r4 (U4 m c)
/-- The contents after stretch 5. -/
abbrev U6 : Valuation τ sig (Elt F) := after r5 (U5 m c)
/-- The contents after stretch 6. -/
abbrev U7 : Valuation τ sig (Elt F) := after r6 (U6 m c)
/-- The contents after stretch 7. -/
abbrev U8 : Valuation τ sig (Elt F) := after r7 (U7 m c)
/-- The contents after stretch 8. -/
abbrev U9 : Valuation τ sig (Elt F) := after r8 (U8 m c)
/-- The contents after stretch 9. -/
abbrev U10 : Valuation τ sig (Elt F) := after r9 (U9 m c)
/-- The contents after stretch 10. -/
abbrev U11 : Valuation τ sig (Elt F) := after r10 (U10 m c)
/-- The contents after stretch 11. -/
abbrev U12 : Valuation τ sig (Elt F) := after r11 (U11 m c)
/-- The contents after stretch 12. -/
abbrev U13 : Valuation τ sig (Elt F) := after r12 (U12 m c)
/-- The contents after stretch 13. -/
abbrev U14 : Valuation τ sig (Elt F) := after r13 (U13 m c)
/-- The contents after stretch 14. -/
abbrev U15 : Valuation τ sig (Elt F) := after r14 (U14 m c)
/-- The contents after stretch 15. -/
abbrev U16 : Valuation τ sig (Elt F) := after r15 (U15 m c)
/-- The contents after stretch 16. -/
abbrev U17 : Valuation τ sig (Elt F) := after r16 (U16 m c)

/-- The contents after the whole line are the contents after the last stretch. -/
theorem after_ops : after ops (launchContents m c) = U17 m c := by
  rw [ops_eq]; simp only [after_append]

/-- An argument is written by no operation of the line. -/
macro "arg_kept" : tactic => `(tactic| (
  refine after_of_forall_not_mem _ _ (List.forall_iff_forall_mem.mp ?_)
  simp only [ops, List.Forall, nullary_writes, unary_writes, binary_writes, ternary_writes, quaternary_writes, reshape_writes,
    binaryIndexed_writes, Finset.mem_singleton]
  repeat' apply And.intro
  all_goals exact devRef_ne_of_ne (by decide)))

set_option maxHeartbeats 4000000 in
set_option maxRecDepth 16384 in
/-- Every weakly fair execution of the reference program terminates, nothing faulting; the two results end at the last
    cut's contents and every argument as launched. -/
theorem run_fold (ρ : Dev nD → PrngReg) :
    θ_run defs (onTc (τ := τ) (main (F := F))) ⟨m, fun _ => 0, ρ⟩ fun r => ∀ c : Dev nD,
      r.2.mem ((c.tc : Thread nD τ).loc main_v208) = U17 m c (Proc.devRef .tc main_v208)
      ∧ r.2.mem ((c.tc : Thread nD τ).loc main_v231) = U17 m c (Proc.devRef .tc main_v231)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v208).trans (congrFun (after_ops m c) _),
      (h c main_v231).trans (congrFun (after_ops m c) _),
      (h c main_arg0).trans (by arg_kept),
      (h c main_arg1).trans (by arg_kept),
      (h c main_arg2).trans (by arg_kept),
      (h c main_arg3).trans (by arg_kept),
      (h c main_arg4).trans (by arg_kept),
      (h c main_arg5).trans (by arg_kept),
      (h c main_arg6).trans (by arg_kept),
      (h c main_arg7).trans (by arg_kept),
      (h c main_arg8).trans (by arg_kept),
      (h c main_arg9).trans (by arg_kept),
      (h c main_arg10).trans (by arg_kept),
      (h c main_arg11).trans (by arg_kept),
      (h c main_arg12).trans (by arg_kept),
      (h c main_arg13).trans (by arg_kept),
      (h c main_arg14).trans (by arg_kept),
      (h c main_arg15).trans (by arg_kept),
      (h c main_arg16).trans (by arg_kept)⟩)
    (run_seq scopedRefs_eq scopedSems_eq defs main (fun _ => ops) main_eq (fun _ => ops_sub) m ρ)

end Cert.ReferenceIdeal.Hand

end
-- ==== Proof.RKeep.lean ====
/-
  Buffers that a stretch of the reference program leaves alone.

  The reference is one line of host operations, cut into stretches.  A stretch changes only the buffers its operations
  write, so a buffer written once (the edge endpoints, the inverse square-root degrees, a layer's bias row) or never (an
  argument) is read at every later cut with the contents it had when it was written, or at launch.
-/
import proofs.«104500_j56891136803554_2_alg».proof.Proof.RRun

set_option maxRecDepth 16384

noncomputable section

namespace Cert.ReferenceIdeal.Keep

open Idealize.ShloMosaic Idealize.ShloMosaic.TcCoe Idealize.SL.Sem
open Cert.ReferenceIdeal Cert.ReferenceIdeal.Gen Cert.ReferenceIdeal.Hand

/-- A stretch leaves a buffer that none of its operations writes. -/
macro "rhost_keep" : tactic => `(tactic| (
  refine StableHlo.after_of_forall_not_mem _ _ (List.forall_iff_forall_mem.mp ?_)
  simp only [r0, r1, r2, r3, r4, r5, r6, r7, r8, r9, r10, r11, r12, r13, r14, r15, r16, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (c : Dev nD)

theorem rd_v3_2 : U2 m c (Proc.devRef .tc main_v3) = U1 m c (Proc.devRef .tc main_v3) := (show U2 m c (Proc.devRef .tc main_v3) = U1 m c (Proc.devRef .tc main_v3) by rhost_keep)
theorem rd_v3_3 : U3 m c (Proc.devRef .tc main_v3) = U1 m c (Proc.devRef .tc main_v3) := (show U3 m c (Proc.devRef .tc main_v3) = U2 m c (Proc.devRef .tc main_v3) by rhost_keep).trans (rd_v3_2 m c)
theorem rd_v3_4 : U4 m c (Proc.devRef .tc main_v3) = U1 m c (Proc.devRef .tc main_v3) := (show U4 m c (Proc.devRef .tc main_v3) = U3 m c (Proc.devRef .tc main_v3) by rhost_keep).trans (rd_v3_3 m c)
theorem rd_v3_5 : U5 m c (Proc.devRef .tc main_v3) = U1 m c (Proc.devRef .tc main_v3) := (show U5 m c (Proc.devRef .tc main_v3) = U4 m c (Proc.devRef .tc main_v3) by rhost_keep).trans (rd_v3_4 m c)
theorem rd_v3_6 : U6 m c (Proc.devRef .tc main_v3) = U1 m c (Proc.devRef .tc main_v3) := (show U6 m c (Proc.devRef .tc main_v3) = U5 m c (Proc.devRef .tc main_v3) by rhost_keep).trans (rd_v3_5 m c)
theorem rd_v3_7 : U7 m c (Proc.devRef .tc main_v3) = U1 m c (Proc.devRef .tc main_v3) := (show U7 m c (Proc.devRef .tc main_v3) = U6 m c (Proc.devRef .tc main_v3) by rhost_keep).trans (rd_v3_6 m c)
theorem rd_v3_8 : U8 m c (Proc.devRef .tc main_v3) = U1 m c (Proc.devRef .tc main_v3) := (show U8 m c (Proc.devRef .tc main_v3) = U7 m c (Proc.devRef .tc main_v3) by rhost_keep).trans (rd_v3_7 m c)
theorem rd_v3_9 : U9 m c (Proc.devRef .tc main_v3) = U1 m c (Proc.devRef .tc main_v3) := (show U9 m c (Proc.devRef .tc main_v3) = U8 m c (Proc.devRef .tc main_v3) by rhost_keep).trans (rd_v3_8 m c)
theorem rd_v3_10 : U10 m c (Proc.devRef .tc main_v3) = U1 m c (Proc.devRef .tc main_v3) := (show U10 m c (Proc.devRef .tc main_v3) = U9 m c (Proc.devRef .tc main_v3) by rhost_keep).trans (rd_v3_9 m c)
theorem rd_v3_11 : U11 m c (Proc.devRef .tc main_v3) = U1 m c (Proc.devRef .tc main_v3) := (show U11 m c (Proc.devRef .tc main_v3) = U10 m c (Proc.devRef .tc main_v3) by rhost_keep).trans (rd_v3_10 m c)
theorem rd_v3_12 : U12 m c (Proc.devRef .tc main_v3) = U1 m c (Proc.devRef .tc main_v3) := (show U12 m c (Proc.devRef .tc main_v3) = U11 m c (Proc.devRef .tc main_v3) by rhost_keep).trans (rd_v3_11 m c)
theorem rd_v6_2 : U2 m c (Proc.devRef .tc main_v6) = U1 m c (Proc.devRef .tc main_v6) := (show U2 m c (Proc.devRef .tc main_v6) = U1 m c (Proc.devRef .tc main_v6) by rhost_keep)
theorem rd_v6_3 : U3 m c (Proc.devRef .tc main_v6) = U1 m c (Proc.devRef .tc main_v6) := (show U3 m c (Proc.devRef .tc main_v6) = U2 m c (Proc.devRef .tc main_v6) by rhost_keep).trans (rd_v6_2 m c)
theorem rd_v6_4 : U4 m c (Proc.devRef .tc main_v6) = U1 m c (Proc.devRef .tc main_v6) := (show U4 m c (Proc.devRef .tc main_v6) = U3 m c (Proc.devRef .tc main_v6) by rhost_keep).trans (rd_v6_3 m c)
theorem rd_v6_5 : U5 m c (Proc.devRef .tc main_v6) = U1 m c (Proc.devRef .tc main_v6) := (show U5 m c (Proc.devRef .tc main_v6) = U4 m c (Proc.devRef .tc main_v6) by rhost_keep).trans (rd_v6_4 m c)
theorem rd_v6_6 : U6 m c (Proc.devRef .tc main_v6) = U1 m c (Proc.devRef .tc main_v6) := (show U6 m c (Proc.devRef .tc main_v6) = U5 m c (Proc.devRef .tc main_v6) by rhost_keep).trans (rd_v6_5 m c)
theorem rd_v6_7 : U7 m c (Proc.devRef .tc main_v6) = U1 m c (Proc.devRef .tc main_v6) := (show U7 m c (Proc.devRef .tc main_v6) = U6 m c (Proc.devRef .tc main_v6) by rhost_keep).trans (rd_v6_6 m c)
theorem rd_v6_8 : U8 m c (Proc.devRef .tc main_v6) = U1 m c (Proc.devRef .tc main_v6) := (show U8 m c (Proc.devRef .tc main_v6) = U7 m c (Proc.devRef .tc main_v6) by rhost_keep).trans (rd_v6_7 m c)
theorem rd_v6_9 : U9 m c (Proc.devRef .tc main_v6) = U1 m c (Proc.devRef .tc main_v6) := (show U9 m c (Proc.devRef .tc main_v6) = U8 m c (Proc.devRef .tc main_v6) by rhost_keep).trans (rd_v6_8 m c)
theorem rd_v6_10 : U10 m c (Proc.devRef .tc main_v6) = U1 m c (Proc.devRef .tc main_v6) := (show U10 m c (Proc.devRef .tc main_v6) = U9 m c (Proc.devRef .tc main_v6) by rhost_keep).trans (rd_v6_9 m c)
theorem rd_v6_11 : U11 m c (Proc.devRef .tc main_v6) = U1 m c (Proc.devRef .tc main_v6) := (show U11 m c (Proc.devRef .tc main_v6) = U10 m c (Proc.devRef .tc main_v6) by rhost_keep).trans (rd_v6_10 m c)
theorem rd_v6_12 : U12 m c (Proc.devRef .tc main_v6) = U1 m c (Proc.devRef .tc main_v6) := (show U12 m c (Proc.devRef .tc main_v6) = U11 m c (Proc.devRef .tc main_v6) by rhost_keep).trans (rd_v6_11 m c)
theorem rd_v14_3 : U3 m c (Proc.devRef .tc main_v14) = U2 m c (Proc.devRef .tc main_v14) := (show U3 m c (Proc.devRef .tc main_v14) = U2 m c (Proc.devRef .tc main_v14) by rhost_keep)
theorem rd_v14_4 : U4 m c (Proc.devRef .tc main_v14) = U2 m c (Proc.devRef .tc main_v14) := (show U4 m c (Proc.devRef .tc main_v14) = U3 m c (Proc.devRef .tc main_v14) by rhost_keep).trans (rd_v14_3 m c)
theorem rd_v14_5 : U5 m c (Proc.devRef .tc main_v14) = U2 m c (Proc.devRef .tc main_v14) := (show U5 m c (Proc.devRef .tc main_v14) = U4 m c (Proc.devRef .tc main_v14) by rhost_keep).trans (rd_v14_4 m c)
theorem rd_v14_6 : U6 m c (Proc.devRef .tc main_v14) = U2 m c (Proc.devRef .tc main_v14) := (show U6 m c (Proc.devRef .tc main_v14) = U5 m c (Proc.devRef .tc main_v14) by rhost_keep).trans (rd_v14_5 m c)
theorem rd_v14_7 : U7 m c (Proc.devRef .tc main_v14) = U2 m c (Proc.devRef .tc main_v14) := (show U7 m c (Proc.devRef .tc main_v14) = U6 m c (Proc.devRef .tc main_v14) by rhost_keep).trans (rd_v14_6 m c)
theorem rd_v14_8 : U8 m c (Proc.devRef .tc main_v14) = U2 m c (Proc.devRef .tc main_v14) := (show U8 m c (Proc.devRef .tc main_v14) = U7 m c (Proc.devRef .tc main_v14) by rhost_keep).trans (rd_v14_7 m c)
theorem rd_v14_9 : U9 m c (Proc.devRef .tc main_v14) = U2 m c (Proc.devRef .tc main_v14) := (show U9 m c (Proc.devRef .tc main_v14) = U8 m c (Proc.devRef .tc main_v14) by rhost_keep).trans (rd_v14_8 m c)
theorem rd_v14_10 : U10 m c (Proc.devRef .tc main_v14) = U2 m c (Proc.devRef .tc main_v14) := (show U10 m c (Proc.devRef .tc main_v14) = U9 m c (Proc.devRef .tc main_v14) by rhost_keep).trans (rd_v14_9 m c)
theorem rd_v14_11 : U11 m c (Proc.devRef .tc main_v14) = U2 m c (Proc.devRef .tc main_v14) := (show U11 m c (Proc.devRef .tc main_v14) = U10 m c (Proc.devRef .tc main_v14) by rhost_keep).trans (rd_v14_10 m c)
theorem rd_v14_12 : U12 m c (Proc.devRef .tc main_v14) = U2 m c (Proc.devRef .tc main_v14) := (show U12 m c (Proc.devRef .tc main_v14) = U11 m c (Proc.devRef .tc main_v14) by rhost_keep).trans (rd_v14_11 m c)
theorem rd_v18_4 : U4 m c (Proc.devRef .tc main_v18) = U3 m c (Proc.devRef .tc main_v18) := (show U4 m c (Proc.devRef .tc main_v18) = U3 m c (Proc.devRef .tc main_v18) by rhost_keep)
theorem rd_v18_5 : U5 m c (Proc.devRef .tc main_v18) = U3 m c (Proc.devRef .tc main_v18) := (show U5 m c (Proc.devRef .tc main_v18) = U4 m c (Proc.devRef .tc main_v18) by rhost_keep).trans (rd_v18_4 m c)
theorem rd_v79_8 : U8 m c (Proc.devRef .tc main_v79) = U7 m c (Proc.devRef .tc main_v79) := (show U8 m c (Proc.devRef .tc main_v79) = U7 m c (Proc.devRef .tc main_v79) by rhost_keep)
theorem rd_v79_9 : U9 m c (Proc.devRef .tc main_v79) = U7 m c (Proc.devRef .tc main_v79) := (show U9 m c (Proc.devRef .tc main_v79) = U8 m c (Proc.devRef .tc main_v79) by rhost_keep).trans (rd_v79_8 m c)
theorem rd_v140_12 : U12 m c (Proc.devRef .tc main_v140) = U11 m c (Proc.devRef .tc main_v140) := (show U12 m c (Proc.devRef .tc main_v140) = U11 m c (Proc.devRef .tc main_v140) by rhost_keep)
theorem rd_v140_13 : U13 m c (Proc.devRef .tc main_v140) = U11 m c (Proc.devRef .tc main_v140) := (show U13 m c (Proc.devRef .tc main_v140) = U12 m c (Proc.devRef .tc main_v140) by rhost_keep).trans (rd_v140_12 m c)
theorem rd_v20_4 : U4 m c (Proc.devRef .tc main_v20) = U3 m c (Proc.devRef .tc main_v20) := (show U4 m c (Proc.devRef .tc main_v20) = U3 m c (Proc.devRef .tc main_v20) by rhost_keep)
theorem rd_v81_8 : U8 m c (Proc.devRef .tc main_v81) = U7 m c (Proc.devRef .tc main_v81) := (show U8 m c (Proc.devRef .tc main_v81) = U7 m c (Proc.devRef .tc main_v81) by rhost_keep)
theorem rd_v142_12 : U12 m c (Proc.devRef .tc main_v142) = U11 m c (Proc.devRef .tc main_v142) := (show U12 m c (Proc.devRef .tc main_v142) = U11 m c (Proc.devRef .tc main_v142) by rhost_keep)
theorem rd_v197_15 : U15 m c (Proc.devRef .tc main_v197) = U14 m c (Proc.devRef .tc main_v197) := (show U15 m c (Proc.devRef .tc main_v197) = U14 m c (Proc.devRef .tc main_v197) by rhost_keep)
theorem rd_v208_16 : U16 m c (Proc.devRef .tc main_v208) = U15 m c (Proc.devRef .tc main_v208) := (show U16 m c (Proc.devRef .tc main_v208) = U15 m c (Proc.devRef .tc main_v208) by rhost_keep)
theorem rd_v208_17 : U17 m c (Proc.devRef .tc main_v208) = U15 m c (Proc.devRef .tc main_v208) := (show U17 m c (Proc.devRef .tc main_v208) = U16 m c (Proc.devRef .tc main_v208) by rhost_keep).trans (rd_v208_16 m c)
theorem rd_arg0_1 : U1 m c (Proc.devRef .tc main_arg0) = U0 m c (Proc.devRef .tc main_arg0) := (show U1 m c (Proc.devRef .tc main_arg0) = U0 m c (Proc.devRef .tc main_arg0) by rhost_keep)
theorem rd_arg0_2 : U2 m c (Proc.devRef .tc main_arg0) = U0 m c (Proc.devRef .tc main_arg0) := (show U2 m c (Proc.devRef .tc main_arg0) = U1 m c (Proc.devRef .tc main_arg0) by rhost_keep).trans (rd_arg0_1 m c)
theorem rd_arg3_1 : U1 m c (Proc.devRef .tc main_arg3) = U0 m c (Proc.devRef .tc main_arg3) := (show U1 m c (Proc.devRef .tc main_arg3) = U0 m c (Proc.devRef .tc main_arg3) by rhost_keep)
theorem rd_arg3_2 : U2 m c (Proc.devRef .tc main_arg3) = U0 m c (Proc.devRef .tc main_arg3) := (show U2 m c (Proc.devRef .tc main_arg3) = U1 m c (Proc.devRef .tc main_arg3) by rhost_keep).trans (rd_arg3_1 m c)
theorem rd_arg3_3 : U3 m c (Proc.devRef .tc main_arg3) = U0 m c (Proc.devRef .tc main_arg3) := (show U3 m c (Proc.devRef .tc main_arg3) = U2 m c (Proc.devRef .tc main_arg3) by rhost_keep).trans (rd_arg3_2 m c)
theorem rd_arg3_4 : U4 m c (Proc.devRef .tc main_arg3) = U0 m c (Proc.devRef .tc main_arg3) := (show U4 m c (Proc.devRef .tc main_arg3) = U3 m c (Proc.devRef .tc main_arg3) by rhost_keep).trans (rd_arg3_3 m c)
theorem rd_arg3_5 : U5 m c (Proc.devRef .tc main_arg3) = U0 m c (Proc.devRef .tc main_arg3) := (show U5 m c (Proc.devRef .tc main_arg3) = U4 m c (Proc.devRef .tc main_arg3) by rhost_keep).trans (rd_arg3_4 m c)
theorem rd_arg3_6 : U6 m c (Proc.devRef .tc main_arg3) = U0 m c (Proc.devRef .tc main_arg3) := (show U6 m c (Proc.devRef .tc main_arg3) = U5 m c (Proc.devRef .tc main_arg3) by rhost_keep).trans (rd_arg3_5 m c)
theorem rd_arg3_7 : U7 m c (Proc.devRef .tc main_arg3) = U0 m c (Proc.devRef .tc main_arg3) := (show U7 m c (Proc.devRef .tc main_arg3) = U6 m c (Proc.devRef .tc main_arg3) by rhost_keep).trans (rd_arg3_6 m c)
theorem rd_arg3_8 : U8 m c (Proc.devRef .tc main_arg3) = U0 m c (Proc.devRef .tc main_arg3) := (show U8 m c (Proc.devRef .tc main_arg3) = U7 m c (Proc.devRef .tc main_arg3) by rhost_keep).trans (rd_arg3_7 m c)
theorem rd_arg3_9 : U9 m c (Proc.devRef .tc main_arg3) = U0 m c (Proc.devRef .tc main_arg3) := (show U9 m c (Proc.devRef .tc main_arg3) = U8 m c (Proc.devRef .tc main_arg3) by rhost_keep).trans (rd_arg3_8 m c)
theorem rd_arg3_10 : U10 m c (Proc.devRef .tc main_arg3) = U0 m c (Proc.devRef .tc main_arg3) := (show U10 m c (Proc.devRef .tc main_arg3) = U9 m c (Proc.devRef .tc main_arg3) by rhost_keep).trans (rd_arg3_9 m c)
theorem rd_arg4_1 : U1 m c (Proc.devRef .tc main_arg4) = U0 m c (Proc.devRef .tc main_arg4) := (show U1 m c (Proc.devRef .tc main_arg4) = U0 m c (Proc.devRef .tc main_arg4) by rhost_keep)
theorem rd_arg4_2 : U2 m c (Proc.devRef .tc main_arg4) = U0 m c (Proc.devRef .tc main_arg4) := (show U2 m c (Proc.devRef .tc main_arg4) = U1 m c (Proc.devRef .tc main_arg4) by rhost_keep).trans (rd_arg4_1 m c)
theorem rd_arg4_3 : U3 m c (Proc.devRef .tc main_arg4) = U0 m c (Proc.devRef .tc main_arg4) := (show U3 m c (Proc.devRef .tc main_arg4) = U2 m c (Proc.devRef .tc main_arg4) by rhost_keep).trans (rd_arg4_2 m c)
theorem rd_arg4_4 : U4 m c (Proc.devRef .tc main_arg4) = U0 m c (Proc.devRef .tc main_arg4) := (show U4 m c (Proc.devRef .tc main_arg4) = U3 m c (Proc.devRef .tc main_arg4) by rhost_keep).trans (rd_arg4_3 m c)
theorem rd_arg4_5 : U5 m c (Proc.devRef .tc main_arg4) = U0 m c (Proc.devRef .tc main_arg4) := (show U5 m c (Proc.devRef .tc main_arg4) = U4 m c (Proc.devRef .tc main_arg4) by rhost_keep).trans (rd_arg4_4 m c)
theorem rd_arg4_6 : U6 m c (Proc.devRef .tc main_arg4) = U0 m c (Proc.devRef .tc main_arg4) := (show U6 m c (Proc.devRef .tc main_arg4) = U5 m c (Proc.devRef .tc main_arg4) by rhost_keep).trans (rd_arg4_5 m c)
theorem rd_arg4_7 : U7 m c (Proc.devRef .tc main_arg4) = U0 m c (Proc.devRef .tc main_arg4) := (show U7 m c (Proc.devRef .tc main_arg4) = U6 m c (Proc.devRef .tc main_arg4) by rhost_keep).trans (rd_arg4_6 m c)
theorem rd_arg4_8 : U8 m c (Proc.devRef .tc main_arg4) = U0 m c (Proc.devRef .tc main_arg4) := (show U8 m c (Proc.devRef .tc main_arg4) = U7 m c (Proc.devRef .tc main_arg4) by rhost_keep).trans (rd_arg4_7 m c)
theorem rd_arg4_9 : U9 m c (Proc.devRef .tc main_arg4) = U0 m c (Proc.devRef .tc main_arg4) := (show U9 m c (Proc.devRef .tc main_arg4) = U8 m c (Proc.devRef .tc main_arg4) by rhost_keep).trans (rd_arg4_8 m c)
theorem rd_arg4_10 : U10 m c (Proc.devRef .tc main_arg4) = U0 m c (Proc.devRef .tc main_arg4) := (show U10 m c (Proc.devRef .tc main_arg4) = U9 m c (Proc.devRef .tc main_arg4) by rhost_keep).trans (rd_arg4_9 m c)
theorem rd_arg5_1 : U1 m c (Proc.devRef .tc main_arg5) = U0 m c (Proc.devRef .tc main_arg5) := (show U1 m c (Proc.devRef .tc main_arg5) = U0 m c (Proc.devRef .tc main_arg5) by rhost_keep)
theorem rd_arg5_2 : U2 m c (Proc.devRef .tc main_arg5) = U0 m c (Proc.devRef .tc main_arg5) := (show U2 m c (Proc.devRef .tc main_arg5) = U1 m c (Proc.devRef .tc main_arg5) by rhost_keep).trans (rd_arg5_1 m c)
theorem rd_arg5_3 : U3 m c (Proc.devRef .tc main_arg5) = U0 m c (Proc.devRef .tc main_arg5) := (show U3 m c (Proc.devRef .tc main_arg5) = U2 m c (Proc.devRef .tc main_arg5) by rhost_keep).trans (rd_arg5_2 m c)
theorem rd_arg5_4 : U4 m c (Proc.devRef .tc main_arg5) = U0 m c (Proc.devRef .tc main_arg5) := (show U4 m c (Proc.devRef .tc main_arg5) = U3 m c (Proc.devRef .tc main_arg5) by rhost_keep).trans (rd_arg5_3 m c)
theorem rd_arg5_5 : U5 m c (Proc.devRef .tc main_arg5) = U0 m c (Proc.devRef .tc main_arg5) := (show U5 m c (Proc.devRef .tc main_arg5) = U4 m c (Proc.devRef .tc main_arg5) by rhost_keep).trans (rd_arg5_4 m c)
theorem rd_arg5_6 : U6 m c (Proc.devRef .tc main_arg5) = U0 m c (Proc.devRef .tc main_arg5) := (show U6 m c (Proc.devRef .tc main_arg5) = U5 m c (Proc.devRef .tc main_arg5) by rhost_keep).trans (rd_arg5_5 m c)
theorem rd_arg5_7 : U7 m c (Proc.devRef .tc main_arg5) = U0 m c (Proc.devRef .tc main_arg5) := (show U7 m c (Proc.devRef .tc main_arg5) = U6 m c (Proc.devRef .tc main_arg5) by rhost_keep).trans (rd_arg5_6 m c)
theorem rd_arg5_8 : U8 m c (Proc.devRef .tc main_arg5) = U0 m c (Proc.devRef .tc main_arg5) := (show U8 m c (Proc.devRef .tc main_arg5) = U7 m c (Proc.devRef .tc main_arg5) by rhost_keep).trans (rd_arg5_7 m c)
theorem rd_arg5_9 : U9 m c (Proc.devRef .tc main_arg5) = U0 m c (Proc.devRef .tc main_arg5) := (show U9 m c (Proc.devRef .tc main_arg5) = U8 m c (Proc.devRef .tc main_arg5) by rhost_keep).trans (rd_arg5_8 m c)
theorem rd_arg5_10 : U10 m c (Proc.devRef .tc main_arg5) = U0 m c (Proc.devRef .tc main_arg5) := (show U10 m c (Proc.devRef .tc main_arg5) = U9 m c (Proc.devRef .tc main_arg5) by rhost_keep).trans (rd_arg5_9 m c)
theorem rd_arg5_11 : U11 m c (Proc.devRef .tc main_arg5) = U0 m c (Proc.devRef .tc main_arg5) := (show U11 m c (Proc.devRef .tc main_arg5) = U10 m c (Proc.devRef .tc main_arg5) by rhost_keep).trans (rd_arg5_10 m c)
theorem rd_arg5_12 : U12 m c (Proc.devRef .tc main_arg5) = U0 m c (Proc.devRef .tc main_arg5) := (show U12 m c (Proc.devRef .tc main_arg5) = U11 m c (Proc.devRef .tc main_arg5) by rhost_keep).trans (rd_arg5_11 m c)
theorem rd_arg5_13 : U13 m c (Proc.devRef .tc main_arg5) = U0 m c (Proc.devRef .tc main_arg5) := (show U13 m c (Proc.devRef .tc main_arg5) = U12 m c (Proc.devRef .tc main_arg5) by rhost_keep).trans (rd_arg5_12 m c)
theorem rd_arg6_1 : U1 m c (Proc.devRef .tc main_arg6) = U0 m c (Proc.devRef .tc main_arg6) := (show U1 m c (Proc.devRef .tc main_arg6) = U0 m c (Proc.devRef .tc main_arg6) by rhost_keep)
theorem rd_arg6_2 : U2 m c (Proc.devRef .tc main_arg6) = U0 m c (Proc.devRef .tc main_arg6) := (show U2 m c (Proc.devRef .tc main_arg6) = U1 m c (Proc.devRef .tc main_arg6) by rhost_keep).trans (rd_arg6_1 m c)
theorem rd_arg6_3 : U3 m c (Proc.devRef .tc main_arg6) = U0 m c (Proc.devRef .tc main_arg6) := (show U3 m c (Proc.devRef .tc main_arg6) = U2 m c (Proc.devRef .tc main_arg6) by rhost_keep).trans (rd_arg6_2 m c)
theorem rd_arg6_4 : U4 m c (Proc.devRef .tc main_arg6) = U0 m c (Proc.devRef .tc main_arg6) := (show U4 m c (Proc.devRef .tc main_arg6) = U3 m c (Proc.devRef .tc main_arg6) by rhost_keep).trans (rd_arg6_3 m c)
theorem rd_arg6_5 : U5 m c (Proc.devRef .tc main_arg6) = U0 m c (Proc.devRef .tc main_arg6) := (show U5 m c (Proc.devRef .tc main_arg6) = U4 m c (Proc.devRef .tc main_arg6) by rhost_keep).trans (rd_arg6_4 m c)
theorem rd_arg6_6 : U6 m c (Proc.devRef .tc main_arg6) = U0 m c (Proc.devRef .tc main_arg6) := (show U6 m c (Proc.devRef .tc main_arg6) = U5 m c (Proc.devRef .tc main_arg6) by rhost_keep).trans (rd_arg6_5 m c)
theorem rd_arg6_7 : U7 m c (Proc.devRef .tc main_arg6) = U0 m c (Proc.devRef .tc main_arg6) := (show U7 m c (Proc.devRef .tc main_arg6) = U6 m c (Proc.devRef .tc main_arg6) by rhost_keep).trans (rd_arg6_6 m c)
theorem rd_arg6_8 : U8 m c (Proc.devRef .tc main_arg6) = U0 m c (Proc.devRef .tc main_arg6) := (show U8 m c (Proc.devRef .tc main_arg6) = U7 m c (Proc.devRef .tc main_arg6) by rhost_keep).trans (rd_arg6_7 m c)
theorem rd_arg6_9 : U9 m c (Proc.devRef .tc main_arg6) = U0 m c (Proc.devRef .tc main_arg6) := (show U9 m c (Proc.devRef .tc main_arg6) = U8 m c (Proc.devRef .tc main_arg6) by rhost_keep).trans (rd_arg6_8 m c)
theorem rd_arg6_10 : U10 m c (Proc.devRef .tc main_arg6) = U0 m c (Proc.devRef .tc main_arg6) := (show U10 m c (Proc.devRef .tc main_arg6) = U9 m c (Proc.devRef .tc main_arg6) by rhost_keep).trans (rd_arg6_9 m c)
theorem rd_arg6_11 : U11 m c (Proc.devRef .tc main_arg6) = U0 m c (Proc.devRef .tc main_arg6) := (show U11 m c (Proc.devRef .tc main_arg6) = U10 m c (Proc.devRef .tc main_arg6) by rhost_keep).trans (rd_arg6_10 m c)
theorem rd_arg6_12 : U12 m c (Proc.devRef .tc main_arg6) = U0 m c (Proc.devRef .tc main_arg6) := (show U12 m c (Proc.devRef .tc main_arg6) = U11 m c (Proc.devRef .tc main_arg6) by rhost_keep).trans (rd_arg6_11 m c)
theorem rd_arg6_13 : U13 m c (Proc.devRef .tc main_arg6) = U0 m c (Proc.devRef .tc main_arg6) := (show U13 m c (Proc.devRef .tc main_arg6) = U12 m c (Proc.devRef .tc main_arg6) by rhost_keep).trans (rd_arg6_12 m c)
theorem rd_arg7_1 : U1 m c (Proc.devRef .tc main_arg7) = U0 m c (Proc.devRef .tc main_arg7) := (show U1 m c (Proc.devRef .tc main_arg7) = U0 m c (Proc.devRef .tc main_arg7) by rhost_keep)
theorem rd_arg7_2 : U2 m c (Proc.devRef .tc main_arg7) = U0 m c (Proc.devRef .tc main_arg7) := (show U2 m c (Proc.devRef .tc main_arg7) = U1 m c (Proc.devRef .tc main_arg7) by rhost_keep).trans (rd_arg7_1 m c)
theorem rd_arg7_3 : U3 m c (Proc.devRef .tc main_arg7) = U0 m c (Proc.devRef .tc main_arg7) := (show U3 m c (Proc.devRef .tc main_arg7) = U2 m c (Proc.devRef .tc main_arg7) by rhost_keep).trans (rd_arg7_2 m c)
theorem rd_arg7_4 : U4 m c (Proc.devRef .tc main_arg7) = U0 m c (Proc.devRef .tc main_arg7) := (show U4 m c (Proc.devRef .tc main_arg7) = U3 m c (Proc.devRef .tc main_arg7) by rhost_keep).trans (rd_arg7_3 m c)
theorem rd_arg7_5 : U5 m c (Proc.devRef .tc main_arg7) = U0 m c (Proc.devRef .tc main_arg7) := (show U5 m c (Proc.devRef .tc main_arg7) = U4 m c (Proc.devRef .tc main_arg7) by rhost_keep).trans (rd_arg7_4 m c)
theorem rd_arg7_6 : U6 m c (Proc.devRef .tc main_arg7) = U0 m c (Proc.devRef .tc main_arg7) := (show U6 m c (Proc.devRef .tc main_arg7) = U5 m c (Proc.devRef .tc main_arg7) by rhost_keep).trans (rd_arg7_5 m c)
theorem rd_arg7_7 : U7 m c (Proc.devRef .tc main_arg7) = U0 m c (Proc.devRef .tc main_arg7) := (show U7 m c (Proc.devRef .tc main_arg7) = U6 m c (Proc.devRef .tc main_arg7) by rhost_keep).trans (rd_arg7_6 m c)
theorem rd_arg7_8 : U8 m c (Proc.devRef .tc main_arg7) = U0 m c (Proc.devRef .tc main_arg7) := (show U8 m c (Proc.devRef .tc main_arg7) = U7 m c (Proc.devRef .tc main_arg7) by rhost_keep).trans (rd_arg7_7 m c)
theorem rd_arg7_9 : U9 m c (Proc.devRef .tc main_arg7) = U0 m c (Proc.devRef .tc main_arg7) := (show U9 m c (Proc.devRef .tc main_arg7) = U8 m c (Proc.devRef .tc main_arg7) by rhost_keep).trans (rd_arg7_8 m c)
theorem rd_arg7_10 : U10 m c (Proc.devRef .tc main_arg7) = U0 m c (Proc.devRef .tc main_arg7) := (show U10 m c (Proc.devRef .tc main_arg7) = U9 m c (Proc.devRef .tc main_arg7) by rhost_keep).trans (rd_arg7_9 m c)
theorem rd_arg7_11 : U11 m c (Proc.devRef .tc main_arg7) = U0 m c (Proc.devRef .tc main_arg7) := (show U11 m c (Proc.devRef .tc main_arg7) = U10 m c (Proc.devRef .tc main_arg7) by rhost_keep).trans (rd_arg7_10 m c)
theorem rd_arg7_12 : U12 m c (Proc.devRef .tc main_arg7) = U0 m c (Proc.devRef .tc main_arg7) := (show U12 m c (Proc.devRef .tc main_arg7) = U11 m c (Proc.devRef .tc main_arg7) by rhost_keep).trans (rd_arg7_11 m c)
theorem rd_arg7_13 : U13 m c (Proc.devRef .tc main_arg7) = U0 m c (Proc.devRef .tc main_arg7) := (show U13 m c (Proc.devRef .tc main_arg7) = U12 m c (Proc.devRef .tc main_arg7) by rhost_keep).trans (rd_arg7_12 m c)
theorem rd_arg8_1 : U1 m c (Proc.devRef .tc main_arg8) = U0 m c (Proc.devRef .tc main_arg8) := (show U1 m c (Proc.devRef .tc main_arg8) = U0 m c (Proc.devRef .tc main_arg8) by rhost_keep)
theorem rd_arg8_2 : U2 m c (Proc.devRef .tc main_arg8) = U0 m c (Proc.devRef .tc main_arg8) := (show U2 m c (Proc.devRef .tc main_arg8) = U1 m c (Proc.devRef .tc main_arg8) by rhost_keep).trans (rd_arg8_1 m c)
theorem rd_arg8_3 : U3 m c (Proc.devRef .tc main_arg8) = U0 m c (Proc.devRef .tc main_arg8) := (show U3 m c (Proc.devRef .tc main_arg8) = U2 m c (Proc.devRef .tc main_arg8) by rhost_keep).trans (rd_arg8_2 m c)
theorem rd_arg8_4 : U4 m c (Proc.devRef .tc main_arg8) = U0 m c (Proc.devRef .tc main_arg8) := (show U4 m c (Proc.devRef .tc main_arg8) = U3 m c (Proc.devRef .tc main_arg8) by rhost_keep).trans (rd_arg8_3 m c)
theorem rd_arg8_5 : U5 m c (Proc.devRef .tc main_arg8) = U0 m c (Proc.devRef .tc main_arg8) := (show U5 m c (Proc.devRef .tc main_arg8) = U4 m c (Proc.devRef .tc main_arg8) by rhost_keep).trans (rd_arg8_4 m c)
theorem rd_arg8_6 : U6 m c (Proc.devRef .tc main_arg8) = U0 m c (Proc.devRef .tc main_arg8) := (show U6 m c (Proc.devRef .tc main_arg8) = U5 m c (Proc.devRef .tc main_arg8) by rhost_keep).trans (rd_arg8_5 m c)
theorem rd_arg8_7 : U7 m c (Proc.devRef .tc main_arg8) = U0 m c (Proc.devRef .tc main_arg8) := (show U7 m c (Proc.devRef .tc main_arg8) = U6 m c (Proc.devRef .tc main_arg8) by rhost_keep).trans (rd_arg8_6 m c)
theorem rd_arg8_8 : U8 m c (Proc.devRef .tc main_arg8) = U0 m c (Proc.devRef .tc main_arg8) := (show U8 m c (Proc.devRef .tc main_arg8) = U7 m c (Proc.devRef .tc main_arg8) by rhost_keep).trans (rd_arg8_7 m c)
theorem rd_arg8_9 : U9 m c (Proc.devRef .tc main_arg8) = U0 m c (Proc.devRef .tc main_arg8) := (show U9 m c (Proc.devRef .tc main_arg8) = U8 m c (Proc.devRef .tc main_arg8) by rhost_keep).trans (rd_arg8_8 m c)
theorem rd_arg8_10 : U10 m c (Proc.devRef .tc main_arg8) = U0 m c (Proc.devRef .tc main_arg8) := (show U10 m c (Proc.devRef .tc main_arg8) = U9 m c (Proc.devRef .tc main_arg8) by rhost_keep).trans (rd_arg8_9 m c)
theorem rd_arg8_11 : U11 m c (Proc.devRef .tc main_arg8) = U0 m c (Proc.devRef .tc main_arg8) := (show U11 m c (Proc.devRef .tc main_arg8) = U10 m c (Proc.devRef .tc main_arg8) by rhost_keep).trans (rd_arg8_10 m c)
theorem rd_arg8_12 : U12 m c (Proc.devRef .tc main_arg8) = U0 m c (Proc.devRef .tc main_arg8) := (show U12 m c (Proc.devRef .tc main_arg8) = U11 m c (Proc.devRef .tc main_arg8) by rhost_keep).trans (rd_arg8_11 m c)
theorem rd_arg8_13 : U13 m c (Proc.devRef .tc main_arg8) = U0 m c (Proc.devRef .tc main_arg8) := (show U13 m c (Proc.devRef .tc main_arg8) = U12 m c (Proc.devRef .tc main_arg8) by rhost_keep).trans (rd_arg8_12 m c)
theorem rd_arg9_1 : U1 m c (Proc.devRef .tc main_arg9) = U0 m c (Proc.devRef .tc main_arg9) := (show U1 m c (Proc.devRef .tc main_arg9) = U0 m c (Proc.devRef .tc main_arg9) by rhost_keep)
theorem rd_arg9_2 : U2 m c (Proc.devRef .tc main_arg9) = U0 m c (Proc.devRef .tc main_arg9) := (show U2 m c (Proc.devRef .tc main_arg9) = U1 m c (Proc.devRef .tc main_arg9) by rhost_keep).trans (rd_arg9_1 m c)
theorem rd_arg9_3 : U3 m c (Proc.devRef .tc main_arg9) = U0 m c (Proc.devRef .tc main_arg9) := (show U3 m c (Proc.devRef .tc main_arg9) = U2 m c (Proc.devRef .tc main_arg9) by rhost_keep).trans (rd_arg9_2 m c)
theorem rd_arg9_4 : U4 m c (Proc.devRef .tc main_arg9) = U0 m c (Proc.devRef .tc main_arg9) := (show U4 m c (Proc.devRef .tc main_arg9) = U3 m c (Proc.devRef .tc main_arg9) by rhost_keep).trans (rd_arg9_3 m c)
theorem rd_arg9_5 : U5 m c (Proc.devRef .tc main_arg9) = U0 m c (Proc.devRef .tc main_arg9) := (show U5 m c (Proc.devRef .tc main_arg9) = U4 m c (Proc.devRef .tc main_arg9) by rhost_keep).trans (rd_arg9_4 m c)
theorem rd_arg9_6 : U6 m c (Proc.devRef .tc main_arg9) = U0 m c (Proc.devRef .tc main_arg9) := (show U6 m c (Proc.devRef .tc main_arg9) = U5 m c (Proc.devRef .tc main_arg9) by rhost_keep).trans (rd_arg9_5 m c)
theorem rd_arg9_7 : U7 m c (Proc.devRef .tc main_arg9) = U0 m c (Proc.devRef .tc main_arg9) := (show U7 m c (Proc.devRef .tc main_arg9) = U6 m c (Proc.devRef .tc main_arg9) by rhost_keep).trans (rd_arg9_6 m c)
theorem rd_arg9_8 : U8 m c (Proc.devRef .tc main_arg9) = U0 m c (Proc.devRef .tc main_arg9) := (show U8 m c (Proc.devRef .tc main_arg9) = U7 m c (Proc.devRef .tc main_arg9) by rhost_keep).trans (rd_arg9_7 m c)
theorem rd_arg9_9 : U9 m c (Proc.devRef .tc main_arg9) = U0 m c (Proc.devRef .tc main_arg9) := (show U9 m c (Proc.devRef .tc main_arg9) = U8 m c (Proc.devRef .tc main_arg9) by rhost_keep).trans (rd_arg9_8 m c)
theorem rd_arg9_10 : U10 m c (Proc.devRef .tc main_arg9) = U0 m c (Proc.devRef .tc main_arg9) := (show U10 m c (Proc.devRef .tc main_arg9) = U9 m c (Proc.devRef .tc main_arg9) by rhost_keep).trans (rd_arg9_9 m c)
theorem rd_arg9_11 : U11 m c (Proc.devRef .tc main_arg9) = U0 m c (Proc.devRef .tc main_arg9) := (show U11 m c (Proc.devRef .tc main_arg9) = U10 m c (Proc.devRef .tc main_arg9) by rhost_keep).trans (rd_arg9_10 m c)
theorem rd_arg9_12 : U12 m c (Proc.devRef .tc main_arg9) = U0 m c (Proc.devRef .tc main_arg9) := (show U12 m c (Proc.devRef .tc main_arg9) = U11 m c (Proc.devRef .tc main_arg9) by rhost_keep).trans (rd_arg9_11 m c)
theorem rd_arg9_13 : U13 m c (Proc.devRef .tc main_arg9) = U0 m c (Proc.devRef .tc main_arg9) := (show U13 m c (Proc.devRef .tc main_arg9) = U12 m c (Proc.devRef .tc main_arg9) by rhost_keep).trans (rd_arg9_12 m c)
theorem rd_arg9_14 : U14 m c (Proc.devRef .tc main_arg9) = U0 m c (Proc.devRef .tc main_arg9) := (show U14 m c (Proc.devRef .tc main_arg9) = U13 m c (Proc.devRef .tc main_arg9) by rhost_keep).trans (rd_arg9_13 m c)
theorem rd_arg10_1 : U1 m c (Proc.devRef .tc main_arg10) = U0 m c (Proc.devRef .tc main_arg10) := (show U1 m c (Proc.devRef .tc main_arg10) = U0 m c (Proc.devRef .tc main_arg10) by rhost_keep)
theorem rd_arg10_2 : U2 m c (Proc.devRef .tc main_arg10) = U0 m c (Proc.devRef .tc main_arg10) := (show U2 m c (Proc.devRef .tc main_arg10) = U1 m c (Proc.devRef .tc main_arg10) by rhost_keep).trans (rd_arg10_1 m c)
theorem rd_arg10_3 : U3 m c (Proc.devRef .tc main_arg10) = U0 m c (Proc.devRef .tc main_arg10) := (show U3 m c (Proc.devRef .tc main_arg10) = U2 m c (Proc.devRef .tc main_arg10) by rhost_keep).trans (rd_arg10_2 m c)
theorem rd_arg10_4 : U4 m c (Proc.devRef .tc main_arg10) = U0 m c (Proc.devRef .tc main_arg10) := (show U4 m c (Proc.devRef .tc main_arg10) = U3 m c (Proc.devRef .tc main_arg10) by rhost_keep).trans (rd_arg10_3 m c)
theorem rd_arg10_5 : U5 m c (Proc.devRef .tc main_arg10) = U0 m c (Proc.devRef .tc main_arg10) := (show U5 m c (Proc.devRef .tc main_arg10) = U4 m c (Proc.devRef .tc main_arg10) by rhost_keep).trans (rd_arg10_4 m c)
theorem rd_arg10_6 : U6 m c (Proc.devRef .tc main_arg10) = U0 m c (Proc.devRef .tc main_arg10) := (show U6 m c (Proc.devRef .tc main_arg10) = U5 m c (Proc.devRef .tc main_arg10) by rhost_keep).trans (rd_arg10_5 m c)
theorem rd_arg10_7 : U7 m c (Proc.devRef .tc main_arg10) = U0 m c (Proc.devRef .tc main_arg10) := (show U7 m c (Proc.devRef .tc main_arg10) = U6 m c (Proc.devRef .tc main_arg10) by rhost_keep).trans (rd_arg10_6 m c)
theorem rd_arg10_8 : U8 m c (Proc.devRef .tc main_arg10) = U0 m c (Proc.devRef .tc main_arg10) := (show U8 m c (Proc.devRef .tc main_arg10) = U7 m c (Proc.devRef .tc main_arg10) by rhost_keep).trans (rd_arg10_7 m c)
theorem rd_arg10_9 : U9 m c (Proc.devRef .tc main_arg10) = U0 m c (Proc.devRef .tc main_arg10) := (show U9 m c (Proc.devRef .tc main_arg10) = U8 m c (Proc.devRef .tc main_arg10) by rhost_keep).trans (rd_arg10_8 m c)
theorem rd_arg10_10 : U10 m c (Proc.devRef .tc main_arg10) = U0 m c (Proc.devRef .tc main_arg10) := (show U10 m c (Proc.devRef .tc main_arg10) = U9 m c (Proc.devRef .tc main_arg10) by rhost_keep).trans (rd_arg10_9 m c)
theorem rd_arg10_11 : U11 m c (Proc.devRef .tc main_arg10) = U0 m c (Proc.devRef .tc main_arg10) := (show U11 m c (Proc.devRef .tc main_arg10) = U10 m c (Proc.devRef .tc main_arg10) by rhost_keep).trans (rd_arg10_10 m c)
theorem rd_arg10_12 : U12 m c (Proc.devRef .tc main_arg10) = U0 m c (Proc.devRef .tc main_arg10) := (show U12 m c (Proc.devRef .tc main_arg10) = U11 m c (Proc.devRef .tc main_arg10) by rhost_keep).trans (rd_arg10_11 m c)
theorem rd_arg10_13 : U13 m c (Proc.devRef .tc main_arg10) = U0 m c (Proc.devRef .tc main_arg10) := (show U13 m c (Proc.devRef .tc main_arg10) = U12 m c (Proc.devRef .tc main_arg10) by rhost_keep).trans (rd_arg10_12 m c)
theorem rd_arg10_14 : U14 m c (Proc.devRef .tc main_arg10) = U0 m c (Proc.devRef .tc main_arg10) := (show U14 m c (Proc.devRef .tc main_arg10) = U13 m c (Proc.devRef .tc main_arg10) by rhost_keep).trans (rd_arg10_13 m c)
theorem rd_arg11_1 : U1 m c (Proc.devRef .tc main_arg11) = U0 m c (Proc.devRef .tc main_arg11) := (show U1 m c (Proc.devRef .tc main_arg11) = U0 m c (Proc.devRef .tc main_arg11) by rhost_keep)
theorem rd_arg11_2 : U2 m c (Proc.devRef .tc main_arg11) = U0 m c (Proc.devRef .tc main_arg11) := (show U2 m c (Proc.devRef .tc main_arg11) = U1 m c (Proc.devRef .tc main_arg11) by rhost_keep).trans (rd_arg11_1 m c)
theorem rd_arg11_3 : U3 m c (Proc.devRef .tc main_arg11) = U0 m c (Proc.devRef .tc main_arg11) := (show U3 m c (Proc.devRef .tc main_arg11) = U2 m c (Proc.devRef .tc main_arg11) by rhost_keep).trans (rd_arg11_2 m c)
theorem rd_arg11_4 : U4 m c (Proc.devRef .tc main_arg11) = U0 m c (Proc.devRef .tc main_arg11) := (show U4 m c (Proc.devRef .tc main_arg11) = U3 m c (Proc.devRef .tc main_arg11) by rhost_keep).trans (rd_arg11_3 m c)
theorem rd_arg11_5 : U5 m c (Proc.devRef .tc main_arg11) = U0 m c (Proc.devRef .tc main_arg11) := (show U5 m c (Proc.devRef .tc main_arg11) = U4 m c (Proc.devRef .tc main_arg11) by rhost_keep).trans (rd_arg11_4 m c)
theorem rd_arg11_6 : U6 m c (Proc.devRef .tc main_arg11) = U0 m c (Proc.devRef .tc main_arg11) := (show U6 m c (Proc.devRef .tc main_arg11) = U5 m c (Proc.devRef .tc main_arg11) by rhost_keep).trans (rd_arg11_5 m c)
theorem rd_arg11_7 : U7 m c (Proc.devRef .tc main_arg11) = U0 m c (Proc.devRef .tc main_arg11) := (show U7 m c (Proc.devRef .tc main_arg11) = U6 m c (Proc.devRef .tc main_arg11) by rhost_keep).trans (rd_arg11_6 m c)
theorem rd_arg11_8 : U8 m c (Proc.devRef .tc main_arg11) = U0 m c (Proc.devRef .tc main_arg11) := (show U8 m c (Proc.devRef .tc main_arg11) = U7 m c (Proc.devRef .tc main_arg11) by rhost_keep).trans (rd_arg11_7 m c)
theorem rd_arg11_9 : U9 m c (Proc.devRef .tc main_arg11) = U0 m c (Proc.devRef .tc main_arg11) := (show U9 m c (Proc.devRef .tc main_arg11) = U8 m c (Proc.devRef .tc main_arg11) by rhost_keep).trans (rd_arg11_8 m c)
theorem rd_arg11_10 : U10 m c (Proc.devRef .tc main_arg11) = U0 m c (Proc.devRef .tc main_arg11) := (show U10 m c (Proc.devRef .tc main_arg11) = U9 m c (Proc.devRef .tc main_arg11) by rhost_keep).trans (rd_arg11_9 m c)
theorem rd_arg11_11 : U11 m c (Proc.devRef .tc main_arg11) = U0 m c (Proc.devRef .tc main_arg11) := (show U11 m c (Proc.devRef .tc main_arg11) = U10 m c (Proc.devRef .tc main_arg11) by rhost_keep).trans (rd_arg11_10 m c)
theorem rd_arg11_12 : U12 m c (Proc.devRef .tc main_arg11) = U0 m c (Proc.devRef .tc main_arg11) := (show U12 m c (Proc.devRef .tc main_arg11) = U11 m c (Proc.devRef .tc main_arg11) by rhost_keep).trans (rd_arg11_11 m c)
theorem rd_arg11_13 : U13 m c (Proc.devRef .tc main_arg11) = U0 m c (Proc.devRef .tc main_arg11) := (show U13 m c (Proc.devRef .tc main_arg11) = U12 m c (Proc.devRef .tc main_arg11) by rhost_keep).trans (rd_arg11_12 m c)
theorem rd_arg11_14 : U14 m c (Proc.devRef .tc main_arg11) = U0 m c (Proc.devRef .tc main_arg11) := (show U14 m c (Proc.devRef .tc main_arg11) = U13 m c (Proc.devRef .tc main_arg11) by rhost_keep).trans (rd_arg11_13 m c)
theorem rd_arg12_1 : U1 m c (Proc.devRef .tc main_arg12) = U0 m c (Proc.devRef .tc main_arg12) := (show U1 m c (Proc.devRef .tc main_arg12) = U0 m c (Proc.devRef .tc main_arg12) by rhost_keep)
theorem rd_arg12_2 : U2 m c (Proc.devRef .tc main_arg12) = U0 m c (Proc.devRef .tc main_arg12) := (show U2 m c (Proc.devRef .tc main_arg12) = U1 m c (Proc.devRef .tc main_arg12) by rhost_keep).trans (rd_arg12_1 m c)
theorem rd_arg12_3 : U3 m c (Proc.devRef .tc main_arg12) = U0 m c (Proc.devRef .tc main_arg12) := (show U3 m c (Proc.devRef .tc main_arg12) = U2 m c (Proc.devRef .tc main_arg12) by rhost_keep).trans (rd_arg12_2 m c)
theorem rd_arg12_4 : U4 m c (Proc.devRef .tc main_arg12) = U0 m c (Proc.devRef .tc main_arg12) := (show U4 m c (Proc.devRef .tc main_arg12) = U3 m c (Proc.devRef .tc main_arg12) by rhost_keep).trans (rd_arg12_3 m c)
theorem rd_arg12_5 : U5 m c (Proc.devRef .tc main_arg12) = U0 m c (Proc.devRef .tc main_arg12) := (show U5 m c (Proc.devRef .tc main_arg12) = U4 m c (Proc.devRef .tc main_arg12) by rhost_keep).trans (rd_arg12_4 m c)
theorem rd_arg12_6 : U6 m c (Proc.devRef .tc main_arg12) = U0 m c (Proc.devRef .tc main_arg12) := (show U6 m c (Proc.devRef .tc main_arg12) = U5 m c (Proc.devRef .tc main_arg12) by rhost_keep).trans (rd_arg12_5 m c)
theorem rd_arg12_7 : U7 m c (Proc.devRef .tc main_arg12) = U0 m c (Proc.devRef .tc main_arg12) := (show U7 m c (Proc.devRef .tc main_arg12) = U6 m c (Proc.devRef .tc main_arg12) by rhost_keep).trans (rd_arg12_6 m c)
theorem rd_arg12_8 : U8 m c (Proc.devRef .tc main_arg12) = U0 m c (Proc.devRef .tc main_arg12) := (show U8 m c (Proc.devRef .tc main_arg12) = U7 m c (Proc.devRef .tc main_arg12) by rhost_keep).trans (rd_arg12_7 m c)
theorem rd_arg12_9 : U9 m c (Proc.devRef .tc main_arg12) = U0 m c (Proc.devRef .tc main_arg12) := (show U9 m c (Proc.devRef .tc main_arg12) = U8 m c (Proc.devRef .tc main_arg12) by rhost_keep).trans (rd_arg12_8 m c)
theorem rd_arg12_10 : U10 m c (Proc.devRef .tc main_arg12) = U0 m c (Proc.devRef .tc main_arg12) := (show U10 m c (Proc.devRef .tc main_arg12) = U9 m c (Proc.devRef .tc main_arg12) by rhost_keep).trans (rd_arg12_9 m c)
theorem rd_arg12_11 : U11 m c (Proc.devRef .tc main_arg12) = U0 m c (Proc.devRef .tc main_arg12) := (show U11 m c (Proc.devRef .tc main_arg12) = U10 m c (Proc.devRef .tc main_arg12) by rhost_keep).trans (rd_arg12_10 m c)
theorem rd_arg12_12 : U12 m c (Proc.devRef .tc main_arg12) = U0 m c (Proc.devRef .tc main_arg12) := (show U12 m c (Proc.devRef .tc main_arg12) = U11 m c (Proc.devRef .tc main_arg12) by rhost_keep).trans (rd_arg12_11 m c)
theorem rd_arg12_13 : U13 m c (Proc.devRef .tc main_arg12) = U0 m c (Proc.devRef .tc main_arg12) := (show U13 m c (Proc.devRef .tc main_arg12) = U12 m c (Proc.devRef .tc main_arg12) by rhost_keep).trans (rd_arg12_12 m c)
theorem rd_arg12_14 : U14 m c (Proc.devRef .tc main_arg12) = U0 m c (Proc.devRef .tc main_arg12) := (show U14 m c (Proc.devRef .tc main_arg12) = U13 m c (Proc.devRef .tc main_arg12) by rhost_keep).trans (rd_arg12_13 m c)
theorem rd_arg2_1 : U1 m c (Proc.devRef .tc main_arg2) = U0 m c (Proc.devRef .tc main_arg2) := (show U1 m c (Proc.devRef .tc main_arg2) = U0 m c (Proc.devRef .tc main_arg2) by rhost_keep)
theorem rd_arg2_2 : U2 m c (Proc.devRef .tc main_arg2) = U0 m c (Proc.devRef .tc main_arg2) := (show U2 m c (Proc.devRef .tc main_arg2) = U1 m c (Proc.devRef .tc main_arg2) by rhost_keep).trans (rd_arg2_1 m c)
theorem rd_arg2_3 : U3 m c (Proc.devRef .tc main_arg2) = U0 m c (Proc.devRef .tc main_arg2) := (show U3 m c (Proc.devRef .tc main_arg2) = U2 m c (Proc.devRef .tc main_arg2) by rhost_keep).trans (rd_arg2_2 m c)
theorem rd_arg2_4 : U4 m c (Proc.devRef .tc main_arg2) = U0 m c (Proc.devRef .tc main_arg2) := (show U4 m c (Proc.devRef .tc main_arg2) = U3 m c (Proc.devRef .tc main_arg2) by rhost_keep).trans (rd_arg2_3 m c)
theorem rd_arg2_5 : U5 m c (Proc.devRef .tc main_arg2) = U0 m c (Proc.devRef .tc main_arg2) := (show U5 m c (Proc.devRef .tc main_arg2) = U4 m c (Proc.devRef .tc main_arg2) by rhost_keep).trans (rd_arg2_4 m c)
theorem rd_arg2_6 : U6 m c (Proc.devRef .tc main_arg2) = U0 m c (Proc.devRef .tc main_arg2) := (show U6 m c (Proc.devRef .tc main_arg2) = U5 m c (Proc.devRef .tc main_arg2) by rhost_keep).trans (rd_arg2_5 m c)
theorem rd_arg2_7 : U7 m c (Proc.devRef .tc main_arg2) = U0 m c (Proc.devRef .tc main_arg2) := (show U7 m c (Proc.devRef .tc main_arg2) = U6 m c (Proc.devRef .tc main_arg2) by rhost_keep).trans (rd_arg2_6 m c)
theorem rd_arg2_8 : U8 m c (Proc.devRef .tc main_arg2) = U0 m c (Proc.devRef .tc main_arg2) := (show U8 m c (Proc.devRef .tc main_arg2) = U7 m c (Proc.devRef .tc main_arg2) by rhost_keep).trans (rd_arg2_7 m c)
theorem rd_arg2_9 : U9 m c (Proc.devRef .tc main_arg2) = U0 m c (Proc.devRef .tc main_arg2) := (show U9 m c (Proc.devRef .tc main_arg2) = U8 m c (Proc.devRef .tc main_arg2) by rhost_keep).trans (rd_arg2_8 m c)
theorem rd_arg2_10 : U10 m c (Proc.devRef .tc main_arg2) = U0 m c (Proc.devRef .tc main_arg2) := (show U10 m c (Proc.devRef .tc main_arg2) = U9 m c (Proc.devRef .tc main_arg2) by rhost_keep).trans (rd_arg2_9 m c)
theorem rd_arg2_11 : U11 m c (Proc.devRef .tc main_arg2) = U0 m c (Proc.devRef .tc main_arg2) := (show U11 m c (Proc.devRef .tc main_arg2) = U10 m c (Proc.devRef .tc main_arg2) by rhost_keep).trans (rd_arg2_10 m c)
theorem rd_arg2_12 : U12 m c (Proc.devRef .tc main_arg2) = U0 m c (Proc.devRef .tc main_arg2) := (show U12 m c (Proc.devRef .tc main_arg2) = U11 m c (Proc.devRef .tc main_arg2) by rhost_keep).trans (rd_arg2_11 m c)
theorem rd_arg2_13 : U13 m c (Proc.devRef .tc main_arg2) = U0 m c (Proc.devRef .tc main_arg2) := (show U13 m c (Proc.devRef .tc main_arg2) = U12 m c (Proc.devRef .tc main_arg2) by rhost_keep).trans (rd_arg2_12 m c)
theorem rd_arg2_14 : U14 m c (Proc.devRef .tc main_arg2) = U0 m c (Proc.devRef .tc main_arg2) := (show U14 m c (Proc.devRef .tc main_arg2) = U13 m c (Proc.devRef .tc main_arg2) by rhost_keep).trans (rd_arg2_13 m c)
theorem rd_arg2_15 : U15 m c (Proc.devRef .tc main_arg2) = U0 m c (Proc.devRef .tc main_arg2) := (show U15 m c (Proc.devRef .tc main_arg2) = U14 m c (Proc.devRef .tc main_arg2) by rhost_keep).trans (rd_arg2_14 m c)
theorem rd_arg13_1 : U1 m c (Proc.devRef .tc main_arg13) = U0 m c (Proc.devRef .tc main_arg13) := (show U1 m c (Proc.devRef .tc main_arg13) = U0 m c (Proc.devRef .tc main_arg13) by rhost_keep)
theorem rd_arg13_2 : U2 m c (Proc.devRef .tc main_arg13) = U0 m c (Proc.devRef .tc main_arg13) := (show U2 m c (Proc.devRef .tc main_arg13) = U1 m c (Proc.devRef .tc main_arg13) by rhost_keep).trans (rd_arg13_1 m c)
theorem rd_arg13_3 : U3 m c (Proc.devRef .tc main_arg13) = U0 m c (Proc.devRef .tc main_arg13) := (show U3 m c (Proc.devRef .tc main_arg13) = U2 m c (Proc.devRef .tc main_arg13) by rhost_keep).trans (rd_arg13_2 m c)
theorem rd_arg13_4 : U4 m c (Proc.devRef .tc main_arg13) = U0 m c (Proc.devRef .tc main_arg13) := (show U4 m c (Proc.devRef .tc main_arg13) = U3 m c (Proc.devRef .tc main_arg13) by rhost_keep).trans (rd_arg13_3 m c)
theorem rd_arg13_5 : U5 m c (Proc.devRef .tc main_arg13) = U0 m c (Proc.devRef .tc main_arg13) := (show U5 m c (Proc.devRef .tc main_arg13) = U4 m c (Proc.devRef .tc main_arg13) by rhost_keep).trans (rd_arg13_4 m c)
theorem rd_arg13_6 : U6 m c (Proc.devRef .tc main_arg13) = U0 m c (Proc.devRef .tc main_arg13) := (show U6 m c (Proc.devRef .tc main_arg13) = U5 m c (Proc.devRef .tc main_arg13) by rhost_keep).trans (rd_arg13_5 m c)
theorem rd_arg13_7 : U7 m c (Proc.devRef .tc main_arg13) = U0 m c (Proc.devRef .tc main_arg13) := (show U7 m c (Proc.devRef .tc main_arg13) = U6 m c (Proc.devRef .tc main_arg13) by rhost_keep).trans (rd_arg13_6 m c)
theorem rd_arg13_8 : U8 m c (Proc.devRef .tc main_arg13) = U0 m c (Proc.devRef .tc main_arg13) := (show U8 m c (Proc.devRef .tc main_arg13) = U7 m c (Proc.devRef .tc main_arg13) by rhost_keep).trans (rd_arg13_7 m c)
theorem rd_arg13_9 : U9 m c (Proc.devRef .tc main_arg13) = U0 m c (Proc.devRef .tc main_arg13) := (show U9 m c (Proc.devRef .tc main_arg13) = U8 m c (Proc.devRef .tc main_arg13) by rhost_keep).trans (rd_arg13_8 m c)
theorem rd_arg13_10 : U10 m c (Proc.devRef .tc main_arg13) = U0 m c (Proc.devRef .tc main_arg13) := (show U10 m c (Proc.devRef .tc main_arg13) = U9 m c (Proc.devRef .tc main_arg13) by rhost_keep).trans (rd_arg13_9 m c)
theorem rd_arg13_11 : U11 m c (Proc.devRef .tc main_arg13) = U0 m c (Proc.devRef .tc main_arg13) := (show U11 m c (Proc.devRef .tc main_arg13) = U10 m c (Proc.devRef .tc main_arg13) by rhost_keep).trans (rd_arg13_10 m c)
theorem rd_arg13_12 : U12 m c (Proc.devRef .tc main_arg13) = U0 m c (Proc.devRef .tc main_arg13) := (show U12 m c (Proc.devRef .tc main_arg13) = U11 m c (Proc.devRef .tc main_arg13) by rhost_keep).trans (rd_arg13_11 m c)
theorem rd_arg13_13 : U13 m c (Proc.devRef .tc main_arg13) = U0 m c (Proc.devRef .tc main_arg13) := (show U13 m c (Proc.devRef .tc main_arg13) = U12 m c (Proc.devRef .tc main_arg13) by rhost_keep).trans (rd_arg13_12 m c)
theorem rd_arg13_14 : U14 m c (Proc.devRef .tc main_arg13) = U0 m c (Proc.devRef .tc main_arg13) := (show U14 m c (Proc.devRef .tc main_arg13) = U13 m c (Proc.devRef .tc main_arg13) by rhost_keep).trans (rd_arg13_13 m c)
theorem rd_arg13_15 : U15 m c (Proc.devRef .tc main_arg13) = U0 m c (Proc.devRef .tc main_arg13) := (show U15 m c (Proc.devRef .tc main_arg13) = U14 m c (Proc.devRef .tc main_arg13) by rhost_keep).trans (rd_arg13_14 m c)
theorem rd_arg13_16 : U16 m c (Proc.devRef .tc main_arg13) = U0 m c (Proc.devRef .tc main_arg13) := (show U16 m c (Proc.devRef .tc main_arg13) = U15 m c (Proc.devRef .tc main_arg13) by rhost_keep).trans (rd_arg13_15 m c)
theorem rd_arg14_1 : U1 m c (Proc.devRef .tc main_arg14) = U0 m c (Proc.devRef .tc main_arg14) := (show U1 m c (Proc.devRef .tc main_arg14) = U0 m c (Proc.devRef .tc main_arg14) by rhost_keep)
theorem rd_arg14_2 : U2 m c (Proc.devRef .tc main_arg14) = U0 m c (Proc.devRef .tc main_arg14) := (show U2 m c (Proc.devRef .tc main_arg14) = U1 m c (Proc.devRef .tc main_arg14) by rhost_keep).trans (rd_arg14_1 m c)
theorem rd_arg14_3 : U3 m c (Proc.devRef .tc main_arg14) = U0 m c (Proc.devRef .tc main_arg14) := (show U3 m c (Proc.devRef .tc main_arg14) = U2 m c (Proc.devRef .tc main_arg14) by rhost_keep).trans (rd_arg14_2 m c)
theorem rd_arg14_4 : U4 m c (Proc.devRef .tc main_arg14) = U0 m c (Proc.devRef .tc main_arg14) := (show U4 m c (Proc.devRef .tc main_arg14) = U3 m c (Proc.devRef .tc main_arg14) by rhost_keep).trans (rd_arg14_3 m c)
theorem rd_arg14_5 : U5 m c (Proc.devRef .tc main_arg14) = U0 m c (Proc.devRef .tc main_arg14) := (show U5 m c (Proc.devRef .tc main_arg14) = U4 m c (Proc.devRef .tc main_arg14) by rhost_keep).trans (rd_arg14_4 m c)
theorem rd_arg14_6 : U6 m c (Proc.devRef .tc main_arg14) = U0 m c (Proc.devRef .tc main_arg14) := (show U6 m c (Proc.devRef .tc main_arg14) = U5 m c (Proc.devRef .tc main_arg14) by rhost_keep).trans (rd_arg14_5 m c)
theorem rd_arg14_7 : U7 m c (Proc.devRef .tc main_arg14) = U0 m c (Proc.devRef .tc main_arg14) := (show U7 m c (Proc.devRef .tc main_arg14) = U6 m c (Proc.devRef .tc main_arg14) by rhost_keep).trans (rd_arg14_6 m c)
theorem rd_arg14_8 : U8 m c (Proc.devRef .tc main_arg14) = U0 m c (Proc.devRef .tc main_arg14) := (show U8 m c (Proc.devRef .tc main_arg14) = U7 m c (Proc.devRef .tc main_arg14) by rhost_keep).trans (rd_arg14_7 m c)
theorem rd_arg14_9 : U9 m c (Proc.devRef .tc main_arg14) = U0 m c (Proc.devRef .tc main_arg14) := (show U9 m c (Proc.devRef .tc main_arg14) = U8 m c (Proc.devRef .tc main_arg14) by rhost_keep).trans (rd_arg14_8 m c)
theorem rd_arg14_10 : U10 m c (Proc.devRef .tc main_arg14) = U0 m c (Proc.devRef .tc main_arg14) := (show U10 m c (Proc.devRef .tc main_arg14) = U9 m c (Proc.devRef .tc main_arg14) by rhost_keep).trans (rd_arg14_9 m c)
theorem rd_arg14_11 : U11 m c (Proc.devRef .tc main_arg14) = U0 m c (Proc.devRef .tc main_arg14) := (show U11 m c (Proc.devRef .tc main_arg14) = U10 m c (Proc.devRef .tc main_arg14) by rhost_keep).trans (rd_arg14_10 m c)
theorem rd_arg14_12 : U12 m c (Proc.devRef .tc main_arg14) = U0 m c (Proc.devRef .tc main_arg14) := (show U12 m c (Proc.devRef .tc main_arg14) = U11 m c (Proc.devRef .tc main_arg14) by rhost_keep).trans (rd_arg14_11 m c)
theorem rd_arg14_13 : U13 m c (Proc.devRef .tc main_arg14) = U0 m c (Proc.devRef .tc main_arg14) := (show U13 m c (Proc.devRef .tc main_arg14) = U12 m c (Proc.devRef .tc main_arg14) by rhost_keep).trans (rd_arg14_12 m c)
theorem rd_arg14_14 : U14 m c (Proc.devRef .tc main_arg14) = U0 m c (Proc.devRef .tc main_arg14) := (show U14 m c (Proc.devRef .tc main_arg14) = U13 m c (Proc.devRef .tc main_arg14) by rhost_keep).trans (rd_arg14_13 m c)
theorem rd_arg14_15 : U15 m c (Proc.devRef .tc main_arg14) = U0 m c (Proc.devRef .tc main_arg14) := (show U15 m c (Proc.devRef .tc main_arg14) = U14 m c (Proc.devRef .tc main_arg14) by rhost_keep).trans (rd_arg14_14 m c)
theorem rd_arg14_16 : U16 m c (Proc.devRef .tc main_arg14) = U0 m c (Proc.devRef .tc main_arg14) := (show U16 m c (Proc.devRef .tc main_arg14) = U15 m c (Proc.devRef .tc main_arg14) by rhost_keep).trans (rd_arg14_15 m c)
theorem rd_arg15_1 : U1 m c (Proc.devRef .tc main_arg15) = U0 m c (Proc.devRef .tc main_arg15) := (show U1 m c (Proc.devRef .tc main_arg15) = U0 m c (Proc.devRef .tc main_arg15) by rhost_keep)
theorem rd_arg15_2 : U2 m c (Proc.devRef .tc main_arg15) = U0 m c (Proc.devRef .tc main_arg15) := (show U2 m c (Proc.devRef .tc main_arg15) = U1 m c (Proc.devRef .tc main_arg15) by rhost_keep).trans (rd_arg15_1 m c)
theorem rd_arg15_3 : U3 m c (Proc.devRef .tc main_arg15) = U0 m c (Proc.devRef .tc main_arg15) := (show U3 m c (Proc.devRef .tc main_arg15) = U2 m c (Proc.devRef .tc main_arg15) by rhost_keep).trans (rd_arg15_2 m c)
theorem rd_arg15_4 : U4 m c (Proc.devRef .tc main_arg15) = U0 m c (Proc.devRef .tc main_arg15) := (show U4 m c (Proc.devRef .tc main_arg15) = U3 m c (Proc.devRef .tc main_arg15) by rhost_keep).trans (rd_arg15_3 m c)
theorem rd_arg15_5 : U5 m c (Proc.devRef .tc main_arg15) = U0 m c (Proc.devRef .tc main_arg15) := (show U5 m c (Proc.devRef .tc main_arg15) = U4 m c (Proc.devRef .tc main_arg15) by rhost_keep).trans (rd_arg15_4 m c)
theorem rd_arg15_6 : U6 m c (Proc.devRef .tc main_arg15) = U0 m c (Proc.devRef .tc main_arg15) := (show U6 m c (Proc.devRef .tc main_arg15) = U5 m c (Proc.devRef .tc main_arg15) by rhost_keep).trans (rd_arg15_5 m c)
theorem rd_arg15_7 : U7 m c (Proc.devRef .tc main_arg15) = U0 m c (Proc.devRef .tc main_arg15) := (show U7 m c (Proc.devRef .tc main_arg15) = U6 m c (Proc.devRef .tc main_arg15) by rhost_keep).trans (rd_arg15_6 m c)
theorem rd_arg15_8 : U8 m c (Proc.devRef .tc main_arg15) = U0 m c (Proc.devRef .tc main_arg15) := (show U8 m c (Proc.devRef .tc main_arg15) = U7 m c (Proc.devRef .tc main_arg15) by rhost_keep).trans (rd_arg15_7 m c)
theorem rd_arg15_9 : U9 m c (Proc.devRef .tc main_arg15) = U0 m c (Proc.devRef .tc main_arg15) := (show U9 m c (Proc.devRef .tc main_arg15) = U8 m c (Proc.devRef .tc main_arg15) by rhost_keep).trans (rd_arg15_8 m c)
theorem rd_arg15_10 : U10 m c (Proc.devRef .tc main_arg15) = U0 m c (Proc.devRef .tc main_arg15) := (show U10 m c (Proc.devRef .tc main_arg15) = U9 m c (Proc.devRef .tc main_arg15) by rhost_keep).trans (rd_arg15_9 m c)
theorem rd_arg15_11 : U11 m c (Proc.devRef .tc main_arg15) = U0 m c (Proc.devRef .tc main_arg15) := (show U11 m c (Proc.devRef .tc main_arg15) = U10 m c (Proc.devRef .tc main_arg15) by rhost_keep).trans (rd_arg15_10 m c)
theorem rd_arg15_12 : U12 m c (Proc.devRef .tc main_arg15) = U0 m c (Proc.devRef .tc main_arg15) := (show U12 m c (Proc.devRef .tc main_arg15) = U11 m c (Proc.devRef .tc main_arg15) by rhost_keep).trans (rd_arg15_11 m c)
theorem rd_arg15_13 : U13 m c (Proc.devRef .tc main_arg15) = U0 m c (Proc.devRef .tc main_arg15) := (show U13 m c (Proc.devRef .tc main_arg15) = U12 m c (Proc.devRef .tc main_arg15) by rhost_keep).trans (rd_arg15_12 m c)
theorem rd_arg15_14 : U14 m c (Proc.devRef .tc main_arg15) = U0 m c (Proc.devRef .tc main_arg15) := (show U14 m c (Proc.devRef .tc main_arg15) = U13 m c (Proc.devRef .tc main_arg15) by rhost_keep).trans (rd_arg15_13 m c)
theorem rd_arg15_15 : U15 m c (Proc.devRef .tc main_arg15) = U0 m c (Proc.devRef .tc main_arg15) := (show U15 m c (Proc.devRef .tc main_arg15) = U14 m c (Proc.devRef .tc main_arg15) by rhost_keep).trans (rd_arg15_14 m c)
theorem rd_arg15_16 : U16 m c (Proc.devRef .tc main_arg15) = U0 m c (Proc.devRef .tc main_arg15) := (show U16 m c (Proc.devRef .tc main_arg15) = U15 m c (Proc.devRef .tc main_arg15) by rhost_keep).trans (rd_arg15_15 m c)
theorem rd_arg16_1 : U1 m c (Proc.devRef .tc main_arg16) = U0 m c (Proc.devRef .tc main_arg16) := (show U1 m c (Proc.devRef .tc main_arg16) = U0 m c (Proc.devRef .tc main_arg16) by rhost_keep)
theorem rd_arg16_2 : U2 m c (Proc.devRef .tc main_arg16) = U0 m c (Proc.devRef .tc main_arg16) := (show U2 m c (Proc.devRef .tc main_arg16) = U1 m c (Proc.devRef .tc main_arg16) by rhost_keep).trans (rd_arg16_1 m c)
theorem rd_arg16_3 : U3 m c (Proc.devRef .tc main_arg16) = U0 m c (Proc.devRef .tc main_arg16) := (show U3 m c (Proc.devRef .tc main_arg16) = U2 m c (Proc.devRef .tc main_arg16) by rhost_keep).trans (rd_arg16_2 m c)
theorem rd_arg16_4 : U4 m c (Proc.devRef .tc main_arg16) = U0 m c (Proc.devRef .tc main_arg16) := (show U4 m c (Proc.devRef .tc main_arg16) = U3 m c (Proc.devRef .tc main_arg16) by rhost_keep).trans (rd_arg16_3 m c)
theorem rd_arg16_5 : U5 m c (Proc.devRef .tc main_arg16) = U0 m c (Proc.devRef .tc main_arg16) := (show U5 m c (Proc.devRef .tc main_arg16) = U4 m c (Proc.devRef .tc main_arg16) by rhost_keep).trans (rd_arg16_4 m c)
theorem rd_arg16_6 : U6 m c (Proc.devRef .tc main_arg16) = U0 m c (Proc.devRef .tc main_arg16) := (show U6 m c (Proc.devRef .tc main_arg16) = U5 m c (Proc.devRef .tc main_arg16) by rhost_keep).trans (rd_arg16_5 m c)
theorem rd_arg16_7 : U7 m c (Proc.devRef .tc main_arg16) = U0 m c (Proc.devRef .tc main_arg16) := (show U7 m c (Proc.devRef .tc main_arg16) = U6 m c (Proc.devRef .tc main_arg16) by rhost_keep).trans (rd_arg16_6 m c)
theorem rd_arg16_8 : U8 m c (Proc.devRef .tc main_arg16) = U0 m c (Proc.devRef .tc main_arg16) := (show U8 m c (Proc.devRef .tc main_arg16) = U7 m c (Proc.devRef .tc main_arg16) by rhost_keep).trans (rd_arg16_7 m c)
theorem rd_arg16_9 : U9 m c (Proc.devRef .tc main_arg16) = U0 m c (Proc.devRef .tc main_arg16) := (show U9 m c (Proc.devRef .tc main_arg16) = U8 m c (Proc.devRef .tc main_arg16) by rhost_keep).trans (rd_arg16_8 m c)
theorem rd_arg16_10 : U10 m c (Proc.devRef .tc main_arg16) = U0 m c (Proc.devRef .tc main_arg16) := (show U10 m c (Proc.devRef .tc main_arg16) = U9 m c (Proc.devRef .tc main_arg16) by rhost_keep).trans (rd_arg16_9 m c)
theorem rd_arg16_11 : U11 m c (Proc.devRef .tc main_arg16) = U0 m c (Proc.devRef .tc main_arg16) := (show U11 m c (Proc.devRef .tc main_arg16) = U10 m c (Proc.devRef .tc main_arg16) by rhost_keep).trans (rd_arg16_10 m c)
theorem rd_arg16_12 : U12 m c (Proc.devRef .tc main_arg16) = U0 m c (Proc.devRef .tc main_arg16) := (show U12 m c (Proc.devRef .tc main_arg16) = U11 m c (Proc.devRef .tc main_arg16) by rhost_keep).trans (rd_arg16_11 m c)
theorem rd_arg16_13 : U13 m c (Proc.devRef .tc main_arg16) = U0 m c (Proc.devRef .tc main_arg16) := (show U13 m c (Proc.devRef .tc main_arg16) = U12 m c (Proc.devRef .tc main_arg16) by rhost_keep).trans (rd_arg16_12 m c)
theorem rd_arg16_14 : U14 m c (Proc.devRef .tc main_arg16) = U0 m c (Proc.devRef .tc main_arg16) := (show U14 m c (Proc.devRef .tc main_arg16) = U13 m c (Proc.devRef .tc main_arg16) by rhost_keep).trans (rd_arg16_13 m c)
theorem rd_arg16_15 : U15 m c (Proc.devRef .tc main_arg16) = U0 m c (Proc.devRef .tc main_arg16) := (show U15 m c (Proc.devRef .tc main_arg16) = U14 m c (Proc.devRef .tc main_arg16) by rhost_keep).trans (rd_arg16_14 m c)
theorem rd_arg16_16 : U16 m c (Proc.devRef .tc main_arg16) = U0 m c (Proc.devRef .tc main_arg16) := (show U16 m c (Proc.devRef .tc main_arg16) = U15 m c (Proc.devRef .tc main_arg16) by rhost_keep).trans (rd_arg16_15 m c)

/-! ## The arguments, as launched, where the later stretches read them -/

theorem rarg0_at2 : U2 m c (Proc.devRef .tc main_arg0) = m ((c.tc : Thread nD τ).loc main_arg0) := rd_arg0_2 m c
theorem rarg3_at2 : U2 m c (Proc.devRef .tc main_arg3) = m ((c.tc : Thread nD τ).loc main_arg3) := rd_arg3_2 m c
theorem rarg3_at6 : U6 m c (Proc.devRef .tc main_arg3) = m ((c.tc : Thread nD τ).loc main_arg3) := rd_arg3_6 m c
theorem rarg3_at10 : U10 m c (Proc.devRef .tc main_arg3) = m ((c.tc : Thread nD τ).loc main_arg3) := rd_arg3_10 m c
theorem rarg4_at2 : U2 m c (Proc.devRef .tc main_arg4) = m ((c.tc : Thread nD τ).loc main_arg4) := rd_arg4_2 m c
theorem rarg4_at6 : U6 m c (Proc.devRef .tc main_arg4) = m ((c.tc : Thread nD τ).loc main_arg4) := rd_arg4_6 m c
theorem rarg4_at10 : U10 m c (Proc.devRef .tc main_arg4) = m ((c.tc : Thread nD τ).loc main_arg4) := rd_arg4_10 m c
theorem rarg5_at5 : U5 m c (Proc.devRef .tc main_arg5) = m ((c.tc : Thread nD τ).loc main_arg5) := rd_arg5_5 m c
theorem rarg5_at9 : U9 m c (Proc.devRef .tc main_arg5) = m ((c.tc : Thread nD τ).loc main_arg5) := rd_arg5_9 m c
theorem rarg5_at13 : U13 m c (Proc.devRef .tc main_arg5) = m ((c.tc : Thread nD τ).loc main_arg5) := rd_arg5_13 m c
theorem rarg6_at5 : U5 m c (Proc.devRef .tc main_arg6) = m ((c.tc : Thread nD τ).loc main_arg6) := rd_arg6_5 m c
theorem rarg6_at9 : U9 m c (Proc.devRef .tc main_arg6) = m ((c.tc : Thread nD τ).loc main_arg6) := rd_arg6_9 m c
theorem rarg6_at13 : U13 m c (Proc.devRef .tc main_arg6) = m ((c.tc : Thread nD τ).loc main_arg6) := rd_arg6_13 m c
theorem rarg7_at5 : U5 m c (Proc.devRef .tc main_arg7) = m ((c.tc : Thread nD τ).loc main_arg7) := rd_arg7_5 m c
theorem rarg7_at9 : U9 m c (Proc.devRef .tc main_arg7) = m ((c.tc : Thread nD τ).loc main_arg7) := rd_arg7_9 m c
theorem rarg7_at13 : U13 m c (Proc.devRef .tc main_arg7) = m ((c.tc : Thread nD τ).loc main_arg7) := rd_arg7_13 m c
theorem rarg8_at5 : U5 m c (Proc.devRef .tc main_arg8) = m ((c.tc : Thread nD τ).loc main_arg8) := rd_arg8_5 m c
theorem rarg8_at9 : U9 m c (Proc.devRef .tc main_arg8) = m ((c.tc : Thread nD τ).loc main_arg8) := rd_arg8_9 m c
theorem rarg8_at13 : U13 m c (Proc.devRef .tc main_arg8) = m ((c.tc : Thread nD τ).loc main_arg8) := rd_arg8_13 m c
theorem rarg9_at14 : U14 m c (Proc.devRef .tc main_arg9) = m ((c.tc : Thread nD τ).loc main_arg9) := rd_arg9_14 m c
theorem rarg10_at14 : U14 m c (Proc.devRef .tc main_arg10) = m ((c.tc : Thread nD τ).loc main_arg10) := rd_arg10_14 m c
theorem rarg11_at14 : U14 m c (Proc.devRef .tc main_arg11) = m ((c.tc : Thread nD τ).loc main_arg11) := rd_arg11_14 m c
theorem rarg12_at14 : U14 m c (Proc.devRef .tc main_arg12) = m ((c.tc : Thread nD τ).loc main_arg12) := rd_arg12_14 m c
theorem rarg2_at15 : U15 m c (Proc.devRef .tc main_arg2) = m ((c.tc : Thread nD τ).loc main_arg2) := rd_arg2_15 m c
theorem rarg13_at16 : U16 m c (Proc.devRef .tc main_arg13) = m ((c.tc : Thread nD τ).loc main_arg13) := rd_arg13_16 m c
theorem rarg14_at16 : U16 m c (Proc.devRef .tc main_arg14) = m ((c.tc : Thread nD τ).loc main_arg14) := rd_arg14_16 m c
theorem rarg15_at16 : U16 m c (Proc.devRef .tc main_arg15) = m ((c.tc : Thread nD τ).loc main_arg15) := rd_arg15_16 m c
theorem rarg16_at16 : U16 m c (Proc.devRef .tc main_arg16) = m ((c.tc : Thread nD τ).loc main_arg16) := rd_arg16_16 m c

end Cert.ReferenceIdeal.Keep

end
-- ==== Proof.RChain.lean ====
/-
  The reference program's two results as the network's stage functions of its launch arguments.

  Each stretch of the line is read off its operations at the cut before it: the stage it computes is, by unfolding, the
  stage function of the previous stage and of the arguments, since the stage functions are these operations.
-/
import proofs.«104500_j56891136803554_2_alg».proof.Proof.RRun
import proofs.«104500_j56891136803554_2_alg».proof.Proof.RKeep
import proofs.«104500_j56891136803554_2_alg».proof.Proof.Stages

set_option maxRecDepth 16384

noncomputable section

namespace Cert.ReferenceIdeal.Chain

open Idealize.ShloMosaic Idealize.ShloMosaic.TcCoe Idealize.SL.Sem Idealize.ShloMosaic.StableHlo
open Cert.ReferenceIdeal Cert.ReferenceIdeal.Gen Cert.ReferenceIdeal.Hand Cert.ReferenceIdeal.Keep

variable (m : (ℓ : Loc nD τ sig) → Buf (Elt Ideal) ℓ) (c : Dev nD)

/-! ## The edge data -/

theorem u1_v3 : U1 m c (Proc.devRef .tc main_v3) = Gcn.src (m ((c.tc : Thread nD τ).loc main_arg1)) := by
  show StableHlo.after r0 (U0 m c) (Proc.devRef .tc main_v3) = _
  after_results_simp
  rfl

theorem u1_v6 : U1 m c (Proc.devRef .tc main_v6) = Gcn.dst (m ((c.tc : Thread nD τ).loc main_arg1)) := by
  show StableHlo.after r0 (U0 m c) (Proc.devRef .tc main_v6) = _
  after_results_simp
  rfl

theorem u1_v10 : U1 m c (Proc.devRef .tc main_v10) = Gcn.deg (m ((c.tc : Thread nD τ).loc main_arg1)) := by
  show StableHlo.after r0 (U0 m c) (Proc.devRef .tc main_v10) = _
  after_results_simp
  rfl

theorem u1_v12 : U1 m c (Proc.devRef .tc main_v12) = Gcn.degPos (m ((c.tc : Thread nD τ).loc main_arg1)) := by
  show StableHlo.after r0 (U0 m c) (Proc.devRef .tc main_v12) = _
  after_results_simp
  rfl

theorem u1_v13 : U1 m c (Proc.devRef .tc main_v13) = Gcn.degRs (m ((c.tc : Thread nD τ).loc main_arg1)) := by
  show StableHlo.after r0 (U0 m c) (Proc.devRef .tc main_v13) = _
  after_results_simp
  rfl

theorem u1_cst_2 : U1 m c (Proc.devRef .tc main_cst_2) = Gcn.zeroS := by
  show StableHlo.after r0 (U0 m c) (Proc.devRef .tc main_cst_2) = _
  after_results_simp
  rfl

set_option maxHeartbeats 4000000 in
theorem uA_v14 (V₀ : Valuation τ sig (Elt Ideal)) :
    StableHlo.after r1 V₀ (Proc.devRef .tc main_v14)
      = (select (V₀ (Proc.devRef .tc main_v12)) (V₀ (Proc.devRef .tc main_v13)) ((broadcastInDim S100000 ![] bcast_S_S100000) (id (V₀ (Proc.devRef .tc main_cst_2))))) := by
  after_results_simp
  rfl

set_option maxHeartbeats 4000000 in
/-- The inverse square-root degrees. -/
theorem u2_v14 : U2 m c (Proc.devRef .tc main_v14) = Gcn.dis (m ((c.tc : Thread nD τ).loc main_arg1)) := by
  have h12 := u1_v12 m c
  have h13 := u1_v13 m c
  have hz := u1_cst_2 m c
  show StableHlo.after r1 (U1 m c) (Proc.devRef .tc main_v14) = _
  generalize U1 m c = V₀ at h12 h13 hz ⊢
  refine (uA_v14 V₀).trans ?_
  rw [h12, h13, hz]
  rfl

/-! ## Layer 1 -/

set_option maxHeartbeats 4000000 in
theorem u3_v18 : U3 m c (Proc.devRef .tc main_v18) = Gcn.rb1 (m ((c.tc : Thread nD τ).loc main_arg4)) := by
  have h4 := rarg4_at2 m c
  show StableHlo.after r2 (U2 m c) (Proc.devRef .tc main_v18) = _
  generalize U2 m c = V₀ at h4 ⊢
  after_results_simp
  rw [h4]
  rfl

set_option maxHeartbeats 4000000 in
theorem u3_v19 : U3 m c (Proc.devRef .tc main_v19) = Gcn.wT0 (m ((c.tc : Thread nD τ).loc main_arg3)) := by
  have h3 := rarg3_at2 m c
  show StableHlo.after r2 (U2 m c) (Proc.devRef .tc main_v19) = _
  generalize U2 m c = V₀ at h3 ⊢
  after_results_simp
  rw [h3]
  rfl

set_option maxHeartbeats 4000000 in
/-- The dense map. -/
theorem u3_v20 : U3 m c (Proc.devRef .tc main_v20) = Gcn.dotl (m ((c.tc : Thread nD τ).loc main_arg0)) (Gcn.wT0 (m ((c.tc : Thread nD τ).loc main_arg3))) := by
  have hin := rarg0_at2 m c
  have h3 := rarg3_at2 m c
  show StableHlo.after r2 (U2 m c) (Proc.devRef .tc main_v20) = _
  generalize U2 m c = V₀ at hin h3 ⊢
  after_results_simp
  rw [hin, h3]
  rfl

set_option maxHeartbeats 4000000 in
/-- The edge norm, recomputed by the reference in every layer from the same edge data. -/
theorem u4_v35 : U4 m c (Proc.devRef .tc main_v35) = Gcn.norm (m ((c.tc : Thread nD τ).loc main_arg1)) := by
  have h14 := ((rd_v14_3 m c).trans (u2_v14 m c))
  have h3 := ((rd_v3_3 m c).trans (u1_v3 m c))
  have h6 := ((rd_v6_3 m c).trans (u1_v6 m c))
  show StableHlo.after r3 (U3 m c) (Proc.devRef .tc main_v35) = _
  generalize U3 m c = V₀ at h14 h3 h6 ⊢
  after_results_simp
  rw [h14, h3, h6]
  rfl

set_option maxHeartbeats 4000000 in
/-- The message passing. -/
theorem u5_v48 : U5 m c (Proc.devRef .tc main_v48) = Gcn.mp (Gcn.dotl (m ((c.tc : Thread nD τ).loc main_arg0)) (Gcn.wT0 (m ((c.tc : Thread nD τ).loc main_arg3)))) (m ((c.tc : Thread nD τ).loc main_arg1)) := by
  have hl := ((rd_v20_4 m c).trans (u3_v20 m c))
  have h3 := ((rd_v3_4 m c).trans (u1_v3 m c))
  have h6 := ((rd_v6_4 m c).trans (u1_v6 m c))
  have hn := u4_v35 m c
  show StableHlo.after r4 (U4 m c) (Proc.devRef .tc main_v48) = _
  generalize U4 m c = V₀ at hl h3 h6 hn ⊢
  after_results_simp
  rw [hl, h3, h6, hn]
  rfl

set_option maxHeartbeats 4000000 in
theorem uA_v75 (V₀ : Valuation τ sig (Elt Ideal)) :
    StableHlo.after r5 V₀ (Proc.devRef .tc main_v75)
      = (maximumf (addf (mulf (mulf (subf (addf (V₀ (Proc.devRef .tc main_v48)) (broadcastInDim S100000x128 ![0, 1] bcast_S1x128_S100000x128_0_1 (broadcastInDim S1x128 ![1] bcast_S128_S1x128_1 (V₀ (Proc.devRef .tc main_v18))))) (broadcastInDim S100000x128 ![0, 1] bcast_S1x128_S100000x128_0_1 (broadcastInDim S1x128 ![1] bcast_S128_S1x128_1 (shapeCast S128 (extractStridedSlice S1x128 ![0, 0] (V₀ (Proc.devRef .tc main_arg7)) slices_S3x128_S1x128_0_0) shapeCasts_S1x128_S128)))) (broadcastInDim S100000x128 ![0, 1] bcast_S1x128_S100000x128_0_1 (broadcastInDim S1x128 ![1] bcast_S128_S1x128_1 (Host.rsqrt (addf (shapeCast S128 (extractStridedSlice S1x128 ![0, 0] (V₀ (Proc.devRef .tc main_arg8)) slices_S3x128_S1x128_0_0) shapeCasts_S1x128_S128) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 (shapeCast S128 (extractStridedSlice S1x128 ![0, 0] (V₀ (Proc.devRef .tc main_arg5)) slices_S3x128_S1x128_0_0) shapeCasts_S1x128_S128)))) (broadcastInDim S100000x128 ![0, 1] bcast_S1x128_S100000x128_0_1 (broadcastInDim S1x128 ![1] bcast_S128_S1x128_1 (shapeCast S128 (extractStridedSlice S1x128 ![0, 0] (V₀ (Proc.devRef .tc main_arg6)) slices_S3x128_S1x128_0_0) shapeCasts_S1x128_S128)))) ((broadcastInDim S100000x128 ![] bcast_S_S100000x128) (constant (F := Ideal) S_ .f32 0x00000000#32))) := by
  after_results_simp
  rfl

set_option maxHeartbeats 4000000 in
/-- Bias, normalisation and rectifier. -/
theorem u6_v75 : U6 m c (Proc.devRef .tc main_v75) = Gcn.h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have ha := u5_v48 m c
  have hb := ((rd_v18_5 m c).trans (u3_v18 m c))
  have h7 := rarg7_at5 m c
  have h8 := rarg8_at5 m c
  have h5 := rarg5_at5 m c
  have h6 := rarg6_at5 m c
  show StableHlo.after r5 (U5 m c) (Proc.devRef .tc main_v75) = _
  generalize U5 m c = V₀ at ha hb h7 h8 h5 h6 ⊢
  refine (uA_v75 V₀).trans ?_
  rw [ha, hb, h7, h8, h5, h6]
  rfl

/-! ## Layer 2 -/

set_option maxHeartbeats 4000000 in
theorem u7_v79 : U7 m c (Proc.devRef .tc main_v79) = Gcn.rb2 (m ((c.tc : Thread nD τ).loc main_arg4)) := by
  have h4 := rarg4_at6 m c
  show StableHlo.after r6 (U6 m c) (Proc.devRef .tc main_v79) = _
  generalize U6 m c = V₀ at h4 ⊢
  after_results_simp
  rw [h4]
  rfl

set_option maxHeartbeats 4000000 in
theorem u7_v80 : U7 m c (Proc.devRef .tc main_v80) = Gcn.wT1 (m ((c.tc : Thread nD τ).loc main_arg3)) := by
  have h3 := rarg3_at6 m c
  show StableHlo.after r6 (U6 m c) (Proc.devRef .tc main_v80) = _
  generalize U6 m c = V₀ at h3 ⊢
  after_results_simp
  rw [h3]
  rfl

set_option maxHeartbeats 4000000 in
/-- The dense map. -/
theorem u7_v81 : U7 m c (Proc.devRef .tc main_v81) = Gcn.dotl (Gcn.h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Gcn.wT1 (m ((c.tc : Thread nD τ).loc main_arg3))) := by
  have hin := u6_v75 m c
  have h3 := rarg3_at6 m c
  show StableHlo.after r6 (U6 m c) (Proc.devRef .tc main_v81) = _
  generalize U6 m c = V₀ at hin h3 ⊢
  after_results_simp
  rw [hin, h3]
  rfl

set_option maxHeartbeats 4000000 in
/-- The edge norm, recomputed by the reference in every layer from the same edge data. -/
theorem u8_v96 : U8 m c (Proc.devRef .tc main_v96) = Gcn.norm (m ((c.tc : Thread nD τ).loc main_arg1)) := by
  have h14 := ((rd_v14_7 m c).trans (u2_v14 m c))
  have h3 := ((rd_v3_7 m c).trans (u1_v3 m c))
  have h6 := ((rd_v6_7 m c).trans (u1_v6 m c))
  show StableHlo.after r7 (U7 m c) (Proc.devRef .tc main_v96) = _
  generalize U7 m c = V₀ at h14 h3 h6 ⊢
  after_results_simp
  rw [h14, h3, h6]
  rfl

set_option maxHeartbeats 4000000 in
/-- The message passing. -/
theorem u9_v109 : U9 m c (Proc.devRef .tc main_v109) = Gcn.mp (Gcn.dotl (Gcn.h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Gcn.wT1 (m ((c.tc : Thread nD τ).loc main_arg3)))) (m ((c.tc : Thread nD τ).loc main_arg1)) := by
  have hl := ((rd_v81_8 m c).trans (u7_v81 m c))
  have h3 := ((rd_v3_8 m c).trans (u1_v3 m c))
  have h6 := ((rd_v6_8 m c).trans (u1_v6 m c))
  have hn := u8_v96 m c
  show StableHlo.after r8 (U8 m c) (Proc.devRef .tc main_v109) = _
  generalize U8 m c = V₀ at hl h3 h6 hn ⊢
  after_results_simp
  rw [hl, h3, h6, hn]
  rfl

set_option maxHeartbeats 4000000 in
theorem uA_v136 (V₀ : Valuation τ sig (Elt Ideal)) :
    StableHlo.after r9 V₀ (Proc.devRef .tc main_v136)
      = (maximumf (addf (mulf (mulf (subf (addf (V₀ (Proc.devRef .tc main_v109)) (broadcastInDim S100000x128 ![0, 1] bcast_S1x128_S100000x128_0_1 (broadcastInDim S1x128 ![1] bcast_S128_S1x128_1 (V₀ (Proc.devRef .tc main_v79))))) (broadcastInDim S100000x128 ![0, 1] bcast_S1x128_S100000x128_0_1 (broadcastInDim S1x128 ![1] bcast_S128_S1x128_1 (shapeCast S128 (extractStridedSlice S1x128 ![1, 0] (V₀ (Proc.devRef .tc main_arg7)) slices_S3x128_S1x128_1_0) shapeCasts_S1x128_S128)))) (broadcastInDim S100000x128 ![0, 1] bcast_S1x128_S100000x128_0_1 (broadcastInDim S1x128 ![1] bcast_S128_S1x128_1 (Host.rsqrt (addf (shapeCast S128 (extractStridedSlice S1x128 ![1, 0] (V₀ (Proc.devRef .tc main_arg8)) slices_S3x128_S1x128_1_0) shapeCasts_S1x128_S128) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 (shapeCast S128 (extractStridedSlice S1x128 ![1, 0] (V₀ (Proc.devRef .tc main_arg5)) slices_S3x128_S1x128_1_0) shapeCasts_S1x128_S128)))) (broadcastInDim S100000x128 ![0, 1] bcast_S1x128_S100000x128_0_1 (broadcastInDim S1x128 ![1] bcast_S128_S1x128_1 (shapeCast S128 (extractStridedSlice S1x128 ![1, 0] (V₀ (Proc.devRef .tc main_arg6)) slices_S3x128_S1x128_1_0) shapeCasts_S1x128_S128)))) ((broadcastInDim S100000x128 ![] bcast_S_S100000x128) (constant (F := Ideal) S_ .f32 0x00000000#32))) := by
  after_results_simp
  rfl

set_option maxHeartbeats 4000000 in
/-- Bias, normalisation and rectifier. -/
theorem u10_v136 : U10 m c (Proc.devRef .tc main_v136) = Gcn.h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have ha := u9_v109 m c
  have hb := ((rd_v79_9 m c).trans (u7_v79 m c))
  have h7 := rarg7_at9 m c
  have h8 := rarg8_at9 m c
  have h5 := rarg5_at9 m c
  have h6 := rarg6_at9 m c
  show StableHlo.after r9 (U9 m c) (Proc.devRef .tc main_v136) = _
  generalize U9 m c = V₀ at ha hb h7 h8 h5 h6 ⊢
  refine (uA_v136 V₀).trans ?_
  rw [ha, hb, h7, h8, h5, h6]
  rfl

/-! ## Layer 3 -/

set_option maxHeartbeats 4000000 in
theorem u11_v140 : U11 m c (Proc.devRef .tc main_v140) = Gcn.rb3 (m ((c.tc : Thread nD τ).loc main_arg4)) := by
  have h4 := rarg4_at10 m c
  show StableHlo.after r10 (U10 m c) (Proc.devRef .tc main_v140) = _
  generalize U10 m c = V₀ at h4 ⊢
  after_results_simp
  rw [h4]
  rfl

set_option maxHeartbeats 4000000 in
theorem u11_v141 : U11 m c (Proc.devRef .tc main_v141) = Gcn.wT2 (m ((c.tc : Thread nD τ).loc main_arg3)) := by
  have h3 := rarg3_at10 m c
  show StableHlo.after r10 (U10 m c) (Proc.devRef .tc main_v141) = _
  generalize U10 m c = V₀ at h3 ⊢
  after_results_simp
  rw [h3]
  rfl

set_option maxHeartbeats 4000000 in
/-- The dense map. -/
theorem u11_v142 : U11 m c (Proc.devRef .tc main_v142) = Gcn.dotl (Gcn.h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Gcn.wT2 (m ((c.tc : Thread nD τ).loc main_arg3))) := by
  have hin := u10_v136 m c
  have h3 := rarg3_at10 m c
  show StableHlo.after r10 (U10 m c) (Proc.devRef .tc main_v142) = _
  generalize U10 m c = V₀ at hin h3 ⊢
  after_results_simp
  rw [hin, h3]
  rfl

set_option maxHeartbeats 4000000 in
/-- The edge norm, recomputed by the reference in every layer from the same edge data. -/
theorem u12_v157 : U12 m c (Proc.devRef .tc main_v157) = Gcn.norm (m ((c.tc : Thread nD τ).loc main_arg1)) := by
  have h14 := ((rd_v14_11 m c).trans (u2_v14 m c))
  have h3 := ((rd_v3_11 m c).trans (u1_v3 m c))
  have h6 := ((rd_v6_11 m c).trans (u1_v6 m c))
  show StableHlo.after r11 (U11 m c) (Proc.devRef .tc main_v157) = _
  generalize U11 m c = V₀ at h14 h3 h6 ⊢
  after_results_simp
  rw [h14, h3, h6]
  rfl

set_option maxHeartbeats 4000000 in
/-- The message passing. -/
theorem u13_v170 : U13 m c (Proc.devRef .tc main_v170) = Gcn.mp (Gcn.dotl (Gcn.h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Gcn.wT2 (m ((c.tc : Thread nD τ).loc main_arg3)))) (m ((c.tc : Thread nD τ).loc main_arg1)) := by
  have hl := ((rd_v142_12 m c).trans (u11_v142 m c))
  have h3 := ((rd_v3_12 m c).trans (u1_v3 m c))
  have h6 := ((rd_v6_12 m c).trans (u1_v6 m c))
  have hn := u12_v157 m c
  show StableHlo.after r12 (U12 m c) (Proc.devRef .tc main_v170) = _
  generalize U12 m c = V₀ at hl h3 h6 hn ⊢
  after_results_simp
  rw [hl, h3, h6, hn]
  rfl

set_option maxHeartbeats 4000000 in
theorem uA_v197 (V₀ : Valuation τ sig (Elt Ideal)) :
    StableHlo.after r13 V₀ (Proc.devRef .tc main_v197)
      = (maximumf (addf (mulf (mulf (subf (addf (V₀ (Proc.devRef .tc main_v170)) (broadcastInDim S100000x128 ![0, 1] bcast_S1x128_S100000x128_0_1 (broadcastInDim S1x128 ![1] bcast_S128_S1x128_1 (V₀ (Proc.devRef .tc main_v140))))) (broadcastInDim S100000x128 ![0, 1] bcast_S1x128_S100000x128_0_1 (broadcastInDim S1x128 ![1] bcast_S128_S1x128_1 (shapeCast S128 (extractStridedSlice S1x128 ![2, 0] (V₀ (Proc.devRef .tc main_arg7)) slices_S3x128_S1x128_2_0) shapeCasts_S1x128_S128)))) (broadcastInDim S100000x128 ![0, 1] bcast_S1x128_S100000x128_0_1 (broadcastInDim S1x128 ![1] bcast_S128_S1x128_1 (Host.rsqrt (addf (shapeCast S128 (extractStridedSlice S1x128 ![2, 0] (V₀ (Proc.devRef .tc main_arg8)) slices_S3x128_S1x128_2_0) shapeCasts_S1x128_S128) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 (shapeCast S128 (extractStridedSlice S1x128 ![2, 0] (V₀ (Proc.devRef .tc main_arg5)) slices_S3x128_S1x128_2_0) shapeCasts_S1x128_S128)))) (broadcastInDim S100000x128 ![0, 1] bcast_S1x128_S100000x128_0_1 (broadcastInDim S1x128 ![1] bcast_S128_S1x128_1 (shapeCast S128 (extractStridedSlice S1x128 ![2, 0] (V₀ (Proc.devRef .tc main_arg6)) slices_S3x128_S1x128_2_0) shapeCasts_S1x128_S128)))) ((broadcastInDim S100000x128 ![] bcast_S_S100000x128) (constant (F := Ideal) S_ .f32 0x00000000#32))) := by
  after_results_simp
  rfl

set_option maxHeartbeats 4000000 in
/-- Bias, normalisation and rectifier. -/
theorem u14_v197 : U14 m c (Proc.devRef .tc main_v197) = Gcn.h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have ha := u13_v170 m c
  have hb := ((rd_v140_13 m c).trans (u11_v140 m c))
  have h7 := rarg7_at13 m c
  have h8 := rarg8_at13 m c
  have h5 := rarg5_at13 m c
  have h6 := rarg6_at13 m c
  show StableHlo.after r13 (U13 m c) (Proc.devRef .tc main_v197) = _
  generalize U13 m c = V₀ at ha hb h7 h8 h5 h6 ⊢
  refine (uA_v197 V₀).trans ?_
  rw [ha, hb, h7, h8, h5, h6]
  rfl

/-! ## The heads -/

set_option maxHeartbeats 4000000 in
theorem uA_v208 (V₀ : Valuation τ sig (Elt Ideal)) :
    StableHlo.after r14 V₀ (Proc.devRef .tc main_v208)
      = (addf (((fun l r => Host.dotGeneral dot_S100000x64_S64x2_S100000x2_1_0_0_1_n_n none l r) : (FVec Ideal S100000x64 .f32) → (FVec Ideal S64x2 .f32) → (FVec Ideal S100000x2 .f32)) (maximumf (addf (((fun l r => Host.dotGeneral dot_S100000x128_S128x64_S100000x64_1_0_0_1_n_n none l r) : (FVec Ideal S100000x128 .f32) → (FVec Ideal S128x64 .f32) → (FVec Ideal S100000x64 .f32)) (V₀ (Proc.devRef .tc main_v197)) (transpose S128x64 [1, 0] (V₀ (Proc.devRef .tc main_arg9)) transposes_S64x128_S128x64_1_0)) (broadcastInDim S100000x64 ![0, 1] bcast_S1x64_S100000x64_0_1 (broadcastInDim S1x64 ![1] bcast_S64_S1x64_1 (V₀ (Proc.devRef .tc main_arg10))))) ((broadcastInDim S100000x64 ![] bcast_S_S100000x64) (constant (F := Ideal) S_ .f32 0x00000000#32))) (transpose S64x2 [1, 0] (V₀ (Proc.devRef .tc main_arg11)) transposes_S2x64_S64x2_1_0)) (broadcastInDim S100000x2 ![0, 1] bcast_S1x2_S100000x2_0_1 (broadcastInDim S1x2 ![1] bcast_S2_S1x2_1 (V₀ (Proc.devRef .tc main_arg12))))) := by
  after_results_simp
  rfl

set_option maxHeartbeats 4000000 in
/-- The first result at the cut after the node head. -/
theorem u15_v208 : U15 m c (Proc.devRef .tc main_v208) = Gcn.out0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have hh := u14_v197 m c
  have h9 := rarg9_at14 m c
  have h10 := rarg10_at14 m c
  have h11 := rarg11_at14 m c
  have h12 := rarg12_at14 m c
  show StableHlo.after r14 (U14 m c) (Proc.devRef .tc main_v208) = _
  generalize U14 m c = V₀ at hh h9 h10 h11 h12 ⊢
  refine (uA_v208 V₀).trans ?_
  rw [hh, h9, h10, h11, h12]
  rfl

set_option maxHeartbeats 4000000 in
/-- The pooled embedding. -/
theorem u16_v220 : U16 m c (Proc.devRef .tc main_v220) = Gcn.pool (Gcn.h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2)) := by
  have hh := ((rd_v197_15 m c).trans (u14_v197 m c))
  have h2 := rarg2_at15 m c
  show StableHlo.after r15 (U15 m c) (Proc.devRef .tc main_v220) = _
  generalize U15 m c = V₀ at hh h2 ⊢
  after_results_simp
  rw [hh, h2]
  rfl

set_option maxHeartbeats 4000000 in
theorem uA_v231 (V₀ : Valuation τ sig (Elt Ideal)) :
    StableHlo.after r16 V₀ (Proc.devRef .tc main_v231)
      = (addf (((fun l r => Host.dotGeneral dot_S64x64_S64x2_S64x2_1_0_0_1_n_n none l r) : (FVec Ideal S64x64 .f32) → (FVec Ideal S64x2 .f32) → (FVec Ideal S64x2 .f32)) (maximumf (addf (((fun l r => Host.dotGeneral dot_S64x128_S128x64_S64x64_1_0_0_1_n_n none l r) : (FVec Ideal S64x128 .f32) → (FVec Ideal S128x64 .f32) → (FVec Ideal S64x64 .f32)) (V₀ (Proc.devRef .tc main_v220)) (transpose S128x64 [1, 0] (V₀ (Proc.devRef .tc main_arg13)) transposes_S64x128_S128x64_1_0)) (broadcastInDim S64x64 ![0, 1] bcast_S1x64_S64x64_0_1 (broadcastInDim S1x64 ![1] bcast_S64_S1x64_1 (V₀ (Proc.devRef .tc main_arg14))))) ((broadcastInDim S64x64 ![] bcast_S_S64x64) (constant (F := Ideal) S_ .f32 0x00000000#32))) (transpose S64x2 [1, 0] (V₀ (Proc.devRef .tc main_arg15)) transposes_S2x64_S64x2_1_0)) (broadcastInDim S64x2 ![0, 1] bcast_S1x2_S64x2_0_1 (broadcastInDim S1x2 ![1] bcast_S2_S1x2_1 (V₀ (Proc.devRef .tc main_arg16))))) := by
  after_results_simp
  rfl

set_option maxHeartbeats 4000000 in
/-- The second result. -/
theorem res1 : U17 m c (Proc.devRef .tc main_v231) = Gcn.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)) := by
  have hp := u16_v220 m c
  have h13 := rarg13_at16 m c
  have h14 := rarg14_at16 m c
  have h15 := rarg15_at16 m c
  have h16 := rarg16_at16 m c
  show StableHlo.after r16 (U16 m c) (Proc.devRef .tc main_v231) = _
  generalize U16 m c = V₀ at hp h13 h14 h15 h16 ⊢
  refine (uA_v231 V₀).trans ?_
  rw [hp, h13, h14, h15, h16]
  rfl

/-- The first result, untouched by the pooling and the graph head. -/
theorem res0 : U17 m c (Proc.devRef .tc main_v208) = Gcn.out0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := (rd_v208_17 m c).trans (u15_v208 m c)

end Cert.ReferenceIdeal.Chain

end
-- ==== Proof.lean ====
/-
  A three-layer graph convolution network with a node head and a pooled graph head: the tiled kernel program against
  the plain reference, at the instance where a float is an extended real and every operation exact.

  Both programs compute, from the same arguments, the same composition of maps.  The edge endpoints (with one self loop
  per node), the node degrees, the edge norm, the gather / scale / scatter-add of each layer and the per-graph pooling
  are the same host operations in both, so those stages agree by unfolding.  Where the kernel program runs a tiled
  region the reference runs host operations: a dense layer `h · Wᵀ` (row tiles of a sum over the contracted axis are
  the whole sum), the bias / batch normalisation / rectifier (pointwise, the parameter rows broadcast over the rows),
  and the two-layer heads.  Each region's output array and the reference's corresponding stage are ONE specification
  function of the previous stage (Proof/Spec.lean, Proof/Stages.lean), so the two results are equal, entry by entry, for every input: no
  finiteness is needed, since only commutativity and associativity of finite sums of extended reals are used.

  The three frames: the two kernel programs' runs terminate without a fault with the arguments unchanged (the generated
  launch proofs); the reference's frame is its run with the results dropped.  The idealisation rewrote nothing, so its
  statement is trivial.
-/
import proofs.«104500_j56891136803554_2_alg».proof.Defs
import proofs.«104500_j56891136803554_2_alg».proof.Proof.Gen.Kernel
import proofs.«104500_j56891136803554_2_alg».proof.Proof.Gen.Kernel.Skeleton
import proofs.«104500_j56891136803554_2_alg».proof.Proof.Gen.Kernel.Launch
import proofs.«104500_j56891136803554_2_alg».proof.Proof.Gen.Kernel.Points
import proofs.«104500_j56891136803554_2_alg».proof.Proof.Gen.Kernel.Frame
import proofs.«104500_j56891136803554_2_alg».proof.Proof.Gen.KernelIdeal
import proofs.«104500_j56891136803554_2_alg».proof.Proof.Gen.KernelIdeal.Skeleton
import proofs.«104500_j56891136803554_2_alg».proof.Proof.Gen.KernelIdeal.Launch
import proofs.«104500_j56891136803554_2_alg».proof.Proof.Gen.KernelIdeal.Points
import proofs.«104500_j56891136803554_2_alg».proof.Proof.Gen.KernelIdeal.Frame
import proofs.«104500_j56891136803554_2_alg».proof.Proof.Gen.ReferenceIdeal
import proofs.«104500_j56891136803554_2_alg».proof.Proof.Gen.Pre_finite_inputs
import proofs.«104500_j56891136803554_2_alg».proof.Proof.KRun
import proofs.«104500_j56891136803554_2_alg».proof.Proof.KChain
import proofs.«104500_j56891136803554_2_alg».proof.Proof.RRun
import proofs.«104500_j56891136803554_2_alg».proof.Proof.RChain
import Idealize.ShloMosaic.Adequacy
import Idealize.ShloMosaic.Init

noncomputable section

namespace Cert.Proof

open Idealize.ShloMosaic Idealize.ShloMosaic.TcCoe Idealize.SL.Sem

/-- The word-level kernel program terminates without a fault, its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Hand.run_fold (F := Ideal) m ρ)

/-- From memories agreeing on the arguments both programs end with the same two arrays: the kernel program's results
    are the network's stage functions of ITS arguments (the chain of boundary contents), the reference's results are
    those functions of its own, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W18 m ρ c (Proc.devRef .tc Cert.KernelIdeal.main_v133),
    fun c => Cert.KernelIdeal.Gen.W18 m ρ c (Proc.devRef .tc Cert.KernelIdeal.main_v150),
    Cert.KernelIdeal.Named.run_named (F := Ideal) m ρ, ?_⟩
  refine (θ_run Cert.ReferenceIdeal.defs _ _).mono (fun r h c => ?_) (Cert.ReferenceIdeal.Hand.run_fold (F := Ideal) m' ρ')
  obtain ⟨h0, h1, hargs⟩ := h c
  obtain ⟨e0, e1, e2, e3, e4, e5, e6, e7, e8, e9, e10, e11, e12, e13, e14, e15, e16⟩ := hagree c
  refine ⟨h0.trans ((Cert.ReferenceIdeal.Chain.res0 m' c).trans ?_),
    h1.trans ((Cert.ReferenceIdeal.Chain.res1 m' c).trans ?_), hargs⟩
  · rw [e0, e1, e3, e4, e5, e6, e7, e8, e9, e10, e11, e12]
    exact (Cert.KernelIdeal.Chain.res0 m ρ c).symm
  · rw [e0, e1, e2, e3, e4, e5, e6, e7, e8, e13, e14, e15, e16]
    exact (Cert.KernelIdeal.Chain.res1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
